-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v123) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1200000 : Shape := ⟨1, ![1200000]⟩
abbrev S64x256 : Shape := ⟨2, ![64, 256]⟩
abbrev S64 : Shape := ⟨1, ![64]⟩
abbrev S64x64 : Shape := ⟨2, ![64, 64]⟩
abbrev S64x128 : Shape := ⟨2, ![64, 128]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x256 : S_.BroadcastsInDim S64x256 (![] : Fin 0 → Fin S64x256.rank)
  reducesTo_S64x256_S_d0_1 : S64x256.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x128 : S_.BroadcastsInDim S64x128 (![] : Fin 0 → Fin S64x128.rank)
  reducesTo_S64x128_S_d0_1 : S64x128.ReducesTo [0, 1] S_

variable [Facts]

def fn_part4 {F : FTy → Type} [FloatOps F] (main_arg17 : FVec F S64 .f32) (main_arg18 : FVec F S64x128 .f32) (main_arg19 : FVec F S64 .f32) (main_v63 : IVec S_ 1) (main_v67 : IVec S_ 1) : IVec S_ 1 :=
  let main_v68 : IVec S_ 1 := andi main_v63 main_v67
  let main_v69 : FVec F S64 .f32 := Host.absf main_arg17
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64x128 .f32 := Host.absf main_arg18
  let main_cst_28 : FVec F S_ .f32 := constant S_ .f32 0x7F800000#32
  let main_v75 : FVec F S64x128 .f32 := broadcastInDim S64x128 ![] bcast_S_S64x128 main_cst_28
  let main_v76 : IVec S64x128 1 := cmpf .olt main_v74 main_v75
  let main_c_29 : IVec S_ 1 := constantI S_ 1 1#1
  let main_v77 : IVec S_ 1 := (fun x v => Host.reduce IntOp.andi x v reducesTo_S64x128_S_d0_1 h_S_) main_v76 main_c_29
  let main_v78 : IVec S_ 1 := andi main_v73 main_v77
  let main_v79 : FVec F S64 .f32 := Host.absf main_arg19
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  main_v83

def fn_part3 {F : FTy → Type} [FloatOps F] (main_arg14 : FVec F S64x64 .f32) (main_arg15 : FVec F S64 .f32) (main_arg16 : FVec F S64x128 .f32) (main_arg17 : FVec F S64 .f32) (main_arg18 : FVec F S64x128 .f32) (main_arg19 : FVec F S64 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x64 .f32 := Host.absf main_arg14
  let main_cst_20 : FVec F S_ .f32 := constant S_ .f32 0x7F800000#32
  let main_v55 : FVec F S64x64 .f32 := broadcastInDim S64x64 ![] bcast_S_S64x64 main_cst_20
  let main_v56 : IVec S64x64 1 := cmpf .olt main_v54 main_v55
  let main_c_21 : IVec S_ 1 := constantI S_ 1 1#1
  let main_v57 : IVec S_ 1 := (fun x v => Host.reduce IntOp.andi x v reducesTo_S64x64_S_d0_1 h_S_) main_v56 main_c_21
  let main_v58 : IVec S_ 1 := andi main_v53 main_v57
  let main_v59 : FVec F S64 .f32 := Host.absf main_arg15
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x128 .f32 := Host.absf main_arg16
  let main_cst_24 : FVec F S_ .f32 := constant S_ .f32 0x7F800000#32
  let main_v65 : FVec F S64x128 .f32 := broadcastInDim S64x128 ![] bcast_S_S64x128 main_cst_24
  let main_v66 : IVec S64x128 1 := cmpf .olt main_v64 main_v65
  let main_c_25 : IVec S_ 1 := constantI S_ 1 1#1
  let main_v67 : IVec S_ 1 := (fun x v => Host.reduce IntOp.andi x v reducesTo_S64x128_S_d0_1 h_S_) main_v66 main_c_25
  fn_part4 (F := F) main_arg17 main_arg18 main_arg19 main_v63 main_v67

def fn_part2 {F : FTy → Type} [FloatOps F] (main_arg10 : FVec F S64x128 .f32) (main_arg11 : FVec F S64 .f32) (main_arg12 : FVec F S64x256 .f32) (main_arg13 : FVec F S64 .f32) (main_arg14 : FVec F S64x64 .f32) (main_arg15 : FVec F S64 .f32) (main_arg16 : FVec F S64x128 .f32) (main_arg17 : FVec F S64 .f32) (main_arg18 : FVec F S64x128 .f32) (main_arg19 : FVec F S64 .f32) (main_v33 : IVec S_ 1) : IVec S_ 1 :=
  let main_v34 : FVec F S64x128 .f32 := Host.absf main_arg10
  let main_cst_12 : FVec F S_ .f32 := constant S_ .f32 0x7F800000#32
  let main_v35 : FVec F S64x128 .f32 := broadcastInDim S64x128 ![] bcast_S_S64x128 main_cst_12
  let main_v36 : IVec S64x128 1 := cmpf .olt main_v34 main_v35
  let main_c_13 : IVec S_ 1 := constantI S_ 1 1#1
  let main_v37 : IVec S_ 1 := (fun x v => Host.reduce IntOp.andi x v reducesTo_S64x128_S_d0_1 h_S_) main_v36 main_c_13
  let main_v38 : IVec S_ 1 := andi main_v33 main_v37
  let main_v39 : FVec F S64 .f32 := Host.absf main_arg11
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x256 .f32 := Host.absf main_arg12
  let main_cst_16 : FVec F S_ .f32 := constant S_ .f32 0x7F800000#32
  let main_v45 : FVec F S64x256 .f32 := broadcastInDim S64x256 ![] bcast_S_S64x256 main_cst_16
  let main_v46 : IVec S64x256 1 := cmpf .olt main_v44 main_v45
  let main_c_17 : IVec S_ 1 := constantI S_ 1 1#1
  let main_v47 : IVec S_ 1 := (fun x v => Host.reduce IntOp.andi x v reducesTo_S64x256_S_d0_1 h_S_) main_v46 main_c_17
  let main_v48 : IVec S_ 1 := andi main_v43 main_v47
  let main_v49 : FVec F S64 .f32 := Host.absf main_arg13
  let main_cst_18 : FVec F S_ .f32 := constant S_ .f32 0x7F800000#32
  let main_v50 : FVec F S64 .f32 := broadcastInDim S64 ![] bcast_S_S64 main_cst_18
  fn_part3 (F := F) main_arg14 main_arg15 main_arg16 main_arg17 main_arg18 main_arg19 main_v48 main_v49 main_v50

def fn_part1 {F : FTy → Type} [FloatOps F] (main_arg7 : FVec F S64 .f32) (main_arg8 : FVec F S64x128 .f32) (main_arg9 : FVec F S64 .f32) (main_arg10 : FVec F S64x128 .f32) (main_arg11 : FVec F S64 .f32) (main_arg12 : FVec F S64x256 .f32) (main_arg13 : FVec F S64 .f32) (main_arg14 : FVec F S64x64 .f32) (main_arg15 : FVec F S64 .f32) (main_arg16 : FVec F S64x128 .f32) (main_arg17 : FVec F S64 .f32) (main_arg18 : FVec F S64x128 .f32) (main_arg19 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg7
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x128 .f32 := Host.absf main_arg8
  let main_cst_8 : FVec F S_ .f32 := constant S_ .f32 0x7F800000#32
  let main_v25 : FVec F S64x128 .f32 := broadcastInDim S64x128 ![] bcast_S_S64x128 main_cst_8
  let main_v26 : IVec S64x128 1 := cmpf .olt main_v24 main_v25
  let main_c_9 : IVec S_ 1 := constantI S_ 1 1#1
  let main_v27 : IVec S_ 1 := (fun x v => Host.reduce IntOp.andi x v reducesTo_S64x128_S_d0_1 h_S_) main_v26 main_c_9
  let main_v28 : IVec S_ 1 := andi main_v23 main_v27
  let main_v29 : FVec F S64 .f32 := Host.absf main_arg9
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg10 main_arg11 main_arg12 main_arg13 main_arg14 main_arg15 main_arg16 main_arg17 main_arg18 main_arg19 main_v33

def fn {F : FTy → Type} [FloatOps F] (main_arg0 : FVec F S100000x64 .f32) (main_arg1 : IVec S1200000 32) (main_arg2 : IVec S1200000 32) (main_arg3 : IVec S1200000 32) (main_arg4 : FVec F S64x256 .f32) (main_arg5 : FVec F S64 .f32) (main_arg6 : FVec F S64x64 .f32) (main_arg7 : FVec F S64 .f32) (main_arg8 : FVec F S64x128 .f32) (main_arg9 : FVec F S64 .f32) (main_arg10 : FVec F S64x128 .f32) (main_arg11 : FVec F S64 .f32) (main_arg12 : FVec F S64x256 .f32) (main_arg13 : FVec F S64 .f32) (main_arg14 : FVec F S64x64 .f32) (main_arg15 : FVec F S64 .f32) (main_arg16 : FVec F S64x128 .f32) (main_arg17 : FVec F S64 .f32) (main_arg18 : FVec F S64x128 .f32) (main_arg19 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x256 .f32 := Host.absf main_arg4
  let main_cst_0 : FVec F S_ .f32 := constant S_ .f32 0x7F800000#32
  let main_v5 : FVec F S64x256 .f32 := broadcastInDim S64x256 ![] bcast_S_S64x256 main_cst_0
  let main_v6 : IVec S64x256 1 := cmpf .olt main_v4 main_v5
  let main_c_1 : IVec S_ 1 := constantI S_ 1 1#1
  let main_v7 : IVec S_ 1 := (fun x v => Host.reduce IntOp.andi x v reducesTo_S64x256_S_d0_1 h_S_) main_v6 main_c_1
  let main_v8 : IVec S_ 1 := andi main_v3 main_v7
  let main_v9 : FVec F S64 .f32 := Host.absf main_arg5
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg6
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg7 main_arg8 main_arg9 main_arg10 main_arg11 main_arg12 main_arg13 main_arg14 main_arg15 main_arg16 main_arg17 main_arg18 main_arg19 main_v13 main_v16
-- ==== Kernel.lean ====
abbrev S100000x64 : Shape := ⟨2, ![100000, 64]⟩
abbrev S1200000 : Shape := ⟨1, ![1200000]⟩
abbrev S64x256 : Shape := ⟨2, ![64, 256]⟩
abbrev S64 : Shape := ⟨1, ![64]⟩
abbrev S64x64 : Shape := ⟨2, ![64, 64]⟩
abbrev S64x128 : Shape := ⟨2, ![64, 128]⟩
abbrev S_ : Shape := ⟨0, ![]⟩
abbrev S1200000x1 : Shape := ⟨2, ![1200000, 1]⟩
abbrev S400000x1 : Shape := ⟨2, ![400000, 1]⟩
abbrev S100000x4 : Shape := ⟨2, ![100000, 4]⟩
abbrev S1200000x64 : Shape := ⟨2, ![1200000, 64]⟩
abbrev S400000x64 : Shape := ⟨2, ![400000, 64]⟩
abbrev S100000x256 : Shape := ⟨2, ![100000, 256]⟩
abbrev S256x64 : Shape := ⟨2, ![256, 64]⟩
abbrev S128x64 : Shape := ⟨2, ![128, 64]⟩
abbrev S1x64 : Shape := ⟨2, ![1, 64]⟩
abbrev S4000x256 : Shape := ⟨2, ![4000, 256]⟩
abbrev S4000x4 : Shape := ⟨2, ![4000, 4]⟩
abbrev S4000x64 : Shape := ⟨2, ![4000, 64]⟩
abbrev S4000x1 : Shape := ⟨2, ![4000, 1]⟩

abbrev nBuf : Space → Nat
  | .hbm => 107
  | .vmem => 42
  | .smem => 0
  | _ => 0

abbrev bufTy : (tb : Table) → Fin (tcTables nBuf tb) → BufTy
  | .hbm, ⟨0, _⟩ => ⟨S100000x64, .f32⟩
  | .hbm, ⟨1, _⟩ => ⟨S1200000, .i32⟩
  | .hbm, ⟨2, _⟩ => ⟨S1200000, .i32⟩
  | .hbm, ⟨3, _⟩ => ⟨S1200000, .i32⟩
  | .hbm, ⟨4, _⟩ => ⟨S64x256, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x128, .f32⟩
  | .hbm, ⟨9, _⟩ => ⟨S64, .f32⟩
  | .hbm, ⟨10, _⟩ => ⟨S64x128, .f32⟩
  | .hbm, ⟨11, _⟩ => ⟨S64, .f32⟩
  | .hbm, ⟨12, _⟩ => ⟨S64x256, .f32⟩
  | .hbm, ⟨13, _⟩ => ⟨S64, .f32⟩
  | .hbm, ⟨14, _⟩ => ⟨S64x64, .f32⟩
  | .hbm, ⟨15, _⟩ => ⟨S64, .f32⟩
  | .hbm, ⟨16, _⟩ => ⟨S64x128, .f32⟩
  | .hbm, ⟨17, _⟩ => ⟨S64, .f32⟩
  | .hbm, ⟨18, _⟩ => ⟨S64x128, .f32⟩
  | .hbm, ⟨19, _⟩ => ⟨S64, .f32⟩
  | .hbm, ⟨20, _⟩ => ⟨S_, .i32⟩
  | .hbm, ⟨21, _⟩ => ⟨S1200000, .i32⟩
  | .hbm, ⟨22, _⟩ => ⟨S1200000, .i32⟩
  | .hbm, ⟨23, _⟩ => ⟨S1200000, .i32⟩
  | .hbm, ⟨24, _⟩ => ⟨S_, .f32⟩
  | .hbm, ⟨25, _⟩ => ⟨S1200000x1, .f32⟩
  | .hbm, ⟨26, _⟩ => ⟨S_, .f32⟩
  | .hbm, ⟨27, _⟩ => ⟨S400000x1, .f32⟩
  | .hbm, ⟨28, _⟩ => ⟨S1200000x1, .i32⟩
  | .hbm, ⟨29, _⟩ => ⟨S400000x1, .f32⟩
  | .hbm, ⟨30, _⟩ => ⟨S_, .f32⟩
  | .hbm, ⟨31, _⟩ => ⟨S400000x1, .f32⟩
  | .hbm, ⟨32, _⟩ => ⟨S400000x1, .f32⟩
  | .hbm, ⟨33, _⟩ => ⟨S_, .f32⟩
  | .hbm, ⟨34, _⟩ => ⟨S400000x1, .f32⟩
  | .hbm, ⟨35, _⟩ => ⟨S400000x1, .f32⟩
  | .hbm, ⟨36, _⟩ => ⟨S100000x4, .f32⟩
  | .hbm, ⟨37, _⟩ => ⟨S100000x64, .bf16⟩
  | .hbm, ⟨38, _⟩ => ⟨S_, .i32⟩
  | .hbm, ⟨39, _⟩ => ⟨S1200000, .i32⟩
  | .hbm, ⟨40, _⟩ => ⟨S1200000, .i1⟩
  | .hbm, ⟨41, _⟩ => ⟨S_, .i32⟩
  | .hbm, ⟨42, _⟩ => ⟨S1200000, .i32⟩
  | .hbm, ⟨43, _⟩ => ⟨S1200000, .i32⟩
  | .hbm, ⟨44, _⟩ => ⟨S1200000, .i32⟩
  | .hbm, ⟨45, _⟩ => ⟨S1200000x1, .i32⟩
  | .hbm, ⟨46, _⟩ => ⟨S1200000x64, .bf16⟩
  | .hbm, ⟨47, _⟩ => ⟨S1200000x64, .f32⟩
  | .hbm, ⟨48, _⟩ => ⟨S_, .f32⟩
  | .hbm, ⟨49, _⟩ => ⟨S400000x64, .f32⟩
  | .hbm, ⟨50, _⟩ => ⟨S1200000x1, .i32⟩
  | .hbm, ⟨51, _⟩ => ⟨S400000x64, .f32⟩
  | .hbm, ⟨52, _⟩ => ⟨S100000x256, .f32⟩
  | .hbm, ⟨53, _⟩ => ⟨S256x64, .f32⟩
  | .hbm, ⟨54, _⟩ => ⟨S256x64, .bf16⟩
  | .hbm, ⟨55, _⟩ => ⟨S64x64, .f32⟩
  | .hbm, ⟨56, _⟩ => ⟨S64x64, .bf16⟩
  | .hbm, ⟨57, _⟩ => ⟨S128x64, .f32⟩
  | .hbm, ⟨58, _⟩ => ⟨S128x64, .f32⟩
  | .hbm, ⟨59, _⟩ => ⟨S64x64, .f32⟩
  | .hbm, ⟨60, _⟩ => ⟨S64x64, .bf16⟩
  | .hbm, ⟨61, _⟩ => ⟨S64x64, .f32⟩
  | .hbm, ⟨62, _⟩ => ⟨S64x64, .bf16⟩
  | .hbm, ⟨63, _⟩ => ⟨S64x64, .f32⟩
  | .hbm, ⟨64, _⟩ => ⟨S64x64, .bf16⟩
  | .hbm, ⟨65, _⟩ => ⟨S64x64, .f32⟩
  | .hbm, ⟨66, _⟩ => ⟨S64x64, .bf16⟩
  | .hbm, ⟨67, _⟩ => ⟨S1x64, .f32⟩
  | .hbm, ⟨68, _⟩ => ⟨S1x64, .f32⟩
  | .hbm, ⟨69, _⟩ => ⟨S1x64, .f32⟩
  | .hbm, ⟨70, _⟩ => ⟨S1x64, .f32⟩
  | .hbm, ⟨71, _⟩ => ⟨S100000x64, .bf16⟩
  | .hbm, ⟨72, _⟩ => ⟨S100000x64, .bf16⟩
  | .hbm, ⟨73, _⟩ => ⟨S_, .i32⟩
  | .hbm, ⟨74, _⟩ => ⟨S1200000, .i32⟩
  | .hbm, ⟨75, _⟩ => ⟨S1200000, .i1⟩
  | .hbm, ⟨76, _⟩ => ⟨S_, .i32⟩
  | .hbm, ⟨77, _⟩ => ⟨S1200000, .i32⟩
  | .hbm, ⟨78, _⟩ => ⟨S1200000, .i32⟩
  | .hbm, ⟨79, _⟩ => ⟨S1200000, .i32⟩
  | .hbm, ⟨80, _⟩ => ⟨S1200000x1, .i32⟩
  | .hbm, ⟨81, _⟩ => ⟨S1200000x64, .bf16⟩
  | .hbm, ⟨82, _⟩ => ⟨S1200000x64, .f32⟩
  | .hbm, ⟨83, _⟩ => ⟨S_, .f32⟩
  | .hbm, ⟨84, _⟩ => ⟨S400000x64, .f32⟩
  | .hbm, ⟨85, _⟩ => ⟨S1200000x1, .i32⟩
  | .hbm, ⟨86, _⟩ => ⟨S400000x64, .f32⟩
  | .hbm, ⟨87, _⟩ => ⟨S100000x256, .f32⟩
  | .hbm, ⟨88, _⟩ => ⟨S256x64, .f32⟩
  | .hbm, ⟨89, _⟩ => ⟨S256x64, .bf16⟩
  | .hbm, ⟨90, _⟩ => ⟨S64x64, .f32⟩
  | .hbm, ⟨91, _⟩ => ⟨S64x64, .bf16⟩
  | .hbm, ⟨92, _⟩ => ⟨S128x64, .f32⟩
  | .hbm, ⟨93, _⟩ => ⟨S128x64, .f32⟩
  | .hbm, ⟨94, _⟩ => ⟨S64x64, .f32⟩
  | .hbm, ⟨95, _⟩ => ⟨S64x64, .bf16⟩
  | .hbm, ⟨96, _⟩ => ⟨S64x64, .f32⟩
  | .hbm, ⟨97, _⟩ => ⟨S64x64, .bf16⟩
  | .hbm, ⟨98, _⟩ => ⟨S64x64, .f32⟩
  | .hbm, ⟨99, _⟩ => ⟨S64x64, .bf16⟩
  | .hbm, ⟨100, _⟩ => ⟨S64x64, .f32⟩
  | .hbm, ⟨101, _⟩ => ⟨S64x64, .bf16⟩
  | .hbm, ⟨102, _⟩ => ⟨S1x64, .f32⟩
  | .hbm, ⟨103, _⟩ => ⟨S1x64, .f32⟩
  | .hbm, ⟨104, _⟩ => ⟨S1x64, .f32⟩
  | .hbm, ⟨105, _⟩ => ⟨S1x64, .f32⟩
  | .hbm, ⟨106, _⟩ => ⟨S100000x64, .f32⟩
  | .local _ .vmem, ⟨0, _⟩ => ⟨S4000x256, .f32⟩
  | .local _ .vmem, ⟨1, _⟩ => ⟨S4000x256, .f32⟩
  | .local _ .vmem, ⟨2, _⟩ => ⟨S4000x4, .f32⟩
  | .local _ .vmem, ⟨3, _⟩ => ⟨S4000x4, .f32⟩
  | .local _ .vmem, ⟨4, _⟩ => ⟨S4000x64, .bf16⟩
  | .local _ .vmem, ⟨5, _⟩ => ⟨S4000x64, .bf16⟩
  | .local _ .vmem, ⟨6, _⟩ => ⟨S4000x64, .bf16⟩
  | .local _ .vmem, ⟨7, _⟩ => ⟨S4000x64, .bf16⟩
  | .local _ .vmem, ⟨8, _⟩ => ⟨S256x64, .bf16⟩
  | .local _ .vmem, ⟨9, _⟩ => ⟨S1x64, .f32⟩
  | .local _ .vmem, ⟨10, _⟩ => ⟨S64x64, .bf16⟩
  | .local _ .vmem, ⟨11, _⟩ => ⟨S1x64, .f32⟩
  | .local _ .vmem, ⟨12, _⟩ => ⟨S64x64, .bf16⟩
  | .local _ .vmem, ⟨13, _⟩ => ⟨S64x64, .bf16⟩
  | .local _ .vmem, ⟨14, _⟩ => ⟨S1x64, .f32⟩
  | .local _ .vmem, ⟨15, _⟩ => ⟨S64x64, .bf16⟩
  | .local _ .vmem, ⟨16, _⟩ => ⟨S64x64, .bf16⟩
  | .local _ .vmem, ⟨17, _⟩ => ⟨S1x64, .f32⟩
  | .local _ .vmem, ⟨18, _⟩ => ⟨S4000x64, .bf16⟩
  | .local _ .vmem, ⟨19, _⟩ => ⟨S4000x64, .bf16⟩
  | .local _ .vmem, ⟨20, _⟩ => ⟨S4000x64, .bf16⟩
  | .local _ .vmem, ⟨21, _⟩ => ⟨S4000x64, .bf16⟩
  | .local _ .vmem, ⟨22, _⟩ => ⟨S4000x256, .f32⟩
  | .local _ .vmem, ⟨23, _⟩ => ⟨S4000x256, .f32⟩
  | .local _ .vmem, ⟨24, _⟩ => ⟨S4000x4, .f32⟩
  | .local _ .vmem, ⟨25, _⟩ => ⟨S4000x4, .f32⟩
  | .local _ .vmem, ⟨26, _⟩ => ⟨S4000x64, .bf16⟩
  | .local _ .vmem, ⟨27, _⟩ => ⟨S4000x64, .bf16⟩
  | .local _ .vmem, ⟨28, _⟩ => ⟨S4000x64, .bf16⟩
  | .local _ .vmem, ⟨29, _⟩ => ⟨S4000x64, .bf16⟩
  | .local _ .vmem, ⟨30, _⟩ => ⟨S256x64, .bf16⟩
  | .local _ .vmem, ⟨31, _⟩ => ⟨S1x64, .f32⟩
  | .local _ .vmem, ⟨32, _⟩ => ⟨S64x64, .bf16⟩
  | .local _ .vmem, ⟨33, _⟩ => ⟨S1x64, .f32⟩
  | .local _ .vmem, ⟨34, _⟩ => ⟨S64x64, .bf16⟩
  | .local _ .vmem, ⟨35, _⟩ => ⟨S64x64, .bf16⟩
  | .local _ .vmem, ⟨36, _⟩ => ⟨S1x64, .f32⟩
  | .local _ .vmem, ⟨37, _⟩ => ⟨S64x64, .bf16⟩
  | .local _ .vmem, ⟨38, _⟩ => ⟨S64x64, .bf16⟩
  | .local _ .vmem, ⟨39, _⟩ => ⟨S1x64, .f32⟩
  | .local _ .vmem, ⟨40, _⟩ => ⟨S4000x64, .f32⟩
  | .local _ .vmem, ⟨41, _⟩ => ⟨S4000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_c : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_cst : Ref sig .tc := ⟨.hbm, 24, rfl⟩
abbrev main_v3 : Ref sig .tc := ⟨.hbm, 25, rfl⟩
abbrev main_cst_0 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_cst_1 : Ref sig .tc := ⟨.hbm, 30, rfl⟩
abbrev main_v7 : Ref sig .tc := ⟨.hbm, 31, rfl⟩
abbrev main_v8 : Ref sig .tc := ⟨.hbm, 32, rfl⟩
abbrev main_cst_2 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_c_3 : Ref sig .tc := ⟨.hbm, 38, rfl⟩
abbrev main_v13 : Ref sig .tc := ⟨.hbm, 39, rfl⟩
abbrev main_v14 : Ref sig .tc := ⟨.hbm, 40, rfl⟩
abbrev main_c_4 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_cst_5 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43_0 : Ref sig .tc := ⟨.hbm, 71, rfl⟩
abbrev main_v43_1 : Ref sig .tc := ⟨.hbm, 72, rfl⟩
abbrev main_c_6 : Ref sig .tc := ⟨.hbm, 73, rfl⟩
abbrev main_v44 : Ref sig .tc := ⟨.hbm, 74, rfl⟩
abbrev main_v45 : Ref sig .tc := ⟨.hbm, 75, rfl⟩
abbrev main_c_7 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_cst_8 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc1_stg0_0 : Ref sig .tc := ⟨.vmem, 22, rfl⟩
abbrev cc1_stg0_1 : Ref sig .tc := ⟨.vmem, 23, rfl⟩
abbrev cc1_stg1_0 : Ref sig .tc := ⟨.vmem, 24, rfl⟩
abbrev cc1_stg1_1 : Ref sig .tc := ⟨.vmem, 25, rfl⟩
abbrev cc1_stg2_0 : Ref sig .tc := ⟨.vmem, 26, rfl⟩
abbrev cc1_stg2_1 : Ref sig .tc := ⟨.vmem, 27, rfl⟩
abbrev cc1_stg3_0 : Ref sig .tc := ⟨.vmem, 28, rfl⟩
abbrev cc1_stg3_1 : Ref sig .tc := ⟨.vmem, 29, rfl⟩
abbrev cc1_stg4_0 : Ref sig .tc := ⟨.vmem, 30, rfl⟩
abbrev cc1_stg5_0 : Ref sig .tc := ⟨.vmem, 31, rfl⟩
abbrev cc1_stg6_0 : Ref sig .tc := ⟨.vmem, 32, rfl⟩
abbrev cc1_stg7_0 : Ref sig .tc := ⟨.vmem, 33, rfl⟩
abbrev cc1_stg8_0 : Ref sig .tc := ⟨.vmem, 34, rfl⟩
abbrev cc1_stg9_0 : Ref sig .tc := ⟨.vmem, 35, rfl⟩
abbrev cc1_stg10_0 : Ref sig .tc := ⟨.vmem, 36, rfl⟩
abbrev cc1_stg11_0 : Ref sig .tc := ⟨.vmem, 37, rfl⟩
abbrev cc1_stg12_0 : Ref sig .tc := ⟨.vmem, 38, rfl⟩
abbrev cc1_stg13_0 : Ref sig .tc := ⟨.vmem, 39, rfl⟩
abbrev cc1_stg14_0 : Ref sig .tc := ⟨.vmem, 40, rfl⟩
abbrev cc1_stg14_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem14_1 : DmaSem sig := 19
abbrev cc0_sem15_0 : DmaSem sig := 20
abbrev cc0_sem15_1 : DmaSem sig := 21
abbrev cc1_sem0_0 : DmaSem sig := 22
abbrev cc1_sem0_1 : DmaSem sig := 23
abbrev cc1_sem1_0 : DmaSem sig := 24
abbrev cc1_sem1_1 : DmaSem sig := 25
abbrev cc1_sem2_0 : DmaSem sig := 26
abbrev cc1_sem2_1 : DmaSem sig := 27
abbrev cc1_sem3_0 : DmaSem sig := 28
abbrev cc1_sem3_1 : DmaSem sig := 29
abbrev cc1_sem4_0 : DmaSem sig := 30
abbrev cc1_sem5_0 : DmaSem sig := 31
abbrev cc1_sem6_0 : DmaSem sig := 32
abbrev cc1_sem7_0 : DmaSem sig := 33
abbrev cc1_sem8_0 : DmaSem sig := 34
abbrev cc1_sem9_0 : DmaSem sig := 35
abbrev cc1_sem10_0 : DmaSem sig := 36
abbrev cc1_sem11_0 : DmaSem sig := 37
abbrev cc1_sem12_0 : DmaSem sig := 38
abbrev cc1_sem13_0 : DmaSem sig := 39
abbrev cc1_sem14_0 : DmaSem sig := 40
abbrev cc1_sem14_1 : DmaSem sig := 41

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x64 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x64 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64x64 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S64x64 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S4000x64 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S4000x64 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x4 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4000x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S256x64 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64x64 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S64x64 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S64x64 .bf16 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x64 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S64x64 .bf16 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S64x64 .bf16 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S1x64 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 2 → Memref sig .tc .vmem S4000x64 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]

class Facts₀ : Prop where
  bcast_S_S1200000 : S_.BroadcastsInDim S1200000 (![] : Fin 0 → Fin S1200000.rank)
  bcast_S_S1200000x1 : S_.BroadcastsInDim S1200000x1 (![] : Fin 0 → Fin S1200000x1.rank)
  bcast_S_S400000x1 : S_.BroadcastsInDim S400000x1 (![] : Fin 0 → Fin S400000x1.rank)
  bcast_S1200000_S1200000x1_0 : S1200000.BroadcastsInDim S1200000x1 (![0] : Fin 1 → Fin S1200000x1.rank)
  shapeCasts_S400000x1_S100000x4 : S400000x1.ShapeCasts S100000x4
  bitsLt_bf16_f32 : FTy.bits .bf16 < FTy.bits .f32
  bcast_S_S400000x64 : S_.BroadcastsInDim S400000x64 (![] : Fin 0 → Fin S400000x64.rank)
  shapeCasts_S400000x64_S100000x256 : S400000x64.ShapeCasts S100000x256
  transposes_S64x256_S256x64_1_0 : S64x256.Transposes [1, 0] S256x64
  transposes_S64x64_S64x64_1_0 : S64x64.Transposes [1, 0] S64x64
  transposes_S64x128_S128x64_1_0 : S64x128.Transposes [1, 0] S128x64
  slices_S128x64_S64x64_0_0 : S128x64.Slices ![0, 0] S64x64
  slices_S128x64_S64x64_64_0 : S128x64.Slices ![64, 0] S64x64
  shapeCasts_S64_S1x64 : S64.ShapeCasts S1x64
  inb_S4000x256_S4000x256_0_0 : ∀ a, (![0, 0] : Fin 2 → Nat) a + S4000x256.size a ≤ S4000x256.size a
  h_S4000x256 : 0 < S4000x256.numel
  shapeCasts_S4000x256_S4000x256 : S4000x256.ShapeCasts S4000x256
  inb_S4000x4_S4000x4_0_0 : ∀ a, (![0, 0] : Fin 2 → Nat) a + S4000x4.size a ≤ S4000x4.size a
  h_S4000x4 : 0 < S4000x4.numel
  shapeCasts_S4000x4_S4000x4 : S4000x4.ShapeCasts S4000x4
  slices_S4000x256_o0_0_S4000x64 : S4000x256.Slices ![0, 0] S4000x64
  slices_S4000x4_o0_0_S4000x1 : S4000x4.Slices ![0, 0] S4000x1
  broadcasts_S4000x1_S4000x64 : S4000x1.Broadcasts S4000x64
  inb_S256x64_S64x64_0_0 : ∀ a, (![0, 0] : Fin 2 → Nat) a + S64x64.size a ≤ S256x64.size a
  h_S64x64 : 0 < S64x64.numel
  shapeCasts_S64x64_S64x64 : S64x64.ShapeCasts S64x64
  slices_S4000x256_o0_64_S4000x64 : S4000x256.Slices ![0, 64] S4000x64
  slices_S4000x4_o0_1_S4000x1 : S4000x4.Slices ![0, 1] S4000x1
  inb_S256x64_S64x64_64_0 : ∀ a, (![64, 0] : Fin 2 → Nat) a + S64x64.size a ≤ S256x64.size a
  slices_S4000x256_o0_128_S4000x64 : S4000x256.Slices ![0, 128] S4000x64
  slices_S4000x4_o0_2_S4000x1 : S4000x4.Slices ![0, 2] S4000x1
  inb_S256x64_S64x64_128_0 : ∀ a, (![128, 0] : Fin 2 → Nat) a + S64x64.size a ≤ S256x64.size a
  slices_S4000x256_o0_192_S4000x64 : S4000x256.Slices ![0, 192] S4000x64
  slices_S4000x4_o0_3_S4000x1 : S4000x4.Slices ![0, 3] S4000x1
  inb_S256x64_S64x64_192_0 : ∀ a, (![192, 0] : Fin 2 → Nat) a + S64x64.size a ≤ S256x64.size a
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  inb_S64x64_S64x64_0_0 : ∀ a, (![0, 0] : Fin 2 → Nat) a + S64x64.size a ≤ S64x64.size a
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  packedbf16_S4000x64_S4000x64_0_0 : (Rect.unit (s := S4000x64) ![0, 0] S4000x64.size inb_S4000x64_S4000x64_0_0).PackedRows (EltTy.packing .bf16)
  scatter_S400000x1_S1200000x1_S1200000x1_1_0_0_1_wf : ScatterDims.WF S400000x1 S1200000x1 S1200000x1 [1] [0] [0] 1
  gather_S100000x64_S1200000x1_S1200000x64_1_0_n_n_0_1_164_wf : GatherDims.WF S100000x64 S1200000x1 S1200000x64 [1] [0] [] [0] [] 1 ![1, 64]
  scatter_S400000x64_S1200000x1_S1200000x64_1_0_0_1_wf : ScatterDims.WF S400000x64 S1200000x1 S1200000x64 [1] [0] [0] 1
  dot_S4000x64_S64x64_S4000x64_1_0_0_1_n_n_wf : DotDims.WF S4000x64 S64x64 S4000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x256.size a ≤ S100000x256.size a
  hwx0_0 : ∀ i : grid0.Coords, EltTy.bits .f32 = 32 ∨ (Rect.block (s := S100000x256) S4000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x4.size a ≤ S100000x4.size a
  hwx0_1 : ∀ i : grid0.Coords, EltTy.bits .f32 = 32 ∨ (Rect.block (s := S100000x4) S4000x4.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x64.size a ≤ S100000x64.size a
  hwx0_2 : ∀ i : grid0.Coords, EltTy.bits .bf16 = 32 ∨ (Rect.block (s := S100000x64) S4000x64.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x64.size a ≤ S100000x64.size a
  hwx0_3 : ∀ i : grid0.Coords, EltTy.bits .bf16 = 32 ∨ (Rect.block (s := S100000x64) S4000x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x64.size a ≤ S256x64.size a
  hwx0_4 : ∀ i : grid0.Coords, EltTy.bits .bf16 = 32 ∨ (Rect.block (s := S256x64) S256x64.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x64.size a ≤ S64x64.size a
  hwx0_6 : ∀ i : grid0.Coords, EltTy.bits .bf16 = 32 ∨ (Rect.block (s := S64x64) S64x64.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x64.size a ≤ S64x64.size a
  hwx0_8 : ∀ i : grid0.Coords, EltTy.bits .bf16 = 32 ∨ (Rect.block (s := S64x64) S64x64.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64x64.size a ≤ S64x64.size a
  hwx0_9 : ∀ i : grid0.Coords, EltTy.bits .bf16 = 32 ∨ (Rect.block (s := S64x64) S64x64.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x64.size a ≤ S1x64.size a
  hwx0_10 : ∀ i : grid0.Coords, EltTy.bits .f32 = 32 ∨ (Rect.block (s := S1x64) S1x64.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S64x64.size a ≤ S64x64.size a
  hwx0_11 : ∀ i : grid0.Coords, EltTy.bits .bf16 = 32 ∨ (Rect.block (s := S64x64) S64x64.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S64x64.size a ≤ S64x64.size a
  hwx0_12 : ∀ i : grid0.Coords, EltTy.bits .bf16 = 32 ∨ (Rect.block (s := S64x64) S64x64.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x64.size a ≤ S1x64.size a
  hwx0_13 : ∀ i : grid0.Coords, EltTy.bits .f32 = 32 ∨ (Rect.block (s := S1x64) S1x64.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S4000x64.size a ≤ S100000x64.size a
  hwx0_14 : ∀ i : grid0.Coords, EltTy.bits .bf16 = 32 ∨ (Rect.block (s := S100000x64) S4000x64.size (cc0_transform_14 i) (hinb0_14 i)).WholeWords (EltTy.packing .bf16)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S4000x64.size a ≤ S100000x64.size a
  hwx0_15 : ∀ i : grid0.Coords, EltTy.bits .bf16 = 32 ∨ (Rect.block (s := S100000x64) S4000x64.size (cc0_transform_15 i) (hinb0_15 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x256.size a ≤ S100000x256.size a
  hwx1_0 : ∀ i : grid1.Coords, EltTy.bits .f32 = 32 ∨ (Rect.block (s := S100000x256) S4000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x4.size a ≤ S100000x4.size a
  hwx1_1 : ∀ i : grid1.Coords, EltTy.bits .f32 = 32 ∨ (Rect.block (s := S100000x4) S4000x4.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x64.size a ≤ S100000x64.size a
  hwx1_2 : ∀ i : grid1.Coords, EltTy.bits .bf16 = 32 ∨ (Rect.block (s := S100000x64) S4000x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x64.size a ≤ S100000x64.size a
  hwx1_3 : ∀ i : grid1.Coords, EltTy.bits .bf16 = 32 ∨ (Rect.block (s := S100000x64) S4000x64.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x64.size a ≤ S256x64.size a
  hwx1_4 : ∀ i : grid1.Coords, EltTy.bits .bf16 = 32 ∨ (Rect.block (s := S256x64) S256x64.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64x64.size a ≤ S64x64.size a
  hwx1_6 : ∀ i : grid1.Coords, EltTy.bits .bf16 = 32 ∨ (Rect.block (s := S64x64) S64x64.size (cc1_transform_6 i) (hinb1_6 i)).WholeWords (EltTy.packing .bf16)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x64.size a ≤ S1x64.size a
  hwx1_7 : ∀ i : grid1.Coords, EltTy.bits .f32 = 32 ∨ (Rect.block (s := S1x64) S1x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S64x64.size a ≤ S64x64.size a
  hwx1_8 : ∀ i : grid1.Coords, EltTy.bits .bf16 = 32 ∨ (Rect.block (s := S64x64) S64x64.size (cc1_transform_8 i) (hinb1_8 i)).WholeWords (EltTy.packing .bf16)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S64x64.size a ≤ S64x64.size a
  hwx1_9 : ∀ i : grid1.Coords, EltTy.bits .bf16 = 32 ∨ (Rect.block (s := S64x64) S64x64.size (cc1_transform_9 i) (hinb1_9 i)).WholeWords (EltTy.packing .bf16)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x64.size a ≤ S1x64.size a
  hwx1_10 : ∀ i : grid1.Coords, EltTy.bits .f32 = 32 ∨ (Rect.block (s := S1x64) S1x64.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S64x64.size a ≤ S64x64.size a
  hwx1_11 : ∀ i : grid1.Coords, EltTy.bits .bf16 = 32 ∨ (Rect.block (s := S64x64) S64x64.size (cc1_transform_11 i) (hinb1_11 i)).WholeWords (EltTy.packing .bf16)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S64x64.size a ≤ S64x64.size a
  hwx1_12 : ∀ i : grid1.Coords, EltTy.bits .bf16 = 32 ∨ (Rect.block (s := S64x64) S64x64.size (cc1_transform_12 i) (hinb1_12 i)).WholeWords (EltTy.packing .bf16)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S1x64.size a ≤ S1x64.size a
  hwx1_13 : ∀ i : grid1.Coords, EltTy.bits .f32 = 32 ∨ (Rect.block (s := S1x64) S1x64.size (cc1_transform_13 i) (hinb1_13 i)).WholeWords (EltTy.packing .f32)
  hstage1_14 : ∀ j, (stage1_14 j).IsWhole
  nbuf1_14 : grid1.bufCount reads1_14 false = 2
  hreads1_14 : ∀ i i' : grid1.Coords, (∀ a, reads1_14 a = true → i a = i' a) → cc1_transform_14 i = cc1_transform_14 i'
  hinb1_14 : ∀ (i : grid1.Coords) a, (cc1_transform_14 i a + 1) * S4000x64.size a ≤ S100000x64.size a
  hwx1_14 : ∀ i : grid1.Coords, EltTy.bits .f32 = 32 ∨ (Rect.block (s := S100000x64) S4000x64.size (cc1_transform_14 i) (hinb1_14 i)).WholeWords (EltTy.packing .f32)

variable [Facts₀]

def scatter_S400000x1_S1200000x1_S1200000x1_1_0_0_1 : ScatterDims S400000x1 S1200000x1 S1200000x1 where
  updateWindowDims := [1]
  insertedWindowDims := [0]
  scatterDimsToOperandDims := [0]
  indexVectorDim := 1
  wf := scatter_S400000x1_S1200000x1_S1200000x1_1_0_0_1_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S400000x64_S1200000x1_S1200000x64_1_0_0_1 : ScatterDims S400000x64 S1200000x1 S1200000x64 where
  updateWindowDims := [1]
  insertedWindowDims := [0]
  scatterDimsToOperandDims := [0]
  indexVectorDim := 1
  wf := scatter_S400000x64_S1200000x1_S1200000x64_1_0_0_1_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf

abbrev win0_0 : Pipeline.Window sig grid0 :=
  Pipeline.Window.ofSpec (Memref.whole main_v24) S4000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S4000x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S4000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S4000x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v26) S256x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v39) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v28) S64x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v40) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v32) S64x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v34) S64x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v41) S1x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v36) S64x64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v38) S64x64.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v42) S1x64.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v43_0) S4000x64.size cc0_transform_14 reads0_14 true false 2 stage0_14 sem0_14
    hrank0 hreads0_14 hinb0_14 nbuf0_14 (Memref.isWhole_whole _) hwx0_14 hstage0_14

abbrev win0_15 : Pipeline.Window sig grid0 :=
  Pipeline.Window.ofSpec (Memref.whole main_v43_1) S4000x64.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

abbrev win1_0 : Pipeline.Window sig grid1 :=
  Pipeline.Window.ofSpec (Memref.whole main_v55) S4000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S4000x4.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v43_1) S4000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v43_0) S4000x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v57) S256x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v70) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v59) S64x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v71) S1x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v63) S64x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v65) S64x64.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v72) S1x64.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v67) S64x64.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v69) S64x64.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v73) S1x64.size cc1_transform_13 reads1_13 false true 1 stage1_13 sem1_13
    hrank1 hreads1_13 hinb1_13 nbuf1_13 (Memref.isWhole_whole _) hwx1_13 hstage1_13

abbrev win1_14 : Pipeline.Window sig grid1 :=
  Pipeline.Window.ofSpec (Memref.whole main_v74) S4000x64.size cc1_transform_14 reads1_14 true false 2 stage1_14 sem1_14
    hrank1 hreads1_14 hinb1_14 nbuf1_14 (Memref.isWhole_whole _) hwx1_14 hstage1_14

abbrev win1 : Fin 15 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | ⟨_ + 15, h⟩ => absurd h (Nat.not_lt.2 (Nat.le_add_left _ _))
abbrev spec1 : Fin 15 → Pipeline.WinSpec sig grid1.rank := fun w => (win1 w).toWinSpec

class Facts : Prop extends Facts₀ where

variable [Facts]
-- ==== ReferenceIdeal.lean ====
abbrev S100000x64 : Shape := ⟨2, ![100000, 64]⟩
abbrev S1200000 : Shape := ⟨1, ![1200000]⟩
abbrev S64x256 : Shape := ⟨2, ![64, 256]⟩
abbrev S64 : Shape := ⟨1, ![64]⟩
abbrev S64x64 : Shape := ⟨2, ![64, 64]⟩
abbrev S64x128 : Shape := ⟨2, ![64, 128]⟩
abbrev S_ : Shape := ⟨0, ![]⟩
abbrev S1200000x1 : Shape := ⟨2, ![1200000, 1]⟩
abbrev S1200000x64 : Shape := ⟨2, ![1200000, 64]⟩
abbrev S400000x64 : Shape := ⟨2, ![400000, 64]⟩
abbrev S400000x1 : Shape := ⟨2, ![400000, 1]⟩
abbrev S100000x256 : Shape := ⟨2, ![100000, 256]⟩
abbrev S256x64 : Shape := ⟨2, ![256, 64]⟩
abbrev S1x64 : Shape := ⟨2, ![1, 64]⟩
abbrev S100000x128 : Shape := ⟨2, ![100000, 128]⟩
abbrev S128x64 : Shape := ⟨2, ![128, 64]⟩

abbrev nBuf : Space → Nat
  | .hbm => 172
  | .vmem => 0
  | .smem => 0
  | _ => 0

abbrev hbmTy0_0 (i : Nat) : BufTy := match i % 128 with
  | 0 => ⟨S100000x64, .f32⟩
  | 1 => ⟨S1200000, .i32⟩
  | 2 => ⟨S1200000, .i32⟩
  | 3 => ⟨S1200000, .i32⟩
  | 4 => ⟨S64x256, .f32⟩
  | 5 => ⟨S64, .f32⟩
  | 6 => ⟨S64x64, .f32⟩
  | 7 => ⟨S64, .f32⟩
  | 8 => ⟨S64x128, .f32⟩
  | 9 => ⟨S64, .f32⟩
  | 10 => ⟨S64x128, .f32⟩
  | 11 => ⟨S64, .f32⟩
  | 12 => ⟨S64x256, .f32⟩
  | 13 => ⟨S64, .f32⟩
  | 14 => ⟨S64x64, .f32⟩
  | 15 => ⟨S64, .f32⟩
  | 16 => ⟨S64x128, .f32⟩
  | 17 => ⟨S64, .f32⟩
  | 18 => ⟨S64x128, .f32⟩
  | 19 => ⟨S64, .f32⟩
  | 20 => ⟨S_, .i32⟩
  | 21 => ⟨S1200000, .i32⟩
  | 22 => ⟨S1200000, .i1⟩
  | 23 => ⟨S_, .i32⟩
  | 24 => ⟨S1200000, .i32⟩
  | 25 => ⟨S1200000, .i32⟩
  | 26 => ⟨S1200000, .i32⟩
  | 27 => ⟨S1200000x1, .i32⟩
  | 28 => ⟨S1200000x64, .f32⟩
  | 29 => ⟨S_, .i32⟩
  | 30 => ⟨S1200000, .i32⟩
  | 31 => ⟨S1200000, .i32⟩
  | 32 => ⟨S1200000, .i32⟩
  | 33 => ⟨S_, .f32⟩
  | 34 => ⟨S400000x64, .f32⟩
  | 35 => ⟨S1200000x1, .i32⟩
  | 36 => ⟨S400000x64, .f32⟩
  | 37 => ⟨S_, .f32⟩
  | 38 => ⟨S1200000x1, .f32⟩
  | 39 => ⟨S_, .f32⟩
  | 40 => ⟨S400000x1, .f32⟩
  | 41 => ⟨S1200000x1, .i32⟩
  | 42 => ⟨S400000x1, .f32⟩
  | 43 => ⟨S_, .f32⟩
  | 44 => ⟨S400000x1, .f32⟩
  | 45 => ⟨S400000x1, .f32⟩
  | 46 => ⟨S400000x64, .f32⟩
  | 47 => ⟨S400000x64, .f32⟩
  | 48 => ⟨S100000x256, .f32⟩
  | 49 => ⟨S256x64, .f32⟩
  | 50 => ⟨S100000x64, .f32⟩
  | 51 => ⟨S1x64, .f32⟩
  | 52 => ⟨S100000x64, .f32⟩
  | 53 => ⟨S100000x64, .f32⟩
  | 54 => ⟨S64x64, .f32⟩
  | 55 => ⟨S100000x64, .f32⟩
  | 56 => ⟨S100000x64, .f32⟩
  | 57 => ⟨S1x64, .f32⟩
  | 58 => ⟨S100000x64, .f32⟩
  | 59 => ⟨S100000x64, .f32⟩
  | 60 => ⟨S100000x64, .f32⟩
  | 61 => ⟨S100000x64, .f32⟩
  | 62 => ⟨S_, .f32⟩
  | 63 => ⟨S100000x64, .f32⟩
  | 64 => ⟨S100000x64, .f32⟩
  | 65 => ⟨S_, .f32⟩
  | 66 => ⟨S100000x64, .f32⟩
  | 67 => ⟨S100000x64, .f32⟩
  | 68 => ⟨S100000x128, .f32⟩
  | 69 => ⟨S128x64, .f32⟩
  | 70 => ⟨S100000x64, .f32⟩
  | 71 => ⟨S1x64, .f32⟩
  | 72 => ⟨S100000x64, .f32⟩
  | 73 => ⟨S100000x64, .f32⟩
  | 74 => ⟨S_, .f32⟩
  | 75 => ⟨S100000x64, .f32⟩
  | 76 => ⟨S100000x64, .f32⟩
  | 77 => ⟨S128x64, .f32⟩
  | 78 => ⟨S100000x64, .f32⟩
  | 79 => ⟨S1x64, .f32⟩
  | 80 => ⟨S100000x64, .f32⟩
  | 81 => ⟨S100000x64, .f32⟩
  | 82 => ⟨S100000x64, .f32⟩
  | 83 => ⟨S100000x64, .f32⟩
  | 84 => ⟨S_, .f32⟩
  | 85 => ⟨S100000x64, .f32⟩
  | 86 => ⟨S100000x64, .f32⟩
  | 87 => ⟨S_, .f32⟩
  | 88 => ⟨S100000x64, .f32⟩
  | 89 => ⟨S100000x64, .f32⟩
  | 90 => ⟨S100000x64, .f32⟩
  | 91 => ⟨S_, .f32⟩
  | 92 => ⟨S100000x64, .f32⟩
  | 93 => ⟨S100000x64, .f32⟩
  | 94 => ⟨S100000x64, .f32⟩
  | 95 => ⟨S100000x64, .f32⟩
  | 96 => ⟨S_, .i32⟩
  | 97 => ⟨S1200000, .i32⟩
  | 98 => ⟨S1200000, .i1⟩
  | 99 => ⟨S_, .i32⟩
  | 100 => ⟨S1200000, .i32⟩
  | 101 => ⟨S1200000, .i32⟩
  | 102 => ⟨S1200000, .i32⟩
  | 103 => ⟨S1200000x1, .i32⟩
  | 104 => ⟨S1200000x64, .f32⟩
  | 105 => ⟨S_, .i32⟩
  | 106 => ⟨S1200000, .i32⟩
  | 107 => ⟨S1200000, .i32⟩
  | 108 => ⟨S1200000, .i32⟩
  | 109 => ⟨S_, .f32⟩
  | 110 => ⟨S400000x64, .f32⟩
  | 111 => ⟨S1200000x1, .i32⟩
  | 112 => ⟨S400000x64, .f32⟩
  | 113 => ⟨S_, .f32⟩
  | 114 => ⟨S1200000x1, .f32⟩
  | 115 => ⟨S_, .f32⟩
  | 116 => ⟨S400000x1, .f32⟩
  | 117 => ⟨S1200000x1, .i32⟩
  | 118 => ⟨S400000x1, .f32⟩
  | 119 => ⟨S_, .f32⟩
  | 120 => ⟨S400000x1, .f32⟩
  | 121 => ⟨S400000x1, .f32⟩
  | 122 => ⟨S400000x64, .f32⟩
  | 123 => ⟨S400000x64, .f32⟩
  | 124 => ⟨S100000x256, .f32⟩
  | 125 => ⟨S256x64, .f32⟩
  | 126 => ⟨S100000x64, .f32⟩
  | 127 => ⟨S1x64, .f32⟩
  | _ => ⟨S100000x64, .f32⟩

abbrev hbmTy0_1 (i : Nat) : BufTy := match i % 128 with
  | 0 => ⟨S100000x64, .f32⟩
  | 1 => ⟨S100000x64, .f32⟩
  | 2 => ⟨S64x64, .f32⟩
  | 3 => ⟨S100000x64, .f32⟩
  | 4 => ⟨S100000x64, .f32⟩
  | 5 => ⟨S1x64, .f32⟩
  | 6 => ⟨S100000x64, .f32⟩
  | 7 => ⟨S100000x64, .f32⟩
  | 8 => ⟨S100000x64, .f32⟩
  | 9 => ⟨S100000x64, .f32⟩
  | 10 => ⟨S_, .f32⟩
  | 11 => ⟨S100000x64, .f32⟩
  | 12 => ⟨S100000x64, .f32⟩
  | 13 => ⟨S_, .f32⟩
  | 14 => ⟨S100000x64, .f32⟩
  | 15 => ⟨S100000x64, .f32⟩
  | 16 => ⟨S100000x128, .f32⟩
  | 17 => ⟨S128x64, .f32⟩
  | 18 => ⟨S100000x64, .f32⟩
  | 19 => ⟨S1x64, .f32⟩
  | 20 => ⟨S100000x64, .f32⟩
  | 21 => ⟨S100000x64, .f32⟩
  | 22 => ⟨S_, .f32⟩
  | 23 => ⟨S100000x64, .f32⟩
  | 24 => ⟨S100000x64, .f32⟩
  | 25 => ⟨S128x64, .f32⟩
  | 26 => ⟨S100000x64, .f32⟩
  | 27 => ⟨S1x64, .f32⟩
  | 28 => ⟨S100000x64, .f32⟩
  | 29 => ⟨S100000x64, .f32⟩
  | 30 => ⟨S100000x64, .f32⟩
  | 31 => ⟨S100000x64, .f32⟩
  | 32 => ⟨S_, .f32⟩
  | 33 => ⟨S100000x64, .f32⟩
  | 34 => ⟨S100000x64, .f32⟩
  | 35 => ⟨S_, .f32⟩
  | 36 => ⟨S100000x64, .f32⟩
  | 37 => ⟨S100000x64, .f32⟩
  | 38 => ⟨S100000x64, .f32⟩
  | 39 => ⟨S_, .f32⟩
  | 40 => ⟨S100000x64, .f32⟩
  | 41 => ⟨S100000x64, .f32⟩
  | 42 => ⟨S100000x64, .f32⟩
  | 43 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_c : Ref sig .tc := ⟨.hbm, 20, rfl⟩
abbrev main_v0 : Ref sig .tc := ⟨.hbm, 21, rfl⟩
abbrev main_v1 : Ref sig .tc := ⟨.hbm, 22, rfl⟩
abbrev main_c_0 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_c_1 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_cst : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_cst_2 : Ref sig .tc := ⟨.hbm, 37, rfl⟩
abbrev main_v13 : Ref sig .tc := ⟨.hbm, 38, rfl⟩
abbrev main_cst_3 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_cst_4 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst_5 : Ref sig .tc := ⟨.hbm, 62, rfl⟩
abbrev main_v35 : Ref sig .tc := ⟨.hbm, 63, rfl⟩
abbrev main_v36 : Ref sig .tc := ⟨.hbm, 64, rfl⟩
abbrev main_cst_6 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_call0_cst : Ref sig .tc := ⟨.hbm, 74, rfl⟩
abbrev main_call0_v0 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_cst_7 : Ref sig .tc := ⟨.hbm, 84, rfl⟩
abbrev main_v53 : Ref sig .tc := ⟨.hbm, 85, rfl⟩
abbrev main_v54 : Ref sig .tc := ⟨.hbm, 86, rfl⟩
abbrev main_cst_8 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_cst_9 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_c_10 : Ref sig .tc := ⟨.hbm, 96, rfl⟩
abbrev main_v62 : Ref sig .tc := ⟨.hbm, 97, rfl⟩
abbrev main_v63 : Ref sig .tc := ⟨.hbm, 98, rfl⟩
abbrev main_c_11 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_c_12 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_cst_13 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_cst_14 : Ref sig .tc := ⟨.hbm, 113, rfl⟩
abbrev main_v75 : Ref sig .tc := ⟨.hbm, 114, rfl⟩
abbrev main_cst_15 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_cst_16 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_cst_17 : Ref sig .tc := ⟨.hbm, 138, rfl⟩
abbrev main_v97 : Ref sig .tc := ⟨.hbm, 139, rfl⟩
abbrev main_v98 : Ref sig .tc := ⟨.hbm, 140, rfl⟩
abbrev main_cst_18 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_call1_cst : Ref sig .tc := ⟨.hbm, 150, rfl⟩
abbrev main_call1_v0 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_cst_19 : Ref sig .tc := ⟨.hbm, 160, rfl⟩
abbrev main_v115 : Ref sig .tc := ⟨.hbm, 161, rfl⟩
abbrev main_v116 : Ref sig .tc := ⟨.hbm, 162, rfl⟩
abbrev main_cst_20 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_cst_21 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩

abbrev nD : Nat := 1
abbrev τ : Topo := Topo.v7x

variable {F : FTy → Type} [FloatOps F]

class Facts₀ : Prop where
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S400000x64 : S_.BroadcastsInDim S400000x64 (![] : Fin 0 → Fin S400000x64.rank)
  bcast_S_S1200000x1 : S_.BroadcastsInDim S1200000x1 (![] : Fin 0 → Fin S1200000x1.rank)
  bcast_S_S400000x1 : S_.BroadcastsInDim S400000x1 (![] : Fin 0 → Fin S400000x1.rank)
  bcast_S400000x1_S400000x64_0_1 : S400000x1.BroadcastsInDim S400000x64 (![0, 1] : Fin 2 → Fin S400000x64.rank)
  shapeCasts_S400000x64_S100000x256 : S400000x64.ShapeCasts S100000x256
  transposes_S64x256_S256x64_1_0 : S64x256.Transposes [1, 0] S256x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  transposes_S64x64_S64x64_1_0 : S64x64.Transposes [1, 0] S64x64
  bcast_S_S100000x64 : S_.BroadcastsInDim S100000x64 (![] : Fin 0 → Fin S100000x64.rank)
  concatenates_S100000x64_S100000x64_S100000x128_d1 : Shape.Concatenates [S100000x64, S100000x64] S100000x128 1
  transposes_S64x128_S128x64_1_0 : S64x128.Transposes [1, 0] S128x64
  gather_S100000x64_S1200000x1_S1200000x64_1_0_n_n_0_1_164_wf : GatherDims.WF S100000x64 S1200000x1 S1200000x64 [1] [0] [] [0] [] 1 ![1, 64]
  scatter_S400000x64_S1200000x1_S1200000x64_1_0_0_1_wf : ScatterDims.WF S400000x64 S1200000x1 S1200000x64 [1] [0] [0] 1
  scatter_S400000x1_S1200000x1_S1200000x1_1_0_0_1_wf : ScatterDims.WF S400000x1 S1200000x1 S1200000x1 [1] [0] [0] 1
  dot_S100000x256_S256x64_S100000x64_1_0_0_1_n_n_wf : DotDims.WF S100000x256 S256x64 S100000x64 [1] [0] [0] [1] [] []
  dot_S100000x64_S64x64_S100000x64_1_0_0_1_n_n_wf : DotDims.WF S100000x64 S64x64 S100000x64 [1] [0] [0] [1] [] []
  dot_S100000x128_S128x64_S100000x64_1_0_0_1_n_n_wf : DotDims.WF S100000x128 S128x64 S100000x64 [1] [0] [0] [1] [] []

variable [Facts₀]

def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S400000x64_S1200000x1_S1200000x64_1_0_0_1 : ScatterDims S400000x64 S1200000x1 S1200000x64 where
  updateWindowDims := [1]
  insertedWindowDims := [0]
  scatterDimsToOperandDims := [0]
  indexVectorDim := 1
  wf := scatter_S400000x64_S1200000x1_S1200000x64_1_0_0_1_wf
def scatter_S400000x1_S1200000x1_S1200000x1_1_0_0_1 : ScatterDims S400000x1 S1200000x1 S1200000x1 where
  updateWindowDims := [1]
  insertedWindowDims := [0]
  scatterDimsToOperandDims := [0]
  indexVectorDim := 1
  wf := scatter_S400000x1_S1200000x1_S1200000x1_1_0_0_1_wf
def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.BitsRegion0.lean ====
/-
  Region 0 of the program, the kernel's half: at any contents `V` of the buffers when the region is entered, what each
  grid point's body leaves in its output blocks as a function of the fourteen input blocks it is handed (the weights
  and biases whole, the four row-tiled operands 4000 rows at a time), the body's triple, the pipeline's proof data and
  the body obligation at every point.
-/
import proofs.«102057_j23811298690073_2_alg».proof.Proof.Gen.Kernel.Launch
import proofs.«102057_j23811298690073_2_alg».proof.Proof.Gen.Kernel.Skeleton
import proofs.«102057_j23811298690073_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's staging buffer holds its block at every point, fetched there or not. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's staging buffer holds its block at every point, fetched there or not. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
/-- Input window 7's staging buffer holds its block at every point, fetched there or not. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
/-- Input window 8's staging buffer holds its block at every point, fetched there or not. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)
/-- Input window 9's staging buffer holds its block at every point, fetched there or not. -/
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)
/-- Input window 10's staging buffer holds its block at every point, fetched there or not. -/
theorem before0_10_of {c : Dev nD} (dat : Dat τ (Elt F) Unit ℕ (UR sig nD τ) ℕ cfg0 c) (hA : dat.A 10 = V c (Pipeline.arrRef spec0 10))
    (hafter : ∀ t, dat.after 10 t = iblk0 V c 10 t) (t : Fin cfg0.N) (d) : dat.before 10 t d = iblk0 V c 10 t :=
  (dat.before_in_eq_fetched 10 rfl (fun _ => rfl) (fun _ _ _ => rfl) (fun t => by rw [hafter]; unfold Dat.blockOf iblk0; rw [hA]; try rfl) t d).trans
    (by unfold Dat.fetched Dat.blockOf iblk0; rw [hA]; try rfl)
/-- Input window 11's staging buffer holds its block at every point, fetched there or not. -/
theorem before0_11_of {c : Dev nD} (dat : Dat τ (Elt F) Unit ℕ (UR sig nD τ) ℕ cfg0 c) (hA : dat.A 11 = V c (Pipeline.arrRef spec0 11))
    (hafter : ∀ t, dat.after 11 t = iblk0 V c 11 t) (t : Fin cfg0.N) (d) : dat.before 11 t d = iblk0 V c 11 t :=
  (dat.before_in_eq_fetched 11 rfl (fun _ => rfl) (fun _ _ _ => rfl) (fun t => by rw [hafter]; unfold Dat.blockOf iblk0; rw [hA]; try rfl) t d).trans
    (by unfold Dat.fetched Dat.blockOf iblk0; rw [hA]; try rfl)
/-- Input window 12's staging buffer holds its block at every point, fetched there or not. -/
theorem before0_12_of {c : Dev nD} (dat : Dat τ (Elt F) Unit ℕ (UR sig nD τ) ℕ cfg0 c) (hA : dat.A 12 = V c (Pipeline.arrRef spec0 12))
    (hafter : ∀ t, dat.after 12 t = iblk0 V c 12 t) (t : Fin cfg0.N) (d) : dat.before 12 t d = iblk0 V c 12 t :=
  (dat.before_in_eq_fetched 12 rfl (fun _ => rfl) (fun _ _ _ => rfl) (fun t => by rw [hafter]; unfold Dat.blockOf iblk0; rw [hA]; try rfl) t d).trans
    (by unfold Dat.fetched Dat.blockOf iblk0; rw [hA]; try rfl)
/-- Input window 13's staging buffer holds its block at every point, fetched there or not. -/
theorem before0_13_of {c : Dev nD} (dat : Dat τ (Elt F) Unit ℕ (UR sig nD τ) ℕ cfg0 c) (hA : dat.A 13 = V c (Pipeline.arrRef spec0 13))
    (hafter : ∀ t, dat.after 13 t = iblk0 V c 13 t) (t : Fin cfg0.N) (d) : dat.before 13 t d = iblk0 V c 13 t :=
  (dat.before_in_eq_fetched 13 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every operand whole, the [256, 64] weight matrix in four bands of 64 rows -/

abbrev rA_k0 : Rect S4000x256 := Rect.unit (s := S4000x256) ![0, 0] S4000x256.size inb_S4000x256_S4000x256_0_0
abbrev rR_k0 : Rect S4000x4 := Rect.unit (s := S4000x4) ![0, 0] S4000x4.size inb_S4000x4_S4000x4_0_0
abbrev rN_k0 : Rect S4000x64 := Rect.unit (s := S4000x64) ![0, 0] S4000x64.size inb_S4000x64_S4000x64_0_0
abbrev rW0_k0 : Rect S256x64 := Rect.unit (s := S256x64) ![0, 0] S64x64.size inb_S256x64_S64x64_0_0
abbrev rW1_k0 : Rect S256x64 := Rect.unit (s := S256x64) ![64, 0] S64x64.size inb_S256x64_S64x64_64_0
abbrev rW2_k0 : Rect S256x64 := Rect.unit (s := S256x64) ![128, 0] S64x64.size inb_S256x64_S64x64_128_0
abbrev rW3_k0 : Rect S256x64 := Rect.unit (s := S256x64) ![192, 0] S64x64.size inb_S256x64_S64x64_192_0
abbrev rM_k0 : Rect S64x64 := Rect.unit (s := S64x64) ![0, 0] S64x64.size inb_S64x64_S64x64_0_0
abbrev rB_k0 : Rect S1x64 := Rect.unit (s := S1x64) ![0, 0] S1x64.size inb_S1x64_S1x64_0_0

/-! ## What the body leaves in each output window's buffer -/

/-- The relational projection of the block's rows: four 64-column bands of the segment sums, each scaled by its
    reciprocal count column and multiplied into its band of the weight matrix, summed. -/
def proj0 (x0 : Vec F S4000x256 .f32) (x1 : Vec F S4000x4 .f32) (x4 : Vec F S256x64 .bf16) : FVec F S4000x64 .f32 :=
  k0_pay3 (View.ld x0 rA_k0) (View.ld x1 rR_k0) (View.ld x4 rW0_k0) (View.ld x4 rW1_k0) (View.ld x4 rW2_k0) (View.ld x4 rW3_k0)

/-- Window 14's staging buffer after the body: the hidden state of the block's rows. -/
def out0_14 (x0 : Vec F S4000x256 .f32) (x1 : Vec F S4000x4 .f32) (x2 : Vec F S4000x64 .bf16) (x3 : Vec F S4000x64 .bf16) (x4 : Vec F S256x64 .bf16) (x5 : Vec F S1x64 .f32) (x6 : Vec F S64x64 .bf16) (x7 : Vec F S1x64 .f32) (x8 : Vec F S64x64 .bf16) (x9 : Vec F S64x64 .bf16) (x10 : Vec F S1x64 .f32) (x11 : Vec F S64x64 .bf16) (x12 : Vec F S64x64 .bf16) (x13 : Vec F S1x64 .f32) : Vec F S4000x64 .bf16 :=
  View.canon [⟨rN_k0, k0_pay1 (k0_pay4 (proj0 x0 x1 x4) (View.ld x2 rN_k0) (View.ld x6 rM_k0) (View.ld x5 rB_k0) (View.ld x7 rB_k0))⟩]

/-- Window 15's staging buffer after the body: the highway step of the block's rows. -/
def out0_15 (x0 : Vec F S4000x256 .f32) (x1 : Vec F S4000x4 .f32) (x2 : Vec F S4000x64 .bf16) (x3 : Vec F S4000x64 .bf16) (x4 : Vec F S256x64 .bf16) (x5 : Vec F S1x64 .f32) (x6 : Vec F S64x64 .bf16) (x7 : Vec F S1x64 .f32) (x8 : Vec F S64x64 .bf16) (x9 : Vec F S64x64 .bf16) (x10 : Vec F S1x64 .f32) (x11 : Vec F S64x64 .bf16) (x12 : Vec F S64x64 .bf16) (x13 : Vec F S1x64 .f32) : Vec F S4000x64 .bf16 :=
  View.canon [⟨rN_k0, k0_pay2 (k0_pay4 (proj0 x0 x1 x4) (View.ld x2 rN_k0) (View.ld x6 rM_k0) (View.ld x5 rB_k0) (View.ld x7 rB_k0))
    (k0_pay5 (View.ld x3 rN_k0))
    (k0_pay7 (proj0 x0 x1 x4) (View.ld x2 rN_k0) (View.ld x6 rM_k0) (View.ld x5 rB_k0) (View.ld x7 rB_k0) (View.ld x3 rN_k0) (View.ld x8 rM_k0) (View.ld x9 rM_k0) (View.ld x10 rB_k0))
    (k0_pay8 (proj0 x0 x1 x4) (View.ld x2 rN_k0) (View.ld x6 rM_k0) (View.ld x5 rB_k0) (View.ld x7 rB_k0) (View.ld x11 rM_k0))
    (k0_pay9 (View.ld x12 rM_k0)) (View.ld x13 rB_k0)⟩]

/-- One store of the whole block covers it. -/
theorem coverN_k0 (p0 : Vec F S4000x64 .bf16) (y : S4000x64.Idx) :
    ∃ pc ∈ ([⟨rN_k0, p0⟩] : List (View.Piece (Elt F) S4000x64 .bf16)), y ∈ pc.1.set :=
  View.cover_of_tiled [⟨rN_k0, p0⟩] S4000x64.size (by rfl) y

/-! ## The body's triple -/

set_option maxHeartbeats 4000000 in
/-- The kernel body on whole staging memrefs, the inputs' at contents `xW` and the outputs' at anything, runs to the
    continuation holding the inputs' as they were and each output's at `out0_W` of the inputs'. -/
theorem sound_kernel0 (c : Dev nD) (E : Set ℕ) (i : grid0.Coords) (arg1 : Memref sig .tc .vmem S4000x256 .f32) (harg1 : arg1.IsWhole) (arg2 : Memref sig .tc .vmem S4000x4 .f32) (harg2 : arg2.IsWhole) (arg3 : Memref sig .tc .vmem S4000x64 .bf16) (harg3 : arg3.IsWhole) (arg4 : Memref sig .tc .vmem S4000x64 .bf16) (harg4 : arg4.IsWhole) (arg5 : Memref sig .tc .vmem S256x64 .bf16) (harg5 : arg5.IsWhole) (arg6 : Memref sig .tc .vmem S1x64 .f32) (harg6 : arg6.IsWhole) (arg7 : Memref sig .tc .vmem S64x64 .bf16) (harg7 : arg7.IsWhole) (arg8 : Memref sig .tc .vmem S1x64 .f32) (harg8 : arg8.IsWhole) (arg9 : Memref sig .tc .vmem S64x64 .bf16) (harg9 : arg9.IsWhole) (arg10 : Memref sig .tc .vmem S64x64 .bf16) (harg10 : arg10.IsWhole) (arg11 : Memref sig .tc .vmem S1x64 .f32) (harg11 : arg11.IsWhole) (arg12 : Memref sig .tc .vmem S64x64 .bf16) (harg12 : arg12.IsWhole) (arg13 : Memref sig .tc .vmem S64x64 .bf16) (harg13 : arg13.IsWhole) (arg14 : Memref sig .tc .vmem S1x64 .f32) (harg14 : arg14.IsWhole) (arg15 : Memref sig .tc .vmem S4000x64 .bf16) (harg15 : arg15.IsWhole) (arg16 : Memref sig .tc .vmem S4000x64 .bf16) (harg16 : arg16.IsWhole)
    (x0 : Vec F S4000x256 .f32) (x1 : Vec F S4000x4 .f32) (x2 : Vec F S4000x64 .bf16) (x3 : Vec F S4000x64 .bf16) (x4 : Vec F S256x64 .bf16) (x5 : Vec F S1x64 .f32) (x6 : Vec F S64x64 .bf16) (x7 : Vec F S1x64 .f32) (x8 : Vec F S64x64 .bf16) (x9 : Vec F S64x64 .bf16) (x10 : Vec F S1x64 .f32) (x11 : Vec F S64x64 .bf16) (x12 : Vec F S64x64 .bf16) (x13 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d) ∗ (∃ d, owns (c : Thread nD τ) arg16 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare (out0_14 x0 x1 x2 x3 x4 x5 x6 x7 x8 x9 x10 x11 x12 x13) ∗ owns (c : Thread nD τ) arg16 fullShare (out0_15 x0 x1 x2 x3 x4 x5 x6 x7 x8 x9 x10 x11 x12 x13)) -∗ K ⟨⟩))
      ⊢ wp frame (wpE (defs₀ (F := F)) Variants.none c none) E (cc0_rgc_highway_kernel_full i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_rgc_highway_kernel_full_eq_skeleton]; unfold cc0_rgc_highway_kernel_full_skel
  simp only [k0_part1_eq_skeleton]; unfold k0_part1_skel
  simp only [k0_part2_eq_skeleton]; unfold k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, Hk⟩
  subst hf0 hf1 hf2 hf3 hf4 hf5 hf6 hf7 hf8 hf9 hf10 hf11 hf12 hf13
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists _; isplitr
    swap; · iexact H14
    ipureintro
    try dsimp only
    exact View.read_writes_eq_canon _ _ _ (coverN_k0 _)
  iexists _; isplitr
  swap; · iexact H15
  ipureintro
  try dsimp only
  exact View.read_writes_eq_canon _ _ _ (coverN_k0 _)

/-! ## The pipeline's proof data -/

/-- The proof data of pipeline 0 on core `c`: the arrays as the region finds them; after the body at point `t` each
    input's buffer at its block and each output's at `out0_W` of the input blocks; the class's invariant (the scoped
    rest and the generator register, untouched); nothing owed; the shares `q`. -/
def dat0 (q : Fin cfg0.W → PosShare TreeShare) (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => iblk0 V c 12 t
    | ⟨13, _⟩ => iblk0 V c 13 t
    | ⟨14, _⟩ => out0_14 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t)
    | ⟨15, _⟩ => out0_15 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t)
    | ⟨_ + 16, h⟩ => absurd h (Nat.not_lt.2 (Nat.le_add_left _ _))
  Φ _ := Pipeline.ΦA spec0 c
  q := q
  owed _ := 0

variable (q : Fin cfg0.W → PosShare TreeShare)

theorem A_eq0 (c : Dev nD) (w : Fin cfg0.W) : (dat0 V q c).A w = V c (Pipeline.arrRef spec0 w) := by
  dsimp only [dat0]

theorem after0_0 (c : Dev nD) (t : Fin cfg0.N) : (dat0 V q c).after 0 t = iblk0 V c 0 t := by dsimp only [dat0]
theorem after0_1 (c : Dev nD) (t : Fin cfg0.N) : (dat0 V q c).after 1 t = iblk0 V c 1 t := by dsimp only [dat0]
theorem after0_2 (c : Dev nD) (t : Fin cfg0.N) : (dat0 V q c).after 2 t = iblk0 V c 2 t := by dsimp only [dat0]
theorem after0_3 (c : Dev nD) (t : Fin cfg0.N) : (dat0 V q c).after 3 t = iblk0 V c 3 t := by dsimp only [dat0]
theorem after0_4 (c : Dev nD) (t : Fin cfg0.N) : (dat0 V q c).after 4 t = iblk0 V c 4 t := by dsimp only [dat0]
theorem after0_5 (c : Dev nD) (t : Fin cfg0.N) : (dat0 V q c).after 5 t = iblk0 V c 5 t := by dsimp only [dat0]
theorem after0_6 (c : Dev nD) (t : Fin cfg0.N) : (dat0 V q c).after 6 t = iblk0 V c 6 t := by dsimp only [dat0]
theorem after0_7 (c : Dev nD) (t : Fin cfg0.N) : (dat0 V q c).after 7 t = iblk0 V c 7 t := by dsimp only [dat0]
theorem after0_8 (c : Dev nD) (t : Fin cfg0.N) : (dat0 V q c).after 8 t = iblk0 V c 8 t := by dsimp only [dat0]
theorem after0_9 (c : Dev nD) (t : Fin cfg0.N) : (dat0 V q c).after 9 t = iblk0 V c 9 t := by dsimp only [dat0]
theorem after0_10 (c : Dev nD) (t : Fin cfg0.N) : (dat0 V q c).after 10 t = iblk0 V c 10 t := by dsimp only [dat0]
theorem after0_11 (c : Dev nD) (t : Fin cfg0.N) : (dat0 V q c).after 11 t = iblk0 V c 11 t := by dsimp only [dat0]
theorem after0_12 (c : Dev nD) (t : Fin cfg0.N) : (dat0 V q c).after 12 t = iblk0 V c 12 t := by dsimp only [dat0]
theorem after0_13 (c : Dev nD) (t : Fin cfg0.N) : (dat0 V q c).after 13 t = iblk0 V c 13 t := by dsimp only [dat0]
theorem after0_14 (c : Dev nD) (t : Fin cfg0.N) : (dat0 V q c).after 14 t = out0_14 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) := by dsimp only [dat0]
theorem after0_15 (c : Dev nD) (t : Fin cfg0.N) : (dat0 V q c).after 15 t = out0_15 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) := by dsimp only [dat0]

theorem before0_0 (c : Dev nD) (t : Fin cfg0.N) (d) : (dat0 V q c).before 0 t d = iblk0 V c 0 t :=
  before0_0_of V (dat0 V q c) (A_eq0 V q c 0) (after0_0 V q c) t d
theorem before0_1 (c : Dev nD) (t : Fin cfg0.N) (d) : (dat0 V q c).before 1 t d = iblk0 V c 1 t :=
  before0_1_of V (dat0 V q c) (A_eq0 V q c 1) (after0_1 V q c) t d
theorem before0_2 (c : Dev nD) (t : Fin cfg0.N) (d) : (dat0 V q c).before 2 t d = iblk0 V c 2 t :=
  before0_2_of V (dat0 V q c) (A_eq0 V q c 2) (after0_2 V q c) t d
theorem before0_3 (c : Dev nD) (t : Fin cfg0.N) (d) : (dat0 V q c).before 3 t d = iblk0 V c 3 t :=
  before0_3_of V (dat0 V q c) (A_eq0 V q c 3) (after0_3 V q c) t d
theorem before0_4 (c : Dev nD) (t : Fin cfg0.N) (d) : (dat0 V q c).before 4 t d = iblk0 V c 4 t :=
  before0_4_of V (dat0 V q c) (A_eq0 V q c 4) (after0_4 V q c) t d
theorem before0_5 (c : Dev nD) (t : Fin cfg0.N) (d) : (dat0 V q c).before 5 t d = iblk0 V c 5 t :=
  before0_5_of V (dat0 V q c) (A_eq0 V q c 5) (after0_5 V q c) t d
theorem before0_6 (c : Dev nD) (t : Fin cfg0.N) (d) : (dat0 V q c).before 6 t d = iblk0 V c 6 t :=
  before0_6_of V (dat0 V q c) (A_eq0 V q c 6) (after0_6 V q c) t d
theorem before0_7 (c : Dev nD) (t : Fin cfg0.N) (d) : (dat0 V q c).before 7 t d = iblk0 V c 7 t :=
  before0_7_of V (dat0 V q c) (A_eq0 V q c 7) (after0_7 V q c) t d
theorem before0_8 (c : Dev nD) (t : Fin cfg0.N) (d) : (dat0 V q c).before 8 t d = iblk0 V c 8 t :=
  before0_8_of V (dat0 V q c) (A_eq0 V q c 8) (after0_8 V q c) t d
theorem before0_9 (c : Dev nD) (t : Fin cfg0.N) (d) : (dat0 V q c).before 9 t d = iblk0 V c 9 t :=
  before0_9_of V (dat0 V q c) (A_eq0 V q c 9) (after0_9 V q c) t d
theorem before0_10 (c : Dev nD) (t : Fin cfg0.N) (d) : (dat0 V q c).before 10 t d = iblk0 V c 10 t :=
  before0_10_of V (dat0 V q c) (A_eq0 V q c 10) (after0_10 V q c) t d
theorem before0_11 (c : Dev nD) (t : Fin cfg0.N) (d) : (dat0 V q c).before 11 t d = iblk0 V c 11 t :=
  before0_11_of V (dat0 V q c) (A_eq0 V q c 11) (after0_11 V q c) t d
theorem before0_12 (c : Dev nD) (t : Fin cfg0.N) (d) : (dat0 V q c).before 12 t d = iblk0 V c 12 t :=
  before0_12_of V (dat0 V q c) (A_eq0 V q c 12) (after0_12 V q c) t d
theorem before0_13 (c : Dev nD) (t : Fin cfg0.N) (d) : (dat0 V q c).before 13 t d = iblk0 V c 13 t :=
  before0_13_of V (dat0 V q c) (A_eq0 V q c 13) (after0_13 V q c) t d

/-! ## The body obligation, at a generic point -/

def bodyPre0 (c : Dev nD) (t : Fin cfg0.N) : sProp 𝕄 :=
  iprop((dat0 V q c).Φ t.castSucc ∗ (dat0 V q c).owesAt () t.castSucc
    ∗ (∃ d, owns (c : Thread nD τ) (st0_0 t) fullShare ((dat0 V q c).before 0 t d))
    ∗ (∃ d, owns (c : Thread nD τ) (st0_1 t) fullShare ((dat0 V q c).before 1 t d))
    ∗ (∃ d, owns (c : Thread nD τ) (st0_2 t) fullShare ((dat0 V q c).before 2 t d))
    ∗ (∃ d, owns (c : Thread nD τ) (st0_3 t) fullShare ((dat0 V q c).before 3 t d))
    ∗ (∃ d, owns (c : Thread nD τ) (st0_4 t) fullShare ((dat0 V q c).before 4 t d))
    ∗ (∃ d, owns (c : Thread nD τ) (st0_5 t) fullShare ((dat0 V q c).before 5 t d))
    ∗ (∃ d, owns (c : Thread nD τ) (st0_6 t) fullShare ((dat0 V q c).before 6 t d))
    ∗ (∃ d, owns (c : Thread nD τ) (st0_7 t) fullShare ((dat0 V q c).before 7 t d))
    ∗ (∃ d, owns (c : Thread nD τ) (st0_8 t) fullShare ((dat0 V q c).before 8 t d))
    ∗ (∃ d, owns (c : Thread nD τ) (st0_9 t) fullShare ((dat0 V q c).before 9 t d))
    ∗ (∃ d, owns (c : Thread nD τ) (st0_10 t) fullShare ((dat0 V q c).before 10 t d))
    ∗ (∃ d, owns (c : Thread nD τ) (st0_11 t) fullShare ((dat0 V q c).before 11 t d))
    ∗ (∃ d, owns (c : Thread nD τ) (st0_12 t) fullShare ((dat0 V q c).before 12 t d))
    ∗ (∃ d, owns (c : Thread nD τ) (st0_13 t) fullShare ((dat0 V q c).before 13 t d))
    ∗ (∃ d, owns (c : Thread nD τ) (st0_14 t) fullShare ((dat0 V q c).before 14 t d))
    ∗ (∃ d, owns (c : Thread nD τ) (st0_15 t) fullShare ((dat0 V q c).before 15 t d)))

def bodyPost0 (c : Dev nD) (t : Fin cfg0.N) : sProp 𝕄 :=
  iprop((dat0 V q c).Φ t.succ ∗ (dat0 V q c).owesAt () t.succ
    ∗ owns (c : Thread nD τ) (st0_0 t) fullShare ((dat0 V q c).after 0 t)
    ∗ owns (c : Thread nD τ) (st0_1 t) fullShare ((dat0 V q c).after 1 t)
    ∗ owns (c : Thread nD τ) (st0_2 t) fullShare ((dat0 V q c).after 2 t)
    ∗ owns (c : Thread nD τ) (st0_3 t) fullShare ((dat0 V q c).after 3 t)
    ∗ owns (c : Thread nD τ) (st0_4 t) fullShare ((dat0 V q c).after 4 t)
    ∗ owns (c : Thread nD τ) (st0_5 t) fullShare ((dat0 V q c).after 5 t)
    ∗ owns (c : Thread nD τ) (st0_6 t) fullShare ((dat0 V q c).after 6 t)
    ∗ owns (c : Thread nD τ) (st0_7 t) fullShare ((dat0 V q c).after 7 t)
    ∗ owns (c : Thread nD τ) (st0_8 t) fullShare ((dat0 V q c).after 8 t)
    ∗ owns (c : Thread nD τ) (st0_9 t) fullShare ((dat0 V q c).after 9 t)
    ∗ owns (c : Thread nD τ) (st0_10 t) fullShare ((dat0 V q c).after 10 t)
    ∗ owns (c : Thread nD τ) (st0_11 t) fullShare ((dat0 V q c).after 11 t)
    ∗ owns (c : Thread nD τ) (st0_12 t) fullShare ((dat0 V q c).after 12 t)
    ∗ owns (c : Thread nD τ) (st0_13 t) fullShare ((dat0 V q c).after 13 t)
    ∗ owns (c : Thread nD τ) (st0_14 t) fullShare ((dat0 V q c).after 14 t)
    ∗ owns (c : Thread nD τ) (st0_15 t) fullShare ((dat0 V q c).after 15 t))

set_option maxHeartbeats 4000000 in
theorem sound_body0 (c : Dev nD) (t : Fin cfg0.N) :
    bodyPre0 V q c t ⊢ wp frame (wpE (defs₀ (F := F)) Variants.none c none) Set.univ (bodyAt0 t) (fun _ => bodyPost0 V q c t) := by
  unfold bodyPre0 bodyPost0 bodyAt0
  simp only [before0_0, before0_1, before0_2, before0_3, before0_4, before0_5, before0_6, before0_7, before0_8, before0_9, before0_10, before0_11, before0_12, before0_13]
  rw [show (dat0 V q c).Φ t.succ = (dat0 V q c).Φ t.castSucc from rfl,
    show (dat0 V q c).owesAt () t.succ = (dat0 V q c).owesAt () t.castSucc from rfl,
    after0_0, after0_1, after0_2, after0_3, after0_4, after0_5, after0_6, after0_7, after0_8, after0_9, after0_10, after0_11, after0_12, after0_13, after0_14, after0_15]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (sound_kernel0 c Set.univ (grid0.coords t) _ _ _ _ _ _ _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [H15]; · iexists _; iexact H15
  iintro ⟨H0, H1, H2, H3, H4, H5, H6, H7, H8, H9, H10, H11, H12, H13, H14, H15⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- The library's body obligation, at every point. -/
theorem body_obligation0 (c : Dev nD) : BodyObligation (dat0 (F := F) V q c) (defs₀ (F := F)) Variants.none () Set.univ := fun t => by
  rw [bigSep_W0, bigSep_W0]
  exact sound_body0 V q c t

end Cert.Kernel.Fr

end
-- ==== Proof.BitsRegion1.lean ====
/-
  Region 1 of the program, the kernel's half: at any contents `V` of the buffers when the region is entered, what each
  grid point's body leaves in its output block as a function of the fourteen input blocks it is handed (the weights
  and biases whole, the four row-tiled operands 4000 rows at a time), the body's triple, the pipeline's proof data and
  the body obligation at every point.
-/
import proofs.«102057_j23811298690073_2_alg».proof.Proof.Gen.Kernel.Launch
import proofs.«102057_j23811298690073_2_alg».proof.Proof.Gen.Kernel.Skeleton
import proofs.«102057_j23811298690073_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's staging buffer holds its block at every point, fetched there or not. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's staging buffer holds its block at every point, fetched there or not. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
/-- Input window 7's staging buffer holds its block at every point, fetched there or not. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
/-- Input window 8's staging buffer holds its block at every point, fetched there or not. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
/-- Input window 9's staging buffer holds its block at every point, fetched there or not. -/
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)
/-- Input window 10's staging buffer holds its block at every point, fetched there or not. -/
theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)
/-- Input window 11's staging buffer holds its block at every point, fetched there or not. -/
theorem before1_11_of {c : Dev nD} (dat : Dat τ (Elt F) Unit ℕ (UR sig nD τ) ℕ cfg1 c) (hA : dat.A 11 = V c (Pipeline.arrRef spec1 11))
    (hafter : ∀ t, dat.after 11 t = iblk1 V c 11 t) (t : Fin cfg1.N) (d) : dat.before 11 t d = iblk1 V c 11 t :=
  (dat.before_in_eq_fetched 11 rfl (fun _ => rfl) (fun _ _ _ => rfl) (fun t => by rw [hafter]; unfold Dat.blockOf iblk1; rw [hA]; try rfl) t d).trans
    (by unfold Dat.fetched Dat.blockOf iblk1; rw [hA]; try rfl)
/-- Input window 12's staging buffer holds its block at every point, fetched there or not. -/
theorem before1_12_of {c : Dev nD} (dat : Dat τ (Elt F) Unit ℕ (UR sig nD τ) ℕ cfg1 c) (hA : dat.A 12 = V c (Pipeline.arrRef spec1 12))
    (hafter : ∀ t, dat.after 12 t = iblk1 V c 12 t) (t : Fin cfg1.N) (d) : dat.before 12 t d = iblk1 V c 12 t :=
  (dat.before_in_eq_fetched 12 rfl (fun _ => rfl) (fun _ _ _ => rfl) (fun t => by rw [hafter]; unfold Dat.blockOf iblk1; rw [hA]; try rfl) t d).trans
    (by unfold Dat.fetched Dat.blockOf iblk1; rw [hA]; try rfl)
/-- Input window 13's staging buffer holds its block at every point, fetched there or not. -/
theorem before1_13_of {c : Dev nD} (dat : Dat τ (Elt F) Unit ℕ (UR sig nD τ) ℕ cfg1 c) (hA : dat.A 13 = V c (Pipeline.arrRef spec1 13))
    (hafter : ∀ t, dat.after 13 t = iblk1 V c 13 t) (t : Fin cfg1.N) (d) : dat.before 13 t d = iblk1 V c 13 t :=
  (dat.before_in_eq_fetched 13 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every operand whole, the [256, 64] weight matrix in four bands of 64 rows -/

abbrev rA_k1 : Rect S4000x256 := Rect.unit (s := S4000x256) ![0, 0] S4000x256.size inb_S4000x256_S4000x256_0_0
abbrev rR_k1 : Rect S4000x4 := Rect.unit (s := S4000x4) ![0, 0] S4000x4.size inb_S4000x4_S4000x4_0_0
abbrev rN_k1 : Rect S4000x64 := Rect.unit (s := S4000x64) ![0, 0] S4000x64.size inb_S4000x64_S4000x64_0_0
abbrev rW0_k1 : Rect S256x64 := Rect.unit (s := S256x64) ![0, 0] S64x64.size inb_S256x64_S64x64_0_0
abbrev rW1_k1 : Rect S256x64 := Rect.unit (s := S256x64) ![64, 0] S64x64.size inb_S256x64_S64x64_64_0
abbrev rW2_k1 : Rect S256x64 := Rect.unit (s := S256x64) ![128, 0] S64x64.size inb_S256x64_S64x64_128_0
abbrev rW3_k1 : Rect S256x64 := Rect.unit (s := S256x64) ![192, 0] S64x64.size inb_S256x64_S64x64_192_0
abbrev rM_k1 : Rect S64x64 := Rect.unit (s := S64x64) ![0, 0] S64x64.size inb_S64x64_S64x64_0_0
abbrev rB_k1 : Rect S1x64 := Rect.unit (s := S1x64) ![0, 0] S1x64.size inb_S1x64_S1x64_0_0

/-! ## What the body leaves in each output window's buffer -/

/-- The relational projection of the block's rows: four 64-column bands of the segment sums, each scaled by its
    reciprocal count column and multiplied into its band of the weight matrix, summed. -/
def proj1 (x0 : Vec F S4000x256 .f32) (x1 : Vec F S4000x4 .f32) (x4 : Vec F S256x64 .bf16) : FVec F S4000x64 .f32 :=
  k1_pay2 (View.ld x0 rA_k1) (View.ld x1 rR_k1) (View.ld x4 rW0_k1) (View.ld x4 rW1_k1) (View.ld x4 rW2_k1) (View.ld x4 rW3_k1)

/-- Window 14's staging buffer after the body: the highway step of the block's rows. -/
def out1_14 (x0 : Vec F S4000x256 .f32) (x1 : Vec F S4000x4 .f32) (x2 : Vec F S4000x64 .bf16) (x3 : Vec F S4000x64 .bf16) (x4 : Vec F S256x64 .bf16) (x5 : Vec F S1x64 .f32) (x6 : Vec F S64x64 .bf16) (x7 : Vec F S1x64 .f32) (x8 : Vec F S64x64 .bf16) (x9 : Vec F S64x64 .bf16) (x10 : Vec F S1x64 .f32) (x11 : Vec F S64x64 .bf16) (x12 : Vec F S64x64 .bf16) (x13 : Vec F S1x64 .f32) : Vec F S4000x64 .f32 :=
  View.canon [⟨rN_k1, k1_pay1 (k1_pay3 (proj1 x0 x1 x4) (View.ld x2 rN_k1) (View.ld x6 rM_k1) (View.ld x5 rB_k1) (View.ld x7 rB_k1))
    (k1_pay4 (View.ld x3 rN_k1))
    (k1_pay6 (proj1 x0 x1 x4) (View.ld x2 rN_k1) (View.ld x6 rM_k1) (View.ld x5 rB_k1) (View.ld x7 rB_k1) (View.ld x3 rN_k1) (View.ld x8 rM_k1) (View.ld x9 rM_k1) (View.ld x10 rB_k1))
    (k1_pay7 (proj1 x0 x1 x4) (View.ld x2 rN_k1) (View.ld x6 rM_k1) (View.ld x5 rB_k1) (View.ld x7 rB_k1) (View.ld x11 rM_k1))
    (k1_pay8 (View.ld x12 rM_k1)) (View.ld x13 rB_k1)⟩]

/-- One store of the whole block covers it. -/
theorem coverN_k1 (p0 : Vec F S4000x64 .f32) (y : S4000x64.Idx) :
    ∃ pc ∈ ([⟨rN_k1, p0⟩] : List (View.Piece (Elt F) S4000x64 .f32)), y ∈ pc.1.set :=
  View.cover_of_tiled [⟨rN_k1, p0⟩] S4000x64.size (by rfl) y

/-! ## The body's triple -/

set_option maxHeartbeats 4000000 in
/-- The kernel body on whole staging memrefs, the inputs' at contents `xW` and the outputs' at anything, runs to the
    continuation holding the inputs' as they were and each output's at `out1_W` of the inputs'. -/
theorem sound_kernel1 (c : Dev nD) (E : Set ℕ) (i : grid1.Coords) (arg1 : Memref sig .tc .vmem S4000x256 .f32) (harg1 : arg1.IsWhole) (arg2 : Memref sig .tc .vmem S4000x4 .f32) (harg2 : arg2.IsWhole) (arg3 : Memref sig .tc .vmem S4000x64 .bf16) (harg3 : arg3.IsWhole) (arg4 : Memref sig .tc .vmem S4000x64 .bf16) (harg4 : arg4.IsWhole) (arg5 : Memref sig .tc .vmem S256x64 .bf16) (harg5 : arg5.IsWhole) (arg6 : Memref sig .tc .vmem S1x64 .f32) (harg6 : arg6.IsWhole) (arg7 : Memref sig .tc .vmem S64x64 .bf16) (harg7 : arg7.IsWhole) (arg8 : Memref sig .tc .vmem S1x64 .f32) (harg8 : arg8.IsWhole) (arg9 : Memref sig .tc .vmem S64x64 .bf16) (harg9 : arg9.IsWhole) (arg10 : Memref sig .tc .vmem S64x64 .bf16) (harg10 : arg10.IsWhole) (arg11 : Memref sig .tc .vmem S1x64 .f32) (harg11 : arg11.IsWhole) (arg12 : Memref sig .tc .vmem S64x64 .bf16) (harg12 : arg12.IsWhole) (arg13 : Memref sig .tc .vmem S64x64 .bf16) (harg13 : arg13.IsWhole) (arg14 : Memref sig .tc .vmem S1x64 .f32) (harg14 : arg14.IsWhole) (arg15 : Memref sig .tc .vmem S4000x64 .f32) (harg15 : arg15.IsWhole)
    (x0 : Vec F S4000x256 .f32) (x1 : Vec F S4000x4 .f32) (x2 : Vec F S4000x64 .bf16) (x3 : Vec F S4000x64 .bf16) (x4 : Vec F S256x64 .bf16) (x5 : Vec F S1x64 .f32) (x6 : Vec F S64x64 .bf16) (x7 : Vec F S1x64 .f32) (x8 : Vec F S64x64 .bf16) (x9 : Vec F S64x64 .bf16) (x10 : Vec F S1x64 .f32) (x11 : Vec F S64x64 .bf16) (x12 : Vec F S64x64 .bf16) (x13 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare (out1_14 x0 x1 x2 x3 x4 x5 x6 x7 x8 x9 x10 x11 x12 x13)) -∗ K ⟨⟩))
      ⊢ wp frame (wpE (defs₀ (F := F)) Variants.none c none) E (cc1_rgc_highway_kernel_gonly i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc1_rgc_highway_kernel_gonly_eq_skeleton]; unfold cc1_rgc_highway_kernel_gonly_skel
  simp only [k1_part1_eq_skeleton]; unfold k1_part1_skel
  simp only [k1_part2_eq_skeleton]; unfold k1_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, Hk⟩
  subst hf0 hf1 hf2 hf3 hf4 hf5 hf6 hf7 hf8 hf9 hf10 hf11 hf12 hf13
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  iexists _; isplitr
  swap; · iexact H14
  ipureintro
  try dsimp only
  exact View.read_writes_eq_canon _ _ _ (coverN_k1 _)

/-! ## The pipeline's proof data -/

/-- The proof data of pipeline 1 on core `c`: the arrays as the region finds them; after the body at point `t` each
    input's buffer at its block and each output's at `out1_W` of the input blocks; the class's invariant (the scoped
    rest and the generator register, untouched); nothing owed; the shares `q`. -/
def dat1 (q : Fin cfg1.W → PosShare TreeShare) (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => iblk1 V c 13 t
    | ⟨14, _⟩ => out1_14 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t)
  Φ _ := Pipeline.ΦA spec1 c
  q := q
  owed _ := 0

variable (q : Fin cfg1.W → PosShare TreeShare)

theorem A_eq1 (c : Dev nD) (w : Fin cfg1.W) : (dat1 V q c).A w = V c (Pipeline.arrRef spec1 w) := by
  dsimp only [dat1]

theorem after1_0 (c : Dev nD) (t : Fin cfg1.N) : (dat1 V q c).after 0 t = iblk1 V c 0 t := by dsimp only [dat1]
theorem after1_1 (c : Dev nD) (t : Fin cfg1.N) : (dat1 V q c).after 1 t = iblk1 V c 1 t := by dsimp only [dat1]
theorem after1_2 (c : Dev nD) (t : Fin cfg1.N) : (dat1 V q c).after 2 t = iblk1 V c 2 t := by dsimp only [dat1]
theorem after1_3 (c : Dev nD) (t : Fin cfg1.N) : (dat1 V q c).after 3 t = iblk1 V c 3 t := by dsimp only [dat1]
theorem after1_4 (c : Dev nD) (t : Fin cfg1.N) : (dat1 V q c).after 4 t = iblk1 V c 4 t := by dsimp only [dat1]
theorem after1_5 (c : Dev nD) (t : Fin cfg1.N) : (dat1 V q c).after 5 t = iblk1 V c 5 t := by dsimp only [dat1]
theorem after1_6 (c : Dev nD) (t : Fin cfg1.N) : (dat1 V q c).after 6 t = iblk1 V c 6 t := by dsimp only [dat1]
theorem after1_7 (c : Dev nD) (t : Fin cfg1.N) : (dat1 V q c).after 7 t = iblk1 V c 7 t := by dsimp only [dat1]
theorem after1_8 (c : Dev nD) (t : Fin cfg1.N) : (dat1 V q c).after 8 t = iblk1 V c 8 t := by dsimp only [dat1]
theorem after1_9 (c : Dev nD) (t : Fin cfg1.N) : (dat1 V q c).after 9 t = iblk1 V c 9 t := by dsimp only [dat1]
theorem after1_10 (c : Dev nD) (t : Fin cfg1.N) : (dat1 V q c).after 10 t = iblk1 V c 10 t := by dsimp only [dat1]
theorem after1_11 (c : Dev nD) (t : Fin cfg1.N) : (dat1 V q c).after 11 t = iblk1 V c 11 t := by dsimp only [dat1]
theorem after1_12 (c : Dev nD) (t : Fin cfg1.N) : (dat1 V q c).after 12 t = iblk1 V c 12 t := by dsimp only [dat1]
theorem after1_13 (c : Dev nD) (t : Fin cfg1.N) : (dat1 V q c).after 13 t = iblk1 V c 13 t := by dsimp only [dat1]
theorem after1_14 (c : Dev nD) (t : Fin cfg1.N) : (dat1 V q c).after 14 t = out1_14 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) := by dsimp only [dat1]

theorem before1_0 (c : Dev nD) (t : Fin cfg1.N) (d) : (dat1 V q c).before 0 t d = iblk1 V c 0 t :=
  before1_0_of V (dat1 V q c) (A_eq1 V q c 0) (after1_0 V q c) t d
theorem before1_1 (c : Dev nD) (t : Fin cfg1.N) (d) : (dat1 V q c).before 1 t d = iblk1 V c 1 t :=
  before1_1_of V (dat1 V q c) (A_eq1 V q c 1) (after1_1 V q c) t d
theorem before1_2 (c : Dev nD) (t : Fin cfg1.N) (d) : (dat1 V q c).before 2 t d = iblk1 V c 2 t :=
  before1_2_of V (dat1 V q c) (A_eq1 V q c 2) (after1_2 V q c) t d
theorem before1_3 (c : Dev nD) (t : Fin cfg1.N) (d) : (dat1 V q c).before 3 t d = iblk1 V c 3 t :=
  before1_3_of V (dat1 V q c) (A_eq1 V q c 3) (after1_3 V q c) t d
theorem before1_4 (c : Dev nD) (t : Fin cfg1.N) (d) : (dat1 V q c).before 4 t d = iblk1 V c 4 t :=
  before1_4_of V (dat1 V q c) (A_eq1 V q c 4) (after1_4 V q c) t d
theorem before1_5 (c : Dev nD) (t : Fin cfg1.N) (d) : (dat1 V q c).before 5 t d = iblk1 V c 5 t :=
  before1_5_of V (dat1 V q c) (A_eq1 V q c 5) (after1_5 V q c) t d
theorem before1_6 (c : Dev nD) (t : Fin cfg1.N) (d) : (dat1 V q c).before 6 t d = iblk1 V c 6 t :=
  before1_6_of V (dat1 V q c) (A_eq1 V q c 6) (after1_6 V q c) t d
theorem before1_7 (c : Dev nD) (t : Fin cfg1.N) (d) : (dat1 V q c).before 7 t d = iblk1 V c 7 t :=
  before1_7_of V (dat1 V q c) (A_eq1 V q c 7) (after1_7 V q c) t d
theorem before1_8 (c : Dev nD) (t : Fin cfg1.N) (d) : (dat1 V q c).before 8 t d = iblk1 V c 8 t :=
  before1_8_of V (dat1 V q c) (A_eq1 V q c 8) (after1_8 V q c) t d
theorem before1_9 (c : Dev nD) (t : Fin cfg1.N) (d) : (dat1 V q c).before 9 t d = iblk1 V c 9 t :=
  before1_9_of V (dat1 V q c) (A_eq1 V q c 9) (after1_9 V q c) t d
theorem before1_10 (c : Dev nD) (t : Fin cfg1.N) (d) : (dat1 V q c).before 10 t d = iblk1 V c 10 t :=
  before1_10_of V (dat1 V q c) (A_eq1 V q c 10) (after1_10 V q c) t d
theorem before1_11 (c : Dev nD) (t : Fin cfg1.N) (d) : (dat1 V q c).before 11 t d = iblk1 V c 11 t :=
  before1_11_of V (dat1 V q c) (A_eq1 V q c 11) (after1_11 V q c) t d
theorem before1_12 (c : Dev nD) (t : Fin cfg1.N) (d) : (dat1 V q c).before 12 t d = iblk1 V c 12 t :=
  before1_12_of V (dat1 V q c) (A_eq1 V q c 12) (after1_12 V q c) t d
theorem before1_13 (c : Dev nD) (t : Fin cfg1.N) (d) : (dat1 V q c).before 13 t d = iblk1 V c 13 t :=
  before1_13_of V (dat1 V q c) (A_eq1 V q c 13) (after1_13 V q c) t d

/-! ## The body obligation, at a generic point -/

def bodyPre1 (c : Dev nD) (t : Fin cfg1.N) : sProp 𝕄 :=
  iprop((dat1 V q c).Φ t.castSucc ∗ (dat1 V q c).owesAt () t.castSucc
    ∗ (∃ d, owns (c : Thread nD τ) (st1_0 t) fullShare ((dat1 V q c).before 0 t d))
    ∗ (∃ d, owns (c : Thread nD τ) (st1_1 t) fullShare ((dat1 V q c).before 1 t d))
    ∗ (∃ d, owns (c : Thread nD τ) (st1_2 t) fullShare ((dat1 V q c).before 2 t d))
    ∗ (∃ d, owns (c : Thread nD τ) (st1_3 t) fullShare ((dat1 V q c).before 3 t d))
    ∗ (∃ d, owns (c : Thread nD τ) (st1_4 t) fullShare ((dat1 V q c).before 4 t d))
    ∗ (∃ d, owns (c : Thread nD τ) (st1_5 t) fullShare ((dat1 V q c).before 5 t d))
    ∗ (∃ d, owns (c : Thread nD τ) (st1_6 t) fullShare ((dat1 V q c).before 6 t d))
    ∗ (∃ d, owns (c : Thread nD τ) (st1_7 t) fullShare ((dat1 V q c).before 7 t d))
    ∗ (∃ d, owns (c : Thread nD τ) (st1_8 t) fullShare ((dat1 V q c).before 8 t d))
    ∗ (∃ d, owns (c : Thread nD τ) (st1_9 t) fullShare ((dat1 V q c).before 9 t d))
    ∗ (∃ d, owns (c : Thread nD τ) (st1_10 t) fullShare ((dat1 V q c).before 10 t d))
    ∗ (∃ d, owns (c : Thread nD τ) (st1_11 t) fullShare ((dat1 V q c).before 11 t d))
    ∗ (∃ d, owns (c : Thread nD τ) (st1_12 t) fullShare ((dat1 V q c).before 12 t d))
    ∗ (∃ d, owns (c : Thread nD τ) (st1_13 t) fullShare ((dat1 V q c).before 13 t d))
    ∗ (∃ d, owns (c : Thread nD τ) (st1_14 t) fullShare ((dat1 V q c).before 14 t d)))

def bodyPost1 (c : Dev nD) (t : Fin cfg1.N) : sProp 𝕄 :=
  iprop((dat1 V q c).Φ t.succ ∗ (dat1 V q c).owesAt () t.succ
    ∗ owns (c : Thread nD τ) (st1_0 t) fullShare ((dat1 V q c).after 0 t)
    ∗ owns (c : Thread nD τ) (st1_1 t) fullShare ((dat1 V q c).after 1 t)
    ∗ owns (c : Thread nD τ) (st1_2 t) fullShare ((dat1 V q c).after 2 t)
    ∗ owns (c : Thread nD τ) (st1_3 t) fullShare ((dat1 V q c).after 3 t)
    ∗ owns (c : Thread nD τ) (st1_4 t) fullShare ((dat1 V q c).after 4 t)
    ∗ owns (c : Thread nD τ) (st1_5 t) fullShare ((dat1 V q c).after 5 t)
    ∗ owns (c : Thread nD τ) (st1_6 t) fullShare ((dat1 V q c).after 6 t)
    ∗ owns (c : Thread nD τ) (st1_7 t) fullShare ((dat1 V q c).after 7 t)
    ∗ owns (c : Thread nD τ) (st1_8 t) fullShare ((dat1 V q c).after 8 t)
    ∗ owns (c : Thread nD τ) (st1_9 t) fullShare ((dat1 V q c).after 9 t)
    ∗ owns (c : Thread nD τ) (st1_10 t) fullShare ((dat1 V q c).after 10 t)
    ∗ owns (c : Thread nD τ) (st1_11 t) fullShare ((dat1 V q c).after 11 t)
    ∗ owns (c : Thread nD τ) (st1_12 t) fullShare ((dat1 V q c).after 12 t)
    ∗ owns (c : Thread nD τ) (st1_13 t) fullShare ((dat1 V q c).after 13 t)
    ∗ owns (c : Thread nD τ) (st1_14 t) fullShare ((dat1 V q c).after 14 t))

set_option maxHeartbeats 4000000 in
theorem sound_body1 (c : Dev nD) (t : Fin cfg1.N) :
    bodyPre1 V q c t ⊢ wp frame (wpE (defs₀ (F := F)) Variants.none c none) Set.univ (bodyAt1 t) (fun _ => bodyPost1 V q c t) := by
  unfold bodyPre1 bodyPost1 bodyAt1
  simp only [before1_0, before1_1, before1_2, before1_3, before1_4, before1_5, before1_6, before1_7, before1_8, before1_9, before1_10, before1_11, before1_12, before1_13]
  rw [show (dat1 V q c).Φ t.succ = (dat1 V q c).Φ t.castSucc from rfl,
    show (dat1 V q c).owesAt () t.succ = (dat1 V q c).owesAt () t.castSucc from rfl,
    after1_0, after1_1, after1_2, after1_3, after1_4, after1_5, after1_6, after1_7, after1_8, after1_9, after1_10, after1_11, after1_12, after1_13, after1_14]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (sound_kernel1 c Set.univ (grid1.coords t) _ _ _ _ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  iintro ⟨H0, H1, H2, H3, H4, H5, H6, H7, H8, H9, H10, H11, H12, H13, H14⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- The library's body obligation, at every point. -/
theorem body_obligation1 (c : Dev nD) : BodyObligation (dat1 (F := F) V q c) (defs₀ (F := F)) Variants.none () Set.univ := fun t => by
  rw [bigSep_W1, bigSep_W1]
  exact sound_body1 V q c t

end Cert.Kernel.Fr

end
-- ==== Proof.BitsShare0.lean ====
/-
  The first kernel reads the node-feature array through two of its sixteen windows. The fifteen distinct buffers
  behind the windows' arrays, each held whole at the full share, are the same resource as the sixteen windows' arrays
  with the shared buffer held as the two halves of the full share, one half per window, and every other array whole.
-/
import proofs.«102057_j23811298690073_2_alg».proof.Proof.Gen.Kernel.Launch
import Idealize.ShloMosaic.Lib.Pipeline.FrameBody
import Idealize.ShloMosaic.Lib.Pipeline.RegionsLoop
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)

variable {F : FTy → Type} [FloatOps F]

local notation "𝕄" => MT nD τ sig Unit (Elt F) ℕ (UR sig nD τ) ℕ

/-- The first kernel's windows 2 and 3 are the same array: half of the full share each; every other array whole. -/
def q0 : Fin cfg0.W → PosShare TreeShare := fun w => if w = 2 then fullShare.left else if w = 3 then fullShare.right else fullShare

/-- Window 3's array is window 2's; the other fifteen are pairwise distinct. -/
theorem arrRef_image : (Finset.univ : Finset (Fin 16)).image (Pipeline.arrRef spec0) = ((Finset.univ : Finset (Fin 16)).erase 3).image (Pipeline.arrRef spec0) := by decide
theorem arrRef_injOn : Set.InjOn (Pipeline.arrRef spec0) ((Finset.univ : Finset (Fin 16)).erase 3 : Finset (Fin 16)) := by
  intro a ha b hb; revert a b; decide
theorem arrRef_3 : Pipeline.arrRef spec0 3 = Pipeline.arrRef spec0 2 := by decide

variable {c : Dev nD} (dat : Dat τ (Elt F) Unit ℕ (UR sig nD τ) ℕ cfg0 c)

theorem share0_2 (hq : dat.q = q0) : dat.share 2 = fullShare.left := by
  unfold Dat.share; rw [hq]; rfl
theorem share0_3 (hq : dat.q = q0) : dat.share 3 = fullShare.right := by
  unfold Dat.share; rw [hq]; rfl
theorem share0_other (hq : dat.q = q0) (w : Fin cfg0.W) (h2 : w ≠ 2) (h3 : w ≠ 3) : dat.share w = fullShare := by
  unfold Dat.share; rw [hq]; unfold q0; rw [if_neg h2, if_neg h3]; split <;> rfl

variable (V : (b : Ref sig .tc) → Buf (Elt F) ((c : Thread nD τ).loc b))
  (Fa : (w : Fin cfg0.W) → Buf (Elt F) (((cfg0.win w).arr.view.loc (c : Thread nD τ))))

/-- One window's array, a whole buffer, held at share `s` at the contents `V` has for it. -/
theorem win_eq (hF : ∀ w, Fa w = V (Pipeline.arrRef spec0 w)) (w : Fin cfg0.W) (s : PosShare TreeShare) (hs : dat.share w = s) :
    ((cfg0.win w).arr.view.loc (c : Thread nD τ) ↦[(cfg0.win w).arr.view.set]{dat.share w} Fa w : sProp 𝕄)
      = (((c : Thread nD τ).loc (Pipeline.arrRef spec0 w)) ↦{s} V (Pipeline.arrRef spec0 w)) := by
  rw [(arr_whole0 w).set_eq_univ, hs, hF w]

/-- A conjunction over a finite set with one member taken out in front. -/
theorem bigSep_erase' {I : Type} [DecidableEq I] {s : Finset I} {i : I} (hi : i ∈ s) {Φ : I → sProp 𝕄} :
    bigSep s Φ = iprop(Φ i ∗ bigSep (s.erase i) Φ) := BI.bigSep_erase hi

/-- ENTRY: the distinct buffers whole make the sixteen windows' arrays, the shared one split in two halves. -/
theorem arrays0_of_arrBufs (hq : dat.q = q0) (hF : ∀ w, Fa w = V (Pipeline.arrRef spec0 w)) :
    (Pipeline.arrBufs spec0 c V : sProp 𝕄) ⊢ dat.arrays Fa := by
  classical
  unfold Pipeline.arrBufs Dat.arrays
  rw [arrRef_image, bigSep_image_of_injOn arrRef_injOn,
    bigSep_erase' (s := (Finset.univ : Finset (Fin 16)).erase 3) (i := (2 : Fin 16)) (by decide),
    bigSep_erase' (s := (Finset.univ : Finset (Fin 16))) (i := (3 : Fin 16)) (Finset.mem_univ _),
    bigSep_erase' (s := (Finset.univ : Finset (Fin 16)).erase 3) (i := (2 : Fin 16)) (by decide),
    win_eq dat V Fa hF 3 _ (share0_3 dat hq), win_eq dat V Fa hF 2 _ (share0_2 dat hq),
    bigSep_congr (s := ((Finset.univ : Finset (Fin 16)).erase 3).erase 2) (fun w hw => win_eq dat V Fa hF w fullShare (share0_other dat hq w
      (Finset.ne_of_mem_erase hw) (Finset.ne_of_mem_erase (Finset.mem_of_mem_erase hw))))]
  iintro ⟨H2, Hr⟩
  ihave H := (pointsTo_share (PosShare.mem_left_op_right fullShare)).1 $$ H2
  icases H with ⟨Ha, Hb⟩
  isplitl [Hb]; · iexact Hb
  isplitl [Ha]; · iexact Ha
  iexact Hr

/-- EXIT: the sixteen windows' arrays make the distinct buffers whole again, the two halves joined. -/
theorem arrBufs0_of_arrays (hq : dat.q = q0) (hF : ∀ w, Fa w = V (Pipeline.arrRef spec0 w)) :
    dat.arrays Fa ⊢ (Pipeline.arrBufs spec0 c V : sProp 𝕄) := by
  classical
  unfold Pipeline.arrBufs Dat.arrays
  rw [arrRef_image, bigSep_image_of_injOn arrRef_injOn,
    bigSep_erase' (s := (Finset.univ : Finset (Fin 16)).erase 3) (i := (2 : Fin 16)) (by decide),
    bigSep_erase' (s := (Finset.univ : Finset (Fin 16))) (i := (3 : Fin 16)) (Finset.mem_univ _),
    bigSep_erase' (s := (Finset.univ : Finset (Fin 16)).erase 3) (i := (2 : Fin 16)) (by decide),
    win_eq dat V Fa hF 3 _ (share0_3 dat hq), win_eq dat V Fa hF 2 _ (share0_2 dat hq),
    bigSep_congr (s := ((Finset.univ : Finset (Fin 16)).erase 3).erase 2) (fun w hw => win_eq dat V Fa hF w fullShare (share0_other dat hq w
      (Finset.ne_of_mem_erase hw) (Finset.ne_of_mem_erase (Finset.mem_of_mem_erase hw))))]
  iintro ⟨Hb, Ha, Hr⟩
  isplitl [Ha Hb]
  · iapply (pointsTo_share (PosShare.mem_left_op_right fullShare)).2
    isplitl [Ha]; · iexact Ha
    iexact Hb
  iexact Hr

/-- ENTRY of the first kernel: a core's buffers outside the kernels' scratch memory, at contents `V`, are the kernel's
    arrays at the proof data's entry contents and the rest. -/
theorem entry0 (hq : dat.q = q0) (hA : ∀ w, dat.A w = V (Pipeline.arrRef spec0 w)) :
    (unscopedBufs c V : sProp 𝕄) ⊢ iprop(dat.arrays (dat.arrAt · 0) ∗ Pipeline.unscopedRest spec0 c V) := by
  rw [Pipeline.unscopedBufs_split₀ cfgs 0 winFacts₀0.arr_unscoped c V]
  exact sep_mono (arrays0_of_arrBufs dat V _ hq hA) .rfl

/-- EXIT of the first kernel: its arrays at contents `Fa` and the rest at `V` are the core's buffers at any `V'` that
    has the arrays at `Fa` and agrees with `V` off them. -/
theorem exit0 (hq : dat.q = q0) (V' : (b : Ref sig .tc) → Buf (Elt F) ((c : Thread nD τ).loc b))
    (hF : ∀ w, Fa w = V' (Pipeline.arrRef spec0 w))
    (hrest : ∀ b, b ∉ Finset.univ.image (Pipeline.arrRef spec0) → V' b = V b) :
    iprop(dat.arrays Fa ∗ Pipeline.unscopedRest spec0 c V) ⊢ (unscopedBufs c V' : sProp 𝕄) := by
  rw [Pipeline.unscopedBufs_split₀ cfgs 0 winFacts₀0.arr_unscoped c V']
  refine sep_mono (arrBufs0_of_arrays dat V' Fa hq hF) (Entails.of_eq ?_)
  unfold Pipeline.unscopedRest
  exact bigSep_congr fun b hb => by rw [hrest b (Finset.mem_sdiff.mp hb).2]

end Cert.Kernel.Fr

end
-- ==== Proof.BitsRun.lean ====
/-
  The run of the whole program: the host operations before the first kernel, the first kernel over its 25 row blocks,
  the host operations between the kernels, the second kernel, and what every buffer outside the kernels' scratch memory
  holds at the end. The contents at each boundary are a fold from the launch memory: a stretch of host operations
  applies them in order; a kernel leaves its input arrays as it found them and each output array at what its 25
  write-backs leave. The first kernel reads one array (the node features) through two of its windows; it holds that
  array as two halves of the full share, one per window, split at entry and joined again at exit.
-/
import proofs.«102057_j23811298690073_2_alg».proof.Proof.Gen.Kernel.Launch
import proofs.«102057_j23811298690073_2_alg».proof.Proof.Gen.Kernel.Skeleton
import proofs.«102057_j23811298690073_2_alg».proof.Proof.Gen.Kernel.Points
import proofs.«102057_j23811298690073_2_alg».proof.Proof.BitsRegion0
import proofs.«102057_j23811298690073_2_alg».proof.Proof.BitsRegion1
import proofs.«102057_j23811298690073_2_alg».proof.Proof.BitsShare0
import proofs.«102057_j23811298690073_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The shares the kernels hold their input arrays at -/

/-- The second kernel's arrays are distinct: the full share of each. -/
def q1 : Fin cfg1.W → PosShare TreeShare := fun _ => fullShare

/-! ## The buffer contents at each boundary -/

/-- Core `c`'s buffers at launch. -/
abbrev W0 : Dev nD → Valuation τ sig (Elt F) := fun c b => (s₀ m ρ).mem ((c : Dev nD), b)
/-- After the first stretch of host operations. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the first kernel: its two output arrays at what the write-backs leave, everything else as before. -/
def W2 (c : Dev nD) : Valuation τ sig (Elt F) :=
  Function.update (Function.update (W1 m ρ c) (Proc.devRef .tc main_v43_0) ((dat0 (V1 m ρ) q0 c).arrAt 14 cfg0.N))
    (Proc.devRef .tc main_v43_1) ((dat0 (V1 m ρ) q0 c).arrAt 15 cfg0.N)
abbrev V2 : (c : Dev nD) → (b : Ref sig .tc) → Buf (Elt F) ((c : Thread nD τ).loc b) := fun c b => W2 m ρ c b
/-- After the second stretch of host operations. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the second kernel: its output array at what the write-backs leave. -/
def W4 (c : Dev nD) : Valuation τ sig (Elt F) :=
  Function.update (W3 m ρ c) (Proc.devRef .tc main_v74) ((dat1 (V3 m ρ) q1 c).arrAt 14 cfg1.N)
abbrev V4 : (c : Dev nD) → (b : Ref sig .tc) → Buf (Elt F) ((c : Thread nD τ).loc b) := fun c b => W4 m ρ c b

/-! ## What a kernel leaves, against the next boundary's contents -/

theorem W2_v43_0 (c : Dev nD) : W2 m ρ c (Proc.devRef .tc main_v43_0) = (dat0 (V1 m ρ) q0 c).arrAt 14 cfg0.N := by
  unfold W2; rw [Function.update_of_ne (StableHlo.devRef_ne_of_ne (by decide)), Function.update_self]
theorem W2_v43_1 (c : Dev nD) : W2 m ρ c (Proc.devRef .tc main_v43_1) = (dat0 (V1 m ρ) q0 c).arrAt 15 cfg0.N := by
  unfold W2; rw [Function.update_self]
theorem W2_of_ne (c : Dev nD) (b : Ref sig .tc) (h0 : b ≠ main_v43_0) (h1 : b ≠ main_v43_1) :
    W2 m ρ c (Proc.devRef .tc b) = W1 m ρ c (Proc.devRef .tc b) := by
  unfold W2; rw [Function.update_of_ne (StableHlo.devRef_ne_of_ne h1), Function.update_of_ne (StableHlo.devRef_ne_of_ne h0)]

/-- At the first kernel's exit each of its arrays holds what the pipeline leaves: an input what it held at entry, -/
theorem hF0 (c : Dev nD) (w : Fin cfg0.W) : (dat0 (V1 m ρ) q0 c).arrAt w cfg0.N = V2 m ρ c (Pipeline.arrRef spec0 w) := by
  by_cases hw : (cfg0.win w).isOut = false
  · have hne : Pipeline.arrRef spec0 w ≠ main_v43_0 ∧ Pipeline.arrRef spec0 w ≠ main_v43_1 :=
      (by decide : ∀ w : Fin 16, (cfg0.win w).isOut = false → Pipeline.arrRef spec0 w ≠ main_v43_0 ∧ Pipeline.arrRef spec0 w ≠ main_v43_1) w hw
    exact (((dat0 (V1 m ρ) q0 c).arrAt_in w hw _).trans (A_eq0 (V1 m ρ) q0 c w)).trans (W2_of_ne m ρ c (Pipeline.arrRef spec0 w) hne.1 hne.2).symm
  · have h2 : w = 14 ∨ w = 15 := (by decide : ∀ w : Fin 16, ¬ (cfg0.win w).isOut = false → w = 14 ∨ w = 15) w hw
    rcases h2 with rfl | rfl
    · exact (W2_v43_0 m ρ c).symm
    · exact (W2_v43_1 m ρ c).symm
/-- and every other buffer what it held at entry. -/
theorem hrest0 (c : Dev nD) : ∀ b, b ∉ Finset.univ.image (Pipeline.arrRef spec0) → V2 m ρ c b = V1 m ρ c b :=
  fun b hb => W2_of_ne m ρ c b (fun e => hb (e ▸ Finset.mem_image.mpr ⟨14, Finset.mem_univ _, rfl⟩))
    (fun e => hb (e ▸ Finset.mem_image.mpr ⟨15, Finset.mem_univ _, rfl⟩))

theorem W4_v74 (c : Dev nD) : W4 m ρ c (Proc.devRef .tc main_v74) = (dat1 (V3 m ρ) q1 c).arrAt 14 cfg1.N := by
  unfold W4; rw [Function.update_self]
theorem W4_of_ne (c : Dev nD) (b : Ref sig .tc) (h : b ≠ main_v74) : W4 m ρ c (Proc.devRef .tc b) = W3 m ρ c (Proc.devRef .tc b) := by
  unfold W4; rw [Function.update_of_ne (StableHlo.devRef_ne_of_ne h)]
theorem hF1 (c : Dev nD) (w : Fin cfg1.W) : (dat1 (V3 m ρ) q1 c).arrAt w cfg1.N = V4 m ρ c (Pipeline.arrRef spec1 w) := by
  by_cases hw : (cfg1.win w).isOut = false
  · have hne : Pipeline.arrRef spec1 w ≠ main_v74 :=
      (by decide : ∀ w : Fin 15, (cfg1.win w).isOut = false → Pipeline.arrRef spec1 w ≠ main_v74) w hw
    exact (((dat1 (V3 m ρ) q1 c).arrAt_in w hw _).trans (A_eq1 (V3 m ρ) q1 c w)).trans (W4_of_ne m ρ c (Pipeline.arrRef spec1 w) hne).symm
  · have h2 : w = 14 := (by decide : ∀ w : Fin 15, ¬ (cfg1.win w).isOut = false → w = 14) w hw
    subst h2
    exact (W4_v74 m ρ c).symm
theorem hrest1 (c : Dev nD) : ∀ b, b ∉ Finset.univ.image (Pipeline.arrRef spec1) → V4 m ρ c b = V3 m ρ c b :=
  fun b hb => W4_of_ne m ρ c b (fun e => hb (e ▸ Finset.mem_image.mpr ⟨14, Finset.mem_univ _, rfl⟩))

/-! ## The proof data family and the thread state -/

/-- Both pipelines' proof data, each at its kernel's entry contents. -/
def pdats : (p : Fin 2) → (c : Dev nD) → Dat τ (Elt F) Unit ℕ (UR sig nD τ) ℕ (Pipeline.pin (pcfgs (F := F)) adm p) c
  | ⟨0, _⟩ => fun c => dat0 (V1 m ρ) q0 c
  | ⟨1, _⟩ => fun c => dat1 (V3 m ρ) q1 c
abbrev 𝒱₀ : Variants := Variants.none
abbrev L : GSem nD τ sig → Finset Unit := fun _ => ∅
abbrev lv : GSem nD τ sig → Unit → ℕ := fun _ _ => 0
/-- What rides beside the buffers through every segment: the core's generator register at some state and its dues, none. -/
abbrev R (c : Dev nD) : sProp 𝕄 := iprop((∃ r, prngReg c r) ∗ ∃ W, owes (c : Thread nD τ) (0 : CellTallies nD τ sig Unit) W)
/-- A stretch of host operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state: every buffer outside the kernels' scratch memory at the last boundary's contents, the
    generator register at some state. -/
abbrev Tₙ (c : Dev nD) : sProp 𝕄 := iprop(StableHlo.held (c : Thread nD τ) (Pipeline.ucRefs τ sig) (W4 m ρ c) ∗ ∃ r, prngReg c r)

/-! ## The kernels as segments -/

set_option backward.isDefEq.respectTransparency.types false in
/-- The first kernel over the thread state: entered from every buffer at `W1`, left at `W2`. Its arrays are split out
    of the buffers (the shared one in two halves) and put back at the exit contents. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation0 (V1 m ρ) q0 c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := entry0 (pdats m ρ 0 c) (V1 m ρ c) rfl (fun _ => rfl)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := exit0 (pdats m ρ 0 c) (V1 m ρ c) ((pdats m ρ 0 c).arrAt · cfg0.N) rfl (V2 m ρ c) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second kernel over the thread state: entered from every buffer at `W3`, left at `W4`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) q1 c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]

set_option backward.isDefEq.respectTransparency.types false in
/-- THE RUN. From any memory with zero counters every weakly fair execution of the program terminates, nothing
    faulting, and every final state holds every buffer outside the kernels' scratch memory at the last boundary's
    contents `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by
      rewrite [main_chain c, Pipeline.Seg.run_eq_chain,
        show (segs m ρ).map Pipeline.Seg.prog = [
          StableHlo.seq hostOps0,
          Prog.lift (.customCall (Pipeline.entry 0) ()),
          StableHlo.seq hostOps1,
          Prog.lift (.customCall (Pipeline.entry 1) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

end Cert.Kernel.Fr

end
-- ==== Proof.BitsArgs.lean ====
/-
  The program's twenty argument arrays end as launched: no host operation writes one and no kernel output is one, so
  the fold of the boundary contents at an argument's buffer walks back to the launch memory. With the run, this is
  the frame claim.
-/
import proofs.«102057_j23811298690073_2_alg».proof.Proof.BitsRun

set_option maxRecDepth 16384

noncomputable section

namespace Cert.Kernel.Fr

open Cert.Kernel Cert.Kernel.Gen
open Idealize.ShloMosaic Idealize.ShloMosaic.TcCoe
open Idealize.SL.Sem

variable {F : FTy → Type} [FloatOps F]
variable (m : (ℓ : Loc nD τ sig) → Buf (Elt F) ℓ) (ρ : Dev nD → PrngReg)

/-- A buffer no host operation writes and no kernel changes holds its launch contents at the end. -/
theorem W4_kept (c : Dev nD) (b : Ref sig .tc) (h0 : b ∉ hostOps0_W) (h1 : b ∉ hostOps1_W)
    (ha : b ≠ main_v43_0) (hb : b ≠ main_v43_1) (hc : b ≠ main_v74) :
    W4 m ρ c (Proc.devRef .tc b) = m ((c : Thread nD τ).loc b) :=
  (W4_of_ne m ρ c b hc).trans <| (StableHlo.after_of_writes_sub hostOps1 _ hostOps1_writes h1).trans <|
    (W2_of_ne m ρ c b ha hb).trans <| (StableHlo.after_of_writes_sub hostOps0 _ hostOps0_writes h0).trans rfl

/-- THE FRAME: every weakly fair execution terminates, nothing faulting, and the argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun r h c =>
    ⟨(h c _ (mem_uc main_arg0 (by decide))).trans (W4_kept m ρ c main_arg0 (by decide) (by decide) (by decide) (by decide) (by decide)),
      (h c _ (mem_uc main_arg1 (by decide))).trans (W4_kept m ρ c main_arg1 (by decide) (by decide) (by decide) (by decide) (by decide)),
      (h c _ (mem_uc main_arg2 (by decide))).trans (W4_kept m ρ c main_arg2 (by decide) (by decide) (by decide) (by decide) (by decide)),
      (h c _ (mem_uc main_arg3 (by decide))).trans (W4_kept m ρ c main_arg3 (by decide) (by decide) (by decide) (by decide) (by decide)),
      (h c _ (mem_uc main_arg4 (by decide))).trans (W4_kept m ρ c main_arg4 (by decide) (by decide) (by decide) (by decide) (by decide)),
      (h c _ (mem_uc main_arg5 (by decide))).trans (W4_kept m ρ c main_arg5 (by decide) (by decide) (by decide) (by decide) (by decide)),
      (h c _ (mem_uc main_arg6 (by decide))).trans (W4_kept m ρ c main_arg6 (by decide) (by decide) (by decide) (by decide) (by decide)),
      (h c _ (mem_uc main_arg7 (by decide))).trans (W4_kept m ρ c main_arg7 (by decide) (by decide) (by decide) (by decide) (by decide)),
      (h c _ (mem_uc main_arg8 (by decide))).trans (W4_kept m ρ c main_arg8 (by decide) (by decide) (by decide) (by decide) (by decide)),
      (h c _ (mem_uc main_arg9 (by decide))).trans (W4_kept m ρ c main_arg9 (by decide) (by decide) (by decide) (by decide) (by decide)),
      (h c _ (mem_uc main_arg10 (by decide))).trans (W4_kept m ρ c main_arg10 (by decide) (by decide) (by decide) (by decide) (by decide)),
      (h c _ (mem_uc main_arg11 (by decide))).trans (W4_kept m ρ c main_arg11 (by decide) (by decide) (by decide) (by decide) (by decide)),
      (h c _ (mem_uc main_arg12 (by decide))).trans (W4_kept m ρ c main_arg12 (by decide) (by decide) (by decide) (by decide) (by decide)),
      (h c _ (mem_uc main_arg13 (by decide))).trans (W4_kept m ρ c main_arg13 (by decide) (by decide) (by decide) (by decide) (by decide)),
      (h c _ (mem_uc main_arg14 (by decide))).trans (W4_kept m ρ c main_arg14 (by decide) (by decide) (by decide) (by decide) (by decide)),
      (h c _ (mem_uc main_arg15 (by decide))).trans (W4_kept m ρ c main_arg15 (by decide) (by decide) (by decide) (by decide) (by decide)),
      (h c _ (mem_uc main_arg16 (by decide))).trans (W4_kept m ρ c main_arg16 (by decide) (by decide) (by decide) (by decide) (by decide)),
      (h c _ (mem_uc main_arg17 (by decide))).trans (W4_kept m ρ c main_arg17 (by decide) (by decide) (by decide) (by decide) (by decide)),
      (h c _ (mem_uc main_arg18 (by decide))).trans (W4_kept m ρ c main_arg18 (by decide) (by decide) (by decide) (by decide) (by decide)),
      (h c _ (mem_uc main_arg19 (by decide))).trans (W4_kept m ρ c main_arg19 (by decide) (by decide) (by decide) (by decide) (by decide))⟩)
    (run_all m ρ)

end Cert.Kernel.Fr

end
-- ==== Proof.IdealRegion0.lean ====
/-
  Region 0 of the program, the kernel's half: at any contents `V` of the buffers when the region is entered, what each
  grid point's body leaves in its output blocks as a function of the fourteen input blocks it is handed (the weights
  and biases whole, the four row-tiled operands 4000 rows at a time), the body's triple, the pipeline's proof data and
  the body obligation at every point.
-/
import proofs.«102057_j23811298690073_2_alg».proof.Proof.Gen.KernelIdeal.Launch
import proofs.«102057_j23811298690073_2_alg».proof.Proof.Gen.KernelIdeal.Skeleton
import proofs.«102057_j23811298690073_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's staging buffer holds its block at every point, fetched there or not. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's staging buffer holds its block at every point, fetched there or not. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
/-- Input window 7's staging buffer holds its block at every point, fetched there or not. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
/-- Input window 8's staging buffer holds its block at every point, fetched there or not. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)
/-- Input window 9's staging buffer holds its block at every point, fetched there or not. -/
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)
/-- Input window 10's staging buffer holds its block at every point, fetched there or not. -/
theorem before0_10_of {c : Dev nD} (dat : Dat τ (Elt F) Unit ℕ (UR sig nD τ) ℕ cfg0 c) (hA : dat.A 10 = V c (Pipeline.arrRef spec0 10))
    (hafter : ∀ t, dat.after 10 t = iblk0 V c 10 t) (t : Fin cfg0.N) (d) : dat.before 10 t d = iblk0 V c 10 t :=
  (dat.before_in_eq_fetched 10 rfl (fun _ => rfl) (fun _ _ _ => rfl) (fun t => by rw [hafter]; unfold Dat.blockOf iblk0; rw [hA]; try rfl) t d).trans
    (by unfold Dat.fetched Dat.blockOf iblk0; rw [hA]; try rfl)
/-- Input window 11's staging buffer holds its block at every point, fetched there or not. -/
theorem before0_11_of {c : Dev nD} (dat : Dat τ (Elt F) Unit ℕ (UR sig nD τ) ℕ cfg0 c) (hA : dat.A 11 = V c (Pipeline.arrRef spec0 11))
    (hafter : ∀ t, dat.after 11 t = iblk0 V c 11 t) (t : Fin cfg0.N) (d) : dat.before 11 t d = iblk0 V c 11 t :=
  (dat.before_in_eq_fetched 11 rfl (fun _ => rfl) (fun _ _ _ => rfl) (fun t => by rw [hafter]; unfold Dat.blockOf iblk0; rw [hA]; try rfl) t d).trans
    (by unfold Dat.fetched Dat.blockOf iblk0; rw [hA]; try rfl)
/-- Input window 12's staging buffer holds its block at every point, fetched there or not. -/
theorem before0_12_of {c : Dev nD} (dat : Dat τ (Elt F) Unit ℕ (UR sig nD τ) ℕ cfg0 c) (hA : dat.A 12 = V c (Pipeline.arrRef spec0 12))
    (hafter : ∀ t, dat.after 12 t = iblk0 V c 12 t) (t : Fin cfg0.N) (d) : dat.before 12 t d = iblk0 V c 12 t :=
  (dat.before_in_eq_fetched 12 rfl (fun _ => rfl) (fun _ _ _ => rfl) (fun t => by rw [hafter]; unfold Dat.blockOf iblk0; rw [hA]; try rfl) t d).trans
    (by unfold Dat.fetched Dat.blockOf iblk0; rw [hA]; try rfl)
/-- Input window 13's staging buffer holds its block at every point, fetched there or not. -/
theorem before0_13_of {c : Dev nD} (dat : Dat τ (Elt F) Unit ℕ (UR sig nD τ) ℕ cfg0 c) (hA : dat.A 13 = V c (Pipeline.arrRef spec0 13))
    (hafter : ∀ t, dat.after 13 t = iblk0 V c 13 t) (t : Fin cfg0.N) (d) : dat.before 13 t d = iblk0 V c 13 t :=
  (dat.before_in_eq_fetched 13 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every operand whole, the [256, 64] weight matrix in four bands of 64 rows -/

abbrev rA_k0 : Rect S4000x256 := Rect.unit (s := S4000x256) ![0, 0] S4000x256.size inb_S4000x256_S4000x256_0_0
abbrev rR_k0 : Rect S4000x4 := Rect.unit (s := S4000x4) ![0, 0] S4000x4.size inb_S4000x4_S4000x4_0_0
abbrev rN_k0 : Rect S4000x64 := Rect.unit (s := S4000x64) ![0, 0] S4000x64.size inb_S4000x64_S4000x64_0_0
abbrev rW0_k0 : Rect S256x64 := Rect.unit (s := S256x64) ![0, 0] S64x64.size inb_S256x64_S64x64_0_0
abbrev rW1_k0 : Rect S256x64 := Rect.unit (s := S256x64) ![64, 0] S64x64.size inb_S256x64_S64x64_64_0
abbrev rW2_k0 : Rect S256x64 := Rect.unit (s := S256x64) ![128, 0] S64x64.size inb_S256x64_S64x64_128_0
abbrev rW3_k0 : Rect S256x64 := Rect.unit (s := S256x64) ![192, 0] S64x64.size inb_S256x64_S64x64_192_0
abbrev rM_k0 : Rect S64x64 := Rect.unit (s := S64x64) ![0, 0] S64x64.size inb_S64x64_S64x64_0_0
abbrev rB_k0 : Rect S1x64 := Rect.unit (s := S1x64) ![0, 0] S1x64.size inb_S1x64_S1x64_0_0

/-! ## What the body leaves in each output window's buffer -/

/-- The relational projection of the block's rows: four 64-column bands of the segment sums, each scaled by its
    reciprocal count column and multiplied into its band of the weight matrix, summed. -/
def proj0 (x0 : Vec F S4000x256 .f32) (x1 : Vec F S4000x4 .f32) (x4 : Vec F S256x64 .bf16) : FVec F S4000x64 .f32 :=
  k0_pay3 (View.ld x0 rA_k0) (View.ld x1 rR_k0) (View.ld x4 rW0_k0) (View.ld x4 rW1_k0) (View.ld x4 rW2_k0) (View.ld x4 rW3_k0)

/-- Window 14's staging buffer after the body: the hidden state of the block's rows. -/
def out0_14 (x0 : Vec F S4000x256 .f32) (x1 : Vec F S4000x4 .f32) (x2 : Vec F S4000x64 .bf16) (x3 : Vec F S4000x64 .bf16) (x4 : Vec F S256x64 .bf16) (x5 : Vec F S1x64 .f32) (x6 : Vec F S64x64 .bf16) (x7 : Vec F S1x64 .f32) (x8 : Vec F S64x64 .bf16) (x9 : Vec F S64x64 .bf16) (x10 : Vec F S1x64 .f32) (x11 : Vec F S64x64 .bf16) (x12 : Vec F S64x64 .bf16) (x13 : Vec F S1x64 .f32) : Vec F S4000x64 .bf16 :=
  View.canon [⟨rN_k0, k0_pay1 (k0_pay4 (proj0 x0 x1 x4) (View.ld x2 rN_k0) (View.ld x6 rM_k0) (View.ld x5 rB_k0) (View.ld x7 rB_k0))⟩]

/-- Window 15's staging buffer after the body: the highway step of the block's rows. -/
def out0_15 (x0 : Vec F S4000x256 .f32) (x1 : Vec F S4000x4 .f32) (x2 : Vec F S4000x64 .bf16) (x3 : Vec F S4000x64 .bf16) (x4 : Vec F S256x64 .bf16) (x5 : Vec F S1x64 .f32) (x6 : Vec F S64x64 .bf16) (x7 : Vec F S1x64 .f32) (x8 : Vec F S64x64 .bf16) (x9 : Vec F S64x64 .bf16) (x10 : Vec F S1x64 .f32) (x11 : Vec F S64x64 .bf16) (x12 : Vec F S64x64 .bf16) (x13 : Vec F S1x64 .f32) : Vec F S4000x64 .bf16 :=
  View.canon [⟨rN_k0, k0_pay2 (k0_pay4 (proj0 x0 x1 x4) (View.ld x2 rN_k0) (View.ld x6 rM_k0) (View.ld x5 rB_k0) (View.ld x7 rB_k0))
    (k0_pay5 (View.ld x3 rN_k0))
    (k0_pay7 (proj0 x0 x1 x4) (View.ld x2 rN_k0) (View.ld x6 rM_k0) (View.ld x5 rB_k0) (View.ld x7 rB_k0) (View.ld x3 rN_k0) (View.ld x8 rM_k0) (View.ld x9 rM_k0) (View.ld x10 rB_k0))
    (k0_pay8 (proj0 x0 x1 x4) (View.ld x2 rN_k0) (View.ld x6 rM_k0) (View.ld x5 rB_k0) (View.ld x7 rB_k0) (View.ld x11 rM_k0))
    (k0_pay9 (View.ld x12 rM_k0)) (View.ld x13 rB_k0)⟩]

/-- One store of the whole block covers it. -/
theorem coverN_k0 (p0 : Vec F S4000x64 .bf16) (y : S4000x64.Idx) :
    ∃ pc ∈ ([⟨rN_k0, p0⟩] : List (View.Piece (Elt F) S4000x64 .bf16)), y ∈ pc.1.set :=
  View.cover_of_tiled [⟨rN_k0, p0⟩] S4000x64.size (by rfl) y

/-! ## The body's triple -/

set_option maxHeartbeats 4000000 in
/-- The kernel body on whole staging memrefs, the inputs' at contents `xW` and the outputs' at anything, runs to the
    continuation holding the inputs' as they were and each output's at `out0_W` of the inputs'. -/
theorem sound_kernel0 (c : Dev nD) (E : Set ℕ) (i : grid0.Coords) (arg1 : Memref sig .tc .vmem S4000x256 .f32) (harg1 : arg1.IsWhole) (arg2 : Memref sig .tc .vmem S4000x4 .f32) (harg2 : arg2.IsWhole) (arg3 : Memref sig .tc .vmem S4000x64 .bf16) (harg3 : arg3.IsWhole) (arg4 : Memref sig .tc .vmem S4000x64 .bf16) (harg4 : arg4.IsWhole) (arg5 : Memref sig .tc .vmem S256x64 .bf16) (harg5 : arg5.IsWhole) (arg6 : Memref sig .tc .vmem S1x64 .f32) (harg6 : arg6.IsWhole) (arg7 : Memref sig .tc .vmem S64x64 .bf16) (harg7 : arg7.IsWhole) (arg8 : Memref sig .tc .vmem S1x64 .f32) (harg8 : arg8.IsWhole) (arg9 : Memref sig .tc .vmem S64x64 .bf16) (harg9 : arg9.IsWhole) (arg10 : Memref sig .tc .vmem S64x64 .bf16) (harg10 : arg10.IsWhole) (arg11 : Memref sig .tc .vmem S1x64 .f32) (harg11 : arg11.IsWhole) (arg12 : Memref sig .tc .vmem S64x64 .bf16) (harg12 : arg12.IsWhole) (arg13 : Memref sig .tc .vmem S64x64 .bf16) (harg13 : arg13.IsWhole) (arg14 : Memref sig .tc .vmem S1x64 .f32) (harg14 : arg14.IsWhole) (arg15 : Memref sig .tc .vmem S4000x64 .bf16) (harg15 : arg15.IsWhole) (arg16 : Memref sig .tc .vmem S4000x64 .bf16) (harg16 : arg16.IsWhole)
    (x0 : Vec F S4000x256 .f32) (x1 : Vec F S4000x4 .f32) (x2 : Vec F S4000x64 .bf16) (x3 : Vec F S4000x64 .bf16) (x4 : Vec F S256x64 .bf16) (x5 : Vec F S1x64 .f32) (x6 : Vec F S64x64 .bf16) (x7 : Vec F S1x64 .f32) (x8 : Vec F S64x64 .bf16) (x9 : Vec F S64x64 .bf16) (x10 : Vec F S1x64 .f32) (x11 : Vec F S64x64 .bf16) (x12 : Vec F S64x64 .bf16) (x13 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d) ∗ (∃ d, owns (c : Thread nD τ) arg16 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare (out0_14 x0 x1 x2 x3 x4 x5 x6 x7 x8 x9 x10 x11 x12 x13) ∗ owns (c : Thread nD τ) arg16 fullShare (out0_15 x0 x1 x2 x3 x4 x5 x6 x7 x8 x9 x10 x11 x12 x13)) -∗ K ⟨⟩))
      ⊢ wp frame (wpE (defs₀ (F := F)) Variants.none c none) E (cc0_rgc_highway_kernel_full i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_rgc_highway_kernel_full_eq_skeleton]; unfold cc0_rgc_highway_kernel_full_skel
  simp only [k0_part1_eq_skeleton]; unfold k0_part1_skel
  simp only [k0_part2_eq_skeleton]; unfold k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, Hk⟩
  subst hf0 hf1 hf2 hf3 hf4 hf5 hf6 hf7 hf8 hf9 hf10 hf11 hf12 hf13
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists _; isplitr
    swap; · iexact H14
    ipureintro
    try dsimp only
    exact View.read_writes_eq_canon _ _ _ (coverN_k0 _)
  iexists _; isplitr
  swap; · iexact H15
  ipureintro
  try dsimp only
  exact View.read_writes_eq_canon _ _ _ (coverN_k0 _)

/-! ## The pipeline's proof data -/

/-- The proof data of pipeline 0 on core `c`: the arrays as the region finds them; after the body at point `t` each
    input's buffer at its block and each output's at `out0_W` of the input blocks; the class's invariant (the scoped
    rest and the generator register, untouched); nothing owed; the shares `q`. -/
def dat0 (q : Fin cfg0.W → PosShare TreeShare) (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => iblk0 V c 12 t
    | ⟨13, _⟩ => iblk0 V c 13 t
    | ⟨14, _⟩ => out0_14 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t)
    | ⟨15, _⟩ => out0_15 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t)
    | ⟨_ + 16, h⟩ => absurd h (Nat.not_lt.2 (Nat.le_add_left _ _))
  Φ _ := Pipeline.ΦA spec0 c
  q := q
  owed _ := 0

variable (q : Fin cfg0.W → PosShare TreeShare)

theorem A_eq0 (c : Dev nD) (w : Fin cfg0.W) : (dat0 V q c).A w = V c (Pipeline.arrRef spec0 w) := by
  dsimp only [dat0]

theorem after0_0 (c : Dev nD) (t : Fin cfg0.N) : (dat0 V q c).after 0 t = iblk0 V c 0 t := by dsimp only [dat0]
theorem after0_1 (c : Dev nD) (t : Fin cfg0.N) : (dat0 V q c).after 1 t = iblk0 V c 1 t := by dsimp only [dat0]
theorem after0_2 (c : Dev nD) (t : Fin cfg0.N) : (dat0 V q c).after 2 t = iblk0 V c 2 t := by dsimp only [dat0]
theorem after0_3 (c : Dev nD) (t : Fin cfg0.N) : (dat0 V q c).after 3 t = iblk0 V c 3 t := by dsimp only [dat0]
theorem after0_4 (c : Dev nD) (t : Fin cfg0.N) : (dat0 V q c).after 4 t = iblk0 V c 4 t := by dsimp only [dat0]
theorem after0_5 (c : Dev nD) (t : Fin cfg0.N) : (dat0 V q c).after 5 t = iblk0 V c 5 t := by dsimp only [dat0]
theorem after0_6 (c : Dev nD) (t : Fin cfg0.N) : (dat0 V q c).after 6 t = iblk0 V c 6 t := by dsimp only [dat0]
theorem after0_7 (c : Dev nD) (t : Fin cfg0.N) : (dat0 V q c).after 7 t = iblk0 V c 7 t := by dsimp only [dat0]
theorem after0_8 (c : Dev nD) (t : Fin cfg0.N) : (dat0 V q c).after 8 t = iblk0 V c 8 t := by dsimp only [dat0]
theorem after0_9 (c : Dev nD) (t : Fin cfg0.N) : (dat0 V q c).after 9 t = iblk0 V c 9 t := by dsimp only [dat0]
theorem after0_10 (c : Dev nD) (t : Fin cfg0.N) : (dat0 V q c).after 10 t = iblk0 V c 10 t := by dsimp only [dat0]
theorem after0_11 (c : Dev nD) (t : Fin cfg0.N) : (dat0 V q c).after 11 t = iblk0 V c 11 t := by dsimp only [dat0]
theorem after0_12 (c : Dev nD) (t : Fin cfg0.N) : (dat0 V q c).after 12 t = iblk0 V c 12 t := by dsimp only [dat0]
theorem after0_13 (c : Dev nD) (t : Fin cfg0.N) : (dat0 V q c).after 13 t = iblk0 V c 13 t := by dsimp only [dat0]
theorem after0_14 (c : Dev nD) (t : Fin cfg0.N) : (dat0 V q c).after 14 t = out0_14 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) := by dsimp only [dat0]
theorem after0_15 (c : Dev nD) (t : Fin cfg0.N) : (dat0 V q c).after 15 t = out0_15 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) := by dsimp only [dat0]

theorem before0_0 (c : Dev nD) (t : Fin cfg0.N) (d) : (dat0 V q c).before 0 t d = iblk0 V c 0 t :=
  before0_0_of V (dat0 V q c) (A_eq0 V q c 0) (after0_0 V q c) t d
theorem before0_1 (c : Dev nD) (t : Fin cfg0.N) (d) : (dat0 V q c).before 1 t d = iblk0 V c 1 t :=
  before0_1_of V (dat0 V q c) (A_eq0 V q c 1) (after0_1 V q c) t d
theorem before0_2 (c : Dev nD) (t : Fin cfg0.N) (d) : (dat0 V q c).before 2 t d = iblk0 V c 2 t :=
  before0_2_of V (dat0 V q c) (A_eq0 V q c 2) (after0_2 V q c) t d
theorem before0_3 (c : Dev nD) (t : Fin cfg0.N) (d) : (dat0 V q c).before 3 t d = iblk0 V c 3 t :=
  before0_3_of V (dat0 V q c) (A_eq0 V q c 3) (after0_3 V q c) t d
theorem before0_4 (c : Dev nD) (t : Fin cfg0.N) (d) : (dat0 V q c).before 4 t d = iblk0 V c 4 t :=
  before0_4_of V (dat0 V q c) (A_eq0 V q c 4) (after0_4 V q c) t d
theorem before0_5 (c : Dev nD) (t : Fin cfg0.N) (d) : (dat0 V q c).before 5 t d = iblk0 V c 5 t :=
  before0_5_of V (dat0 V q c) (A_eq0 V q c 5) (after0_5 V q c) t d
theorem before0_6 (c : Dev nD) (t : Fin cfg0.N) (d) : (dat0 V q c).before 6 t d = iblk0 V c 6 t :=
  before0_6_of V (dat0 V q c) (A_eq0 V q c 6) (after0_6 V q c) t d
theorem before0_7 (c : Dev nD) (t : Fin cfg0.N) (d) : (dat0 V q c).before 7 t d = iblk0 V c 7 t :=
  before0_7_of V (dat0 V q c) (A_eq0 V q c 7) (after0_7 V q c) t d
theorem before0_8 (c : Dev nD) (t : Fin cfg0.N) (d) : (dat0 V q c).before 8 t d = iblk0 V c 8 t :=
  before0_8_of V (dat0 V q c) (A_eq0 V q c 8) (after0_8 V q c) t d
theorem before0_9 (c : Dev nD) (t : Fin cfg0.N) (d) : (dat0 V q c).before 9 t d = iblk0 V c 9 t :=
  before0_9_of V (dat0 V q c) (A_eq0 V q c 9) (after0_9 V q c) t d
theorem before0_10 (c : Dev nD) (t : Fin cfg0.N) (d) : (dat0 V q c).before 10 t d = iblk0 V c 10 t :=
  before0_10_of V (dat0 V q c) (A_eq0 V q c 10) (after0_10 V q c) t d
theorem before0_11 (c : Dev nD) (t : Fin cfg0.N) (d) : (dat0 V q c).before 11 t d = iblk0 V c 11 t :=
  before0_11_of V (dat0 V q c) (A_eq0 V q c 11) (after0_11 V q c) t d
theorem before0_12 (c : Dev nD) (t : Fin cfg0.N) (d) : (dat0 V q c).before 12 t d = iblk0 V c 12 t :=
  before0_12_of V (dat0 V q c) (A_eq0 V q c 12) (after0_12 V q c) t d
theorem before0_13 (c : Dev nD) (t : Fin cfg0.N) (d) : (dat0 V q c).before 13 t d = iblk0 V c 13 t :=
  before0_13_of V (dat0 V q c) (A_eq0 V q c 13) (after0_13 V q c) t d

/-! ## The body obligation, at a generic point -/

def bodyPre0 (c : Dev nD) (t : Fin cfg0.N) : sProp 𝕄 :=
  iprop((dat0 V q c).Φ t.castSucc ∗ (dat0 V q c).owesAt () t.castSucc
    ∗ (∃ d, owns (c : Thread nD τ) (st0_0 t) fullShare ((dat0 V q c).before 0 t d))
    ∗ (∃ d, owns (c : Thread nD τ) (st0_1 t) fullShare ((dat0 V q c).before 1 t d))
    ∗ (∃ d, owns (c : Thread nD τ) (st0_2 t) fullShare ((dat0 V q c).before 2 t d))
    ∗ (∃ d, owns (c : Thread nD τ) (st0_3 t) fullShare ((dat0 V q c).before 3 t d))
    ∗ (∃ d, owns (c : Thread nD τ) (st0_4 t) fullShare ((dat0 V q c).before 4 t d))
    ∗ (∃ d, owns (c : Thread nD τ) (st0_5 t) fullShare ((dat0 V q c).before 5 t d))
    ∗ (∃ d, owns (c : Thread nD τ) (st0_6 t) fullShare ((dat0 V q c).before 6 t d))
    ∗ (∃ d, owns (c : Thread nD τ) (st0_7 t) fullShare ((dat0 V q c).before 7 t d))
    ∗ (∃ d, owns (c : Thread nD τ) (st0_8 t) fullShare ((dat0 V q c).before 8 t d))
    ∗ (∃ d, owns (c : Thread nD τ) (st0_9 t) fullShare ((dat0 V q c).before 9 t d))
    ∗ (∃ d, owns (c : Thread nD τ) (st0_10 t) fullShare ((dat0 V q c).before 10 t d))
    ∗ (∃ d, owns (c : Thread nD τ) (st0_11 t) fullShare ((dat0 V q c).before 11 t d))
    ∗ (∃ d, owns (c : Thread nD τ) (st0_12 t) fullShare ((dat0 V q c).before 12 t d))
    ∗ (∃ d, owns (c : Thread nD τ) (st0_13 t) fullShare ((dat0 V q c).before 13 t d))
    ∗ (∃ d, owns (c : Thread nD τ) (st0_14 t) fullShare ((dat0 V q c).before 14 t d))
    ∗ (∃ d, owns (c : Thread nD τ) (st0_15 t) fullShare ((dat0 V q c).before 15 t d)))

def bodyPost0 (c : Dev nD) (t : Fin cfg0.N) : sProp 𝕄 :=
  iprop((dat0 V q c).Φ t.succ ∗ (dat0 V q c).owesAt () t.succ
    ∗ owns (c : Thread nD τ) (st0_0 t) fullShare ((dat0 V q c).after 0 t)
    ∗ owns (c : Thread nD τ) (st0_1 t) fullShare ((dat0 V q c).after 1 t)
    ∗ owns (c : Thread nD τ) (st0_2 t) fullShare ((dat0 V q c).after 2 t)
    ∗ owns (c : Thread nD τ) (st0_3 t) fullShare ((dat0 V q c).after 3 t)
    ∗ owns (c : Thread nD τ) (st0_4 t) fullShare ((dat0 V q c).after 4 t)
    ∗ owns (c : Thread nD τ) (st0_5 t) fullShare ((dat0 V q c).after 5 t)
    ∗ owns (c : Thread nD τ) (st0_6 t) fullShare ((dat0 V q c).after 6 t)
    ∗ owns (c : Thread nD τ) (st0_7 t) fullShare ((dat0 V q c).after 7 t)
    ∗ owns (c : Thread nD τ) (st0_8 t) fullShare ((dat0 V q c).after 8 t)
    ∗ owns (c : Thread nD τ) (st0_9 t) fullShare ((dat0 V q c).after 9 t)
    ∗ owns (c : Thread nD τ) (st0_10 t) fullShare ((dat0 V q c).after 10 t)
    ∗ owns (c : Thread nD τ) (st0_11 t) fullShare ((dat0 V q c).after 11 t)
    ∗ owns (c : Thread nD τ) (st0_12 t) fullShare ((dat0 V q c).after 12 t)
    ∗ owns (c : Thread nD τ) (st0_13 t) fullShare ((dat0 V q c).after 13 t)
    ∗ owns (c : Thread nD τ) (st0_14 t) fullShare ((dat0 V q c).after 14 t)
    ∗ owns (c : Thread nD τ) (st0_15 t) fullShare ((dat0 V q c).after 15 t))

set_option maxHeartbeats 4000000 in
theorem sound_body0 (c : Dev nD) (t : Fin cfg0.N) :
    bodyPre0 V q c t ⊢ wp frame (wpE (defs₀ (F := F)) Variants.none c none) Set.univ (bodyAt0 t) (fun _ => bodyPost0 V q c t) := by
  unfold bodyPre0 bodyPost0 bodyAt0
  simp only [before0_0, before0_1, before0_2, before0_3, before0_4, before0_5, before0_6, before0_7, before0_8, before0_9, before0_10, before0_11, before0_12, before0_13]
  rw [show (dat0 V q c).Φ t.succ = (dat0 V q c).Φ t.castSucc from rfl,
    show (dat0 V q c).owesAt () t.succ = (dat0 V q c).owesAt () t.castSucc from rfl,
    after0_0, after0_1, after0_2, after0_3, after0_4, after0_5, after0_6, after0_7, after0_8, after0_9, after0_10, after0_11, after0_12, after0_13, after0_14, after0_15]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (sound_kernel0 c Set.univ (grid0.coords t) _ _ _ _ _ _ _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [H15]; · iexists _; iexact H15
  iintro ⟨H0, H1, H2, H3, H4, H5, H6, H7, H8, H9, H10, H11, H12, H13, H14, H15⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- The library's body obligation, at every point. -/
theorem body_obligation0 (c : Dev nD) : BodyObligation (dat0 (F := F) V q c) (defs₀ (F := F)) Variants.none () Set.univ := fun t => by
  rw [bigSep_W0, bigSep_W0]
  exact sound_body0 V q c t

end Cert.KernelIdeal.Fr

end
-- ==== Proof.IdealRegion1.lean ====
/-
  Region 1 of the program, the kernel's half: at any contents `V` of the buffers when the region is entered, what each
  grid point's body leaves in its output block as a function of the fourteen input blocks it is handed (the weights
  and biases whole, the four row-tiled operands 4000 rows at a time), the body's triple, the pipeline's proof data and
  the body obligation at every point.
-/
import proofs.«102057_j23811298690073_2_alg».proof.Proof.Gen.KernelIdeal.Launch
import proofs.«102057_j23811298690073_2_alg».proof.Proof.Gen.KernelIdeal.Skeleton
import proofs.«102057_j23811298690073_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's staging buffer holds its block at every point, fetched there or not. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's staging buffer holds its block at every point, fetched there or not. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
/-- Input window 7's staging buffer holds its block at every point, fetched there or not. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
/-- Input window 8's staging buffer holds its block at every point, fetched there or not. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
/-- Input window 9's staging buffer holds its block at every point, fetched there or not. -/
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)
/-- Input window 10's staging buffer holds its block at every point, fetched there or not. -/
theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)
/-- Input window 11's staging buffer holds its block at every point, fetched there or not. -/
theorem before1_11_of {c : Dev nD} (dat : Dat τ (Elt F) Unit ℕ (UR sig nD τ) ℕ cfg1 c) (hA : dat.A 11 = V c (Pipeline.arrRef spec1 11))
    (hafter : ∀ t, dat.after 11 t = iblk1 V c 11 t) (t : Fin cfg1.N) (d) : dat.before 11 t d = iblk1 V c 11 t :=
  (dat.before_in_eq_fetched 11 rfl (fun _ => rfl) (fun _ _ _ => rfl) (fun t => by rw [hafter]; unfold Dat.blockOf iblk1; rw [hA]; try rfl) t d).trans
    (by unfold Dat.fetched Dat.blockOf iblk1; rw [hA]; try rfl)
/-- Input window 12's staging buffer holds its block at every point, fetched there or not. -/
theorem before1_12_of {c : Dev nD} (dat : Dat τ (Elt F) Unit ℕ (UR sig nD τ) ℕ cfg1 c) (hA : dat.A 12 = V c (Pipeline.arrRef spec1 12))
    (hafter : ∀ t, dat.after 12 t = iblk1 V c 12 t) (t : Fin cfg1.N) (d) : dat.before 12 t d = iblk1 V c 12 t :=
  (dat.before_in_eq_fetched 12 rfl (fun _ => rfl) (fun _ _ _ => rfl) (fun t => by rw [hafter]; unfold Dat.blockOf iblk1; rw [hA]; try rfl) t d).trans
    (by unfold Dat.fetched Dat.blockOf iblk1; rw [hA]; try rfl)
/-- Input window 13's staging buffer holds its block at every point, fetched there or not. -/
theorem before1_13_of {c : Dev nD} (dat : Dat τ (Elt F) Unit ℕ (UR sig nD τ) ℕ cfg1 c) (hA : dat.A 13 = V c (Pipeline.arrRef spec1 13))
    (hafter : ∀ t, dat.after 13 t = iblk1 V c 13 t) (t : Fin cfg1.N) (d) : dat.before 13 t d = iblk1 V c 13 t :=
  (dat.before_in_eq_fetched 13 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every operand whole, the [256, 64] weight matrix in four bands of 64 rows -/

abbrev rA_k1 : Rect S4000x256 := Rect.unit (s := S4000x256) ![0, 0] S4000x256.size inb_S4000x256_S4000x256_0_0
abbrev rR_k1 : Rect S4000x4 := Rect.unit (s := S4000x4) ![0, 0] S4000x4.size inb_S4000x4_S4000x4_0_0
abbrev rN_k1 : Rect S4000x64 := Rect.unit (s := S4000x64) ![0, 0] S4000x64.size inb_S4000x64_S4000x64_0_0
abbrev rW0_k1 : Rect S256x64 := Rect.unit (s := S256x64) ![0, 0] S64x64.size inb_S256x64_S64x64_0_0
abbrev rW1_k1 : Rect S256x64 := Rect.unit (s := S256x64) ![64, 0] S64x64.size inb_S256x64_S64x64_64_0
abbrev rW2_k1 : Rect S256x64 := Rect.unit (s := S256x64) ![128, 0] S64x64.size inb_S256x64_S64x64_128_0
abbrev rW3_k1 : Rect S256x64 := Rect.unit (s := S256x64) ![192, 0] S64x64.size inb_S256x64_S64x64_192_0
abbrev rM_k1 : Rect S64x64 := Rect.unit (s := S64x64) ![0, 0] S64x64.size inb_S64x64_S64x64_0_0
abbrev rB_k1 : Rect S1x64 := Rect.unit (s := S1x64) ![0, 0] S1x64.size inb_S1x64_S1x64_0_0

/-! ## What the body leaves in each output window's buffer -/

/-- The relational projection of the block's rows: four 64-column bands of the segment sums, each scaled by its
    reciprocal count column and multiplied into its band of the weight matrix, summed. -/
def proj1 (x0 : Vec F S4000x256 .f32) (x1 : Vec F S4000x4 .f32) (x4 : Vec F S256x64 .bf16) : FVec F S4000x64 .f32 :=
  k1_pay2 (View.ld x0 rA_k1) (View.ld x1 rR_k1) (View.ld x4 rW0_k1) (View.ld x4 rW1_k1) (View.ld x4 rW2_k1) (View.ld x4 rW3_k1)

/-- Window 14's staging buffer after the body: the highway step of the block's rows. -/
def out1_14 (x0 : Vec F S4000x256 .f32) (x1 : Vec F S4000x4 .f32) (x2 : Vec F S4000x64 .bf16) (x3 : Vec F S4000x64 .bf16) (x4 : Vec F S256x64 .bf16) (x5 : Vec F S1x64 .f32) (x6 : Vec F S64x64 .bf16) (x7 : Vec F S1x64 .f32) (x8 : Vec F S64x64 .bf16) (x9 : Vec F S64x64 .bf16) (x10 : Vec F S1x64 .f32) (x11 : Vec F S64x64 .bf16) (x12 : Vec F S64x64 .bf16) (x13 : Vec F S1x64 .f32) : Vec F S4000x64 .f32 :=
  View.canon [⟨rN_k1, k1_pay1 (k1_pay3 (proj1 x0 x1 x4) (View.ld x2 rN_k1) (View.ld x6 rM_k1) (View.ld x5 rB_k1) (View.ld x7 rB_k1))
    (k1_pay4 (View.ld x3 rN_k1))
    (k1_pay6 (proj1 x0 x1 x4) (View.ld x2 rN_k1) (View.ld x6 rM_k1) (View.ld x5 rB_k1) (View.ld x7 rB_k1) (View.ld x3 rN_k1) (View.ld x8 rM_k1) (View.ld x9 rM_k1) (View.ld x10 rB_k1))
    (k1_pay7 (proj1 x0 x1 x4) (View.ld x2 rN_k1) (View.ld x6 rM_k1) (View.ld x5 rB_k1) (View.ld x7 rB_k1) (View.ld x11 rM_k1))
    (k1_pay8 (View.ld x12 rM_k1)) (View.ld x13 rB_k1)⟩]

/-- One store of the whole block covers it. -/
theorem coverN_k1 (p0 : Vec F S4000x64 .f32) (y : S4000x64.Idx) :
    ∃ pc ∈ ([⟨rN_k1, p0⟩] : List (View.Piece (Elt F) S4000x64 .f32)), y ∈ pc.1.set :=
  View.cover_of_tiled [⟨rN_k1, p0⟩] S4000x64.size (by rfl) y

/-! ## The body's triple -/

set_option maxHeartbeats 4000000 in
/-- The kernel body on whole staging memrefs, the inputs' at contents `xW` and the outputs' at anything, runs to the
    continuation holding the inputs' as they were and each output's at `out1_W` of the inputs'. -/
theorem sound_kernel1 (c : Dev nD) (E : Set ℕ) (i : grid1.Coords) (arg1 : Memref sig .tc .vmem S4000x256 .f32) (harg1 : arg1.IsWhole) (arg2 : Memref sig .tc .vmem S4000x4 .f32) (harg2 : arg2.IsWhole) (arg3 : Memref sig .tc .vmem S4000x64 .bf16) (harg3 : arg3.IsWhole) (arg4 : Memref sig .tc .vmem S4000x64 .bf16) (harg4 : arg4.IsWhole) (arg5 : Memref sig .tc .vmem S256x64 .bf16) (harg5 : arg5.IsWhole) (arg6 : Memref sig .tc .vmem S1x64 .f32) (harg6 : arg6.IsWhole) (arg7 : Memref sig .tc .vmem S64x64 .bf16) (harg7 : arg7.IsWhole) (arg8 : Memref sig .tc .vmem S1x64 .f32) (harg8 : arg8.IsWhole) (arg9 : Memref sig .tc .vmem S64x64 .bf16) (harg9 : arg9.IsWhole) (arg10 : Memref sig .tc .vmem S64x64 .bf16) (harg10 : arg10.IsWhole) (arg11 : Memref sig .tc .vmem S1x64 .f32) (harg11 : arg11.IsWhole) (arg12 : Memref sig .tc .vmem S64x64 .bf16) (harg12 : arg12.IsWhole) (arg13 : Memref sig .tc .vmem S64x64 .bf16) (harg13 : arg13.IsWhole) (arg14 : Memref sig .tc .vmem S1x64 .f32) (harg14 : arg14.IsWhole) (arg15 : Memref sig .tc .vmem S4000x64 .f32) (harg15 : arg15.IsWhole)
    (x0 : Vec F S4000x256 .f32) (x1 : Vec F S4000x4 .f32) (x2 : Vec F S4000x64 .bf16) (x3 : Vec F S4000x64 .bf16) (x4 : Vec F S256x64 .bf16) (x5 : Vec F S1x64 .f32) (x6 : Vec F S64x64 .bf16) (x7 : Vec F S1x64 .f32) (x8 : Vec F S64x64 .bf16) (x9 : Vec F S64x64 .bf16) (x10 : Vec F S1x64 .f32) (x11 : Vec F S64x64 .bf16) (x12 : Vec F S64x64 .bf16) (x13 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare (out1_14 x0 x1 x2 x3 x4 x5 x6 x7 x8 x9 x10 x11 x12 x13)) -∗ K ⟨⟩))
      ⊢ wp frame (wpE (defs₀ (F := F)) Variants.none c none) E (cc1_rgc_highway_kernel_gonly i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc1_rgc_highway_kernel_gonly_eq_skeleton]; unfold cc1_rgc_highway_kernel_gonly_skel
  simp only [k1_part1_eq_skeleton]; unfold k1_part1_skel
  simp only [k1_part2_eq_skeleton]; unfold k1_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, Hk⟩
  subst hf0 hf1 hf2 hf3 hf4 hf5 hf6 hf7 hf8 hf9 hf10 hf11 hf12 hf13
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  iexists _; isplitr
  swap; · iexact H14
  ipureintro
  try dsimp only
  exact View.read_writes_eq_canon _ _ _ (coverN_k1 _)

/-! ## The pipeline's proof data -/

/-- The proof data of pipeline 1 on core `c`: the arrays as the region finds them; after the body at point `t` each
    input's buffer at its block and each output's at `out1_W` of the input blocks; the class's invariant (the scoped
    rest and the generator register, untouched); nothing owed; the shares `q`. -/
def dat1 (q : Fin cfg1.W → PosShare TreeShare) (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => iblk1 V c 13 t
    | ⟨14, _⟩ => out1_14 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t)
  Φ _ := Pipeline.ΦA spec1 c
  q := q
  owed _ := 0

variable (q : Fin cfg1.W → PosShare TreeShare)

theorem A_eq1 (c : Dev nD) (w : Fin cfg1.W) : (dat1 V q c).A w = V c (Pipeline.arrRef spec1 w) := by
  dsimp only [dat1]

theorem after1_0 (c : Dev nD) (t : Fin cfg1.N) : (dat1 V q c).after 0 t = iblk1 V c 0 t := by dsimp only [dat1]
theorem after1_1 (c : Dev nD) (t : Fin cfg1.N) : (dat1 V q c).after 1 t = iblk1 V c 1 t := by dsimp only [dat1]
theorem after1_2 (c : Dev nD) (t : Fin cfg1.N) : (dat1 V q c).after 2 t = iblk1 V c 2 t := by dsimp only [dat1]
theorem after1_3 (c : Dev nD) (t : Fin cfg1.N) : (dat1 V q c).after 3 t = iblk1 V c 3 t := by dsimp only [dat1]
theorem after1_4 (c : Dev nD) (t : Fin cfg1.N) : (dat1 V q c).after 4 t = iblk1 V c 4 t := by dsimp only [dat1]
theorem after1_5 (c : Dev nD) (t : Fin cfg1.N) : (dat1 V q c).after 5 t = iblk1 V c 5 t := by dsimp only [dat1]
theorem after1_6 (c : Dev nD) (t : Fin cfg1.N) : (dat1 V q c).after 6 t = iblk1 V c 6 t := by dsimp only [dat1]
theorem after1_7 (c : Dev nD) (t : Fin cfg1.N) : (dat1 V q c).after 7 t = iblk1 V c 7 t := by dsimp only [dat1]
theorem after1_8 (c : Dev nD) (t : Fin cfg1.N) : (dat1 V q c).after 8 t = iblk1 V c 8 t := by dsimp only [dat1]
theorem after1_9 (c : Dev nD) (t : Fin cfg1.N) : (dat1 V q c).after 9 t = iblk1 V c 9 t := by dsimp only [dat1]
theorem after1_10 (c : Dev nD) (t : Fin cfg1.N) : (dat1 V q c).after 10 t = iblk1 V c 10 t := by dsimp only [dat1]
theorem after1_11 (c : Dev nD) (t : Fin cfg1.N) : (dat1 V q c).after 11 t = iblk1 V c 11 t := by dsimp only [dat1]
theorem after1_12 (c : Dev nD) (t : Fin cfg1.N) : (dat1 V q c).after 12 t = iblk1 V c 12 t := by dsimp only [dat1]
theorem after1_13 (c : Dev nD) (t : Fin cfg1.N) : (dat1 V q c).after 13 t = iblk1 V c 13 t := by dsimp only [dat1]
theorem after1_14 (c : Dev nD) (t : Fin cfg1.N) : (dat1 V q c).after 14 t = out1_14 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) := by dsimp only [dat1]

theorem before1_0 (c : Dev nD) (t : Fin cfg1.N) (d) : (dat1 V q c).before 0 t d = iblk1 V c 0 t :=
  before1_0_of V (dat1 V q c) (A_eq1 V q c 0) (after1_0 V q c) t d
theorem before1_1 (c : Dev nD) (t : Fin cfg1.N) (d) : (dat1 V q c).before 1 t d = iblk1 V c 1 t :=
  before1_1_of V (dat1 V q c) (A_eq1 V q c 1) (after1_1 V q c) t d
theorem before1_2 (c : Dev nD) (t : Fin cfg1.N) (d) : (dat1 V q c).before 2 t d = iblk1 V c 2 t :=
  before1_2_of V (dat1 V q c) (A_eq1 V q c 2) (after1_2 V q c) t d
theorem before1_3 (c : Dev nD) (t : Fin cfg1.N) (d) : (dat1 V q c).before 3 t d = iblk1 V c 3 t :=
  before1_3_of V (dat1 V q c) (A_eq1 V q c 3) (after1_3 V q c) t d
theorem before1_4 (c : Dev nD) (t : Fin cfg1.N) (d) : (dat1 V q c).before 4 t d = iblk1 V c 4 t :=
  before1_4_of V (dat1 V q c) (A_eq1 V q c 4) (after1_4 V q c) t d
theorem before1_5 (c : Dev nD) (t : Fin cfg1.N) (d) : (dat1 V q c).before 5 t d = iblk1 V c 5 t :=
  before1_5_of V (dat1 V q c) (A_eq1 V q c 5) (after1_5 V q c) t d
theorem before1_6 (c : Dev nD) (t : Fin cfg1.N) (d) : (dat1 V q c).before 6 t d = iblk1 V c 6 t :=
  before1_6_of V (dat1 V q c) (A_eq1 V q c 6) (after1_6 V q c) t d
theorem before1_7 (c : Dev nD) (t : Fin cfg1.N) (d) : (dat1 V q c).before 7 t d = iblk1 V c 7 t :=
  before1_7_of V (dat1 V q c) (A_eq1 V q c 7) (after1_7 V q c) t d
theorem before1_8 (c : Dev nD) (t : Fin cfg1.N) (d) : (dat1 V q c).before 8 t d = iblk1 V c 8 t :=
  before1_8_of V (dat1 V q c) (A_eq1 V q c 8) (after1_8 V q c) t d
theorem before1_9 (c : Dev nD) (t : Fin cfg1.N) (d) : (dat1 V q c).before 9 t d = iblk1 V c 9 t :=
  before1_9_of V (dat1 V q c) (A_eq1 V q c 9) (after1_9 V q c) t d
theorem before1_10 (c : Dev nD) (t : Fin cfg1.N) (d) : (dat1 V q c).before 10 t d = iblk1 V c 10 t :=
  before1_10_of V (dat1 V q c) (A_eq1 V q c 10) (after1_10 V q c) t d
theorem before1_11 (c : Dev nD) (t : Fin cfg1.N) (d) : (dat1 V q c).before 11 t d = iblk1 V c 11 t :=
  before1_11_of V (dat1 V q c) (A_eq1 V q c 11) (after1_11 V q c) t d
theorem before1_12 (c : Dev nD) (t : Fin cfg1.N) (d) : (dat1 V q c).before 12 t d = iblk1 V c 12 t :=
  before1_12_of V (dat1 V q c) (A_eq1 V q c 12) (after1_12 V q c) t d
theorem before1_13 (c : Dev nD) (t : Fin cfg1.N) (d) : (dat1 V q c).before 13 t d = iblk1 V c 13 t :=
  before1_13_of V (dat1 V q c) (A_eq1 V q c 13) (after1_13 V q c) t d

/-! ## The body obligation, at a generic point -/

def bodyPre1 (c : Dev nD) (t : Fin cfg1.N) : sProp 𝕄 :=
  iprop((dat1 V q c).Φ t.castSucc ∗ (dat1 V q c).owesAt () t.castSucc
    ∗ (∃ d, owns (c : Thread nD τ) (st1_0 t) fullShare ((dat1 V q c).before 0 t d))
    ∗ (∃ d, owns (c : Thread nD τ) (st1_1 t) fullShare ((dat1 V q c).before 1 t d))
    ∗ (∃ d, owns (c : Thread nD τ) (st1_2 t) fullShare ((dat1 V q c).before 2 t d))
    ∗ (∃ d, owns (c : Thread nD τ) (st1_3 t) fullShare ((dat1 V q c).before 3 t d))
    ∗ (∃ d, owns (c : Thread nD τ) (st1_4 t) fullShare ((dat1 V q c).before 4 t d))
    ∗ (∃ d, owns (c : Thread nD τ) (st1_5 t) fullShare ((dat1 V q c).before 5 t d))
    ∗ (∃ d, owns (c : Thread nD τ) (st1_6 t) fullShare ((dat1 V q c).before 6 t d))
    ∗ (∃ d, owns (c : Thread nD τ) (st1_7 t) fullShare ((dat1 V q c).before 7 t d))
    ∗ (∃ d, owns (c : Thread nD τ) (st1_8 t) fullShare ((dat1 V q c).before 8 t d))
    ∗ (∃ d, owns (c : Thread nD τ) (st1_9 t) fullShare ((dat1 V q c).before 9 t d))
    ∗ (∃ d, owns (c : Thread nD τ) (st1_10 t) fullShare ((dat1 V q c).before 10 t d))
    ∗ (∃ d, owns (c : Thread nD τ) (st1_11 t) fullShare ((dat1 V q c).before 11 t d))
    ∗ (∃ d, owns (c : Thread nD τ) (st1_12 t) fullShare ((dat1 V q c).before 12 t d))
    ∗ (∃ d, owns (c : Thread nD τ) (st1_13 t) fullShare ((dat1 V q c).before 13 t d))
    ∗ (∃ d, owns (c : Thread nD τ) (st1_14 t) fullShare ((dat1 V q c).before 14 t d)))

def bodyPost1 (c : Dev nD) (t : Fin cfg1.N) : sProp 𝕄 :=
  iprop((dat1 V q c).Φ t.succ ∗ (dat1 V q c).owesAt () t.succ
    ∗ owns (c : Thread nD τ) (st1_0 t) fullShare ((dat1 V q c).after 0 t)
    ∗ owns (c : Thread nD τ) (st1_1 t) fullShare ((dat1 V q c).after 1 t)
    ∗ owns (c : Thread nD τ) (st1_2 t) fullShare ((dat1 V q c).after 2 t)
    ∗ owns (c : Thread nD τ) (st1_3 t) fullShare ((dat1 V q c).after 3 t)
    ∗ owns (c : Thread nD τ) (st1_4 t) fullShare ((dat1 V q c).after 4 t)
    ∗ owns (c : Thread nD τ) (st1_5 t) fullShare ((dat1 V q c).after 5 t)
    ∗ owns (c : Thread nD τ) (st1_6 t) fullShare ((dat1 V q c).after 6 t)
    ∗ owns (c : Thread nD τ) (st1_7 t) fullShare ((dat1 V q c).after 7 t)
    ∗ owns (c : Thread nD τ) (st1_8 t) fullShare ((dat1 V q c).after 8 t)
    ∗ owns (c : Thread nD τ) (st1_9 t) fullShare ((dat1 V q c).after 9 t)
    ∗ owns (c : Thread nD τ) (st1_10 t) fullShare ((dat1 V q c).after 10 t)
    ∗ owns (c : Thread nD τ) (st1_11 t) fullShare ((dat1 V q c).after 11 t)
    ∗ owns (c : Thread nD τ) (st1_12 t) fullShare ((dat1 V q c).after 12 t)
    ∗ owns (c : Thread nD τ) (st1_13 t) fullShare ((dat1 V q c).after 13 t)
    ∗ owns (c : Thread nD τ) (st1_14 t) fullShare ((dat1 V q c).after 14 t))

set_option maxHeartbeats 4000000 in
theorem sound_body1 (c : Dev nD) (t : Fin cfg1.N) :
    bodyPre1 V q c t ⊢ wp frame (wpE (defs₀ (F := F)) Variants.none c none) Set.univ (bodyAt1 t) (fun _ => bodyPost1 V q c t) := by
  unfold bodyPre1 bodyPost1 bodyAt1
  simp only [before1_0, before1_1, before1_2, before1_3, before1_4, before1_5, before1_6, before1_7, before1_8, before1_9, before1_10, before1_11, before1_12, before1_13]
  rw [show (dat1 V q c).Φ t.succ = (dat1 V q c).Φ t.castSucc from rfl,
    show (dat1 V q c).owesAt () t.succ = (dat1 V q c).owesAt () t.castSucc from rfl,
    after1_0, after1_1, after1_2, after1_3, after1_4, after1_5, after1_6, after1_7, after1_8, after1_9, after1_10, after1_11, after1_12, after1_13, after1_14]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (sound_kernel1 c Set.univ (grid1.coords t) _ _ _ _ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  iintro ⟨H0, H1, H2, H3, H4, H5, H6, H7, H8, H9, H10, H11, H12, H13, H14⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- The library's body obligation, at every point. -/
theorem body_obligation1 (c : Dev nD) : BodyObligation (dat1 (F := F) V q c) (defs₀ (F := F)) Variants.none () Set.univ := fun t => by
  rw [bigSep_W1, bigSep_W1]
  exact sound_body1 V q c t

end Cert.KernelIdeal.Fr

end
-- ==== Proof.IdealShare0.lean ====
/-
  The first kernel reads the node-feature array through two of its sixteen windows. The fifteen distinct buffers
  behind the windows' arrays, each held whole at the full share, are the same resource as the sixteen windows' arrays
  with the shared buffer held as the two halves of the full share, one half per window, and every other array whole.
-/
import proofs.«102057_j23811298690073_2_alg».proof.Proof.Gen.KernelIdeal.Launch
import Idealize.ShloMosaic.Lib.Pipeline.FrameBody
import Idealize.ShloMosaic.Lib.Pipeline.RegionsLoop
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)

variable {F : FTy → Type} [FloatOps F]

local notation "𝕄" => MT nD τ sig Unit (Elt F) ℕ (UR sig nD τ) ℕ

/-- The first kernel's windows 2 and 3 are the same array: half of the full share each; every other array whole. -/
def q0 : Fin cfg0.W → PosShare TreeShare := fun w => if w = 2 then fullShare.left else if w = 3 then fullShare.right else fullShare

/-- Window 3's array is window 2's; the other fifteen are pairwise distinct. -/
theorem arrRef_image : (Finset.univ : Finset (Fin 16)).image (Pipeline.arrRef spec0) = ((Finset.univ : Finset (Fin 16)).erase 3).image (Pipeline.arrRef spec0) := by decide
theorem arrRef_injOn : Set.InjOn (Pipeline.arrRef spec0) ((Finset.univ : Finset (Fin 16)).erase 3 : Finset (Fin 16)) := by
  intro a ha b hb; revert a b; decide
theorem arrRef_3 : Pipeline.arrRef spec0 3 = Pipeline.arrRef spec0 2 := by decide

variable {c : Dev nD} (dat : Dat τ (Elt F) Unit ℕ (UR sig nD τ) ℕ cfg0 c)

theorem share0_2 (hq : dat.q = q0) : dat.share 2 = fullShare.left := by
  unfold Dat.share; rw [hq]; rfl
theorem share0_3 (hq : dat.q = q0) : dat.share 3 = fullShare.right := by
  unfold Dat.share; rw [hq]; rfl
theorem share0_other (hq : dat.q = q0) (w : Fin cfg0.W) (h2 : w ≠ 2) (h3 : w ≠ 3) : dat.share w = fullShare := by
  unfold Dat.share; rw [hq]; unfold q0; rw [if_neg h2, if_neg h3]; split <;> rfl

variable (V : (b : Ref sig .tc) → Buf (Elt F) ((c : Thread nD τ).loc b))
  (Fa : (w : Fin cfg0.W) → Buf (Elt F) (((cfg0.win w).arr.view.loc (c : Thread nD τ))))

/-- One window's array, a whole buffer, held at share `s` at the contents `V` has for it. -/
theorem win_eq (hF : ∀ w, Fa w = V (Pipeline.arrRef spec0 w)) (w : Fin cfg0.W) (s : PosShare TreeShare) (hs : dat.share w = s) :
    ((cfg0.win w).arr.view.loc (c : Thread nD τ) ↦[(cfg0.win w).arr.view.set]{dat.share w} Fa w : sProp 𝕄)
      = (((c : Thread nD τ).loc (Pipeline.arrRef spec0 w)) ↦{s} V (Pipeline.arrRef spec0 w)) := by
  rw [(arr_whole0 w).set_eq_univ, hs, hF w]

/-- A conjunction over a finite set with one member taken out in front. -/
theorem bigSep_erase' {I : Type} [DecidableEq I] {s : Finset I} {i : I} (hi : i ∈ s) {Φ : I → sProp 𝕄} :
    bigSep s Φ = iprop(Φ i ∗ bigSep (s.erase i) Φ) := BI.bigSep_erase hi

/-- ENTRY: the distinct buffers whole make the sixteen windows' arrays, the shared one split in two halves. -/
theorem arrays0_of_arrBufs (hq : dat.q = q0) (hF : ∀ w, Fa w = V (Pipeline.arrRef spec0 w)) :
    (Pipeline.arrBufs spec0 c V : sProp 𝕄) ⊢ dat.arrays Fa := by
  classical
  unfold Pipeline.arrBufs Dat.arrays
  rw [arrRef_image, bigSep_image_of_injOn arrRef_injOn,
    bigSep_erase' (s := (Finset.univ : Finset (Fin 16)).erase 3) (i := (2 : Fin 16)) (by decide),
    bigSep_erase' (s := (Finset.univ : Finset (Fin 16))) (i := (3 : Fin 16)) (Finset.mem_univ _),
    bigSep_erase' (s := (Finset.univ : Finset (Fin 16)).erase 3) (i := (2 : Fin 16)) (by decide),
    win_eq dat V Fa hF 3 _ (share0_3 dat hq), win_eq dat V Fa hF 2 _ (share0_2 dat hq),
    bigSep_congr (s := ((Finset.univ : Finset (Fin 16)).erase 3).erase 2) (fun w hw => win_eq dat V Fa hF w fullShare (share0_other dat hq w
      (Finset.ne_of_mem_erase hw) (Finset.ne_of_mem_erase (Finset.mem_of_mem_erase hw))))]
  iintro ⟨H2, Hr⟩
  ihave H := (pointsTo_share (PosShare.mem_left_op_right fullShare)).1 $$ H2
  icases H with ⟨Ha, Hb⟩
  isplitl [Hb]; · iexact Hb
  isplitl [Ha]; · iexact Ha
  iexact Hr

/-- EXIT: the sixteen windows' arrays make the distinct buffers whole again, the two halves joined. -/
theorem arrBufs0_of_arrays (hq : dat.q = q0) (hF : ∀ w, Fa w = V (Pipeline.arrRef spec0 w)) :
    dat.arrays Fa ⊢ (Pipeline.arrBufs spec0 c V : sProp 𝕄) := by
  classical
  unfold Pipeline.arrBufs Dat.arrays
  rw [arrRef_image, bigSep_image_of_injOn arrRef_injOn,
    bigSep_erase' (s := (Finset.univ : Finset (Fin 16)).erase 3) (i := (2 : Fin 16)) (by decide),
    bigSep_erase' (s := (Finset.univ : Finset (Fin 16))) (i := (3 : Fin 16)) (Finset.mem_univ _),
    bigSep_erase' (s := (Finset.univ : Finset (Fin 16)).erase 3) (i := (2 : Fin 16)) (by decide),
    win_eq dat V Fa hF 3 _ (share0_3 dat hq), win_eq dat V Fa hF 2 _ (share0_2 dat hq),
    bigSep_congr (s := ((Finset.univ : Finset (Fin 16)).erase 3).erase 2) (fun w hw => win_eq dat V Fa hF w fullShare (share0_other dat hq w
      (Finset.ne_of_mem_erase hw) (Finset.ne_of_mem_erase (Finset.mem_of_mem_erase hw))))]
  iintro ⟨Hb, Ha, Hr⟩
  isplitl [Ha Hb]
  · iapply (pointsTo_share (PosShare.mem_left_op_right fullShare)).2
    isplitl [Ha]; · iexact Ha
    iexact Hb
  iexact Hr

/-- ENTRY of the first kernel: a core's buffers outside the kernels' scratch memory, at contents `V`, are the kernel's
    arrays at the proof data's entry contents and the rest. -/
theorem entry0 (hq : dat.q = q0) (hA : ∀ w, dat.A w = V (Pipeline.arrRef spec0 w)) :
    (unscopedBufs c V : sProp 𝕄) ⊢ iprop(dat.arrays (dat.arrAt · 0) ∗ Pipeline.unscopedRest spec0 c V) := by
  rw [Pipeline.unscopedBufs_split₀ cfgs 0 winFacts₀0.arr_unscoped c V]
  exact sep_mono (arrays0_of_arrBufs dat V _ hq hA) .rfl

/-- EXIT of the first kernel: its arrays at contents `Fa` and the rest at `V` are the core's buffers at any `V'` that
    has the arrays at `Fa` and agrees with `V` off them. -/
theorem exit0 (hq : dat.q = q0) (V' : (b : Ref sig .tc) → Buf (Elt F) ((c : Thread nD τ).loc b))
    (hF : ∀ w, Fa w = V' (Pipeline.arrRef spec0 w))
    (hrest : ∀ b, b ∉ Finset.univ.image (Pipeline.arrRef spec0) → V' b = V b) :
    iprop(dat.arrays Fa ∗ Pipeline.unscopedRest spec0 c V) ⊢ (unscopedBufs c V' : sProp 𝕄) := by
  rw [Pipeline.unscopedBufs_split₀ cfgs 0 winFacts₀0.arr_unscoped c V']
  refine sep_mono (arrBufs0_of_arrays dat V' Fa hq hF) (Entails.of_eq ?_)
  unfold Pipeline.unscopedRest
  exact bigSep_congr fun b hb => by rw [hrest b (Finset.mem_sdiff.mp hb).2]

end Cert.KernelIdeal.Fr

end
-- ==== Proof.IdealRun.lean ====
/-
  The run of the whole program: the host operations before the first kernel, the first kernel over its 25 row blocks,
  the host operations between the kernels, the second kernel, and what every buffer outside the kernels' scratch memory
  holds at the end. The contents at each boundary are a fold from the launch memory: a stretch of host operations
  applies them in order; a kernel leaves its input arrays as it found them and each output array at what its 25
  write-backs leave. The first kernel reads one array (the node features) through two of its windows; it holds that
  array as two halves of the full share, one per window, split at entry and joined again at exit.
-/
import proofs.«102057_j23811298690073_2_alg».proof.Proof.Gen.KernelIdeal.Launch
import proofs.«102057_j23811298690073_2_alg».proof.Proof.Gen.KernelIdeal.Skeleton
import proofs.«102057_j23811298690073_2_alg».proof.Proof.Gen.KernelIdeal.Points
import proofs.«102057_j23811298690073_2_alg».proof.Proof.IdealRegion0
import proofs.«102057_j23811298690073_2_alg».proof.Proof.IdealRegion1
import proofs.«102057_j23811298690073_2_alg».proof.Proof.IdealShare0
import proofs.«102057_j23811298690073_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The shares the kernels hold their input arrays at -/

/-- The second kernel's arrays are distinct: the full share of each. -/
def q1 : Fin cfg1.W → PosShare TreeShare := fun _ => fullShare

/-! ## The buffer contents at each boundary -/

/-- Core `c`'s buffers at launch. -/
abbrev W0 : Dev nD → Valuation τ sig (Elt F) := fun c b => (s₀ m ρ).mem ((c : Dev nD), b)
/-- After the first stretch of host operations. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the first kernel: its two output arrays at what the write-backs leave, everything else as before. -/
def W2 (c : Dev nD) : Valuation τ sig (Elt F) :=
  Function.update (Function.update (W1 m ρ c) (Proc.devRef .tc main_v43_0) ((dat0 (V1 m ρ) q0 c).arrAt 14 cfg0.N))
    (Proc.devRef .tc main_v43_1) ((dat0 (V1 m ρ) q0 c).arrAt 15 cfg0.N)
abbrev V2 : (c : Dev nD) → (b : Ref sig .tc) → Buf (Elt F) ((c : Thread nD τ).loc b) := fun c b => W2 m ρ c b
/-- After the second stretch of host operations. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the second kernel: its output array at what the write-backs leave. -/
def W4 (c : Dev nD) : Valuation τ sig (Elt F) :=
  Function.update (W3 m ρ c) (Proc.devRef .tc main_v74) ((dat1 (V3 m ρ) q1 c).arrAt 14 cfg1.N)
abbrev V4 : (c : Dev nD) → (b : Ref sig .tc) → Buf (Elt F) ((c : Thread nD τ).loc b) := fun c b => W4 m ρ c b

/-! ## What a kernel leaves, against the next boundary's contents -/

theorem W2_v43_0 (c : Dev nD) : W2 m ρ c (Proc.devRef .tc main_v43_0) = (dat0 (V1 m ρ) q0 c).arrAt 14 cfg0.N := by
  unfold W2; rw [Function.update_of_ne (StableHlo.devRef_ne_of_ne (by decide)), Function.update_self]
theorem W2_v43_1 (c : Dev nD) : W2 m ρ c (Proc.devRef .tc main_v43_1) = (dat0 (V1 m ρ) q0 c).arrAt 15 cfg0.N := by
  unfold W2; rw [Function.update_self]
theorem W2_of_ne (c : Dev nD) (b : Ref sig .tc) (h0 : b ≠ main_v43_0) (h1 : b ≠ main_v43_1) :
    W2 m ρ c (Proc.devRef .tc b) = W1 m ρ c (Proc.devRef .tc b) := by
  unfold W2; rw [Function.update_of_ne (StableHlo.devRef_ne_of_ne h1), Function.update_of_ne (StableHlo.devRef_ne_of_ne h0)]

/-- At the first kernel's exit each of its arrays holds what the pipeline leaves: an input what it held at entry, -/
theorem hF0 (c : Dev nD) (w : Fin cfg0.W) : (dat0 (V1 m ρ) q0 c).arrAt w cfg0.N = V2 m ρ c (Pipeline.arrRef spec0 w) := by
  by_cases hw : (cfg0.win w).isOut = false
  · have hne : Pipeline.arrRef spec0 w ≠ main_v43_0 ∧ Pipeline.arrRef spec0 w ≠ main_v43_1 :=
      (by decide : ∀ w : Fin 16, (cfg0.win w).isOut = false → Pipeline.arrRef spec0 w ≠ main_v43_0 ∧ Pipeline.arrRef spec0 w ≠ main_v43_1) w hw
    exact (((dat0 (V1 m ρ) q0 c).arrAt_in w hw _).trans (A_eq0 (V1 m ρ) q0 c w)).trans (W2_of_ne m ρ c (Pipeline.arrRef spec0 w) hne.1 hne.2).symm
  · have h2 : w = 14 ∨ w = 15 := (by decide : ∀ w : Fin 16, ¬ (cfg0.win w).isOut = false → w = 14 ∨ w = 15) w hw
    rcases h2 with rfl | rfl
    · exact (W2_v43_0 m ρ c).symm
    · exact (W2_v43_1 m ρ c).symm
/-- and every other buffer what it held at entry. -/
theorem hrest0 (c : Dev nD) : ∀ b, b ∉ Finset.univ.image (Pipeline.arrRef spec0) → V2 m ρ c b = V1 m ρ c b :=
  fun b hb => W2_of_ne m ρ c b (fun e => hb (e ▸ Finset.mem_image.mpr ⟨14, Finset.mem_univ _, rfl⟩))
    (fun e => hb (e ▸ Finset.mem_image.mpr ⟨15, Finset.mem_univ _, rfl⟩))

theorem W4_v74 (c : Dev nD) : W4 m ρ c (Proc.devRef .tc main_v74) = (dat1 (V3 m ρ) q1 c).arrAt 14 cfg1.N := by
  unfold W4; rw [Function.update_self]
theorem W4_of_ne (c : Dev nD) (b : Ref sig .tc) (h : b ≠ main_v74) : W4 m ρ c (Proc.devRef .tc b) = W3 m ρ c (Proc.devRef .tc b) := by
  unfold W4; rw [Function.update_of_ne (StableHlo.devRef_ne_of_ne h)]
theorem hF1 (c : Dev nD) (w : Fin cfg1.W) : (dat1 (V3 m ρ) q1 c).arrAt w cfg1.N = V4 m ρ c (Pipeline.arrRef spec1 w) := by
  by_cases hw : (cfg1.win w).isOut = false
  · have hne : Pipeline.arrRef spec1 w ≠ main_v74 :=
      (by decide : ∀ w : Fin 15, (cfg1.win w).isOut = false → Pipeline.arrRef spec1 w ≠ main_v74) w hw
    exact (((dat1 (V3 m ρ) q1 c).arrAt_in w hw _).trans (A_eq1 (V3 m ρ) q1 c w)).trans (W4_of_ne m ρ c (Pipeline.arrRef spec1 w) hne).symm
  · have h2 : w = 14 := (by decide : ∀ w : Fin 15, ¬ (cfg1.win w).isOut = false → w = 14) w hw
    subst h2
    exact (W4_v74 m ρ c).symm
theorem hrest1 (c : Dev nD) : ∀ b, b ∉ Finset.univ.image (Pipeline.arrRef spec1) → V4 m ρ c b = V3 m ρ c b :=
  fun b hb => W4_of_ne m ρ c b (fun e => hb (e ▸ Finset.mem_image.mpr ⟨14, Finset.mem_univ _, rfl⟩))

/-! ## The proof data family and the thread state -/

/-- Both pipelines' proof data, each at its kernel's entry contents. -/
def pdats : (p : Fin 2) → (c : Dev nD) → Dat τ (Elt F) Unit ℕ (UR sig nD τ) ℕ (Pipeline.pin (pcfgs (F := F)) adm p) c
  | ⟨0, _⟩ => fun c => dat0 (V1 m ρ) q0 c
  | ⟨1, _⟩ => fun c => dat1 (V3 m ρ) q1 c
abbrev 𝒱₀ : Variants := Variants.none
abbrev L : GSem nD τ sig → Finset Unit := fun _ => ∅
abbrev lv : GSem nD τ sig → Unit → ℕ := fun _ _ => 0
/-- What rides beside the buffers through every segment: the core's generator register at some state and its dues, none. -/
abbrev R (c : Dev nD) : sProp 𝕄 := iprop((∃ r, prngReg c r) ∗ ∃ W, owes (c : Thread nD τ) (0 : CellTallies nD τ sig Unit) W)
/-- A stretch of host operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state: every buffer outside the kernels' scratch memory at the last boundary's contents, the
    generator register at some state. -/
abbrev Tₙ (c : Dev nD) : sProp 𝕄 := iprop(StableHlo.held (c : Thread nD τ) (Pipeline.ucRefs τ sig) (W4 m ρ c) ∗ ∃ r, prngReg c r)

/-! ## The kernels as segments -/

set_option backward.isDefEq.respectTransparency.types false in
/-- The first kernel over the thread state: entered from every buffer at `W1`, left at `W2`. Its arrays are split out
    of the buffers (the shared one in two halves) and put back at the exit contents. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation0 (V1 m ρ) q0 c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := entry0 (pdats m ρ 0 c) (V1 m ρ c) rfl (fun _ => rfl)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := exit0 (pdats m ρ 0 c) (V1 m ρ c) ((pdats m ρ 0 c).arrAt · cfg0.N) rfl (V2 m ρ c) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second kernel over the thread state: entered from every buffer at `W3`, left at `W4`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) q1 c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]

set_option backward.isDefEq.respectTransparency.types false in
/-- THE RUN. From any memory with zero counters every weakly fair execution of the program terminates, nothing
    faulting, and every final state holds every buffer outside the kernels' scratch memory at the last boundary's
    contents `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by
      rewrite [main_chain c, Pipeline.Seg.run_eq_chain,
        show (segs m ρ).map Pipeline.Seg.prog = [
          StableHlo.seq hostOps0,
          Prog.lift (.customCall (Pipeline.entry 0) ()),
          StableHlo.seq hostOps1,
          Prog.lift (.customCall (Pipeline.entry 1) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

end Cert.KernelIdeal.Fr

end
-- ==== Proof.IdealArgs.lean ====
/-
  The program's twenty argument arrays end as launched: no host operation writes one and no kernel output is one, so
  the fold of the boundary contents at an argument's buffer walks back to the launch memory. With the run, this is
  the frame claim.
-/
import proofs.«102057_j23811298690073_2_alg».proof.Proof.IdealRun

set_option maxRecDepth 16384

noncomputable section

namespace Cert.KernelIdeal.Fr

open Cert.KernelIdeal Cert.KernelIdeal.Gen
open Idealize.ShloMosaic Idealize.ShloMosaic.TcCoe
open Idealize.SL.Sem

variable {F : FTy → Type} [FloatOps F]
variable (m : (ℓ : Loc nD τ sig) → Buf (Elt F) ℓ) (ρ : Dev nD → PrngReg)

/-- A buffer no host operation writes and no kernel changes holds its launch contents at the end. -/
theorem W4_kept (c : Dev nD) (b : Ref sig .tc) (h0 : b ∉ hostOps0_W) (h1 : b ∉ hostOps1_W)
    (ha : b ≠ main_v43_0) (hb : b ≠ main_v43_1) (hc : b ≠ main_v74) :
    W4 m ρ c (Proc.devRef .tc b) = m ((c : Thread nD τ).loc b) :=
  (W4_of_ne m ρ c b hc).trans <| (StableHlo.after_of_writes_sub hostOps1 _ hostOps1_writes h1).trans <|
    (W2_of_ne m ρ c b ha hb).trans <| (StableHlo.after_of_writes_sub hostOps0 _ hostOps0_writes h0).trans rfl

/-- THE FRAME: every weakly fair execution terminates, nothing faulting, and the argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun r h c =>
    ⟨(h c _ (mem_uc main_arg0 (by decide))).trans (W4_kept m ρ c main_arg0 (by decide) (by decide) (by decide) (by decide) (by decide)),
      (h c _ (mem_uc main_arg1 (by decide))).trans (W4_kept m ρ c main_arg1 (by decide) (by decide) (by decide) (by decide) (by decide)),
      (h c _ (mem_uc main_arg2 (by decide))).trans (W4_kept m ρ c main_arg2 (by decide) (by decide) (by decide) (by decide) (by decide)),
      (h c _ (mem_uc main_arg3 (by decide))).trans (W4_kept m ρ c main_arg3 (by decide) (by decide) (by decide) (by decide) (by decide)),
      (h c _ (mem_uc main_arg4 (by decide))).trans (W4_kept m ρ c main_arg4 (by decide) (by decide) (by decide) (by decide) (by decide)),
      (h c _ (mem_uc main_arg5 (by decide))).trans (W4_kept m ρ c main_arg5 (by decide) (by decide) (by decide) (by decide) (by decide)),
      (h c _ (mem_uc main_arg6 (by decide))).trans (W4_kept m ρ c main_arg6 (by decide) (by decide) (by decide) (by decide) (by decide)),
      (h c _ (mem_uc main_arg7 (by decide))).trans (W4_kept m ρ c main_arg7 (by decide) (by decide) (by decide) (by decide) (by decide)),
      (h c _ (mem_uc main_arg8 (by decide))).trans (W4_kept m ρ c main_arg8 (by decide) (by decide) (by decide) (by decide) (by decide)),
      (h c _ (mem_uc main_arg9 (by decide))).trans (W4_kept m ρ c main_arg9 (by decide) (by decide) (by decide) (by decide) (by decide)),
      (h c _ (mem_uc main_arg10 (by decide))).trans (W4_kept m ρ c main_arg10 (by decide) (by decide) (by decide) (by decide) (by decide)),
      (h c _ (mem_uc main_arg11 (by decide))).trans (W4_kept m ρ c main_arg11 (by decide) (by decide) (by decide) (by decide) (by decide)),
      (h c _ (mem_uc main_arg12 (by decide))).trans (W4_kept m ρ c main_arg12 (by decide) (by decide) (by decide) (by decide) (by decide)),
      (h c _ (mem_uc main_arg13 (by decide))).trans (W4_kept m ρ c main_arg13 (by decide) (by decide) (by decide) (by decide) (by decide)),
      (h c _ (mem_uc main_arg14 (by decide))).trans (W4_kept m ρ c main_arg14 (by decide) (by decide) (by decide) (by decide) (by decide)),
      (h c _ (mem_uc main_arg15 (by decide))).trans (W4_kept m ρ c main_arg15 (by decide) (by decide) (by decide) (by decide) (by decide)),
      (h c _ (mem_uc main_arg16 (by decide))).trans (W4_kept m ρ c main_arg16 (by decide) (by decide) (by decide) (by decide) (by decide)),
      (h c _ (mem_uc main_arg17 (by decide))).trans (W4_kept m ρ c main_arg17 (by decide) (by decide) (by decide) (by decide) (by decide)),
      (h c _ (mem_uc main_arg18 (by decide))).trans (W4_kept m ρ c main_arg18 (by decide) (by decide) (by decide) (by decide) (by decide)),
      (h c _ (mem_uc main_arg19 (by decide))).trans (W4_kept m ρ c main_arg19 (by decide) (by decide) (by decide) (by decide) (by decide))⟩)
    (run_all m ρ)

end Cert.KernelIdeal.Fr

end
-- ==== Proof.BlockForms.lean ====
/-
  The two kernel bodies' arithmetic on one block of 4000 rows, as plain index-by-index functions over the extended
  reals: the relational projection with bias, self-loop and self-loop bias (`blkConv`), and the highway step
  (`blkHighway`). The 256 columns of the segment sums are four bands of 64, band j scaled by column j of the
  reciprocal counts and multiplied into the j-th 64-row band of the weight matrix; summing band by band is summing
  over all 256 columns. The highway's two products over 64 columns (the hidden state's and the carried features')
  are one product over 128 columns of the two side by side.
-/
import Idealize.ShloMosaic.PureOps.Ideal
import Idealize.ShloMosaic.Lib.ValueIdx

noncomputable section

open scoped BigOperators

namespace Cert.Rgc.Blk

open Idealize.ShloMosaic Idealize.ShloMosaic.ValueIdx

abbrev B256 : Shape := ⟨2, ![4000, 256]⟩
abbrev B4 : Shape := ⟨2, ![4000, 4]⟩
abbrev B64 : Shape := ⟨2, ![4000, 64]⟩
abbrev M64 : Shape := ⟨2, ![64, 64]⟩
abbrev R64 : Shape := ⟨2, ![1, 64]⟩

/-- Column k < 256 lies in band k / 64, -/
def band (k : Fin 256) : Fin 4 := ⟨k.val / 64, by omega⟩
/-- at offset k mod 64. -/
def off (k : Fin 256) : Fin 64 := ⟨k.val % 64, by omega⟩

/-- Row k of the [256, 64] weight matrix cut into four [64, 64] bands. -/
def wsel (w0 w1 w2 w3 : M64.Idx → EReal) (k : Fin 256) (o : Fin 64) : EReal :=
  if k.val < 64 then w0 (ix2 (off k) o) else if k.val < 128 then w1 (ix2 (off k) o)
  else if k.val < 192 then w2 (ix2 (off k) o) else w3 (ix2 (off k) o)

/-- The convolution before the logistic function, on one block. -/
def blkConv (s : B256.Idx → EReal) (rc : B4.Idx → EReal) (w0 w1 w2 w3 : M64.Idx → EReal) (b : R64.Idx → EReal)
    (xf : B64.Idx → EReal) (ws : M64.Idx → EReal) (bs : R64.Idx → EReal) (r : Fin 4000) (o : Fin 64) : EReal :=
  (((∑ k : Fin 256, (s (ix2 r k) * rc (ix2 r (band k))) * wsel w0 w1 w2 w3 k o) + b (ix2 (0 : Fin 1) o))
      + ∑ d : Fin 64, xf (ix2 r d) * ws (ix2 d o)) + bs (ix2 (0 : Fin 1) o)

/-- Row r of [h, p] side by side times column o of [mh ; mp] stacked. -/
def blkCat (h p : B64.Idx → EReal) (mh mp : M64.Idx → EReal) (r : Fin 4000) (o : Fin 64) : EReal :=
  ∑ k : Fin 128, (if hk : k.val < 64 then h (ix2 r ⟨k.val, hk⟩) else p (ix2 r ⟨k.val - 64, by omega⟩))
    * (if hk : k.val < 64 then mh (ix2 ⟨k.val, hk⟩ o) else mp (ix2 ⟨k.val - 64, by omega⟩ o))

/-- The highway step on one block. -/
def blkHighway (h p : B64.Idx → EReal) (ph pp : M64.Idx → EReal) (pb : R64.Idx → EReal) (th tp : M64.Idx → EReal)
    (tb : R64.Idx → EReal) (r : Fin 4000) (o : Fin 64) : EReal :=
  Ideal.logistic (blkCat h p th tp r o + tb (ix2 (0 : Fin 1) o)) * max (blkCat h p ph pp r o + pb (ix2 (0 : Fin 1) o)) 0
    + (1 - Ideal.logistic (blkCat h p th tp r o + tb (ix2 (0 : Fin 1) o))) * h (ix2 r o)

end Cert.Rgc.Blk

end
-- ==== Proof.LibSum256.lean ====
/-
  A sum over 256 consecutive indices is the sum of its four consecutive bands of 64 indices, in any additive
  commutative monoid: the first 192 indices and the last 64 are split off by `Fin.sum_univ_add`, then the first 128
  and the next 64, then the two halves of the first 128.
-/
import Mathlib.Algebra.BigOperators.Fin

open scoped BigOperators

namespace Cert.LibSum

/-- A sum over `Fin 256` is the sum of the four sums over its bands `[0, 64)`, `[64, 128)`, `[128, 192)` and
    `[192, 256)`, each indexed by the offset inside the band. -/
theorem sum_fin256_bands {M : Type*} [AddCommMonoid M] (f : Fin 256 → M) :
    ∑ k : Fin 256, f k =
      (((∑ d : Fin 64, f ⟨d.val, by omega⟩) + ∑ d : Fin 64, f ⟨64 + d.val, by omega⟩)
        + ∑ d : Fin 64, f ⟨128 + d.val, by omega⟩) + ∑ d : Fin 64, f ⟨192 + d.val, by omega⟩ := by
  have e1 : ∑ k : Fin 256, f k
      = (∑ i : Fin 192, f ⟨i.val, by omega⟩) + ∑ d : Fin 64, f ⟨192 + d.val, by omega⟩ :=
    Fin.sum_univ_add (a := 192) (b := 64) (f := f)
  have e2 : (∑ i : Fin 192, f ⟨i.val, by omega⟩)
      = (∑ i : Fin 128, f ⟨i.val, by omega⟩) + ∑ d : Fin 64, f ⟨128 + d.val, by omega⟩ :=
    Fin.sum_univ_add (a := 128) (b := 64) (f := fun i : Fin 192 => f ⟨i.val, by omega⟩)
  have e3 : (∑ i : Fin 128, f ⟨i.val, by omega⟩)
      = (∑ d : Fin 64, f ⟨d.val, by omega⟩) + ∑ d : Fin 64, f ⟨64 + d.val, by omega⟩ :=
    Fin.sum_univ_add (a := 64) (b := 64) (f := fun i : Fin 128 => f ⟨i.val, by omega⟩)
  rw [e1, e2, e3]

end Cert.LibSum
-- ==== Proof.PayIdeal.lean ====
/-
  The two kernel bodies' arithmetic read at one index (r, o) of a block of 4000 rows, over the extended reals.

  At the ideal values a vector is a function of its index; a truncation, an extension and a shape cast to the same
  shape are the identity; a matrix product into the zero constant is the plain sum over the 64 contracted columns; a
  [4000, 1] column or a [1, 64] row broadcast to [4000, 64] reads, at (r, o), the column at (r, 0) or the row at
  (0, o); a slice of 64 columns from column c reads column c + q. With these the relational projection is the sum of
  four band sums, which is one sum over all 256 columns, and the highway's two products over 64 columns are one
  product over 128 columns.
-/
import proofs.«102057_j23811298690073_2_alg».proof.Proof.Gen.KernelIdeal.Skeleton
import proofs.«102057_j23811298690073_2_alg».proof.Proof.BlockForms
import proofs.«102057_j23811298690073_2_alg».proof.Proof.LibSum256
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Pay

open Idealize.ShloMosaic Idealize.ShloMosaic.ValueIdx Cert.KernelIdeal Cert.KernelIdeal.Gen

/-- The one matrix product of both kernels: [4000, 64] × [64, 64], contracting the left columns with the right rows. -/
abbrev D : DotDims S4000x64 S64x64 S4000x64 := dot_S4000x64_S64x64_S4000x64_1_0_0_1_n_n

/-- The left operand's index at output index `i` and contraction index `q`: row `i 0`, -/
theorem lhs_0 (i : S4000x64.Idx) (q : D.contr.Idx) : (D.lhsIdx i q 0).val = (i 0).val := by
  unfold DotDims.lhsIdx
  rw [dif_neg (show ¬(0 : Fin S4000x64.rank) ∈ D.lhsBatch by decide), dif_pos (show (0 : Fin S4000x64.rank) ∈ D.lhsNonContracting by decide)]
  rfl
/-- column `q`; -/
theorem lhs_1 (i : S4000x64.Idx) (q : D.contr.Idx) : (D.lhsIdx i q 1).val = (q ⟨0, by decide⟩).val :=
  D.lhsIdx_val_of_single rfl i q
/-- the right operand's: row `q`, -/
theorem rhs_0 (i : S4000x64.Idx) (q : D.contr.Idx) : (D.rhsIdx i q 0).val = (q ⟨0, by decide⟩).val :=
  D.rhsIdx_val_of_single rfl i q
/-- column `i 1`. -/
theorem rhs_1 (i : S4000x64.Idx) (q : D.contr.Idx) : (D.rhsIdx i q 1).val = (i 1).val := by
  unfold DotDims.rhsIdx
  rw [dif_neg (show ¬(1 : Fin S64x64.rank) ∈ D.rhsBatch by decide), dif_pos (show (1 : Fin S64x64.rank) ∈ D.rhsNonContracting by decide)]
  rfl

/-- The matrix product into the zero constant, at (r, o): the sum over the 64 contracted columns. -/
theorem mm_apply (a : FVec Ideal S4000x64 .bf16) (w : FVec Ideal S64x64 .bf16) (r : Fin 4000) (o : Fin 64) :
    matmul (F := Ideal) D none a w (constant (F := Ideal) S4000x64 .f32 0x00000000#32) (ix2 r o)
      = ∑ d : Fin 64, a (ix2 r d) * w (ix2 d o) := by
  simp only [matmul]
  rw [Ideal.matmul_constant_zero_apply, ← Equiv.sum_comp (ValueIdx.contrEquiv1 D 64 rfl rfl).symm]
  refine Finset.sum_congr rfl fun k _ => ?_
  have hk := ValueIdx.contrEquiv1_symm_val D 64 rfl rfl k
  have el : D.lhsIdx (ix2 r o) ((ValueIdx.contrEquiv1 D 64 rfl rfl).symm k) = ix2 r k := funext fun a => Fin.ext (by
    match a with
    | ⟨0, _⟩ => exact lhs_0 _ _
    | ⟨1, _⟩ => exact (lhs_1 _ _).trans hk)
  have er : D.rhsIdx (ix2 r o) ((ValueIdx.contrEquiv1 D 64 rfl rfl).symm k) = ix2 k o := funext fun a => Fin.ext (by
    match a with
    | ⟨0, _⟩ => exact (rhs_0 _ _).trans hk
    | ⟨1, _⟩ => exact rhs_1 _ _)
  rw [el, er]

/-- A [4000, 1] column broadcast to [4000, 64] reads, at (r, o), the column at (r, 0). -/
theorem bcol_apply {α : Type} (v : S4000x1.Idx → α) (h : S4000x1.Broadcasts S4000x64) (r : Fin 4000) (o : Fin 64) :
    broadcastTo S4000x64 v h (ix2 r o) = v (ix2 r (0 : Fin 1)) := by
  refine broadcastTo_apply v h (ix2 r o) (ix2 r (0 : Fin 1)) fun ax => ?_
  match ax with
  | ⟨0, _⟩ => rfl
  | ⟨1, _⟩ => rfl

/-- One band of the relational projection at (r, o): the 64 columns from column `c` of the segment sums, each scaled
    by column `j` of the reciprocal counts, times the band's [64, 64] weights. -/
theorem band_apply (c j : Nat) (hc : c + 64 ≤ 256) (hj : j < 4)
    (hS : S4000x256.Slices ![0, c] S4000x64) (hR : S4000x4.Slices ![0, j] S4000x1) (hB : S4000x1.Broadcasts S4000x64)
    (hlt : FTy.bits .bf16 < FTy.bits .f32)
    (x0 : FVec Ideal S4000x256 .f32) (x1 : FVec Ideal S4000x4 .f32) (w : FVec Ideal S64x64 .bf16) (r : Fin 4000) (o : Fin 64) :
    matmul (F := Ideal) D none
        (truncf .bf16 (mulf (extractStridedSlice S4000x64 ![0, c] x0 hS)
          (broadcastTo S4000x64 (extractStridedSlice S4000x1 ![0, j] x1 hR) hB)) hlt)
        w (constant (F := Ideal) S4000x64 .f32 0x00000000#32) (ix2 r o)
      = ∑ d : Fin 64, (x0 (ix2 r (⟨c + d.val, by omega⟩ : Fin 256)) * x1 (ix2 r (⟨j, hj⟩ : Fin 4))) * w (ix2 d o) := by
  rw [mm_apply]
  refine Finset.sum_congr rfl fun d _ => ?_
  rw [truncf_apply, mulf_apply, bcol_apply,
    slice2_axis1_apply c x0 hS r d ⟨c + d.val, by omega⟩ rfl,
    slice2_axis1_apply j x1 hR r (0 : Fin 1) ⟨j, hj⟩ rfl]

/-- Zero plus the four band sums: the relational projection at (r, o), as both kernels accumulate it. -/
def bandSum (x0 : FVec Ideal S4000x256 .f32) (x1 : FVec Ideal S4000x4 .f32) (w0 w1 w2 w3 : FVec Ideal S64x64 .bf16)
    (r : Fin 4000) (o : Fin 64) : EReal :=
  ((((0 : EReal) + ∑ d : Fin 64, (x0 (ix2 r (⟨0 + d.val, by omega⟩ : Fin 256)) * x1 (ix2 r (⟨0, by omega⟩ : Fin 4))) * w0 (ix2 d o))
      + ∑ d : Fin 64, (x0 (ix2 r (⟨64 + d.val, by omega⟩ : Fin 256)) * x1 (ix2 r (⟨1, by omega⟩ : Fin 4))) * w1 (ix2 d o))
    + ∑ d : Fin 64, (x0 (ix2 r (⟨128 + d.val, by omega⟩ : Fin 256)) * x1 (ix2 r (⟨2, by omega⟩ : Fin 4))) * w2 (ix2 d o))
  + ∑ d : Fin 64, (x0 (ix2 r (⟨192 + d.val, by omega⟩ : Fin 256)) * x1 (ix2 r (⟨3, by omega⟩ : Fin 4))) * w3 (ix2 d o)

/-- Kernel 0's relational projection at (r, o) is zero plus the four band sums. -/
theorem proj0_apply (x0 : Vec Ideal S4000x256 .f32) (x1 : Vec Ideal S4000x4 .f32) (w0 w1 w2 w3 : Vec Ideal S64x64 .bf16)
    (r : Fin 4000) (o : Fin 64) :
    k0_pay3 (F := Ideal) x0 x1 w0 w1 w2 w3 (ix2 r o) = bandSum x0 x1 w0 w1 w2 w3 r o := by
  unfold k0_pay3 bandSum
  simp only [shapeCast_self]
  rw [addf_apply, addf_apply, addf_apply, addf_apply, broadcast_apply,
    band_apply 0 0 (by omega) (by omega), band_apply 64 1 (by omega) (by omega),
    band_apply 128 2 (by omega) (by omega), band_apply 192 3 (by omega) (by omega)]
  rw [show FloatOps.ofBits (F := Ideal) .f32 0x00000000#32 = (0 : EReal) from Ideal.ofBits_zero_f32]

/-- Kernel 1's relational projection at (r, o) is the same. -/
theorem proj1_apply (x0 : Vec Ideal S4000x256 .f32) (x1 : Vec Ideal S4000x4 .f32) (w0 w1 w2 w3 : Vec Ideal S64x64 .bf16)
    (r : Fin 4000) (o : Fin 64) :
    k1_pay2 (F := Ideal) x0 x1 w0 w1 w2 w3 (ix2 r o) = bandSum x0 x1 w0 w1 w2 w3 r o := by
  unfold k1_pay2 bandSum
  simp only [shapeCast_self]
  rw [addf_apply, addf_apply, addf_apply, addf_apply, broadcast_apply,
    band_apply 0 0 (by omega) (by omega), band_apply 64 1 (by omega) (by omega),
    band_apply 128 2 (by omega) (by omega), band_apply 192 3 (by omega) (by omega)]
  rw [show FloatOps.ofBits (F := Ideal) .f32 0x00000000#32 = (0 : EReal) from Ideal.ofBits_zero_f32]

open Cert.Rgc.Blk in
/-- The weight row of column `64·j + d` is row `d` of band `j`, and that column lies in band `j` at offset `d`. -/
theorem wsel_0 (w0 w1 w2 w3 : M64.Idx → EReal) (d : Fin 64) (o : Fin 64) :
    wsel w0 w1 w2 w3 (⟨0 + d.val, by omega⟩ : Fin 256) o = w0 (ix2 d o) := by
  have hd := d.isLt
  have hoff : off (⟨0 + d.val, by omega⟩ : Fin 256) = d := Fin.ext (by show (0 + d.val) % 64 = d.val; omega)
  unfold wsel
  rw [if_pos (show 0 + d.val < 64 by omega), hoff]
open Cert.Rgc.Blk in
/-- The same for band 1, -/
theorem wsel_1 (w0 w1 w2 w3 : M64.Idx → EReal) (d : Fin 64) (o : Fin 64) :
    wsel w0 w1 w2 w3 (⟨64 + d.val, by omega⟩ : Fin 256) o = w1 (ix2 d o) := by
  have hd := d.isLt
  have hoff : off (⟨64 + d.val, by omega⟩ : Fin 256) = d := Fin.ext (by show (64 + d.val) % 64 = d.val; omega)
  unfold wsel
  rw [if_neg (show ¬ 64 + d.val < 64 by omega), if_pos (show 64 + d.val < 128 by omega), hoff]
open Cert.Rgc.Blk in
/-- band 2 -/
theorem wsel_2 (w0 w1 w2 w3 : M64.Idx → EReal) (d : Fin 64) (o : Fin 64) :
    wsel w0 w1 w2 w3 (⟨128 + d.val, by omega⟩ : Fin 256) o = w2 (ix2 d o) := by
  have hd := d.isLt
  have hoff : off (⟨128 + d.val, by omega⟩ : Fin 256) = d := Fin.ext (by show (128 + d.val) % 64 = d.val; omega)
  unfold wsel
  rw [if_neg (show ¬ 128 + d.val < 64 by omega), if_neg (show ¬ 128 + d.val < 128 by omega),
    if_pos (show 128 + d.val < 192 by omega), hoff]
open Cert.Rgc.Blk in
/-- and band 3. -/
theorem wsel_3 (w0 w1 w2 w3 : M64.Idx → EReal) (d : Fin 64) (o : Fin 64) :
    wsel w0 w1 w2 w3 (⟨192 + d.val, by omega⟩ : Fin 256) o = w3 (ix2 d o) := by
  have hd := d.isLt
  have hoff : off (⟨192 + d.val, by omega⟩ : Fin 256) = d := Fin.ext (by show (192 + d.val) % 64 = d.val; omega)
  unfold wsel
  rw [if_neg (show ¬ 192 + d.val < 64 by omega), if_neg (show ¬ 192 + d.val < 128 by omega),
    if_neg (show ¬ 192 + d.val < 192 by omega), hoff]

open Cert.Rgc.Blk in
/-- Column `64·j + d` lies in band `j`. -/
theorem band_at (c j : Nat) (d : Fin 64) (hc : c + 64 ≤ 256) (hj : j < 4) (hcj : c = 64 * j) :
    band (⟨c + d.val, by omega⟩ : Fin 256) = (⟨j, hj⟩ : Fin 4) :=
  Fin.ext (by have hd := d.isLt; show (c + d.val) / 64 = j; omega)

open Cert.Rgc.Blk in
/-- The sum over all 256 columns is zero plus the four band sums. -/
theorem sum256_eq_bandSum (x0 : B256.Idx → EReal) (x1 : B4.Idx → EReal) (w0 w1 w2 w3 : M64.Idx → EReal)
    (r : Fin 4000) (o : Fin 64) :
    ∑ k : Fin 256, (x0 (ix2 r k) * x1 (ix2 r (band k))) * wsel w0 w1 w2 w3 k o = bandSum x0 x1 w0 w1 w2 w3 r o := by
  unfold bandSum
  rw [Cert.LibSum.sum_fin256_bands, zero_add]
  refine congrArg₂ (· + ·) (congrArg₂ (· + ·) (congrArg₂ (· + ·) ?_ ?_) ?_) ?_
  · exact Finset.sum_congr rfl fun d _ => by
      have e : (⟨d.val, by omega⟩ : Fin 256) = ⟨0 + d.val, by omega⟩ := Fin.ext (Nat.zero_add _).symm
      rw [e, wsel_0, band_at 0 0 d (by omega) (by omega) rfl]
  · exact Finset.sum_congr rfl fun d _ => by rw [wsel_1, band_at 64 1 d (by omega) (by omega) rfl]
  · exact Finset.sum_congr rfl fun d _ => by rw [wsel_2, band_at 128 2 d (by omega) (by omega) rfl]
  · exact Finset.sum_congr rfl fun d _ => by rw [wsel_3, band_at 192 3 d (by omega) (by omega) rfl]

/-- Kernel 0's hidden state at (r, o): the logistic function of the block's convolution. -/
theorem hidden0_apply (x0 : Vec Ideal S4000x256 .f32) (x1 : Vec Ideal S4000x4 .f32) (w0 w1 w2 w3 : Vec Ideal S64x64 .bf16)
    (x2 : Vec Ideal S4000x64 .bf16) (ws : Vec Ideal S64x64 .bf16) (b bs : Vec Ideal S1x64 .f32) (r : Fin 4000) (o : Fin 64) :
    k0_pay4 (F := Ideal) (k0_pay3 x0 x1 w0 w1 w2 w3) x2 ws b bs (ix2 r o)
      = Ideal.logistic (Cert.Rgc.Blk.blkConv x0 x1 w0 w1 w2 w3 b x2 ws bs r o) := by
  unfold k0_pay4
  simp only [shapeCast_self]
  refine congrArg Ideal.logistic ?_
  rw [addf_apply, addf_apply, addf_apply, proj0_apply, mm_apply, broadcastTo_1b_ab_apply, broadcastTo_1b_ab_apply]
  unfold Cert.Rgc.Blk.blkConv
  rw [sum256_eq_bandSum]

/-- Kernel 1's hidden state at (r, o): the same function. -/
theorem hidden1_apply (x0 : Vec Ideal S4000x256 .f32) (x1 : Vec Ideal S4000x4 .f32) (w0 w1 w2 w3 : Vec Ideal S64x64 .bf16)
    (x2 : Vec Ideal S4000x64 .bf16) (ws : Vec Ideal S64x64 .bf16) (b bs : Vec Ideal S1x64 .f32) (r : Fin 4000) (o : Fin 64) :
    k1_pay3 (F := Ideal) (k1_pay2 x0 x1 w0 w1 w2 w3) x2 ws b bs (ix2 r o)
      = Ideal.logistic (Cert.Rgc.Blk.blkConv x0 x1 w0 w1 w2 w3 b x2 ws bs r o) := by
  unfold k1_pay3
  simp only [shapeCast_self]
  refine congrArg Ideal.logistic ?_
  rw [addf_apply, addf_apply, addf_apply, proj1_apply, mm_apply, broadcastTo_1b_ab_apply, broadcastTo_1b_ab_apply]
  unfold Cert.Rgc.Blk.blkConv
  rw [sum256_eq_bandSum]

/-- The logistic function of a vector, at an index. -/
theorem logistic_apply {s : Shape} {φ : FTy} (a : FVec Ideal s φ) (i : s.Idx) : logistic a i = Ideal.logistic (a i) := rfl

/-- The f32 pattern of 1.0 is the extended real 1. -/
theorem ofBits_one_f32 : Ideal.ofBits .f32 0x3F800000#32 = 1 := by
  simp [Ideal.ofBits, Ideal.ieee, -EReal.coe_mul]; norm_num

open Cert.Rgc.Blk in
/-- The product over 128 columns of two blocks side by side is the sum of the two products over 64 columns. -/
theorem blkCat_eq (h p : B64.Idx → EReal) (mh mp : M64.Idx → EReal) (r : Fin 4000) (o : Fin 64) :
    blkCat h p mh mp r o = (∑ d : Fin 64, h (ix2 r d) * mh (ix2 d o)) + ∑ d : Fin 64, p (ix2 r d) * mp (ix2 d o) := by
  unfold blkCat
  refine (Fin.sum_univ_add (a := 64) (b := 64) _).trans ?_
  refine congrArg₂ (· + ·) (Finset.sum_congr rfl fun d _ => ?_) (Finset.sum_congr rfl fun d _ => ?_)
  · have hd : (Fin.castAdd 64 d).val < 64 := d.isLt
    (rw [dif_pos hd, dif_pos hd]) <;> rfl
  · have hd : ¬ (Fin.natAdd 64 d).val < 64 := by show ¬ 64 + d.val < 64; omega
    have e : ∀ (hx : (Fin.natAdd 64 d).val - 64 < 64), (⟨(Fin.natAdd 64 d).val - 64, hx⟩ : Fin 64) = d :=
      fun hx => Fin.ext (by show 64 + d.val - 64 = d.val; omega)
    rw [dif_neg hd, dif_neg hd, e]

/-- Kernel 0's highway output at (r, o), over the hidden state `hb` the kernel computed. -/
theorem highway0_apply (v40 : FVec Ideal S4000x64 .f32) (v41 : Vec Ideal S4000x64 .bf16) (v43 : Vec Ideal S64x64 .bf16)
    (v46 v51 : Vec Ideal S1x64 .f32) (x3 : Vec Ideal S4000x64 .bf16) (ph pp : Vec Ideal S64x64 .bf16) (pb : Vec Ideal S1x64 .f32)
    (th tp : Vec Ideal S64x64 .bf16) (tb : Vec Ideal S1x64 .f32) (r : Fin 4000) (o : Fin 64) :
    k0_pay2 (F := Ideal) (k0_pay4 v40 v41 v43 v46 v51) (k0_pay5 x3) (k0_pay7 v40 v41 v43 v46 v51 x3 ph pp pb)
        (k0_pay8 v40 v41 v43 v46 v51 th) (k0_pay9 tp) tb (ix2 r o)
      = Cert.Rgc.Blk.blkHighway (k0_pay4 (F := Ideal) v40 v41 v43 v46 v51) x3 ph pp pb th tp tb r o := by
  unfold k0_pay2 k0_pay7 k0_pay8 k0_pay6 k0_pay5 k0_pay9
  generalize k0_pay4 (F := Ideal) v40 v41 v43 v46 v51 = hb
  unfold Cert.Rgc.Blk.blkHighway
  rw [blkCat_eq, blkCat_eq]
  simp only [shapeCast_self, truncf_apply, addf_apply, mulf_apply, subf_apply, maximumf_apply, logistic_apply,
    broadcast_apply, mm_apply, broadcastTo_1b_ab_apply, Ideal.ofBits_def, Ideal.ofBits_zero_f32, ofBits_one_f32]

/-- Kernel 0's stored hidden state at (r, o) is the hidden state. -/
theorem hiddenStore0_apply (hb : FVec Ideal S4000x64 .f32) (r : Fin 4000) (o : Fin 64) :
    k0_pay1 (F := Ideal) hb (ix2 r o) = hb (ix2 r o) := rfl

/-- Kernel 1's highway output at (r, o), over the hidden state the kernel computed: the same function. -/
theorem highway1_apply (v40 : FVec Ideal S4000x64 .f32) (v41 : Vec Ideal S4000x64 .bf16) (v43 : Vec Ideal S64x64 .bf16)
    (v46 v51 : Vec Ideal S1x64 .f32) (x3 : Vec Ideal S4000x64 .bf16) (ph pp : Vec Ideal S64x64 .bf16) (pb : Vec Ideal S1x64 .f32)
    (th tp : Vec Ideal S64x64 .bf16) (tb : Vec Ideal S1x64 .f32) (r : Fin 4000) (o : Fin 64) :
    k1_pay1 (F := Ideal) (k1_pay3 v40 v41 v43 v46 v51) (k1_pay4 x3) (k1_pay6 v40 v41 v43 v46 v51 x3 ph pp pb)
        (k1_pay7 v40 v41 v43 v46 v51 th) (k1_pay8 tp) tb (ix2 r o)
      = Cert.Rgc.Blk.blkHighway (k1_pay3 (F := Ideal) v40 v41 v43 v46 v51) x3 ph pp pb th tp tb r o := by
  unfold k1_pay1 k1_pay6 k1_pay7 k1_pay5 k1_pay4 k1_pay8
  generalize k1_pay3 (F := Ideal) v40 v41 v43 v46 v51 = hb
  unfold Cert.Rgc.Blk.blkHighway
  rw [blkCat_eq, blkCat_eq]
  simp only [shapeCast_self, truncf_apply, addf_apply, mulf_apply, subf_apply, maximumf_apply, logistic_apply,
    broadcast_apply, mm_apply, broadcastTo_1b_ab_apply, Ideal.ofBits_def, Ideal.ofBits_zero_f32, ofBits_one_f32]

end Cert.KernelIdeal.Pay
end
-- ==== Proof.Spec.lean ====
/-
  The mathematics both programs compute, index by index, over the extended reals.

  A graph of 100000 nodes with 64 features each; every edge carries a source node, a destination node and one of four
  relations. For a feature array the SEGMENT SUMS are the array [400000, 64] whose row 4·n + r is the sum of the
  source rows of the edges into node n under relation r, and the COUNT column [400000, 1] holds, clamped below at 1,
  the number of those edges. Both are inputs here (`Sx`, `cm`): nothing below depends on how they were gathered.

  One relational convolution (`conv`): row n of the mean-aggregated array [100000, 256] is the four segment rows
  4n … 4n+3 side by side, each divided by its count; it is multiplied by the weight matrix (contracting its 256
  columns), the bias is added, then the node's own features times the self-loop matrix, then the self-loop bias; the
  logistic function of that is the hidden state (`hidden`).

  One highway step (`highway`): with c = [h, prev] side by side (128 columns), p = max (c·pwᵀ + pb) 0 and
  g = logistic (c·twᵀ + tb), the result is g·p + (1 − g)·h.
-/
import Idealize.ShloMosaic.PureOps.Ideal
import Idealize.ShloMosaic.Lib.ValueIdx

noncomputable section

open scoped BigOperators

namespace Cert.Rgc

open Idealize.ShloMosaic Idealize.ShloMosaic.ValueIdx

/-- Node features [100000, 64]. -/
abbrev SN : Shape := ⟨2, ![100000, 64]⟩
/-- Segment rows [400000, 64]: row 4·n + r belongs to node n and relation r. -/
abbrev SE : Shape := ⟨2, ![400000, 64]⟩
/-- The count column [400000, 1]. -/
abbrev SC : Shape := ⟨2, ![400000, 1]⟩
abbrev SW256 : Shape := ⟨2, ![64, 256]⟩
abbrev SW64 : Shape := ⟨2, ![64, 64]⟩
abbrev SW128 : Shape := ⟨2, ![64, 128]⟩
abbrev SB : Shape := ⟨1, ![64]⟩

/-- Column k < 256 of node n's aggregated row lies in segment row 4·n + k / 64, -/
def segRow (n : Fin 100000) (k : Fin 256) : Fin 400000 := ⟨4 * n.val + k.val / 64, by omega⟩
/-- at lane k mod 64. -/
def lane (k : Fin 256) : Fin 64 := ⟨k.val % 64, by omega⟩

/-- A function of two coordinates as an array. -/
def arr2 {a b : Nat} (f : Fin a → Fin b → EReal) : (⟨2, ![a, b]⟩ : Shape).Idx → EReal := fun i => f (i 0) (i 1)

theorem arr2_ix2 {a b : Nat} (f : Fin a → Fin b → EReal) (p : Fin a) (q : Fin b) : arr2 f (ix2 p q) = f p q := rfl

/-- The mean-aggregated array [100000, 256] at (n, k): the segment sum over its count. -/
def mean (Sx : SE.Idx → EReal) (cm : SC.Idx → EReal) (n : Fin 100000) (k : Fin 256) : EReal :=
  Ideal.div (Sx (ix2 (segRow n k) (lane k))) (cm (ix2 (segRow n k) (0 : Fin 1)))

/-- The convolution before the logistic function, at node n and output feature o. -/
def conv (Sx : SE.Idx → EReal) (cm : SC.Idx → EReal) (feat : SN.Idx → EReal) (w : SW256.Idx → EReal) (b : SB.Idx → EReal)
    (ws : SW64.Idx → EReal) (bs : SB.Idx → EReal) (n : Fin 100000) (o : Fin 64) : EReal :=
  (((∑ k : Fin 256, mean Sx cm n k * w (ix2 o k)) + b (ix1 o)) + ∑ d : Fin 64, feat (ix2 n d) * ws (ix2 o d)) + bs (ix1 o)

/-- The hidden state: the logistic function of the convolution. -/
def hidden (Sx : SE.Idx → EReal) (cm : SC.Idx → EReal) (feat : SN.Idx → EReal) (w : SW256.Idx → EReal) (b : SB.Idx → EReal)
    (ws : SW64.Idx → EReal) (bs : SB.Idx → EReal) (n : Fin 100000) (o : Fin 64) : EReal :=
  Ideal.logistic (conv Sx cm feat w b ws bs n o)

/-- Row n of [h, prev] times row o of a [64, 128] matrix: the first 64 columns meet h, the last 64 meet prev. -/
def catDot (h prev : SN.Idx → EReal) (m : SW128.Idx → EReal) (n : Fin 100000) (o : Fin 64) : EReal :=
  ∑ k : Fin 128, (if hk : k.val < 64 then h (ix2 n ⟨k.val, hk⟩) else prev (ix2 n ⟨k.val - 64, by omega⟩)) * m (ix2 o k)

/-- The highway step at node n and feature o. -/
def highway (h prev : SN.Idx → EReal) (pw : SW128.Idx → EReal) (pb : SB.Idx → EReal) (tw : SW128.Idx → EReal) (tb : SB.Idx → EReal)
    (n : Fin 100000) (o : Fin 64) : EReal :=
  Ideal.logistic (catDot h prev tw n o + tb (ix1 o)) * max (catDot h prev pw n o + pb (ix1 o)) 0
    + (1 - Ideal.logistic (catDot h prev tw n o + tb (ix1 o))) * h (ix2 n o)

/-- The whole network: two convolution + highway layers. `Sx` maps a feature array to its segment sums (the same edges
    in both layers), `cm` is the clamped count column. The first highway step carries the input features as `prev`,
    the second the first layer's hidden state. -/
def net (Sx : (SN.Idx → EReal) → SE.Idx → EReal) (cm : SC.Idx → EReal) (x : SN.Idx → EReal)
    (w1 : SW256.Idx → EReal) (b1 : SB.Idx → EReal) (ws1 : SW64.Idx → EReal) (bs1 : SB.Idx → EReal)
    (pw1 : SW128.Idx → EReal) (pb1 : SB.Idx → EReal) (tw1 : SW128.Idx → EReal) (tb1 : SB.Idx → EReal)
    (w2 : SW256.Idx → EReal) (b2 : SB.Idx → EReal) (ws2 : SW64.Idx → EReal) (bs2 : SB.Idx → EReal)
    (pw2 : SW128.Idx → EReal) (pb2 : SB.Idx → EReal) (tw2 : SW128.Idx → EReal) (tb2 : SB.Idx → EReal) : SN.Idx → EReal :=
  let h1 := arr2 (hidden (Sx x) cm x w1 b1 ws1 bs1)
  let g1 := arr2 (highway h1 x pw1 pb1 tw1 tb1)
  let h2 := arr2 (hidden (Sx g1) cm g1 w2 b2 ws2 bs2)
  arr2 (highway h2 h1 pw2 pb2 tw2 tb2)

end Cert.Rgc

end
-- ==== Proof.BlockBridge.lean ====
/-
  The block forms are the specification's functions at row 4000·t + r of the whole arrays.

  Block t holds rows 4000·t … 4000·t + 3999. Its segment-sum block is the aggregated array's rows (column k of node n
  is lane k mod 64 of segment row 4·n + k / 64), its reciprocal-count block holds 1 / count for the node's four segment
  rows, and the [64, 64] weight bands and the highway's half matrices are the transposed slices of the [64, 256] and
  [64, 128] matrices. The one arithmetic law: off zero, x · (1 / c) = x / c, both being x · c⁻¹.
-/
import proofs.«102057_j23811298690073_2_alg».proof.Proof.Spec
import proofs.«102057_j23811298690073_2_alg».proof.Proof.BlockForms

noncomputable section

open scoped BigOperators

namespace Cert.Rgc.Blk

open Idealize.ShloMosaic Idealize.ShloMosaic.ValueIdx Cert.Rgc

/-- Row r of block t is row 4000·t + r of the whole array. -/
def row (t : Fin 25) (r : Fin 4000) : Fin 100000 := ⟨4000 * t.val + r.val, by omega⟩

/-- Off zero, multiplying by the reciprocal is dividing: both are `x · c⁻¹`. -/
theorem mul_div_one (x c : EReal) (hc : c ≠ 0) : x * Ideal.div 1 c = Ideal.div x c := by
  unfold Ideal.div
  rw [if_neg hc, if_neg hc, one_mul]

/-- A count clamped below at 1 is not zero. -/
theorem max_one_ne_zero (c : EReal) : max c 1 ≠ 0 :=
  ne_of_gt (lt_of_lt_of_le zero_lt_one (le_max_right c 1))

/-- The four [64, 64] bands, read at row k, are column k of the [64, 256] weight matrix. -/
theorem wsel_eq (w : SW256.Idx → EReal) (w0 w1 w2 w3 : M64.Idx → EReal)
    (hw0 : ∀ (d o : Fin 64), w0 (ix2 d o) = w (ix2 o (⟨d.val, by omega⟩ : Fin 256)))
    (hw1 : ∀ (d o : Fin 64), w1 (ix2 d o) = w (ix2 o (⟨64 + d.val, by omega⟩ : Fin 256)))
    (hw2 : ∀ (d o : Fin 64), w2 (ix2 d o) = w (ix2 o (⟨128 + d.val, by omega⟩ : Fin 256)))
    (hw3 : ∀ (d o : Fin 64), w3 (ix2 d o) = w (ix2 o (⟨192 + d.val, by omega⟩ : Fin 256)))
    (k : Fin 256) (o : Fin 64) : wsel w0 w1 w2 w3 k o = w (ix2 o k) := by
  have hk := k.isLt
  unfold wsel
  split_ifs with h1 h2 h3
  · rw [hw0]; exact congrArg (fun j : Fin 256 => w (ix2 o j)) (Fin.ext (by show k.val % 64 = k.val; omega))
  · rw [hw1]; exact congrArg (fun j : Fin 256 => w (ix2 o j)) (Fin.ext (by show 64 + k.val % 64 = k.val; omega))
  · rw [hw2]; exact congrArg (fun j : Fin 256 => w (ix2 o j)) (Fin.ext (by show 128 + k.val % 64 = k.val; omega))
  · rw [hw3]; exact congrArg (fun j : Fin 256 => w (ix2 o j)) (Fin.ext (by show 192 + k.val % 64 = k.val; omega))

/-- The block's convolution is the specification's at row 4000·t + r. -/
theorem blkConv_eq_conv (Sx : SE.Idx → EReal) (cm : SC.Idx → EReal) (feat : SN.Idx → EReal) (w : SW256.Idx → EReal)
    (b : SB.Idx → EReal) (ws : SW64.Idx → EReal) (bs : SB.Idx → EReal)
    (s : B256.Idx → EReal) (rc : B4.Idx → EReal) (w0 w1 w2 w3 : M64.Idx → EReal) (bb : R64.Idx → EReal)
    (xf : B64.Idx → EReal) (wsT : M64.Idx → EReal) (bsb : R64.Idx → EReal) (t : Fin 25)
    (hcm : ∀ e, cm e ≠ 0)
    (hs : ∀ (r : Fin 4000) (k : Fin 256), s (ix2 r k) = Sx (ix2 (segRow (row t r) k) (lane k)))
    (hrc : ∀ (r : Fin 4000) (j : Fin 4), rc (ix2 r j)
      = Ideal.div 1 (cm (ix2 (⟨4 * (row t r).val + j.val, by omega⟩ : Fin 400000) (0 : Fin 1))))
    (hw0 : ∀ (d o : Fin 64), w0 (ix2 d o) = w (ix2 o (⟨d.val, by omega⟩ : Fin 256)))
    (hw1 : ∀ (d o : Fin 64), w1 (ix2 d o) = w (ix2 o (⟨64 + d.val, by omega⟩ : Fin 256)))
    (hw2 : ∀ (d o : Fin 64), w2 (ix2 d o) = w (ix2 o (⟨128 + d.val, by omega⟩ : Fin 256)))
    (hw3 : ∀ (d o : Fin 64), w3 (ix2 d o) = w (ix2 o (⟨192 + d.val, by omega⟩ : Fin 256)))
    (hb : ∀ o : Fin 64, bb (ix2 (0 : Fin 1) o) = b (ix1 o))
    (hxf : ∀ (r : Fin 4000) (d : Fin 64), xf (ix2 r d) = feat (ix2 (row t r) d))
    (hws : ∀ d o : Fin 64, wsT (ix2 d o) = ws (ix2 o d))
    (hbs : ∀ o : Fin 64, bsb (ix2 (0 : Fin 1) o) = bs (ix1 o)) (r : Fin 4000) (o : Fin 64) :
    blkConv s rc w0 w1 w2 w3 bb xf wsT bsb r o = Cert.Rgc.conv Sx cm feat w b ws bs (row t r) o := by
  unfold blkConv Cert.Rgc.conv
  rw [hb, hbs]
  refine congrArg₂ (· + ·) (congrArg₂ (· + ·) (congrArg₂ (· + ·) ?_ rfl) ?_) rfl
  · refine Finset.sum_congr rfl fun k _ => ?_
    rw [hs, hrc, wsel_eq w w0 w1 w2 w3 hw0 hw1 hw2 hw3]
    unfold mean
    have e : (⟨4 * (row t r).val + (band k).val, by have := k.isLt; have := (row t r).isLt; show 4 * (row t r).val + k.val / 64 < 400000; omega⟩ : Fin 400000)
        = segRow (row t r) k := rfl
    rw [e, mul_div_one _ _ (hcm _)]
  · refine Finset.sum_congr rfl fun d _ => ?_
    rw [hxf, hws]

/-- The block's product over 128 columns is the specification's at row 4000·t + r. -/
theorem blkCat_eq_catDot (h prev : SN.Idx → EReal) (m : SW128.Idx → EReal)
    (hblk pblk : B64.Idx → EReal) (mh mp : M64.Idx → EReal) (t : Fin 25)
    (hh : ∀ (r : Fin 4000) (d : Fin 64), hblk (ix2 r d) = h (ix2 (row t r) d))
    (hp : ∀ (r : Fin 4000) (d : Fin 64), pblk (ix2 r d) = prev (ix2 (row t r) d))
    (hmh : ∀ d o : Fin 64, mh (ix2 d o) = m (ix2 o (⟨d.val, by omega⟩ : Fin 128)))
    (hmp : ∀ d o : Fin 64, mp (ix2 d o) = m (ix2 o (⟨64 + d.val, by omega⟩ : Fin 128)))
    (r : Fin 4000) (o : Fin 64) :
    blkCat hblk pblk mh mp r o = catDot h prev m (row t r) o := by
  unfold blkCat catDot
  refine Finset.sum_congr rfl fun k _ => ?_
  have hk128 := k.isLt
  by_cases hk : k.val < 64
  · rw [dif_pos hk, dif_pos hk, dif_pos hk, hh, hmh]
  · rw [dif_neg hk, dif_neg hk, dif_neg hk, hp, hmp]
    exact congrArg (fun j : Fin 128 => prev (ix2 (row t r) ⟨k.val - 64, by omega⟩) * m (ix2 o j))
      (Fin.ext (by show 64 + (k.val - 64) = k.val; omega))

/-- The block's highway step is the specification's at row 4000·t + r. -/
theorem blkHighway_eq_highway (h prev : SN.Idx → EReal) (pw : SW128.Idx → EReal) (pb : SB.Idx → EReal)
    (tw : SW128.Idx → EReal) (tb : SB.Idx → EReal)
    (hblk pblk : B64.Idx → EReal) (ph pp : M64.Idx → EReal) (pbb : R64.Idx → EReal) (th tp : M64.Idx → EReal)
    (tbb : R64.Idx → EReal) (t : Fin 25)
    (hh : ∀ (r : Fin 4000) (d : Fin 64), hblk (ix2 r d) = h (ix2 (row t r) d))
    (hp : ∀ (r : Fin 4000) (d : Fin 64), pblk (ix2 r d) = prev (ix2 (row t r) d))
    (hph : ∀ d o : Fin 64, ph (ix2 d o) = pw (ix2 o (⟨d.val, by omega⟩ : Fin 128)))
    (hpp : ∀ d o : Fin 64, pp (ix2 d o) = pw (ix2 o (⟨64 + d.val, by omega⟩ : Fin 128)))
    (hpb : ∀ o : Fin 64, pbb (ix2 (0 : Fin 1) o) = pb (ix1 o))
    (hth : ∀ d o : Fin 64, th (ix2 d o) = tw (ix2 o (⟨d.val, by omega⟩ : Fin 128)))
    (htp : ∀ d o : Fin 64, tp (ix2 d o) = tw (ix2 o (⟨64 + d.val, by omega⟩ : Fin 128)))
    (htb : ∀ o : Fin 64, tbb (ix2 (0 : Fin 1) o) = tb (ix1 o)) (r : Fin 4000) (o : Fin 64) :
    blkHighway hblk pblk ph pp pbb th tp tbb r o = Cert.Rgc.highway h prev pw pb tw tb (row t r) o := by
  unfold blkHighway Cert.Rgc.highway
  rw [blkCat_eq_catDot h prev tw hblk pblk th tp t hh hp hth htp,
    blkCat_eq_catDot h prev pw hblk pblk ph pp t hh hp hph hpp, htb, hpb, hh]

end Cert.Rgc.Blk

end
-- ==== Proof.IdealValue0.lean ====
/-
  The first kernel's two output arrays, from blocks to the arrays.

  At any contents of the buffers when the first kernel is entered: if its input arrays are the specification's arrays
  (the segment sums reshaped to [100000, 256], the reciprocal counts [100000, 4], the features — read through two
  windows, as the node's own features and as the carried features —, the transposed weight matrices and the bias rows),
  then what each of the 25 grid points writes back to the first output is its block of 4000 rows of the
  specification's hidden state, and to the second its block of the highway step over that hidden state; the 25 blocks
  tiling each array, the two output arrays end holding those functions.
-/
import proofs.«102057_j23811298690073_2_alg».proof.Proof.IdealRegion0
import proofs.«102057_j23811298690073_2_alg».proof.Proof.PayIdeal
import proofs.«102057_j23811298690073_2_alg».proof.Proof.BlockBridge
import Idealize.ShloMosaic.Lib.Pipeline.Value

set_option maxRecDepth 16384

noncomputable section

namespace Cert.KernelIdeal.Val

open Cert.KernelIdeal Cert.KernelIdeal.Gen Cert.KernelIdeal.Fr Cert.KernelIdeal.Pay
open Idealize.ShloMosaic Idealize.ShloMosaic.TcCoe Idealize.ShloMosaic.ValueIdx
open Idealize.SL Idealize.SL.RA
open Idealize.ShloMosaic.Pipeline (Dat Cfg Window)
open Cert.Rgc Cert.Rgc.Blk

/-- The two zero offsets, however spelt. -/
theorem hz0 : (![0, 0] : Fin 2 → Nat) = fun _ => 0 := funext fun a => by fin_cases a <;> rfl

/-- A load of 64 rows of the [256, 64] weight matrix from row `c` reads, at (d, o), row c + d. -/
theorem ld_band0 (x4 : Vec Ideal S256x64 .bf16) (c : Nat) (inb : ∀ a, (![c, 0] : Fin 2 → Nat) a + S64x64.size a ≤ S256x64.size a)
    (hc : c + 64 ≤ 256) (d o : Fin 64) :
    View.ld x4 (Rect.unit (s := S256x64) ![c, 0] S64x64.size inb) (ix2 d o) = x4 (ix2 (⟨c + d.val, by omega⟩ : Fin 256) o) := by
  show x4 ((Rect.unit (s := S256x64) ![c, 0] S64x64.size inb).emb (ix2 d o)) = _
  refine congrArg x4 (funext fun a => Fin.ext ?_)
  match a with
  | ⟨0, _⟩ => show c + 1 * d.val = c + d.val; omega
  | ⟨1, _⟩ => show 0 + 1 * o.val = o.val; omega

/-- Kernel 0's hidden state of a block at one index: the specification's hidden state at row 4000·t + r, when the input
    blocks are the blocks of the specification's arrays. -/
theorem hid0 (x0 : Vec Ideal S4000x256 .f32) (x1 : Vec Ideal S4000x4 .f32) (x2 x3 : Vec Ideal S4000x64 .bf16)
    (x4 : Vec Ideal S256x64 .bf16) (x5 : Vec Ideal S1x64 .f32) (x6 : Vec Ideal S64x64 .bf16) (x7 : Vec Ideal S1x64 .f32)
    (x8 x9 : Vec Ideal S64x64 .bf16) (x10 : Vec Ideal S1x64 .f32) (x11 x12 : Vec Ideal S64x64 .bf16) (x13 : Vec Ideal S1x64 .f32)
    (Sx : SE.Idx → EReal) (cm : SC.Idx → EReal) (feat prev : SN.Idx → EReal) (w : SW256.Idx → EReal)
    (b : SB.Idx → EReal) (ws : SW64.Idx → EReal) (bs : SB.Idx → EReal) (pw : SW128.Idx → EReal) (pb : SB.Idx → EReal)
    (tw : SW128.Idx → EReal) (tb : SB.Idx → EReal)  (t : Fin 25)
    (hcm : ∀ e, cm e ≠ 0)
    (h0 : ∀ (r : Fin 4000) (k : Fin 256), x0 (ix2 r k) = Sx (ix2 (segRow (row t r) k) (lane k)))
    (h1 : ∀ (r : Fin 4000) (j : Fin 4), x1 (ix2 r j)
      = Ideal.div 1 (cm (ix2 (⟨4 * (row t r).val + j.val, by omega⟩ : Fin 400000) (0 : Fin 1))))
    (h2 : ∀ (r : Fin 4000) (d : Fin 64), x2 (ix2 r d) = feat (ix2 (row t r) d))
    (h4 : ∀ (k : Fin 256) (o : Fin 64), x4 (ix2 k o) = w (ix2 o k))
    (h5 : ∀ o : Fin 64, x5 (ix2 (0 : Fin 1) o) = b (ix1 o))
    (h6 : ∀ d o : Fin 64, x6 (ix2 d o) = ws (ix2 o d))
    (h7 : ∀ o : Fin 64, x7 (ix2 (0 : Fin 1) o) = bs (ix1 o))
    (r : Fin 4000) (d : Fin 64) :
    k0_pay4 (F := Ideal) (proj0 x0 x1 x4) (View.ld x2 rN_k0) (View.ld x6 rM_k0) (View.ld x5 rB_k0) (View.ld x7 rB_k0) (ix2 r d)
      = hidden Sx cm feat w b ws bs (row t r) d := by
  unfold proj0
  simp only [View.ld_unit_zero (S := S4000x256) hz0, View.ld_unit_zero (S := S4000x4) hz0, View.ld_unit_zero (S := S4000x64) hz0,
    View.ld_unit_zero (S := S64x64) hz0, View.ld_unit_zero (S := S1x64) hz0]
  rw [hidden0_apply]
  unfold Cert.Rgc.hidden
  refine congrArg Ideal.logistic ?_
  exact blkConv_eq_conv Sx cm feat w b ws bs x0 x1 _ _ _ _ x5 x2 x6 x7 t hcm h0 h1
    (fun d o => (ld_band0 x4 0 _ (by omega) d o).trans ((h4 _ o).trans (congrArg (fun j : Fin 256 => w (ix2 o j)) (Fin.ext (Nat.zero_add _)))))
    (fun d o => (ld_band0 x4 64 _ (by omega) d o).trans (h4 _ o))
    (fun d o => (ld_band0 x4 128 _ (by omega) d o).trans (h4 _ o))
    (fun d o => (ld_band0 x4 192 _ (by omega) d o).trans (h4 _ o))
    h5 h2 h6 h7 r d

/-- Kernel 0's first stored block at one index. -/
theorem point0_14 (x0 : Vec Ideal S4000x256 .f32) (x1 : Vec Ideal S4000x4 .f32) (x2 x3 : Vec Ideal S4000x64 .bf16)
    (x4 : Vec Ideal S256x64 .bf16) (x5 : Vec Ideal S1x64 .f32) (x6 : Vec Ideal S64x64 .bf16) (x7 : Vec Ideal S1x64 .f32)
    (x8 x9 : Vec Ideal S64x64 .bf16) (x10 : Vec Ideal S1x64 .f32) (x11 x12 : Vec Ideal S64x64 .bf16) (x13 : Vec Ideal S1x64 .f32)
    (Sx : SE.Idx → EReal) (cm : SC.Idx → EReal) (feat prev : SN.Idx → EReal) (w : SW256.Idx → EReal)
    (b : SB.Idx → EReal) (ws : SW64.Idx → EReal) (bs : SB.Idx → EReal) (pw : SW128.Idx → EReal) (pb : SB.Idx → EReal)
    (tw : SW128.Idx → EReal) (tb : SB.Idx → EReal)  (t : Fin 25)
    (hcm : ∀ e, cm e ≠ 0)
    (h0 : ∀ (r : Fin 4000) (k : Fin 256), x0 (ix2 r k) = Sx (ix2 (segRow (row t r) k) (lane k)))
    (h1 : ∀ (r : Fin 4000) (j : Fin 4), x1 (ix2 r j)
      = Ideal.div 1 (cm (ix2 (⟨4 * (row t r).val + j.val, by omega⟩ : Fin 400000) (0 : Fin 1))))
    (h2 : ∀ (r : Fin 4000) (d : Fin 64), x2 (ix2 r d) = feat (ix2 (row t r) d))
    (h4 : ∀ (k : Fin 256) (o : Fin 64), x4 (ix2 k o) = w (ix2 o k))
    (h5 : ∀ o : Fin 64, x5 (ix2 (0 : Fin 1) o) = b (ix1 o))
    (h6 : ∀ d o : Fin 64, x6 (ix2 d o) = ws (ix2 o d))
    (h7 : ∀ o : Fin 64, x7 (ix2 (0 : Fin 1) o) = bs (ix1 o))
    (r : Fin 4000) (o : Fin 64) :
    k0_pay1 (F := Ideal) (k0_pay4 (proj0 x0 x1 x4) (View.ld x2 rN_k0) (View.ld x6 rM_k0) (View.ld x5 rB_k0) (View.ld x7 rB_k0)) (ix2 r o)
      = hidden Sx cm feat w b ws bs (row t r) o := by
  rw [hiddenStore0_apply]
  exact hid0 x0 x1 x2 x3 x4 x5 x6 x7 x8 x9 x10 x11 x12 x13 Sx cm feat prev w b ws bs pw pb tw tb t hcm h0 h1 h2 h4 h5 h6 h7 r o

/-- Kernel 0's second stored block at one index: the specification's highway step of the first layer. -/
theorem point0_15 (x0 : Vec Ideal S4000x256 .f32) (x1 : Vec Ideal S4000x4 .f32) (x2 x3 : Vec Ideal S4000x64 .bf16)
    (x4 : Vec Ideal S256x64 .bf16) (x5 : Vec Ideal S1x64 .f32) (x6 : Vec Ideal S64x64 .bf16) (x7 : Vec Ideal S1x64 .f32)
    (x8 x9 : Vec Ideal S64x64 .bf16) (x10 : Vec Ideal S1x64 .f32) (x11 x12 : Vec Ideal S64x64 .bf16) (x13 : Vec Ideal S1x64 .f32)
    (Sx : SE.Idx → EReal) (cm : SC.Idx → EReal) (feat prev : SN.Idx → EReal) (w : SW256.Idx → EReal)
    (b : SB.Idx → EReal) (ws : SW64.Idx → EReal) (bs : SB.Idx → EReal) (pw : SW128.Idx → EReal) (pb : SB.Idx → EReal)
    (tw : SW128.Idx → EReal) (tb : SB.Idx → EReal)  (t : Fin 25)
    (hcm : ∀ e, cm e ≠ 0)
    (h0 : ∀ (r : Fin 4000) (k : Fin 256), x0 (ix2 r k) = Sx (ix2 (segRow (row t r) k) (lane k)))
    (h1 : ∀ (r : Fin 4000) (j : Fin 4), x1 (ix2 r j)
      = Ideal.div 1 (cm (ix2 (⟨4 * (row t r).val + j.val, by omega⟩ : Fin 400000) (0 : Fin 1))))
    (h2 : ∀ (r : Fin 4000) (d : Fin 64), x2 (ix2 r d) = feat (ix2 (row t r) d))
    (h4 : ∀ (k : Fin 256) (o : Fin 64), x4 (ix2 k o) = w (ix2 o k))
    (h5 : ∀ o : Fin 64, x5 (ix2 (0 : Fin 1) o) = b (ix1 o))
    (h6 : ∀ d o : Fin 64, x6 (ix2 d o) = ws (ix2 o d))
    (h7 : ∀ o : Fin 64, x7 (ix2 (0 : Fin 1) o) = bs (ix1 o))
    (h3 : ∀ (r : Fin 4000) (d : Fin 64), x3 (ix2 r d) = prev (ix2 (row t r) d))
    (h8 : ∀ d o : Fin 64, x8 (ix2 d o) = pw (ix2 o (⟨d.val, by omega⟩ : Fin 128)))
    (h9 : ∀ d o : Fin 64, x9 (ix2 d o) = pw (ix2 o (⟨64 + d.val, by omega⟩ : Fin 128)))
    (h10 : ∀ o : Fin 64, x10 (ix2 (0 : Fin 1) o) = pb (ix1 o))
    (h11 : ∀ d o : Fin 64, x11 (ix2 d o) = tw (ix2 o (⟨d.val, by omega⟩ : Fin 128)))
    (h12 : ∀ d o : Fin 64, x12 (ix2 d o) = tw (ix2 o (⟨64 + d.val, by omega⟩ : Fin 128)))
    (h13 : ∀ o : Fin 64, x13 (ix2 (0 : Fin 1) o) = tb (ix1 o))
    (r : Fin 4000) (o : Fin 64) :
    k0_pay2 (F := Ideal) (k0_pay4 (proj0 x0 x1 x4) (View.ld x2 rN_k0) (View.ld x6 rM_k0) (View.ld x5 rB_k0) (View.ld x7 rB_k0))
      (k0_pay5 (View.ld x3 rN_k0))
      (k0_pay7 (proj0 x0 x1 x4) (View.ld x2 rN_k0) (View.ld x6 rM_k0) (View.ld x5 rB_k0) (View.ld x7 rB_k0) (View.ld x3 rN_k0) (View.ld x8 rM_k0) (View.ld x9 rM_k0) (View.ld x10 rB_k0))
      (k0_pay8 (proj0 x0 x1 x4) (View.ld x2 rN_k0) (View.ld x6 rM_k0) (View.ld x5 rB_k0) (View.ld x7 rB_k0) (View.ld x11 rM_k0))
      (k0_pay9 (View.ld x12 rM_k0)) (View.ld x13 rB_k0) (ix2 r o)
    = highway (arr2 (hidden Sx cm feat w b ws bs)) prev pw pb tw tb (row t r) o := by
  rw [highway0_apply]
  refine blkHighway_eq_highway (arr2 (hidden Sx cm feat w b ws bs)) prev pw pb tw tb _ _ _ _ _ _ _ _ t
    (fun r d => ?_) ?_ ?_ ?_ ?_ ?_ ?_ ?_ r o
  · rw [arr2_ix2]
    exact hid0 x0 x1 x2 x3 x4 x5 x6 x7 x8 x9 x10 x11 x12 x13 Sx cm feat prev w b ws bs pw pb tw tb t hcm h0 h1 h2 h4 h5 h6 h7 r d
  · intro r d; rw [View.ld_unit_zero (S := S4000x64) hz0]; exact h3 r d
  · intro d o; rw [View.ld_unit_zero (S := S64x64) hz0]; exact h8 d o
  · intro d o; rw [View.ld_unit_zero (S := S64x64) hz0]; exact h9 d o
  · intro o; rw [View.ld_unit_zero (S := S1x64) hz0]; exact h10 o
  · intro d o; rw [View.ld_unit_zero (S := S64x64) hz0]; exact h11 d o
  · intro d o; rw [View.ld_unit_zero (S := S64x64) hz0]; exact h12 d o
  · intro o; rw [View.ld_unit_zero (S := S1x64) hz0]; exact h13 o

/-! ## From blocks to the arrays -/

variable (V : (c : Dev nD) → (b : Ref sig .tc) → Buf (Elt Ideal) ((c : Thread nD τ).loc b))
variable (q : Fin cfg0.W → PosShare TreeShare)

/-- The printed index maps, decided over the 25 grid points: a row-tiled window's block index is (t, 0), -/
theorem idx_rows0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_14.index t (0 : Fin 2) = t.val ∧ win0_14.index t (1 : Fin 2) = 0
    ∧ win0_15.index t (0 : Fin 2) = t.val ∧ win0_15.index t (1 : Fin 2) = 0 :=
  (by decide +kernel : ∀ t : Fin grid0.N, _)

/-- a whole-array window's is (0, 0). -/
theorem idx_whole0 : ∀ t : Fin cfg0.N,
    (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0)
    ∧ (win0_13.index t (0 : Fin 2) = 0 ∧ win0_13.index t (1 : Fin 2) = 0) :=
  (by decide +kernel : ∀ t : Fin grid0.N, _)

/-- A grid point as a block number below 25. -/
def pt0 (t : Fin cfg0.N) : Fin 25 := ⟨t.val, by have h1 := t.isLt; have h2 : cfg0.N = 25 := N_0; omega⟩

/-! Row r of a row-tiled window's block at point t is row 4000·t + r of its array; a whole-array window's block is its array. -/

theorem blk0_0 (c : Dev nD) (t : Fin cfg0.N) (r : Fin 4000) (k : Fin 256) :
    (iblk0 V c 0 t : S4000x256.Idx → EReal) (ix2 r k) = (V c main_v24 : S100000x256.Idx → EReal) (ix2 (row (pt0 t) r) k) := by
  have h := idx_rows0 t
  show (V c main_v24 : S100000x256.Idx → EReal) (((cfg0.win 0).blk t).view.emb (ix2 r k)) = _
  refine congrArg (V c main_v24 : S100000x256.Idx → EReal) (funext fun a => Fin.ext ?_)
  match a with
  | ⟨0, _⟩ => show win0_0.index t (0 : Fin 2) * 4000 + 1 * r.val = 4000 * t.val + r.val; omega
  | ⟨1, _⟩ => show win0_0.index t (1 : Fin 2) * 256 + 1 * k.val = k.val; omega

theorem blk0_1 (c : Dev nD) (t : Fin cfg0.N) (r : Fin 4000) (k : Fin 4) :
    (iblk0 V c 1 t : S4000x4.Idx → EReal) (ix2 r k) = (V c main_v11 : S100000x4.Idx → EReal) (ix2 (row (pt0 t) r) k) := by
  have h := idx_rows0 t
  show (V c main_v11 : S100000x4.Idx → EReal) (((cfg0.win 1).blk t).view.emb (ix2 r k)) = _
  refine congrArg (V c main_v11 : S100000x4.Idx → EReal) (funext fun a => Fin.ext ?_)
  match a with
  | ⟨0, _⟩ => show win0_1.index t (0 : Fin 2) * 4000 + 1 * r.val = 4000 * t.val + r.val; omega
  | ⟨1, _⟩ => show win0_1.index t (1 : Fin 2) * 4 + 1 * k.val = k.val; omega

theorem blk0_2 (c : Dev nD) (t : Fin cfg0.N) (r : Fin 4000) (k : Fin 64) :
    (iblk0 V c 2 t : S4000x64.Idx → EReal) (ix2 r k) = (V c main_v12 : S100000x64.Idx → EReal) (ix2 (row (pt0 t) r) k) := by
  have h := idx_rows0 t
  show (V c main_v12 : S100000x64.Idx → EReal) (((cfg0.win 2).blk t).view.emb (ix2 r k)) = _
  refine congrArg (V c main_v12 : S100000x64.Idx → EReal) (funext fun a => Fin.ext ?_)
  match a with
  | ⟨0, _⟩ => show win0_2.index t (0 : Fin 2) * 4000 + 1 * r.val = 4000 * t.val + r.val; omega
  | ⟨1, _⟩ => show win0_2.index t (1 : Fin 2) * 64 + 1 * k.val = k.val; omega

theorem blk0_3 (c : Dev nD) (t : Fin cfg0.N) (r : Fin 4000) (k : Fin 64) :
    (iblk0 V c 3 t : S4000x64.Idx → EReal) (ix2 r k) = (V c main_v12 : S100000x64.Idx → EReal) (ix2 (row (pt0 t) r) k) := by
  have h := idx_rows0 t
  show (V c main_v12 : S100000x64.Idx → EReal) (((cfg0.win 3).blk t).view.emb (ix2 r k)) = _
  refine congrArg (V c main_v12 : S100000x64.Idx → EReal) (funext fun a => Fin.ext ?_)
  match a with
  | ⟨0, _⟩ => show win0_3.index t (0 : Fin 2) * 4000 + 1 * r.val = 4000 * t.val + r.val; omega
  | ⟨1, _⟩ => show win0_3.index t (1 : Fin 2) * 64 + 1 * k.val = k.val; omega

theorem blk0_4 (c : Dev nD) (t : Fin cfg0.N) (p : Fin 256) (o : Fin 64) :
    (iblk0 V c 4 t : S256x64.Idx → EReal) (ix2 p o) = (V c main_v26 : S256x64.Idx → EReal) (ix2 p o) := by
  have h := idx_whole0 t
  show (V c main_v26 : S256x64.Idx → EReal) (((cfg0.win 4).blk t).view.emb (ix2 p o)) = _
  refine congrArg (V c main_v26 : S256x64.Idx → EReal) (funext fun a => Fin.ext ?_)
  match a with
  | ⟨0, _⟩ => show win0_4.index t (0 : Fin 2) * 256 + 1 * p.val = p.val; omega
  | ⟨1, _⟩ => show win0_4.index t (1 : Fin 2) * 64 + 1 * o.val = o.val; omega

theorem blk0_5 (c : Dev nD) (t : Fin cfg0.N) (p : Fin 1) (o : Fin 64) :
    (iblk0 V c 5 t : S1x64.Idx → EReal) (ix2 p o) = (V c main_v39 : S1x64.Idx → EReal) (ix2 p o) := by
  have h := idx_whole0 t
  show (V c main_v39 : S1x64.Idx → EReal) (((cfg0.win 5).blk t).view.emb (ix2 p o)) = _
  refine congrArg (V c main_v39 : S1x64.Idx → EReal) (funext fun a => Fin.ext ?_)
  match a with
  | ⟨0, _⟩ => show win0_5.index t (0 : Fin 2) * 1 + 1 * p.val = p.val; omega
  | ⟨1, _⟩ => show win0_5.index t (1 : Fin 2) * 64 + 1 * o.val = o.val; omega

theorem blk0_6 (c : Dev nD) (t : Fin cfg0.N) (p : Fin 64) (o : Fin 64) :
    (iblk0 V c 6 t : S64x64.Idx → EReal) (ix2 p o) = (V c main_v28 : S64x64.Idx → EReal) (ix2 p o) := by
  have h := idx_whole0 t
  show (V c main_v28 : S64x64.Idx → EReal) (((cfg0.win 6).blk t).view.emb (ix2 p o)) = _
  refine congrArg (V c main_v28 : S64x64.Idx → EReal) (funext fun a => Fin.ext ?_)
  match a with
  | ⟨0, _⟩ => show win0_6.index t (0 : Fin 2) * 64 + 1 * p.val = p.val; omega
  | ⟨1, _⟩ => show win0_6.index t (1 : Fin 2) * 64 + 1 * o.val = o.val; omega

theorem blk0_7 (c : Dev nD) (t : Fin cfg0.N) (p : Fin 1) (o : Fin 64) :
    (iblk0 V c 7 t : S1x64.Idx → EReal) (ix2 p o) = (V c main_v40 : S1x64.Idx → EReal) (ix2 p o) := by
  have h := idx_whole0 t
  show (V c main_v40 : S1x64.Idx → EReal) (((cfg0.win 7).blk t).view.emb (ix2 p o)) = _
  refine congrArg (V c main_v40 : S1x64.Idx → EReal) (funext fun a => Fin.ext ?_)
  match a with
  | ⟨0, _⟩ => show win0_7.index t (0 : Fin 2) * 1 + 1 * p.val = p.val; omega
  | ⟨1, _⟩ => show win0_7.index t (1 : Fin 2) * 64 + 1 * o.val = o.val; omega

theorem blk0_8 (c : Dev nD) (t : Fin cfg0.N) (p : Fin 64) (o : Fin 64) :
    (iblk0 V c 8 t : S64x64.Idx → EReal) (ix2 p o) = (V c main_v32 : S64x64.Idx → EReal) (ix2 p o) := by
  have h := idx_whole0 t
  show (V c main_v32 : S64x64.Idx → EReal) (((cfg0.win 8).blk t).view.emb (ix2 p o)) = _
  refine congrArg (V c main_v32 : S64x64.Idx → EReal) (funext fun a => Fin.ext ?_)
  match a with
  | ⟨0, _⟩ => show win0_8.index t (0 : Fin 2) * 64 + 1 * p.val = p.val; omega
  | ⟨1, _⟩ => show win0_8.index t (1 : Fin 2) * 64 + 1 * o.val = o.val; omega

theorem blk0_9 (c : Dev nD) (t : Fin cfg0.N) (p : Fin 64) (o : Fin 64) :
    (iblk0 V c 9 t : S64x64.Idx → EReal) (ix2 p o) = (V c main_v34 : S64x64.Idx → EReal) (ix2 p o) := by
  have h := idx_whole0 t
  show (V c main_v34 : S64x64.Idx → EReal) (((cfg0.win 9).blk t).view.emb (ix2 p o)) = _
  refine congrArg (V c main_v34 : S64x64.Idx → EReal) (funext fun a => Fin.ext ?_)
  match a with
  | ⟨0, _⟩ => show win0_9.index t (0 : Fin 2) * 64 + 1 * p.val = p.val; omega
  | ⟨1, _⟩ => show win0_9.index t (1 : Fin 2) * 64 + 1 * o.val = o.val; omega

theorem blk0_10 (c : Dev nD) (t : Fin cfg0.N) (p : Fin 1) (o : Fin 64) :
    (iblk0 V c 10 t : S1x64.Idx → EReal) (ix2 p o) = (V c main_v41 : S1x64.Idx → EReal) (ix2 p o) := by
  have h := idx_whole0 t
  show (V c main_v41 : S1x64.Idx → EReal) (((cfg0.win 10).blk t).view.emb (ix2 p o)) = _
  refine congrArg (V c main_v41 : S1x64.Idx → EReal) (funext fun a => Fin.ext ?_)
  match a with
  | ⟨0, _⟩ => show win0_10.index t (0 : Fin 2) * 1 + 1 * p.val = p.val; omega
  | ⟨1, _⟩ => show win0_10.index t (1 : Fin 2) * 64 + 1 * o.val = o.val; omega

theorem blk0_11 (c : Dev nD) (t : Fin cfg0.N) (p : Fin 64) (o : Fin 64) :
    (iblk0 V c 11 t : S64x64.Idx → EReal) (ix2 p o) = (V c main_v36 : S64x64.Idx → EReal) (ix2 p o) := by
  have h := idx_whole0 t
  show (V c main_v36 : S64x64.Idx → EReal) (((cfg0.win 11).blk t).view.emb (ix2 p o)) = _
  refine congrArg (V c main_v36 : S64x64.Idx → EReal) (funext fun a => Fin.ext ?_)
  match a with
  | ⟨0, _⟩ => show win0_11.index t (0 : Fin 2) * 64 + 1 * p.val = p.val; omega
  | ⟨1, _⟩ => show win0_11.index t (1 : Fin 2) * 64 + 1 * o.val = o.val; omega

theorem blk0_12 (c : Dev nD) (t : Fin cfg0.N) (p : Fin 64) (o : Fin 64) :
    (iblk0 V c 12 t : S64x64.Idx → EReal) (ix2 p o) = (V c main_v38 : S64x64.Idx → EReal) (ix2 p o) := by
  have h := idx_whole0 t
  show (V c main_v38 : S64x64.Idx → EReal) (((cfg0.win 12).blk t).view.emb (ix2 p o)) = _
  refine congrArg (V c main_v38 : S64x64.Idx → EReal) (funext fun a => Fin.ext ?_)
  match a with
  | ⟨0, _⟩ => show win0_12.index t (0 : Fin 2) * 64 + 1 * p.val = p.val; omega
  | ⟨1, _⟩ => show win0_12.index t (1 : Fin 2) * 64 + 1 * o.val = o.val; omega

theorem blk0_13 (c : Dev nD) (t : Fin cfg0.N) (p : Fin 1) (o : Fin 64) :
    (iblk0 V c 13 t : S1x64.Idx → EReal) (ix2 p o) = (V c main_v42 : S1x64.Idx → EReal) (ix2 p o) := by
  have h := idx_whole0 t
  show (V c main_v42 : S1x64.Idx → EReal) (((cfg0.win 13).blk t).view.emb (ix2 p o)) = _
  refine congrArg (V c main_v42 : S1x64.Idx → EReal) (funext fun a => Fin.ext ?_)
  match a with
  | ⟨0, _⟩ => show win0_13.index t (0 : Fin 2) * 1 + 1 * p.val = p.val; omega
  | ⟨1, _⟩ => show win0_13.index t (1 : Fin 2) * 64 + 1 * o.val = o.val; omega

/-- What point t writes back to the first output is block t of the specification's hidden state. -/
theorem flushed0_14_eq (c : Dev nD) (Sx : SE.Idx → EReal) (cm : SC.Idx → EReal) (feat prev : SN.Idx → EReal) (w : SW256.Idx → EReal)
    (b : SB.Idx → EReal) (ws : SW64.Idx → EReal) (bs : SB.Idx → EReal) (pw : SW128.Idx → EReal) (pb : SB.Idx → EReal)
    (tw : SW128.Idx → EReal) (tb : SB.Idx → EReal) (hcm : ∀ e, cm e ≠ 0)
    (hV0 : ∀ (n : Fin 100000) (k : Fin 256), (V c main_v24 : S100000x256.Idx → EReal) (ix2 n k) = Sx (ix2 (segRow n k) (lane k)))
    (hV1 : ∀ (n : Fin 100000) (j : Fin 4), (V c main_v11 : S100000x4.Idx → EReal) (ix2 n j)
      = Ideal.div 1 (cm (ix2 (⟨4 * n.val + j.val, by omega⟩ : Fin 400000) (0 : Fin 1))))
    (hV2 : ∀ (n : Fin 100000) (d : Fin 64), (V c main_v12 : S100000x64.Idx → EReal) (ix2 n d) = feat (ix2 n d))
    (hV4 : ∀ (k : Fin 256) (o : Fin 64), (V c main_v26 : S256x64.Idx → EReal) (ix2 k o) = w (ix2 o k))
    (hV5 : ∀ o : Fin 64, (V c main_v39 : S1x64.Idx → EReal) (ix2 (0 : Fin 1) o) = b (ix1 o))
    (hV6 : ∀ d o : Fin 64, (V c main_v28 : S64x64.Idx → EReal) (ix2 d o) = ws (ix2 o d))
    (hV7 : ∀ o : Fin 64, (V c main_v40 : S1x64.Idx → EReal) (ix2 (0 : Fin 1) o) = bs (ix1 o))
    (t : Fin cfg0.N) :
    (dat0 V q c).flushed 14 t = ((cfg0.win 14).blk t).view.read (Elt Ideal) (arr2 (hidden Sx cm feat w b ws bs)) := by
  show (cfg0.win 14).cut (grid0.coords t) ((dat0 V q c).after 14 t) = _
  rw [after0_14]
  unfold out0_14
  rw [View.canon_unit_zero hz0]
  funext j
  obtain ⟨r, o, rfl⟩ : ∃ (r : Fin 4000) (o : Fin 64), j = ix2 r o := ⟨j 0, j 1, eq_ix2 j⟩
  refine Eq.trans (b := hidden Sx cm feat w b ws bs (row (pt0 t) r) o) ?_ ?_
  · exact point0_14 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t)
      Sx cm feat prev w b ws bs pw pb tw tb (pt0 t) hcm
      (fun r k => (blk0_0 V c t r k).trans (hV0 _ _))
      (fun r j => (blk0_1 V c t r j).trans (hV1 _ _))
      (fun r d => (blk0_2 V c t r d).trans (hV2 _ _))
      (fun k o => (blk0_4 V c t k o).trans (hV4 _ _))
      (fun o => (blk0_5 V c t 0 o).trans (hV5 _))
      (fun d o => (blk0_6 V c t d o).trans (hV6 _ _))
      (fun o => (blk0_7 V c t 0 o).trans (hV7 _))
      r o
  · have h := idx_rows0 t
    have hemb : ((cfg0.win 14).blk t).view.emb (ix2 r o) = (ix2 (row (pt0 t) r) o : S100000x64.Idx) :=
      funext fun a => Fin.ext (by
        match a with
        | ⟨0, _⟩ => show win0_14.index t (0 : Fin 2) * 4000 + 1 * r.val = 4000 * t.val + r.val; omega
        | ⟨1, _⟩ => show win0_14.index t (1 : Fin 2) * 64 + 1 * o.val = o.val; omega)
    show _ = arr2 (hidden Sx cm feat w b ws bs) (((cfg0.win 14).blk t).view.emb (ix2 r o))
    rw [hemb, arr2_ix2]

/-- What point t writes back to the second output is block t of the specification's first highway step. -/
theorem flushed0_15_eq (c : Dev nD) (Sx : SE.Idx → EReal) (cm : SC.Idx → EReal) (feat prev : SN.Idx → EReal) (w : SW256.Idx → EReal)
    (b : SB.Idx → EReal) (ws : SW64.Idx → EReal) (bs : SB.Idx → EReal) (pw : SW128.Idx → EReal) (pb : SB.Idx → EReal)
    (tw : SW128.Idx → EReal) (tb : SB.Idx → EReal) (hcm : ∀ e, cm e ≠ 0)
    (hV0 : ∀ (n : Fin 100000) (k : Fin 256), (V c main_v24 : S100000x256.Idx → EReal) (ix2 n k) = Sx (ix2 (segRow n k) (lane k)))
    (hV1 : ∀ (n : Fin 100000) (j : Fin 4), (V c main_v11 : S100000x4.Idx → EReal) (ix2 n j)
      = Ideal.div 1 (cm (ix2 (⟨4 * n.val + j.val, by omega⟩ : Fin 400000) (0 : Fin 1))))
    (hV2 : ∀ (n : Fin 100000) (d : Fin 64), (V c main_v12 : S100000x64.Idx → EReal) (ix2 n d) = feat (ix2 n d))
    (hV3 : ∀ (n : Fin 100000) (d : Fin 64), (V c main_v12 : S100000x64.Idx → EReal) (ix2 n d) = prev (ix2 n d))
    (hV4 : ∀ (k : Fin 256) (o : Fin 64), (V c main_v26 : S256x64.Idx → EReal) (ix2 k o) = w (ix2 o k))
    (hV5 : ∀ o : Fin 64, (V c main_v39 : S1x64.Idx → EReal) (ix2 (0 : Fin 1) o) = b (ix1 o))
    (hV6 : ∀ d o : Fin 64, (V c main_v28 : S64x64.Idx → EReal) (ix2 d o) = ws (ix2 o d))
    (hV7 : ∀ o : Fin 64, (V c main_v40 : S1x64.Idx → EReal) (ix2 (0 : Fin 1) o) = bs (ix1 o))
    (hV8 : ∀ d o : Fin 64, (V c main_v32 : S64x64.Idx → EReal) (ix2 d o) = pw (ix2 o (⟨d.val, by omega⟩ : Fin 128)))
    (hV9 : ∀ d o : Fin 64, (V c main_v34 : S64x64.Idx → EReal) (ix2 d o) = pw (ix2 o (⟨64 + d.val, by omega⟩ : Fin 128)))
    (hV10 : ∀ o : Fin 64, (V c main_v41 : S1x64.Idx → EReal) (ix2 (0 : Fin 1) o) = pb (ix1 o))
    (hV11 : ∀ d o : Fin 64, (V c main_v36 : S64x64.Idx → EReal) (ix2 d o) = tw (ix2 o (⟨d.val, by omega⟩ : Fin 128)))
    (hV12 : ∀ d o : Fin 64, (V c main_v38 : S64x64.Idx → EReal) (ix2 d o) = tw (ix2 o (⟨64 + d.val, by omega⟩ : Fin 128)))
    (hV13 : ∀ o : Fin 64, (V c main_v42 : S1x64.Idx → EReal) (ix2 (0 : Fin 1) o) = tb (ix1 o))
    (t : Fin cfg0.N) :
    (dat0 V q c).flushed 15 t = ((cfg0.win 15).blk t).view.read (Elt Ideal)
      (arr2 (highway (arr2 (hidden Sx cm feat w b ws bs)) prev pw pb tw tb)) := by
  show (cfg0.win 15).cut (grid0.coords t) ((dat0 V q c).after 15 t) = _
  rw [after0_15]
  unfold out0_15
  rw [View.canon_unit_zero hz0]
  funext j
  obtain ⟨r, o, rfl⟩ : ∃ (r : Fin 4000) (o : Fin 64), j = ix2 r o := ⟨j 0, j 1, eq_ix2 j⟩
  refine Eq.trans (b := highway (arr2 (hidden Sx cm feat w b ws bs)) prev pw pb tw tb (row (pt0 t) r) o) ?_ ?_
  · exact point0_15 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t)
      Sx cm feat prev w b ws bs pw pb tw tb (pt0 t) hcm
      (fun r k => (blk0_0 V c t r k).trans (hV0 _ _))
      (fun r j => (blk0_1 V c t r j).trans (hV1 _ _))
      (fun r d => (blk0_2 V c t r d).trans (hV2 _ _))
      (fun k o => (blk0_4 V c t k o).trans (hV4 _ _))
      (fun o => (blk0_5 V c t 0 o).trans (hV5 _))
      (fun d o => (blk0_6 V c t d o).trans (hV6 _ _))
      (fun o => (blk0_7 V c t 0 o).trans (hV7 _))
      (fun r d => (blk0_3 V c t r d).trans (hV3 _ _))
      (fun d o => (blk0_8 V c t d o).trans (hV8 _ _))
      (fun d o => (blk0_9 V c t d o).trans (hV9 _ _))
      (fun o => (blk0_10 V c t 0 o).trans (hV10 _))
      (fun d o => (blk0_11 V c t d o).trans (hV11 _ _))
      (fun d o => (blk0_12 V c t d o).trans (hV12 _ _))
      (fun o => (blk0_13 V c t 0 o).trans (hV13 _))
      r o
  · have h := idx_rows0 t
    have hemb : ((cfg0.win 15).blk t).view.emb (ix2 r o) = (ix2 (row (pt0 t) r) o : S100000x64.Idx) :=
      funext fun a => Fin.ext (by
        match a with
        | ⟨0, _⟩ => show win0_15.index t (0 : Fin 2) * 4000 + 1 * r.val = 4000 * t.val + r.val; omega
        | ⟨1, _⟩ => show win0_15.index t (1 : Fin 2) * 64 + 1 * o.val = o.val; omega)
    show _ = arr2 (highway (arr2 (hidden Sx cm feat w b ws bs)) prev pw pb tw tb) (((cfg0.win 15).blk t).view.emb (ix2 r o))
    rw [hemb, arr2_ix2]

/-- An index of output 14's array is in point t's block iff each coordinate is in the block's range on its axis. -/
theorem mem_blk0_14 (t : Fin cfg0.N) (i : S100000x64.Idx) :
    i ∈ ((cfg0.win 14).blk t).view.set ↔ ∀ a : Fin 2, win0_14.index t a * S4000x64.size a ≤ (i a).val
      ∧ (i a).val < win0_14.index t a * S4000x64.size a + S4000x64.size a := by
  show i ∈ ((View.whole main_v43_0).slice (win0_14.rect t)).set ↔ _
  rw [View.set_slice_whole, Rect.mem_set_unit]
  exact Iff.rfl

/-- Row n of output 14's array is in the block of point n / 4000. -/
theorem cover0_14 (i : S100000x64.Idx) : ∃ t : Fin cfg0.N, (cfg0.win 14).flush t = true ∧ i ∈ ((cfg0.win 14).blk t).view.set := by
  have hi0 : (i 0).val < 100000 := (i 0).isLt
  have hi1 : (i 1).val < 64 := (i 1).isLt
  have hN : cfg0.N = 25 := N_0
  have ht : (i 0).val / 4000 < cfg0.N := by rw [hN]; omega
  have h := idx_rows0 ⟨(i 0).val / 4000, ht⟩
  refine ⟨⟨(i 0).val / 4000, ht⟩, flush0_14 _, ?_⟩
  rw [mem_blk0_14]
  intro a
  match a with
  | ⟨0, _⟩ =>
    show win0_14.index ⟨(i 0).val / 4000, ht⟩ (0 : Fin 2) * 4000 ≤ (i 0).val
      ∧ (i 0).val < win0_14.index ⟨(i 0).val / 4000, ht⟩ (0 : Fin 2) * 4000 + 4000
    have e : (⟨(i 0).val / 4000, ht⟩ : Fin cfg0.N).val = (i 0).val / 4000 := rfl
    omega
  | ⟨1, _⟩ =>
    show win0_14.index ⟨(i 0).val / 4000, ht⟩ (1 : Fin 2) * 64 ≤ (i 1).val
      ∧ (i 1).val < win0_14.index ⟨(i 0).val / 4000, ht⟩ (1 : Fin 2) * 64 + 64
    omega

/-- An index of output 15's array is in point t's block iff each coordinate is in the block's range on its axis. -/
theorem mem_blk0_15 (t : Fin cfg0.N) (i : S100000x64.Idx) :
    i ∈ ((cfg0.win 15).blk t).view.set ↔ ∀ a : Fin 2, win0_15.index t a * S4000x64.size a ≤ (i a).val
      ∧ (i a).val < win0_15.index t a * S4000x64.size a + S4000x64.size a := by
  show i ∈ ((View.whole main_v43_1).slice (win0_15.rect t)).set ↔ _
  rw [View.set_slice_whole, Rect.mem_set_unit]
  exact Iff.rfl

/-- Row n of output 15's array is in the block of point n / 4000. -/
theorem cover0_15 (i : S100000x64.Idx) : ∃ t : Fin cfg0.N, (cfg0.win 15).flush t = true ∧ i ∈ ((cfg0.win 15).blk t).view.set := by
  have hi0 : (i 0).val < 100000 := (i 0).isLt
  have hi1 : (i 1).val < 64 := (i 1).isLt
  have hN : cfg0.N = 25 := N_0
  have ht : (i 0).val / 4000 < cfg0.N := by rw [hN]; omega
  have h := idx_rows0 ⟨(i 0).val / 4000, ht⟩
  refine ⟨⟨(i 0).val / 4000, ht⟩, flush0_15 _, ?_⟩
  rw [mem_blk0_15]
  intro a
  match a with
  | ⟨0, _⟩ =>
    show win0_15.index ⟨(i 0).val / 4000, ht⟩ (0 : Fin 2) * 4000 ≤ (i 0).val
      ∧ (i 0).val < win0_15.index ⟨(i 0).val / 4000, ht⟩ (0 : Fin 2) * 4000 + 4000
    have e : (⟨(i 0).val / 4000, ht⟩ : Fin cfg0.N).val = (i 0).val / 4000 := rfl
    omega
  | ⟨1, _⟩ =>
    show win0_15.index ⟨(i 0).val / 4000, ht⟩ (1 : Fin 2) * 64 ≤ (i 1).val
      ∧ (i 1).val < win0_15.index ⟨(i 0).val / 4000, ht⟩ (1 : Fin 2) * 64 + 64
    omega

/-- Kernel 0's first output array after the run: the specification's hidden state. -/
theorem final0_14_of (c : Dev nD) (Sx : SE.Idx → EReal) (cm : SC.Idx → EReal) (feat prev : SN.Idx → EReal) (w : SW256.Idx → EReal)
    (b : SB.Idx → EReal) (ws : SW64.Idx → EReal) (bs : SB.Idx → EReal) (pw : SW128.Idx → EReal) (pb : SB.Idx → EReal)
    (tw : SW128.Idx → EReal) (tb : SB.Idx → EReal) (hcm : ∀ e, cm e ≠ 0)
    (hV0 : ∀ (n : Fin 100000) (k : Fin 256), (V c main_v24 : S100000x256.Idx → EReal) (ix2 n k) = Sx (ix2 (segRow n k) (lane k)))
    (hV1 : ∀ (n : Fin 100000) (j : Fin 4), (V c main_v11 : S100000x4.Idx → EReal) (ix2 n j)
      = Ideal.div 1 (cm (ix2 (⟨4 * n.val + j.val, by omega⟩ : Fin 400000) (0 : Fin 1))))
    (hV2 : ∀ (n : Fin 100000) (d : Fin 64), (V c main_v12 : S100000x64.Idx → EReal) (ix2 n d) = feat (ix2 n d))
    (hV4 : ∀ (k : Fin 256) (o : Fin 64), (V c main_v26 : S256x64.Idx → EReal) (ix2 k o) = w (ix2 o k))
    (hV5 : ∀ o : Fin 64, (V c main_v39 : S1x64.Idx → EReal) (ix2 (0 : Fin 1) o) = b (ix1 o))
    (hV6 : ∀ d o : Fin 64, (V c main_v28 : S64x64.Idx → EReal) (ix2 d o) = ws (ix2 o d))
    (hV7 : ∀ o : Fin 64, (V c main_v40 : S1x64.Idx → EReal) (ix2 (0 : Fin 1) o) = bs (ix1 o)) :
    (dat0 V q c).arrAt 14 cfg0.N = arr2 (hidden Sx cm feat w b ws bs) :=
  (dat0 V q c).arrAt_eq_of_cover 14 _
    (fun t _ => flushed0_14_eq V q c Sx cm feat prev w b ws bs pw pb tw tb hcm hV0 hV1 hV2 hV4 hV5 hV6 hV7 t)
    cover0_14

/-- Kernel 0's second output array after the run: the specification's first highway step. -/
theorem final0_15_of (c : Dev nD) (Sx : SE.Idx → EReal) (cm : SC.Idx → EReal) (feat prev : SN.Idx → EReal) (w : SW256.Idx → EReal)
    (b : SB.Idx → EReal) (ws : SW64.Idx → EReal) (bs : SB.Idx → EReal) (pw : SW128.Idx → EReal) (pb : SB.Idx → EReal)
    (tw : SW128.Idx → EReal) (tb : SB.Idx → EReal) (hcm : ∀ e, cm e ≠ 0)
    (hV0 : ∀ (n : Fin 100000) (k : Fin 256), (V c main_v24 : S100000x256.Idx → EReal) (ix2 n k) = Sx (ix2 (segRow n k) (lane k)))
    (hV1 : ∀ (n : Fin 100000) (j : Fin 4), (V c main_v11 : S100000x4.Idx → EReal) (ix2 n j)
      = Ideal.div 1 (cm (ix2 (⟨4 * n.val + j.val, by omega⟩ : Fin 400000) (0 : Fin 1))))
    (hV2 : ∀ (n : Fin 100000) (d : Fin 64), (V c main_v12 : S100000x64.Idx → EReal) (ix2 n d) = feat (ix2 n d))
    (hV3 : ∀ (n : Fin 100000) (d : Fin 64), (V c main_v12 : S100000x64.Idx → EReal) (ix2 n d) = prev (ix2 n d))
    (hV4 : ∀ (k : Fin 256) (o : Fin 64), (V c main_v26 : S256x64.Idx → EReal) (ix2 k o) = w (ix2 o k))
    (hV5 : ∀ o : Fin 64, (V c main_v39 : S1x64.Idx → EReal) (ix2 (0 : Fin 1) o) = b (ix1 o))
    (hV6 : ∀ d o : Fin 64, (V c main_v28 : S64x64.Idx → EReal) (ix2 d o) = ws (ix2 o d))
    (hV7 : ∀ o : Fin 64, (V c main_v40 : S1x64.Idx → EReal) (ix2 (0 : Fin 1) o) = bs (ix1 o))
    (hV8 : ∀ d o : Fin 64, (V c main_v32 : S64x64.Idx → EReal) (ix2 d o) = pw (ix2 o (⟨d.val, by omega⟩ : Fin 128)))
    (hV9 : ∀ d o : Fin 64, (V c main_v34 : S64x64.Idx → EReal) (ix2 d o) = pw (ix2 o (⟨64 + d.val, by omega⟩ : Fin 128)))
    (hV10 : ∀ o : Fin 64, (V c main_v41 : S1x64.Idx → EReal) (ix2 (0 : Fin 1) o) = pb (ix1 o))
    (hV11 : ∀ d o : Fin 64, (V c main_v36 : S64x64.Idx → EReal) (ix2 d o) = tw (ix2 o (⟨d.val, by omega⟩ : Fin 128)))
    (hV12 : ∀ d o : Fin 64, (V c main_v38 : S64x64.Idx → EReal) (ix2 d o) = tw (ix2 o (⟨64 + d.val, by omega⟩ : Fin 128)))
    (hV13 : ∀ o : Fin 64, (V c main_v42 : S1x64.Idx → EReal) (ix2 (0 : Fin 1) o) = tb (ix1 o)) :
    (dat0 V q c).arrAt 15 cfg0.N = arr2 (highway (arr2 (hidden Sx cm feat w b ws bs)) prev pw pb tw tb) :=
  (dat0 V q c).arrAt_eq_of_cover 15 _
    (fun t _ => flushed0_15_eq V q c Sx cm feat prev w b ws bs pw pb tw tb hcm hV0 hV1 hV2 hV3 hV4 hV5 hV6 hV7 hV8 hV9 hV10 hV11 hV12 hV13 t)
    cover0_15

end Cert.KernelIdeal.Val
end
-- ==== Proof.IdealValue1.lean ====
/-
  The second kernel's output array, from blocks to the array.

  At any contents of the buffers when the second kernel is entered: if its fourteen input arrays are the
  specification's arrays (the segment sums reshaped to [100000, 256], the reciprocal counts [100000, 4], the features and
  the carried features, the transposed weight matrices and the bias rows), then what each of the 25 grid points writes
  back is its block of 4000 rows of the specification's highway step over the hidden state, and — the 25 blocks
  tiling the array — the output array ends holding that function. A block's element sits in its array at block
  index × block size + its coordinate inside the block; a row-tiled window's block index at point t is (t, 0), a
  whole-array window's is (0, 0).
-/
import proofs.«102057_j23811298690073_2_alg».proof.Proof.IdealRegion1
import proofs.«102057_j23811298690073_2_alg».proof.Proof.PayIdeal
import proofs.«102057_j23811298690073_2_alg».proof.Proof.BlockBridge
import Idealize.ShloMosaic.Lib.Pipeline.Value

set_option maxRecDepth 16384

noncomputable section

namespace Cert.KernelIdeal.Val

open Cert.KernelIdeal Cert.KernelIdeal.Gen Cert.KernelIdeal.Fr Cert.KernelIdeal.Pay
open Idealize.ShloMosaic Idealize.ShloMosaic.TcCoe Idealize.ShloMosaic.ValueIdx
open Idealize.SL Idealize.SL.RA
open Idealize.ShloMosaic.Pipeline (Dat Cfg Window)
open Cert.Rgc Cert.Rgc.Blk

/-- The two zero offsets, however spelt. -/
theorem hz1 : (![0, 0] : Fin 2 → Nat) = fun _ => 0 := funext fun a => by fin_cases a <;> rfl

/-- A load of 64 rows of the [256, 64] weight matrix from row `c` reads, at (d, o), row c + d. -/
theorem ld_band (x4 : Vec Ideal S256x64 .bf16) (c : Nat) (inb : ∀ a, (![c, 0] : Fin 2 → Nat) a + S64x64.size a ≤ S256x64.size a)
    (hc : c + 64 ≤ 256) (d o : Fin 64) :
    View.ld x4 (Rect.unit (s := S256x64) ![c, 0] S64x64.size inb) (ix2 d o) = x4 (ix2 (⟨c + d.val, by omega⟩ : Fin 256) o) := by
  show x4 ((Rect.unit (s := S256x64) ![c, 0] S64x64.size inb).emb (ix2 d o)) = _
  refine congrArg x4 (funext fun a => Fin.ext ?_)
  match a with
  | ⟨0, _⟩ => show c + 1 * d.val = c + d.val; omega
  | ⟨1, _⟩ => show 0 + 1 * o.val = o.val; omega

/-- Kernel 1's stored block at one index: the specification's highway step of the second layer at row 4000·t + r,
    when the fourteen input blocks are the blocks of the specification's arrays. -/
theorem point1 (x0 : Vec Ideal S4000x256 .f32) (x1 : Vec Ideal S4000x4 .f32) (x2 x3 : Vec Ideal S4000x64 .bf16)
    (x4 : Vec Ideal S256x64 .bf16) (x5 : Vec Ideal S1x64 .f32) (x6 : Vec Ideal S64x64 .bf16) (x7 : Vec Ideal S1x64 .f32)
    (x8 x9 : Vec Ideal S64x64 .bf16) (x10 : Vec Ideal S1x64 .f32) (x11 x12 : Vec Ideal S64x64 .bf16) (x13 : Vec Ideal S1x64 .f32)
    (Sx : SE.Idx → EReal) (cm : SC.Idx → EReal) (feat prev : SN.Idx → EReal) (w : SW256.Idx → EReal) (b : SB.Idx → EReal)
    (ws : SW64.Idx → EReal) (bs : SB.Idx → EReal) (pw : SW128.Idx → EReal) (pb : SB.Idx → EReal) (tw : SW128.Idx → EReal)
    (tb : SB.Idx → EReal) (t : Fin 25)
    (hcm : ∀ e, cm e ≠ 0)
    (h0 : ∀ (r : Fin 4000) (k : Fin 256), x0 (ix2 r k) = Sx (ix2 (segRow (row t r) k) (lane k)))
    (h1 : ∀ (r : Fin 4000) (j : Fin 4), x1 (ix2 r j)
      = Ideal.div 1 (cm (ix2 (⟨4 * (row t r).val + j.val, by omega⟩ : Fin 400000) (0 : Fin 1))))
    (h2 : ∀ (r : Fin 4000) (d : Fin 64), x2 (ix2 r d) = feat (ix2 (row t r) d))
    (h3 : ∀ (r : Fin 4000) (d : Fin 64), x3 (ix2 r d) = prev (ix2 (row t r) d))
    (h4 : ∀ (k : Fin 256) (o : Fin 64), x4 (ix2 k o) = w (ix2 o k))
    (h5 : ∀ o : Fin 64, x5 (ix2 (0 : Fin 1) o) = b (ix1 o))
    (h6 : ∀ d o : Fin 64, x6 (ix2 d o) = ws (ix2 o d))
    (h7 : ∀ o : Fin 64, x7 (ix2 (0 : Fin 1) o) = bs (ix1 o))
    (h8 : ∀ d o : Fin 64, x8 (ix2 d o) = pw (ix2 o (⟨d.val, by omega⟩ : Fin 128)))
    (h9 : ∀ d o : Fin 64, x9 (ix2 d o) = pw (ix2 o (⟨64 + d.val, by omega⟩ : Fin 128)))
    (h10 : ∀ o : Fin 64, x10 (ix2 (0 : Fin 1) o) = pb (ix1 o))
    (h11 : ∀ d o : Fin 64, x11 (ix2 d o) = tw (ix2 o (⟨d.val, by omega⟩ : Fin 128)))
    (h12 : ∀ d o : Fin 64, x12 (ix2 d o) = tw (ix2 o (⟨64 + d.val, by omega⟩ : Fin 128)))
    (h13 : ∀ o : Fin 64, x13 (ix2 (0 : Fin 1) o) = tb (ix1 o))
    (r : Fin 4000) (o : Fin 64) :
    k1_pay1 (F := Ideal) (k1_pay3 (proj1 x0 x1 x4) (View.ld x2 rN_k1) (View.ld x6 rM_k1) (View.ld x5 rB_k1) (View.ld x7 rB_k1))
      (k1_pay4 (View.ld x3 rN_k1))
      (k1_pay6 (proj1 x0 x1 x4) (View.ld x2 rN_k1) (View.ld x6 rM_k1) (View.ld x5 rB_k1) (View.ld x7 rB_k1) (View.ld x3 rN_k1) (View.ld x8 rM_k1) (View.ld x9 rM_k1) (View.ld x10 rB_k1))
      (k1_pay7 (proj1 x0 x1 x4) (View.ld x2 rN_k1) (View.ld x6 rM_k1) (View.ld x5 rB_k1) (View.ld x7 rB_k1) (View.ld x11 rM_k1))
      (k1_pay8 (View.ld x12 rM_k1)) (View.ld x13 rB_k1) (ix2 r o)
    = highway (arr2 (hidden Sx cm feat w b ws bs)) prev pw pb tw tb (row t r) o := by
  unfold proj1
  simp only [View.ld_unit_zero (S := S4000x256) hz1, View.ld_unit_zero (S := S4000x4) hz1, View.ld_unit_zero (S := S4000x64) hz1,
    View.ld_unit_zero (S := S64x64) hz1, View.ld_unit_zero (S := S1x64) hz1]
  rw [highway1_apply]
  refine blkHighway_eq_highway (arr2 (hidden Sx cm feat w b ws bs)) prev pw pb tw tb _ x3 x8 x9 x10 x11 x12 x13 t
    (fun r d => ?_) h3 h8 h9 h10 h11 h12 h13 r o
  rw [hidden1_apply, arr2_ix2]
  unfold Cert.Rgc.hidden
  refine congrArg Ideal.logistic ?_
  exact blkConv_eq_conv Sx cm feat w b ws bs x0 x1 _ _ _ _ x5 x2 x6 x7 t hcm h0 h1
    (fun d o => (ld_band x4 0 _ (by omega) d o).trans ((h4 _ o).trans (congrArg (fun j : Fin 256 => w (ix2 o j)) (Fin.ext (Nat.zero_add _)))))
    (fun d o => (ld_band x4 64 _ (by omega) d o).trans (h4 _ o))
    (fun d o => (ld_band x4 128 _ (by omega) d o).trans (h4 _ o))
    (fun d o => (ld_band x4 192 _ (by omega) d o).trans (h4 _ o))
    h5 h2 h6 h7 r d

/-! ## From blocks to the array -/

variable (V : (c : Dev nD) → (b : Ref sig .tc) → Buf (Elt Ideal) ((c : Thread nD τ).loc b))
variable (q : Fin cfg1.W → PosShare TreeShare)

/-- The printed index maps, decided over the 25 grid points: a row-tiled window's block index is (t, 0), -/
theorem idx_rows1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_14.index t (0 : Fin 2) = t.val ∧ win1_14.index t (1 : Fin 2) = 0 :=
  (by decide +kernel : ∀ t : Fin grid1.N, _)

/-- a whole-array window's is (0, 0). -/
theorem idx_whole1 : ∀ t : Fin cfg1.N,
    (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = 0 ∧ win1_8.index t (1 : Fin 2) = 0)
    ∧ (win1_9.index t (0 : Fin 2) = 0 ∧ win1_9.index t (1 : Fin 2) = 0)
    ∧ (win1_10.index t (0 : Fin 2) = 0 ∧ win1_10.index t (1 : Fin 2) = 0)
    ∧ (win1_11.index t (0 : Fin 2) = 0 ∧ win1_11.index t (1 : Fin 2) = 0)
    ∧ (win1_12.index t (0 : Fin 2) = 0 ∧ win1_12.index t (1 : Fin 2) = 0)
    ∧ (win1_13.index t (0 : Fin 2) = 0 ∧ win1_13.index t (1 : Fin 2) = 0) :=
  (by decide +kernel : ∀ t : Fin grid1.N, _)

/-- A grid point as a block number below 25. -/
def pt1 (t : Fin cfg1.N) : Fin 25 := ⟨t.val, by have h1 := t.isLt; have h2 : cfg1.N = 25 := N_1; omega⟩

/-! Row r of a row-tiled window's block at point t is row 4000·t + r of its array; a whole-array window's block is its array. -/

theorem blk1_0 (c : Dev nD) (t : Fin cfg1.N) (r : Fin 4000) (k : Fin 256) :
    (iblk1 V c 0 t : S4000x256.Idx → EReal) (ix2 r k) = (V c main_v55 : S100000x256.Idx → EReal) (ix2 (row (pt1 t) r) k) := by
  have h := idx_rows1 t
  show (V c main_v55 : S100000x256.Idx → EReal) (((cfg1.win 0).blk t).view.emb (ix2 r k)) = _
  refine congrArg (V c main_v55 : S100000x256.Idx → EReal) (funext fun a => Fin.ext ?_)
  match a with
  | ⟨0, _⟩ => show win1_0.index t (0 : Fin 2) * 4000 + 1 * r.val = 4000 * t.val + r.val; omega
  | ⟨1, _⟩ => show win1_0.index t (1 : Fin 2) * 256 + 1 * k.val = k.val; omega

theorem blk1_1 (c : Dev nD) (t : Fin cfg1.N) (r : Fin 4000) (k : Fin 4) :
    (iblk1 V c 1 t : S4000x4.Idx → EReal) (ix2 r k) = (V c main_v11 : S100000x4.Idx → EReal) (ix2 (row (pt1 t) r) k) := by
  have h := idx_rows1 t
  show (V c main_v11 : S100000x4.Idx → EReal) (((cfg1.win 1).blk t).view.emb (ix2 r k)) = _
  refine congrArg (V c main_v11 : S100000x4.Idx → EReal) (funext fun a => Fin.ext ?_)
  match a with
  | ⟨0, _⟩ => show win1_1.index t (0 : Fin 2) * 4000 + 1 * r.val = 4000 * t.val + r.val; omega
  | ⟨1, _⟩ => show win1_1.index t (1 : Fin 2) * 4 + 1 * k.val = k.val; omega

theorem blk1_2 (c : Dev nD) (t : Fin cfg1.N) (r : Fin 4000) (k : Fin 64) :
    (iblk1 V c 2 t : S4000x64.Idx → EReal) (ix2 r k) = (V c main_v43_1 : S100000x64.Idx → EReal) (ix2 (row (pt1 t) r) k) := by
  have h := idx_rows1 t
  show (V c main_v43_1 : S100000x64.Idx → EReal) (((cfg1.win 2).blk t).view.emb (ix2 r k)) = _
  refine congrArg (V c main_v43_1 : S100000x64.Idx → EReal) (funext fun a => Fin.ext ?_)
  match a with
  | ⟨0, _⟩ => show win1_2.index t (0 : Fin 2) * 4000 + 1 * r.val = 4000 * t.val + r.val; omega
  | ⟨1, _⟩ => show win1_2.index t (1 : Fin 2) * 64 + 1 * k.val = k.val; omega

theorem blk1_3 (c : Dev nD) (t : Fin cfg1.N) (r : Fin 4000) (k : Fin 64) :
    (iblk1 V c 3 t : S4000x64.Idx → EReal) (ix2 r k) = (V c main_v43_0 : S100000x64.Idx → EReal) (ix2 (row (pt1 t) r) k) := by
  have h := idx_rows1 t
  show (V c main_v43_0 : S100000x64.Idx → EReal) (((cfg1.win 3).blk t).view.emb (ix2 r k)) = _
  refine congrArg (V c main_v43_0 : S100000x64.Idx → EReal) (funext fun a => Fin.ext ?_)
  match a with
  | ⟨0, _⟩ => show win1_3.index t (0 : Fin 2) * 4000 + 1 * r.val = 4000 * t.val + r.val; omega
  | ⟨1, _⟩ => show win1_3.index t (1 : Fin 2) * 64 + 1 * k.val = k.val; omega

theorem blk1_4 (c : Dev nD) (t : Fin cfg1.N) (p : Fin 256) (o : Fin 64) :
    (iblk1 V c 4 t : S256x64.Idx → EReal) (ix2 p o) = (V c main_v57 : S256x64.Idx → EReal) (ix2 p o) := by
  have h := idx_whole1 t
  show (V c main_v57 : S256x64.Idx → EReal) (((cfg1.win 4).blk t).view.emb (ix2 p o)) = _
  refine congrArg (V c main_v57 : S256x64.Idx → EReal) (funext fun a => Fin.ext ?_)
  match a with
  | ⟨0, _⟩ => show win1_4.index t (0 : Fin 2) * 256 + 1 * p.val = p.val; omega
  | ⟨1, _⟩ => show win1_4.index t (1 : Fin 2) * 64 + 1 * o.val = o.val; omega

theorem blk1_5 (c : Dev nD) (t : Fin cfg1.N) (p : Fin 1) (o : Fin 64) :
    (iblk1 V c 5 t : S1x64.Idx → EReal) (ix2 p o) = (V c main_v70 : S1x64.Idx → EReal) (ix2 p o) := by
  have h := idx_whole1 t
  show (V c main_v70 : S1x64.Idx → EReal) (((cfg1.win 5).blk t).view.emb (ix2 p o)) = _
  refine congrArg (V c main_v70 : S1x64.Idx → EReal) (funext fun a => Fin.ext ?_)
  match a with
  | ⟨0, _⟩ => show win1_5.index t (0 : Fin 2) * 1 + 1 * p.val = p.val; omega
  | ⟨1, _⟩ => show win1_5.index t (1 : Fin 2) * 64 + 1 * o.val = o.val; omega

theorem blk1_6 (c : Dev nD) (t : Fin cfg1.N) (p : Fin 64) (o : Fin 64) :
    (iblk1 V c 6 t : S64x64.Idx → EReal) (ix2 p o) = (V c main_v59 : S64x64.Idx → EReal) (ix2 p o) := by
  have h := idx_whole1 t
  show (V c main_v59 : S64x64.Idx → EReal) (((cfg1.win 6).blk t).view.emb (ix2 p o)) = _
  refine congrArg (V c main_v59 : S64x64.Idx → EReal) (funext fun a => Fin.ext ?_)
  match a with
  | ⟨0, _⟩ => show win1_6.index t (0 : Fin 2) * 64 + 1 * p.val = p.val; omega
  | ⟨1, _⟩ => show win1_6.index t (1 : Fin 2) * 64 + 1 * o.val = o.val; omega

theorem blk1_7 (c : Dev nD) (t : Fin cfg1.N) (p : Fin 1) (o : Fin 64) :
    (iblk1 V c 7 t : S1x64.Idx → EReal) (ix2 p o) = (V c main_v71 : S1x64.Idx → EReal) (ix2 p o) := by
  have h := idx_whole1 t
  show (V c main_v71 : S1x64.Idx → EReal) (((cfg1.win 7).blk t).view.emb (ix2 p o)) = _
  refine congrArg (V c main_v71 : S1x64.Idx → EReal) (funext fun a => Fin.ext ?_)
  match a with
  | ⟨0, _⟩ => show win1_7.index t (0 : Fin 2) * 1 + 1 * p.val = p.val; omega
  | ⟨1, _⟩ => show win1_7.index t (1 : Fin 2) * 64 + 1 * o.val = o.val; omega

theorem blk1_8 (c : Dev nD) (t : Fin cfg1.N) (p : Fin 64) (o : Fin 64) :
    (iblk1 V c 8 t : S64x64.Idx → EReal) (ix2 p o) = (V c main_v63 : S64x64.Idx → EReal) (ix2 p o) := by
  have h := idx_whole1 t
  show (V c main_v63 : S64x64.Idx → EReal) (((cfg1.win 8).blk t).view.emb (ix2 p o)) = _
  refine congrArg (V c main_v63 : S64x64.Idx → EReal) (funext fun a => Fin.ext ?_)
  match a with
  | ⟨0, _⟩ => show win1_8.index t (0 : Fin 2) * 64 + 1 * p.val = p.val; omega
  | ⟨1, _⟩ => show win1_8.index t (1 : Fin 2) * 64 + 1 * o.val = o.val; omega

theorem blk1_9 (c : Dev nD) (t : Fin cfg1.N) (p : Fin 64) (o : Fin 64) :
    (iblk1 V c 9 t : S64x64.Idx → EReal) (ix2 p o) = (V c main_v65 : S64x64.Idx → EReal) (ix2 p o) := by
  have h := idx_whole1 t
  show (V c main_v65 : S64x64.Idx → EReal) (((cfg1.win 9).blk t).view.emb (ix2 p o)) = _
  refine congrArg (V c main_v65 : S64x64.Idx → EReal) (funext fun a => Fin.ext ?_)
  match a with
  | ⟨0, _⟩ => show win1_9.index t (0 : Fin 2) * 64 + 1 * p.val = p.val; omega
  | ⟨1, _⟩ => show win1_9.index t (1 : Fin 2) * 64 + 1 * o.val = o.val; omega

theorem blk1_10 (c : Dev nD) (t : Fin cfg1.N) (p : Fin 1) (o : Fin 64) :
    (iblk1 V c 10 t : S1x64.Idx → EReal) (ix2 p o) = (V c main_v72 : S1x64.Idx → EReal) (ix2 p o) := by
  have h := idx_whole1 t
  show (V c main_v72 : S1x64.Idx → EReal) (((cfg1.win 10).blk t).view.emb (ix2 p o)) = _
  refine congrArg (V c main_v72 : S1x64.Idx → EReal) (funext fun a => Fin.ext ?_)
  match a with
  | ⟨0, _⟩ => show win1_10.index t (0 : Fin 2) * 1 + 1 * p.val = p.val; omega
  | ⟨1, _⟩ => show win1_10.index t (1 : Fin 2) * 64 + 1 * o.val = o.val; omega

theorem blk1_11 (c : Dev nD) (t : Fin cfg1.N) (p : Fin 64) (o : Fin 64) :
    (iblk1 V c 11 t : S64x64.Idx → EReal) (ix2 p o) = (V c main_v67 : S64x64.Idx → EReal) (ix2 p o) := by
  have h := idx_whole1 t
  show (V c main_v67 : S64x64.Idx → EReal) (((cfg1.win 11).blk t).view.emb (ix2 p o)) = _
  refine congrArg (V c main_v67 : S64x64.Idx → EReal) (funext fun a => Fin.ext ?_)
  match a with
  | ⟨0, _⟩ => show win1_11.index t (0 : Fin 2) * 64 + 1 * p.val = p.val; omega
  | ⟨1, _⟩ => show win1_11.index t (1 : Fin 2) * 64 + 1 * o.val = o.val; omega

theorem blk1_12 (c : Dev nD) (t : Fin cfg1.N) (p : Fin 64) (o : Fin 64) :
    (iblk1 V c 12 t : S64x64.Idx → EReal) (ix2 p o) = (V c main_v69 : S64x64.Idx → EReal) (ix2 p o) := by
  have h := idx_whole1 t
  show (V c main_v69 : S64x64.Idx → EReal) (((cfg1.win 12).blk t).view.emb (ix2 p o)) = _
  refine congrArg (V c main_v69 : S64x64.Idx → EReal) (funext fun a => Fin.ext ?_)
  match a with
  | ⟨0, _⟩ => show win1_12.index t (0 : Fin 2) * 64 + 1 * p.val = p.val; omega
  | ⟨1, _⟩ => show win1_12.index t (1 : Fin 2) * 64 + 1 * o.val = o.val; omega

theorem blk1_13 (c : Dev nD) (t : Fin cfg1.N) (p : Fin 1) (o : Fin 64) :
    (iblk1 V c 13 t : S1x64.Idx → EReal) (ix2 p o) = (V c main_v73 : S1x64.Idx → EReal) (ix2 p o) := by
  have h := idx_whole1 t
  show (V c main_v73 : S1x64.Idx → EReal) (((cfg1.win 13).blk t).view.emb (ix2 p o)) = _
  refine congrArg (V c main_v73 : S1x64.Idx → EReal) (funext fun a => Fin.ext ?_)
  match a with
  | ⟨0, _⟩ => show win1_13.index t (0 : Fin 2) * 1 + 1 * p.val = p.val; omega
  | ⟨1, _⟩ => show win1_13.index t (1 : Fin 2) * 64 + 1 * o.val = o.val; omega

/-- What point t writes back is block t of the specification's second highway step, when the region's arrays are the
    specification's. -/
theorem flushed1_eq (c : Dev nD) (Sx : SE.Idx → EReal) (cm : SC.Idx → EReal) (feat prev : SN.Idx → EReal) (w : SW256.Idx → EReal)
    (b : SB.Idx → EReal) (ws : SW64.Idx → EReal) (bs : SB.Idx → EReal) (pw : SW128.Idx → EReal) (pb : SB.Idx → EReal)
    (tw : SW128.Idx → EReal) (tb : SB.Idx → EReal) (hcm : ∀ e, cm e ≠ 0)
    (hV0 : ∀ (n : Fin 100000) (k : Fin 256), (V c main_v55 : S100000x256.Idx → EReal) (ix2 n k) = Sx (ix2 (segRow n k) (lane k)))
    (hV1 : ∀ (n : Fin 100000) (j : Fin 4), (V c main_v11 : S100000x4.Idx → EReal) (ix2 n j)
      = Ideal.div 1 (cm (ix2 (⟨4 * n.val + j.val, by omega⟩ : Fin 400000) (0 : Fin 1))))
    (hV2 : ∀ (n : Fin 100000) (d : Fin 64), (V c main_v43_1 : S100000x64.Idx → EReal) (ix2 n d) = feat (ix2 n d))
    (hV3 : ∀ (n : Fin 100000) (d : Fin 64), (V c main_v43_0 : S100000x64.Idx → EReal) (ix2 n d) = prev (ix2 n d))
    (hV4 : ∀ (k : Fin 256) (o : Fin 64), (V c main_v57 : S256x64.Idx → EReal) (ix2 k o) = w (ix2 o k))
    (hV5 : ∀ o : Fin 64, (V c main_v70 : S1x64.Idx → EReal) (ix2 (0 : Fin 1) o) = b (ix1 o))
    (hV6 : ∀ d o : Fin 64, (V c main_v59 : S64x64.Idx → EReal) (ix2 d o) = ws (ix2 o d))
    (hV7 : ∀ o : Fin 64, (V c main_v71 : S1x64.Idx → EReal) (ix2 (0 : Fin 1) o) = bs (ix1 o))
    (hV8 : ∀ d o : Fin 64, (V c main_v63 : S64x64.Idx → EReal) (ix2 d o) = pw (ix2 o (⟨d.val, by omega⟩ : Fin 128)))
    (hV9 : ∀ d o : Fin 64, (V c main_v65 : S64x64.Idx → EReal) (ix2 d o) = pw (ix2 o (⟨64 + d.val, by omega⟩ : Fin 128)))
    (hV10 : ∀ o : Fin 64, (V c main_v72 : S1x64.Idx → EReal) (ix2 (0 : Fin 1) o) = pb (ix1 o))
    (hV11 : ∀ d o : Fin 64, (V c main_v67 : S64x64.Idx → EReal) (ix2 d o) = tw (ix2 o (⟨d.val, by omega⟩ : Fin 128)))
    (hV12 : ∀ d o : Fin 64, (V c main_v69 : S64x64.Idx → EReal) (ix2 d o) = tw (ix2 o (⟨64 + d.val, by omega⟩ : Fin 128)))
    (hV13 : ∀ o : Fin 64, (V c main_v73 : S1x64.Idx → EReal) (ix2 (0 : Fin 1) o) = tb (ix1 o))
    (t : Fin cfg1.N) :
    (dat1 V q c).flushed 14 t = ((cfg1.win 14).blk t).view.read (Elt Ideal)
      (arr2 (highway (arr2 (hidden Sx cm feat w b ws bs)) prev pw pb tw tb)) := by
  show (cfg1.win 14).cut (grid1.coords t) ((dat1 V q c).after 14 t) = _
  rw [after1_14]
  unfold out1_14
  rw [View.canon_unit_zero hz1]
  funext j
  obtain ⟨r, o, rfl⟩ : ∃ (r : Fin 4000) (o : Fin 64), j = ix2 r o := ⟨j 0, j 1, eq_ix2 j⟩
  refine Eq.trans (b := highway (arr2 (hidden Sx cm feat w b ws bs)) prev pw pb tw tb (row (pt1 t) r) o) ?_ ?_
  · exact point1 (iblk1 V c 0 t) (iblk1 V c 1 t) (iblk1 V c 2 t) (iblk1 V c 3 t) (iblk1 V c 4 t) (iblk1 V c 5 t) (iblk1 V c 6 t)
      (iblk1 V c 7 t) (iblk1 V c 8 t) (iblk1 V c 9 t) (iblk1 V c 10 t) (iblk1 V c 11 t) (iblk1 V c 12 t) (iblk1 V c 13 t)
      Sx cm feat prev w b ws bs pw pb tw tb (pt1 t) hcm
      (fun r k => (blk1_0 V c t r k).trans (hV0 _ _))
      (fun r j => (blk1_1 V c t r j).trans (hV1 _ _))
      (fun r d => (blk1_2 V c t r d).trans (hV2 _ _))
      (fun r d => (blk1_3 V c t r d).trans (hV3 _ _))
      (fun k o => (blk1_4 V c t k o).trans (hV4 _ _))
      (fun o => (blk1_5 V c t 0 o).trans (hV5 _))
      (fun d o => (blk1_6 V c t d o).trans (hV6 _ _))
      (fun o => (blk1_7 V c t 0 o).trans (hV7 _))
      (fun d o => (blk1_8 V c t d o).trans (hV8 _ _))
      (fun d o => (blk1_9 V c t d o).trans (hV9 _ _))
      (fun o => (blk1_10 V c t 0 o).trans (hV10 _))
      (fun d o => (blk1_11 V c t d o).trans (hV11 _ _))
      (fun d o => (blk1_12 V c t d o).trans (hV12 _ _))
      (fun o => (blk1_13 V c t 0 o).trans (hV13 _))
      r o
  · have h := idx_rows1 t
    have hemb : ((cfg1.win 14).blk t).view.emb (ix2 r o) = (ix2 (row (pt1 t) r) o : S100000x64.Idx) :=
      funext fun a => Fin.ext (by
        match a with
        | ⟨0, _⟩ => show win1_14.index t (0 : Fin 2) * 4000 + 1 * r.val = 4000 * t.val + r.val; omega
        | ⟨1, _⟩ => show win1_14.index t (1 : Fin 2) * 64 + 1 * o.val = o.val; omega)
    show _ = arr2 (highway (arr2 (hidden Sx cm feat w b ws bs)) prev pw pb tw tb) (((cfg1.win 14).blk t).view.emb (ix2 r o))
    rw [hemb, arr2_ix2]

/-- An index of the output array is in point t's block iff each coordinate is in the block's range on its axis. -/
theorem mem_blk1_14 (t : Fin cfg1.N) (i : S100000x64.Idx) :
    i ∈ ((cfg1.win 14).blk t).view.set ↔ ∀ a : Fin 2, win1_14.index t a * S4000x64.size a ≤ (i a).val
      ∧ (i a).val < win1_14.index t a * S4000x64.size a + S4000x64.size a := by
  show i ∈ ((View.whole main_v74).slice (win1_14.rect t)).set ↔ _
  rw [View.set_slice_whole, Rect.mem_set_unit]
  exact Iff.rfl

/-- Row n of the output array is in the block of point n / 4000. -/
theorem cover1_14 (i : S100000x64.Idx) : ∃ t : Fin cfg1.N, (cfg1.win 14).flush t = true ∧ i ∈ ((cfg1.win 14).blk t).view.set := by
  have hi0 : (i 0).val < 100000 := (i 0).isLt
  have hi1 : (i 1).val < 64 := (i 1).isLt
  have hN : cfg1.N = 25 := N_1
  have ht : (i 0).val / 4000 < cfg1.N := by rw [hN]; omega
  have h := idx_rows1 ⟨(i 0).val / 4000, ht⟩
  refine ⟨⟨(i 0).val / 4000, ht⟩, flush1_14 _, ?_⟩
  rw [mem_blk1_14]
  intro a
  match a with
  | ⟨0, _⟩ =>
    show win1_14.index ⟨(i 0).val / 4000, ht⟩ (0 : Fin 2) * 4000 ≤ (i 0).val
      ∧ (i 0).val < win1_14.index ⟨(i 0).val / 4000, ht⟩ (0 : Fin 2) * 4000 + 4000
    have e : (⟨(i 0).val / 4000, ht⟩ : Fin cfg1.N).val = (i 0).val / 4000 := rfl
    omega
  | ⟨1, _⟩ =>
    show win1_14.index ⟨(i 0).val / 4000, ht⟩ (1 : Fin 2) * 64 ≤ (i 1).val
      ∧ (i 1).val < win1_14.index ⟨(i 0).val / 4000, ht⟩ (1 : Fin 2) * 64 + 64
    omega

/-- Kernel 1's output array after the run: the specification's second highway step, when the region's arrays are the
    specification's. -/
theorem final1_of (c : Dev nD) (Sx : SE.Idx → EReal) (cm : SC.Idx → EReal) (feat prev : SN.Idx → EReal) (w : SW256.Idx → EReal)
    (b : SB.Idx → EReal) (ws : SW64.Idx → EReal) (bs : SB.Idx → EReal) (pw : SW128.Idx → EReal) (pb : SB.Idx → EReal)
    (tw : SW128.Idx → EReal) (tb : SB.Idx → EReal) (hcm : ∀ e, cm e ≠ 0)
    (hV0 : ∀ (n : Fin 100000) (k : Fin 256), (V c main_v55 : S100000x256.Idx → EReal) (ix2 n k) = Sx (ix2 (segRow n k) (lane k)))
    (hV1 : ∀ (n : Fin 100000) (j : Fin 4), (V c main_v11 : S100000x4.Idx → EReal) (ix2 n j)
      = Ideal.div 1 (cm (ix2 (⟨4 * n.val + j.val, by omega⟩ : Fin 400000) (0 : Fin 1))))
    (hV2 : ∀ (n : Fin 100000) (d : Fin 64), (V c main_v43_1 : S100000x64.Idx → EReal) (ix2 n d) = feat (ix2 n d))
    (hV3 : ∀ (n : Fin 100000) (d : Fin 64), (V c main_v43_0 : S100000x64.Idx → EReal) (ix2 n d) = prev (ix2 n d))
    (hV4 : ∀ (k : Fin 256) (o : Fin 64), (V c main_v57 : S256x64.Idx → EReal) (ix2 k o) = w (ix2 o k))
    (hV5 : ∀ o : Fin 64, (V c main_v70 : S1x64.Idx → EReal) (ix2 (0 : Fin 1) o) = b (ix1 o))
    (hV6 : ∀ d o : Fin 64, (V c main_v59 : S64x64.Idx → EReal) (ix2 d o) = ws (ix2 o d))
    (hV7 : ∀ o : Fin 64, (V c main_v71 : S1x64.Idx → EReal) (ix2 (0 : Fin 1) o) = bs (ix1 o))
    (hV8 : ∀ d o : Fin 64, (V c main_v63 : S64x64.Idx → EReal) (ix2 d o) = pw (ix2 o (⟨d.val, by omega⟩ : Fin 128)))
    (hV9 : ∀ d o : Fin 64, (V c main_v65 : S64x64.Idx → EReal) (ix2 d o) = pw (ix2 o (⟨64 + d.val, by omega⟩ : Fin 128)))
    (hV10 : ∀ o : Fin 64, (V c main_v72 : S1x64.Idx → EReal) (ix2 (0 : Fin 1) o) = pb (ix1 o))
    (hV11 : ∀ d o : Fin 64, (V c main_v67 : S64x64.Idx → EReal) (ix2 d o) = tw (ix2 o (⟨d.val, by omega⟩ : Fin 128)))
    (hV12 : ∀ d o : Fin 64, (V c main_v69 : S64x64.Idx → EReal) (ix2 d o) = tw (ix2 o (⟨64 + d.val, by omega⟩ : Fin 128)))
    (hV13 : ∀ o : Fin 64, (V c main_v73 : S1x64.Idx → EReal) (ix2 (0 : Fin 1) o) = tb (ix1 o)) :
    (dat1 V q c).arrAt 14 cfg1.N = arr2 (highway (arr2 (hidden Sx cm feat w b ws bs)) prev pw pb tw tb) :=
  (dat1 V q c).arrAt_eq_of_cover 14 _
    (fun t _ => flushed1_eq V q c Sx cm feat prev w b ws bs pw pb tw tb hcm hV0 hV1 hV2 hV3 hV4 hV5 hV6 hV7 hV8 hV9 hV10 hV11 hV12 hV13 t)
    cover1_14

end Cert.KernelIdeal.Val
end
-- ==== Proof.HostDefs.lean ====
/-
  The host's segment arithmetic, named: the segment identifiers 4·dst + rel, the wrapped source indices, the segment
  sums of a feature array's gathered source rows and the segment counts clamped below at 1 — as the terms the kernel
  program's host operations spell — and the layout facts both host stretches are read with: a rounding to a narrower
  format is the identity at the ideal values, the host's division at an index, and the two halves of a transposed
  [64, 128] matrix.
-/
import proofs.«102057_j23811298690073_2_alg».proof.Proof.Gen.KernelIdeal.Launch
import proofs.«102057_j23811298690073_2_alg».proof.Proof.Spec
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.HostRead

open Idealize.ShloMosaic Idealize.ShloMosaic.ValueIdx Cert.KernelIdeal Cert.KernelIdeal.Gen

/-- An array of 1200000 32-bit integers (one per edge). -/
abbrev EdgeI : Type := (⟨S1200000, .i32⟩ : BufTy).Contents (Elt Ideal)

/-- The segment identifier of every edge: 4 · destination + relation. -/
def segK (dst rel : EdgeI) : EdgeI :=
  (addi : EdgeI → EdgeI → EdgeI)
    ((muli : EdgeI → EdgeI → EdgeI) dst
      ((broadcastInDim S1200000 ![] bcast_S_S1200000 : (⟨S_, .i32⟩ : BufTy).Contents (Elt Ideal) → EdgeI) (constantI S_ 32 4#32)))
    rel

/-- The source node of every edge, a negative index wrapped around by 100000. -/
def srcK (src : EdgeI) : EdgeI :=
  (select : (⟨S1200000, .i1⟩ : BufTy).Contents (Elt Ideal) → EdgeI → EdgeI → EdgeI)
    ((cmpi .slt : EdgeI → EdgeI → (⟨S1200000, .i1⟩ : BufTy).Contents (Elt Ideal)) src
      ((broadcastInDim S1200000 ![] bcast_S_S1200000 : (⟨S_, .i32⟩ : BufTy).Contents (Elt Ideal) → EdgeI) (constantI S_ 32 0#32)))
    ((addi : EdgeI → EdgeI → EdgeI) src
      ((broadcastInDim S1200000 ![] bcast_S_S1200000 : (⟨S_, .i32⟩ : BufTy).Contents (Elt Ideal) → EdgeI) (constantI S_ 32 100000#32)))
    src

/-- The segment sums [400000, 64] of a feature array: the source rows of the edges, added into their segments. -/
def SxK (f : (⟨S100000x64, .bf16⟩ : BufTy).Contents (Elt Ideal)) (src sg : EdgeI) : (⟨S400000x64, .f32⟩ : BufTy).Contents (Elt Ideal) :=
  Host.scatterAdd (F := Ideal) scatter_S400000x64_S1200000x1_S1200000x64_1_0_0_1
    ((broadcastInDim S400000x64 ![] bcast_S_S400000x64 : (⟨S_, .f32⟩ : BufTy).Contents (Elt Ideal) → (⟨S400000x64, .f32⟩ : BufTy).Contents (Elt Ideal))
      (constant (F := Ideal) S_ .f32 0x00000000#32))
    ((broadcastInDim S1200000x1 ![0] bcast_S1200000_S1200000x1_0 : EdgeI → (⟨S1200000x1, .i32⟩ : BufTy).Contents (Elt Ideal)) sg)
    (extf (F := Ideal) .f32
      (Host.gather gather_S100000x64_S1200000x1_S1200000x64_1_0_n_n_0_1_164 f
        ((broadcastInDim S1200000x1 ![0] bcast_S1200000_S1200000x1_0 : EdgeI → (⟨S1200000x1, .i32⟩ : BufTy).Contents (Elt Ideal)) (srcK src))
        : FVec Ideal S1200000x64 .bf16) bitsLt_bf16_f32)

/-- The segment counts [400000, 1], clamped below at 1. -/
def cmK (sg : EdgeI) : (⟨S400000x1, .f32⟩ : BufTy).Contents (Elt Ideal) :=
  maximumf (F := Ideal) (s := S400000x1) (φ := .f32)
    (Host.scatterAdd (F := Ideal) scatter_S400000x1_S1200000x1_S1200000x1_1_0_0_1
      ((broadcastInDim S400000x1 ![] bcast_S_S400000x1 : (⟨S_, .f32⟩ : BufTy).Contents (Elt Ideal) → (⟨S400000x1, .f32⟩ : BufTy).Contents (Elt Ideal))
        (constant (F := Ideal) S_ .f32 0x00000000#32))
      ((broadcastInDim S1200000x1 ![0] bcast_S1200000_S1200000x1_0 : EdgeI → (⟨S1200000x1, .i32⟩ : BufTy).Contents (Elt Ideal)) sg)
      ((broadcastInDim S1200000x1 ![] bcast_S_S1200000x1 : (⟨S_, .f32⟩ : BufTy).Contents (Elt Ideal) → (⟨S1200000x1, .f32⟩ : BufTy).Contents (Elt Ideal))
        (constant (F := Ideal) S_ .f32 0x3F800000#32)))
    ((broadcastInDim S400000x1 ![] bcast_S_S400000x1 : (⟨S_, .f32⟩ : BufTy).Contents (Elt Ideal) → (⟨S400000x1, .f32⟩ : BufTy).Contents (Elt Ideal))
      (constant (F := Ideal) S_ .f32 0x3F800000#32))

/-- The f32 pattern of 1.0 is the extended real 1. -/
theorem ofBits_one_f32 : Ideal.ofBits .f32 0x3F800000#32 = 1 := by
  simp [Ideal.ofBits, Ideal.ieee, -EReal.coe_mul]; norm_num

/-- At the ideal values a rounding to a narrower format is the identity. -/
theorem truncf_ideal {s : Shape} {φ ψ : FTy} (a : FVec Ideal s φ) (h : ψ.bits < φ.bits) : (truncf (F := Ideal) ψ a h : s.Idx → EReal) = a := rfl

/-- Two transposed-and-sliced half matrices: rows 0 … 63 of the transposed [64, 128] matrix, -/
theorem half0_apply (A : FVec Ideal S64x128 .f32) (d o : Fin 64) :
    truncf (F := Ideal) .bf16 (extractStridedSlice S64x64 ![0, 0] (transpose S128x64 [1, 0] A transposes_S64x128_S128x64_1_0)
        slices_S128x64_S64x64_0_0) bitsLt_bf16_f32 (ix2 d o) = A (ix2 o (⟨d.val, by omega⟩ : Fin 128)) := by
  rw [truncf_apply, slice2_axis0_apply 0 _ slices_S128x64_S64x64_0_0 d o (⟨d.val, by omega⟩ : Fin 128) (Nat.zero_add _).symm]
  exact transpose_ix2_apply A transposes_S64x128_S128x64_1_0 _ o
/-- and rows 64 … 127. -/
theorem half1_apply (A : FVec Ideal S64x128 .f32) (d o : Fin 64) :
    truncf (F := Ideal) .bf16 (extractStridedSlice S64x64 ![64, 0] (transpose S128x64 [1, 0] A transposes_S64x128_S128x64_1_0)
        slices_S128x64_S64x64_64_0) bitsLt_bf16_f32 (ix2 d o) = A (ix2 o (⟨64 + d.val, by omega⟩ : Fin 128)) := by
  rw [truncf_apply, slice2_axis0_apply 64 _ slices_S128x64_S64x64_64_0 d o (⟨64 + d.val, by omega⟩ : Fin 128) rfl]
  exact transpose_ix2_apply A transposes_S64x128_S128x64_1_0 _ o

/-- The host's division of two vectors, at an index. -/
theorem hostDivf_apply {s : Shape} {φ : FTy} (a b : FVec Ideal s φ) (i : s.Idx) :
    Host.divf (F := Ideal) a b i = Ideal.div (a i) (b i) := rfl

/-- A scalar constant broadcast to any shape reads, at any index, the constant's value. -/
theorem bcast_const_apply {t : Shape} (h : S_.BroadcastsInDim t (![] : Fin 0 → Fin t.rank)) (b : BitVec (FTy.bits .f32)) (i : t.Idx) :
    broadcastInDim t ![] h (constant (F := Ideal) S_ .f32 b) i = Ideal.ofBits .f32 b :=
  broadcastInDim_apply _ h _ i ix0 (fun a => a.elim0)

end Cert.KernelIdeal.HostRead
end
-- ==== Proof.HostRead0.lean ====
/-
  The kernel program's first stretch of host operations, read at an index.

  Before the first kernel the host computes, from the node features, the edges' source, destination and relation
  arrays and the parameters: the segment identifiers 4·dst + rel; the segment sums of the gathered source rows (the
  features rounded to bf16, which at the ideal values is the identity) and the segment counts clamped below at 1; the
  reciprocal counts; and the transposed, sliced and reshaped parameters. Each result buffer is first read as ONE term
  over the argument buffers' contents, then that term is read at an index: a reshape [400000, c] → [100000, 4·c]
  reads row 4·n + k / c at lane k mod c, a transpose swaps the two coordinates, a slice of rows from row 64 reads
  row 64 + d, a [64] vector cast to [1, 64] reads its one coordinate.
-/
import proofs.«102057_j23811298690073_2_alg».proof.Proof.HostDefs

noncomputable section

namespace Cert.KernelIdeal.HostRead

open Idealize.ShloMosaic Idealize.ShloMosaic.ValueIdx Cert.KernelIdeal Cert.KernelIdeal.Gen

variable (W : Valuation τ sig (Elt Ideal))

/-! ## Each buffer as one term over the arguments -/

theorem v2_term : StableHlo.after (hostOps0 (F := Ideal)) W (Proc.devRef .tc main_v2)
    = segK (W (Proc.devRef .tc main_arg2)) (W (Proc.devRef .tc main_arg3)) := by
  unfold segK
  after_results_simp <;> rfl

theorem v12_term : (StableHlo.after (hostOps0 (F := Ideal)) W (Proc.devRef .tc main_v12) : (⟨S100000x64, .bf16⟩ : BufTy).Contents (Elt Ideal))
    = truncf (F := Ideal) .bf16 (W (Proc.devRef .tc main_arg0) : FVec Ideal S100000x64 .f32) bitsLt_bf16_f32 := by
  after_results_simp <;> rfl

theorem v24_term : (StableHlo.after (hostOps0 (F := Ideal)) W (Proc.devRef .tc main_v24) : (⟨S100000x256, .f32⟩ : BufTy).Contents (Elt Ideal))
    = shapeCast S100000x256
        (SxK (truncf (F := Ideal) .bf16 (W (Proc.devRef .tc main_arg0) : FVec Ideal S100000x64 .f32) bitsLt_bf16_f32)
          (W (Proc.devRef .tc main_arg1)) (segK (W (Proc.devRef .tc main_arg2)) (W (Proc.devRef .tc main_arg3))))
        shapeCasts_S400000x64_S100000x256 := by
  unfold SxK srcK segK
  after_results_simp <;> rfl

theorem v11_term : (StableHlo.after (hostOps0 (F := Ideal)) W (Proc.devRef .tc main_v11) : (⟨S100000x4, .f32⟩ : BufTy).Contents (Elt Ideal))
    = shapeCast S100000x4
        (Host.divf (F := Ideal) (s := S400000x1) (φ := .f32)
          ((broadcastInDim S400000x1 ![] bcast_S_S400000x1 : (⟨S_, .f32⟩ : BufTy).Contents (Elt Ideal) → (⟨S400000x1, .f32⟩ : BufTy).Contents (Elt Ideal))
            (constant (F := Ideal) S_ .f32 0x3F800000#32))
          (cmK (segK (W (Proc.devRef .tc main_arg2)) (W (Proc.devRef .tc main_arg3)))))
        shapeCasts_S400000x1_S100000x4 := by
  unfold cmK segK
  after_results_simp <;> rfl

theorem v26_term : (StableHlo.after (hostOps0 (F := Ideal)) W (Proc.devRef .tc main_v26) : FVec Ideal S256x64 .bf16)
    = truncf (F := Ideal) .bf16 (transpose S256x64 [1, 0] (W (Proc.devRef .tc main_arg4) : FVec Ideal S64x256 .f32) transposes_S64x256_S256x64_1_0) bitsLt_bf16_f32 := by
  after_results_simp <;> rfl

theorem v28_term : (StableHlo.after (hostOps0 (F := Ideal)) W (Proc.devRef .tc main_v28) : FVec Ideal S64x64 .bf16)
    = truncf (F := Ideal) .bf16 (transpose S64x64 [1, 0] (W (Proc.devRef .tc main_arg6) : FVec Ideal S64x64 .f32) transposes_S64x64_S64x64_1_0) bitsLt_bf16_f32 := by
  after_results_simp <;> rfl

theorem v32_term : (StableHlo.after (hostOps0 (F := Ideal)) W (Proc.devRef .tc main_v32) : FVec Ideal S64x64 .bf16)
    = truncf (F := Ideal) .bf16 (extractStridedSlice S64x64 ![0, 0]
        (transpose S128x64 [1, 0] (W (Proc.devRef .tc main_arg8) : FVec Ideal S64x128 .f32) transposes_S64x128_S128x64_1_0)
        slices_S128x64_S64x64_0_0) bitsLt_bf16_f32 := by
  after_results_simp <;> rfl

theorem v34_term : (StableHlo.after (hostOps0 (F := Ideal)) W (Proc.devRef .tc main_v34) : FVec Ideal S64x64 .bf16)
    = truncf (F := Ideal) .bf16 (extractStridedSlice S64x64 ![64, 0]
        (transpose S128x64 [1, 0] (W (Proc.devRef .tc main_arg8) : FVec Ideal S64x128 .f32) transposes_S64x128_S128x64_1_0)
        slices_S128x64_S64x64_64_0) bitsLt_bf16_f32 := by
  after_results_simp <;> rfl

theorem v36_term : (StableHlo.after (hostOps0 (F := Ideal)) W (Proc.devRef .tc main_v36) : FVec Ideal S64x64 .bf16)
    = truncf (F := Ideal) .bf16 (extractStridedSlice S64x64 ![0, 0]
        (transpose S128x64 [1, 0] (W (Proc.devRef .tc main_arg10) : FVec Ideal S64x128 .f32) transposes_S64x128_S128x64_1_0)
        slices_S128x64_S64x64_0_0) bitsLt_bf16_f32 := by
  after_results_simp <;> rfl

theorem v38_term : (StableHlo.after (hostOps0 (F := Ideal)) W (Proc.devRef .tc main_v38) : FVec Ideal S64x64 .bf16)
    = truncf (F := Ideal) .bf16 (extractStridedSlice S64x64 ![64, 0]
        (transpose S128x64 [1, 0] (W (Proc.devRef .tc main_arg10) : FVec Ideal S64x128 .f32) transposes_S64x128_S128x64_1_0)
        slices_S128x64_S64x64_64_0) bitsLt_bf16_f32 := by
  after_results_simp <;> rfl

theorem v39_term : (StableHlo.after (hostOps0 (F := Ideal)) W (Proc.devRef .tc main_v39) : FVec Ideal S1x64 .f32)
    = shapeCast S1x64 (W (Proc.devRef .tc main_arg5) : FVec Ideal S64 .f32) shapeCasts_S64_S1x64 := by
  after_results_simp <;> rfl
theorem v40_term : (StableHlo.after (hostOps0 (F := Ideal)) W (Proc.devRef .tc main_v40) : FVec Ideal S1x64 .f32)
    = shapeCast S1x64 (W (Proc.devRef .tc main_arg7) : FVec Ideal S64 .f32) shapeCasts_S64_S1x64 := by
  after_results_simp <;> rfl
theorem v41_term : (StableHlo.after (hostOps0 (F := Ideal)) W (Proc.devRef .tc main_v41) : FVec Ideal S1x64 .f32)
    = shapeCast S1x64 (W (Proc.devRef .tc main_arg9) : FVec Ideal S64 .f32) shapeCasts_S64_S1x64 := by
  after_results_simp <;> rfl
theorem v42_term : (StableHlo.after (hostOps0 (F := Ideal)) W (Proc.devRef .tc main_v42) : FVec Ideal S1x64 .f32)
    = shapeCast S1x64 (W (Proc.devRef .tc main_arg11) : FVec Ideal S64 .f32) shapeCasts_S64_S1x64 := by
  after_results_simp <;> rfl

/-! ## Read at an index -/

/-- The segment sums reshaped to [100000, 256]: column k of node n is lane k mod 64 of segment row 4·n + k / 64. -/
theorem v24_apply (n : Fin 100000) (k : Fin 256) :
    (StableHlo.after (hostOps0 (F := Ideal)) W (Proc.devRef .tc main_v24) : S100000x256.Idx → EReal) (ix2 n k)
      = SxK (W (Proc.devRef .tc main_arg0)) (W (Proc.devRef .tc main_arg1))
          (segK (W (Proc.devRef .tc main_arg2)) (W (Proc.devRef .tc main_arg3))) (ix2 (Cert.Rgc.segRow n k) (Cert.Rgc.lane k)) := by
  rw [v24_term, truncf_ideal]
  exact shapeCast_apply _ shapeCasts_S400000x64_S100000x256 (ix2 n k) (ix2 (Cert.Rgc.segRow n k) (Cert.Rgc.lane k)) (by
    rw [Shape.rowMajor_val_two, Shape.rowMajor_val_two]
    have hn := n.isLt
    have hk := k.isLt
    show (4 * n.val + k.val / 64) * 64 + k.val % 64 = n.val * 256 + k.val
    omega)

/-- The reciprocal counts reshaped to [100000, 4]: column j of node n is 1 over the count of segment row 4·n + j. -/
theorem v11_apply (n : Fin 100000) (j : Fin 4) :
    (StableHlo.after (hostOps0 (F := Ideal)) W (Proc.devRef .tc main_v11) : S100000x4.Idx → EReal) (ix2 n j)
      = Ideal.div 1 (cmK (segK (W (Proc.devRef .tc main_arg2)) (W (Proc.devRef .tc main_arg3)))
          (ix2 (⟨4 * n.val + j.val, by omega⟩ : Fin 400000) (0 : Fin 1))) := by
  rw [v11_term]
  refine (shapeCast_apply _ shapeCasts_S400000x1_S100000x4 (ix2 n j) (ix2 (⟨4 * n.val + j.val, by omega⟩ : Fin 400000) (0 : Fin 1)) (by
    rw [Shape.rowMajor_val_two, Shape.rowMajor_val_two]
    have hn := n.isLt
    have hj := j.isLt
    show (4 * n.val + j.val) * 1 + 0 = n.val * 4 + j.val
    omega)).trans ?_
  rw [hostDivf_apply, bcast_const_apply, ofBits_one_f32]

/-- The features converted to bf16 are the features. -/
theorem v12_apply (n : Fin 100000) (d : Fin 64) :
    (StableHlo.after (hostOps0 (F := Ideal)) W (Proc.devRef .tc main_v12) : S100000x64.Idx → EReal) (ix2 n d)
      = (W (Proc.devRef .tc main_arg0) : S100000x64.Idx → EReal) (ix2 n d) := by
  rw [v12_term]; rfl

theorem v26_apply (k : Fin 256) (o : Fin 64) :
    (StableHlo.after (hostOps0 (F := Ideal)) W (Proc.devRef .tc main_v26) : S256x64.Idx → EReal) (ix2 k o)
      = (W (Proc.devRef .tc main_arg4) : S64x256.Idx → EReal) (ix2 o k) := by
  rw [v26_term, truncf_apply]
  exact transpose_ix2_apply _ transposes_S64x256_S256x64_1_0 k o

theorem v28_apply (d o : Fin 64) :
    (StableHlo.after (hostOps0 (F := Ideal)) W (Proc.devRef .tc main_v28) : S64x64.Idx → EReal) (ix2 d o)
      = (W (Proc.devRef .tc main_arg6) : S64x64.Idx → EReal) (ix2 o d) := by
  rw [v28_term, truncf_apply]
  exact transpose_ix2_apply _ transposes_S64x64_S64x64_1_0 d o

theorem v32_apply (d o : Fin 64) :
    (StableHlo.after (hostOps0 (F := Ideal)) W (Proc.devRef .tc main_v32) : S64x64.Idx → EReal) (ix2 d o)
      = (W (Proc.devRef .tc main_arg8) : S64x128.Idx → EReal) (ix2 o (⟨d.val, by omega⟩ : Fin 128)) := by
  rw [v32_term]; exact half0_apply _ d o
theorem v34_apply (d o : Fin 64) :
    (StableHlo.after (hostOps0 (F := Ideal)) W (Proc.devRef .tc main_v34) : S64x64.Idx → EReal) (ix2 d o)
      = (W (Proc.devRef .tc main_arg8) : S64x128.Idx → EReal) (ix2 o (⟨64 + d.val, by omega⟩ : Fin 128)) := by
  rw [v34_term]; exact half1_apply _ d o
theorem v36_apply (d o : Fin 64) :
    (StableHlo.after (hostOps0 (F := Ideal)) W (Proc.devRef .tc main_v36) : S64x64.Idx → EReal) (ix2 d o)
      = (W (Proc.devRef .tc main_arg10) : S64x128.Idx → EReal) (ix2 o (⟨d.val, by omega⟩ : Fin 128)) := by
  rw [v36_term]; exact half0_apply _ d o
theorem v38_apply (d o : Fin 64) :
    (StableHlo.after (hostOps0 (F := Ideal)) W (Proc.devRef .tc main_v38) : S64x64.Idx → EReal) (ix2 d o)
      = (W (Proc.devRef .tc main_arg10) : S64x128.Idx → EReal) (ix2 o (⟨64 + d.val, by omega⟩ : Fin 128)) := by
  rw [v38_term]; exact half1_apply _ d o

theorem v39_apply (o : Fin 64) :
    (StableHlo.after (hostOps0 (F := Ideal)) W (Proc.devRef .tc main_v39) : S1x64.Idx → EReal) (ix2 (0 : Fin 1) o)
      = (W (Proc.devRef .tc main_arg5) : S64.Idx → EReal) (ix1 o) := by
  rw [v39_term]; exact shapeCast_a_1a_apply _ shapeCasts_S64_S1x64 0 o
theorem v40_apply (o : Fin 64) :
    (StableHlo.after (hostOps0 (F := Ideal)) W (Proc.devRef .tc main_v40) : S1x64.Idx → EReal) (ix2 (0 : Fin 1) o)
      = (W (Proc.devRef .tc main_arg7) : S64.Idx → EReal) (ix1 o) := by
  rw [v40_term]; exact shapeCast_a_1a_apply _ shapeCasts_S64_S1x64 0 o
theorem v41_apply (o : Fin 64) :
    (StableHlo.after (hostOps0 (F := Ideal)) W (Proc.devRef .tc main_v41) : S1x64.Idx → EReal) (ix2 (0 : Fin 1) o)
      = (W (Proc.devRef .tc main_arg9) : S64.Idx → EReal) (ix1 o) := by
  rw [v41_term]; exact shapeCast_a_1a_apply _ shapeCasts_S64_S1x64 0 o
theorem v42_apply (o : Fin 64) :
    (StableHlo.after (hostOps0 (F := Ideal)) W (Proc.devRef .tc main_v42) : S1x64.Idx → EReal) (ix2 (0 : Fin 1) o)
      = (W (Proc.devRef .tc main_arg11) : S64.Idx → EReal) (ix1 o) := by
  rw [v42_term]; exact shapeCast_a_1a_apply _ shapeCasts_S64_S1x64 0 o

end Cert.KernelIdeal.HostRead
end
-- ==== Proof.HostRead1.lean ====
/-
  The kernel program's second stretch of host operations (between the two kernels), read at an index: the segment
  sums of the first layer's highway output, gathered and added exactly as in the first stretch with the same
  segment identifiers, and the second layer's transposed, sliced and reshaped parameters. The stretch writes neither
  the reciprocal counts nor the first kernel's two outputs.
-/
import proofs.«102057_j23811298690073_2_alg».proof.Proof.HostDefs
import proofs.«102057_j23811298690073_2_alg».proof.Proof.Gen.KernelIdeal.Regions

noncomputable section

namespace Cert.KernelIdeal.HostRead

open Idealize.ShloMosaic Idealize.ShloMosaic.ValueIdx Cert.KernelIdeal Cert.KernelIdeal.Gen

variable (W : Valuation τ sig (Elt Ideal))

/-! ## Each buffer as one term over the contents before the stretch -/

theorem v55_term : (StableHlo.after (hostOps1 (F := Ideal)) W (Proc.devRef .tc main_v55) : (⟨S100000x256, .f32⟩ : BufTy).Contents (Elt Ideal))
    = shapeCast S100000x256
        (SxK (W (Proc.devRef .tc main_v43_1)) (W (Proc.devRef .tc main_arg1)) (W (Proc.devRef .tc main_v2)))
        shapeCasts_S400000x64_S100000x256 := by
  unfold SxK srcK
  after_results_simp <;> rfl

theorem v57_term : (StableHlo.after (hostOps1 (F := Ideal)) W (Proc.devRef .tc main_v57) : FVec Ideal S256x64 .bf16)
    = truncf (F := Ideal) .bf16 (transpose S256x64 [1, 0] (W (Proc.devRef .tc main_arg12) : FVec Ideal S64x256 .f32) transposes_S64x256_S256x64_1_0) bitsLt_bf16_f32 := by
  after_results_simp <;> rfl

theorem v59_term : (StableHlo.after (hostOps1 (F := Ideal)) W (Proc.devRef .tc main_v59) : FVec Ideal S64x64 .bf16)
    = truncf (F := Ideal) .bf16 (transpose S64x64 [1, 0] (W (Proc.devRef .tc main_arg14) : FVec Ideal S64x64 .f32) transposes_S64x64_S64x64_1_0) bitsLt_bf16_f32 := by
  after_results_simp <;> rfl

theorem v63_term : (StableHlo.after (hostOps1 (F := Ideal)) W (Proc.devRef .tc main_v63) : FVec Ideal S64x64 .bf16)
    = truncf (F := Ideal) .bf16 (extractStridedSlice S64x64 ![0, 0]
        (transpose S128x64 [1, 0] (W (Proc.devRef .tc main_arg16) : FVec Ideal S64x128 .f32) transposes_S64x128_S128x64_1_0)
        slices_S128x64_S64x64_0_0) bitsLt_bf16_f32 := by
  after_results_simp <;> rfl

theorem v65_term : (StableHlo.after (hostOps1 (F := Ideal)) W (Proc.devRef .tc main_v65) : FVec Ideal S64x64 .bf16)
    = truncf (F := Ideal) .bf16 (extractStridedSlice S64x64 ![64, 0]
        (transpose S128x64 [1, 0] (W (Proc.devRef .tc main_arg16) : FVec Ideal S64x128 .f32) transposes_S64x128_S128x64_1_0)
        slices_S128x64_S64x64_64_0) bitsLt_bf16_f32 := by
  after_results_simp <;> rfl

theorem v67_term : (StableHlo.after (hostOps1 (F := Ideal)) W (Proc.devRef .tc main_v67) : FVec Ideal S64x64 .bf16)
    = truncf (F := Ideal) .bf16 (extractStridedSlice S64x64 ![0, 0]
        (transpose S128x64 [1, 0] (W (Proc.devRef .tc main_arg18) : FVec Ideal S64x128 .f32) transposes_S64x128_S128x64_1_0)
        slices_S128x64_S64x64_0_0) bitsLt_bf16_f32 := by
  after_results_simp <;> rfl

theorem v69_term : (StableHlo.after (hostOps1 (F := Ideal)) W (Proc.devRef .tc main_v69) : FVec Ideal S64x64 .bf16)
    = truncf (F := Ideal) .bf16 (extractStridedSlice S64x64 ![64, 0]
        (transpose S128x64 [1, 0] (W (Proc.devRef .tc main_arg18) : FVec Ideal S64x128 .f32) transposes_S64x128_S128x64_1_0)
        slices_S128x64_S64x64_64_0) bitsLt_bf16_f32 := by
  after_results_simp <;> rfl

theorem v70_term : (StableHlo.after (hostOps1 (F := Ideal)) W (Proc.devRef .tc main_v70) : FVec Ideal S1x64 .f32)
    = shapeCast S1x64 (W (Proc.devRef .tc main_arg13) : FVec Ideal S64 .f32) shapeCasts_S64_S1x64 := by
  after_results_simp <;> rfl
theorem v71_term : (StableHlo.after (hostOps1 (F := Ideal)) W (Proc.devRef .tc main_v71) : FVec Ideal S1x64 .f32)
    = shapeCast S1x64 (W (Proc.devRef .tc main_arg15) : FVec Ideal S64 .f32) shapeCasts_S64_S1x64 := by
  after_results_simp <;> rfl
theorem v72_term : (StableHlo.after (hostOps1 (F := Ideal)) W (Proc.devRef .tc main_v72) : FVec Ideal S1x64 .f32)
    = shapeCast S1x64 (W (Proc.devRef .tc main_arg17) : FVec Ideal S64 .f32) shapeCasts_S64_S1x64 := by
  after_results_simp <;> rfl
theorem v73_term : (StableHlo.after (hostOps1 (F := Ideal)) W (Proc.devRef .tc main_v73) : FVec Ideal S1x64 .f32)
    = shapeCast S1x64 (W (Proc.devRef .tc main_arg19) : FVec Ideal S64 .f32) shapeCasts_S64_S1x64 := by
  after_results_simp <;> rfl

/-! ## Read at an index -/

/-- The segment sums of the first layer's output, reshaped to [100000, 256]. -/
theorem v55_apply (n : Fin 100000) (k : Fin 256) :
    (StableHlo.after (hostOps1 (F := Ideal)) W (Proc.devRef .tc main_v55) : S100000x256.Idx → EReal) (ix2 n k)
      = SxK (W (Proc.devRef .tc main_v43_1)) (W (Proc.devRef .tc main_arg1)) (W (Proc.devRef .tc main_v2))
          (ix2 (Cert.Rgc.segRow n k) (Cert.Rgc.lane k)) := by
  rw [v55_term]
  exact shapeCast_apply _ shapeCasts_S400000x64_S100000x256 (ix2 n k) (ix2 (Cert.Rgc.segRow n k) (Cert.Rgc.lane k)) (by
    rw [Shape.rowMajor_val_two, Shape.rowMajor_val_two]
    have hn := n.isLt
    have hk := k.isLt
    show (4 * n.val + k.val / 64) * 64 + k.val % 64 = n.val * 256 + k.val
    omega)

theorem v57_apply (k : Fin 256) (o : Fin 64) :
    (StableHlo.after (hostOps1 (F := Ideal)) W (Proc.devRef .tc main_v57) : S256x64.Idx → EReal) (ix2 k o)
      = (W (Proc.devRef .tc main_arg12) : S64x256.Idx → EReal) (ix2 o k) := by
  rw [v57_term, truncf_apply]
  exact transpose_ix2_apply _ transposes_S64x256_S256x64_1_0 k o

theorem v59_apply (d o : Fin 64) :
    (StableHlo.after (hostOps1 (F := Ideal)) W (Proc.devRef .tc main_v59) : S64x64.Idx → EReal) (ix2 d o)
      = (W (Proc.devRef .tc main_arg14) : S64x64.Idx → EReal) (ix2 o d) := by
  rw [v59_term, truncf_apply]
  exact transpose_ix2_apply _ transposes_S64x64_S64x64_1_0 d o

theorem v63_apply (d o : Fin 64) :
    (StableHlo.after (hostOps1 (F := Ideal)) W (Proc.devRef .tc main_v63) : S64x64.Idx → EReal) (ix2 d o)
      = (W (Proc.devRef .tc main_arg16) : S64x128.Idx → EReal) (ix2 o (⟨d.val, by omega⟩ : Fin 128)) := by
  rw [v63_term]; exact half0_apply _ d o
theorem v65_apply (d o : Fin 64) :
    (StableHlo.after (hostOps1 (F := Ideal)) W (Proc.devRef .tc main_v65) : S64x64.Idx → EReal) (ix2 d o)
      = (W (Proc.devRef .tc main_arg16) : S64x128.Idx → EReal) (ix2 o (⟨64 + d.val, by omega⟩ : Fin 128)) := by
  rw [v65_term]; exact half1_apply _ d o
theorem v67_apply (d o : Fin 64) :
    (StableHlo.after (hostOps1 (F := Ideal)) W (Proc.devRef .tc main_v67) : S64x64.Idx → EReal) (ix2 d o)
      = (W (Proc.devRef .tc main_arg18) : S64x128.Idx → EReal) (ix2 o (⟨d.val, by omega⟩ : Fin 128)) := by
  rw [v67_term]; exact half0_apply _ d o
theorem v69_apply (d o : Fin 64) :
    (StableHlo.after (hostOps1 (F := Ideal)) W (Proc.devRef .tc main_v69) : S64x64.Idx → EReal) (ix2 d o)
      = (W (Proc.devRef .tc main_arg18) : S64x128.Idx → EReal) (ix2 o (⟨64 + d.val, by omega⟩ : Fin 128)) := by
  rw [v69_term]; exact half1_apply _ d o

theorem v70_apply (o : Fin 64) :
    (StableHlo.after (hostOps1 (F := Ideal)) W (Proc.devRef .tc main_v70) : S1x64.Idx → EReal) (ix2 (0 : Fin 1) o)
      = (W (Proc.devRef .tc main_arg13) : S64.Idx → EReal) (ix1 o) := by
  rw [v70_term]; exact shapeCast_a_1a_apply _ shapeCasts_S64_S1x64 0 o
theorem v71_apply (o : Fin 64) :
    (StableHlo.after (hostOps1 (F := Ideal)) W (Proc.devRef .tc main_v71) : S1x64.Idx → EReal) (ix2 (0 : Fin 1) o)
      = (W (Proc.devRef .tc main_arg15) : S64.Idx → EReal) (ix1 o) := by
  rw [v71_term]; exact shapeCast_a_1a_apply _ shapeCasts_S64_S1x64 0 o
theorem v72_apply (o : Fin 64) :
    (StableHlo.after (hostOps1 (F := Ideal)) W (Proc.devRef .tc main_v72) : S1x64.Idx → EReal) (ix2 (0 : Fin 1) o)
      = (W (Proc.devRef .tc main_arg17) : S64.Idx → EReal) (ix1 o) := by
  rw [v72_term]; exact shapeCast_a_1a_apply _ shapeCasts_S64_S1x64 0 o
theorem v73_apply (o : Fin 64) :
    (StableHlo.after (hostOps1 (F := Ideal)) W (Proc.devRef .tc main_v73) : S1x64.Idx → EReal) (ix2 (0 : Fin 1) o)
      = (W (Proc.devRef .tc main_arg19) : S64.Idx → EReal) (ix1 o) := by
  rw [v73_term]; exact shapeCast_a_1a_apply _ shapeCasts_S64_S1x64 0 o

/-! ## What the stretch leaves as it was -/

/-- A buffer the stretch does not write keeps its contents. -/
theorem keep1 (r : Ref sig .tc) (h : r ∉ hostOps1_W) :
    StableHlo.after (hostOps1 (F := Ideal)) W (Proc.devRef .tc r) = W (Proc.devRef .tc r) :=
  StableHlo.after_of_writes_sub hostOps1 W hostOps1_writes h

theorem v11_keep : StableHlo.after (hostOps1 (F := Ideal)) W (Proc.devRef .tc main_v11) = W (Proc.devRef .tc main_v11) :=
  keep1 W main_v11 (by decide)
theorem v43_0_keep : StableHlo.after (hostOps1 (F := Ideal)) W (Proc.devRef .tc main_v43_0) = W (Proc.devRef .tc main_v43_0) :=
  keep1 W main_v43_0 (by decide)
theorem v43_1_keep : StableHlo.after (hostOps1 (F := Ideal)) W (Proc.devRef .tc main_v43_1) = W (Proc.devRef .tc main_v43_1) :=
  keep1 W main_v43_1 (by decide)
theorem v2_keep : StableHlo.after (hostOps1 (F := Ideal)) W (Proc.devRef .tc main_v2) = W (Proc.devRef .tc main_v2) :=
  keep1 W main_v2 (by decide)

end Cert.KernelIdeal.HostRead
end
-- ==== Proof.IdealValue.lean ====
/-
  The kernel program's value: its result array is the specification's network of the argument arrays.

  The buffer contents at each boundary are a fold from the launch memory (the first stretch of host operations, the
  first kernel, the second stretch, the second kernel). Read through the host stretches index by index, the first
  kernel's input arrays are the specification's first-layer arrays, so its two outputs are the first layer's hidden
  state and highway step; the second stretch leaves those two and the reciprocal counts as they were and gathers the
  segment sums of the highway step with the same segment identifiers, so the second kernel's inputs are the
  specification's second-layer arrays and its output the second layer's highway step: the network. A segment count
  clamped below at 1 is never zero, which is all the division law asks.
-/
import proofs.«102057_j23811298690073_2_alg».proof.Proof.IdealRun
import proofs.«102057_j23811298690073_2_alg».proof.Proof.IdealValue0
import proofs.«102057_j23811298690073_2_alg».proof.Proof.IdealValue1
import proofs.«102057_j23811298690073_2_alg».proof.Proof.HostRead0
import proofs.«102057_j23811298690073_2_alg».proof.Proof.HostRead1

set_option maxRecDepth 16384

noncomputable section

namespace Cert.KernelIdeal.Val

open Cert.KernelIdeal Cert.KernelIdeal.Gen Cert.KernelIdeal.Fr Cert.KernelIdeal.HostRead
open Idealize.ShloMosaic Idealize.ShloMosaic.TcCoe Idealize.ShloMosaic.ValueIdx
open Idealize.SL Idealize.SL.RA
open Idealize.ShloMosaic.Pipeline (Dat Cfg Window)
open Cert.Rgc Cert.Rgc.Blk

/-- A segment count clamped below at 1 is not zero. -/
theorem cmK_ne_zero (sg : EdgeI) (e : S400000x1.Idx) : cmK sg e ≠ 0 := by
  unfold cmK
  rw [maximumf_apply, bcast_const_apply, ofBits_one_f32]
  exact max_one_ne_zero _

variable (m : (ℓ : Loc nD τ sig) → Buf (Elt Ideal) ℓ) (ρ : Dev nD → PrngReg) (c : Dev nD)

/-- The first stretch writes no argument, and the first kernel neither: an argument's contents after both are the
    launch contents. -/
theorem W1_arg (r : Ref sig .tc) (h : r ∉ hostOps0_W) :
    W1 (F := Ideal) m ρ c (Proc.devRef .tc r) = W0 (F := Ideal) m ρ c (Proc.devRef .tc r) :=
  StableHlo.after_of_writes_sub hostOps0 (W0 (F := Ideal) m ρ c) hostOps0_writes h
theorem W2_arg (r : Ref sig .tc) (h : r ∉ hostOps0_W) (h0 : r ≠ main_v43_0) (h1 : r ≠ main_v43_1) :
    W2 (F := Ideal) m ρ c (Proc.devRef .tc r) = W0 (F := Ideal) m ρ c (Proc.devRef .tc r) :=
  (W2_of_ne m ρ c r h0 h1).trans (W1_arg m ρ c r h)

/-- The segment identifiers after the first kernel are those the first stretch computed. -/
theorem W2_sg : W2 (F := Ideal) m ρ c (Proc.devRef .tc main_v2)
    = segK (W0 (F := Ideal) m ρ c (Proc.devRef .tc main_arg2)) (W0 (F := Ideal) m ρ c (Proc.devRef .tc main_arg3)) :=
  (W2_of_ne m ρ c main_v2 (by decide) (by decide)).trans (v2_term (W0 (F := Ideal) m ρ c))

/-- The first kernel's first output: the first layer's hidden state. -/
theorem final0_14 : (dat0 (V1 (F := Ideal) m ρ) q0 c).arrAt 14 cfg0.N
    = arr2 (hidden (SxK (W0 (F := Ideal) m ρ c (Proc.devRef .tc main_arg0)) (W0 (F := Ideal) m ρ c (Proc.devRef .tc main_arg1))
          (segK (W0 (F := Ideal) m ρ c (Proc.devRef .tc main_arg2)) (W0 (F := Ideal) m ρ c (Proc.devRef .tc main_arg3))))
        (cmK (segK (W0 (F := Ideal) m ρ c (Proc.devRef .tc main_arg2)) (W0 (F := Ideal) m ρ c (Proc.devRef .tc main_arg3))))
        (W0 (F := Ideal) m ρ c (Proc.devRef .tc main_arg0)) (W0 (F := Ideal) m ρ c (Proc.devRef .tc main_arg4)) (W0 (F := Ideal) m ρ c (Proc.devRef .tc main_arg5)) (W0 (F := Ideal) m ρ c (Proc.devRef .tc main_arg6)) (W0 (F := Ideal) m ρ c (Proc.devRef .tc main_arg7))) :=
  final0_14_of (V1 (F := Ideal) m ρ) q0 c _ _ _ (W0 (F := Ideal) m ρ c (Proc.devRef .tc main_arg0)) _ _ _ _
    (W0 (F := Ideal) m ρ c (Proc.devRef .tc main_arg8)) (W0 (F := Ideal) m ρ c (Proc.devRef .tc main_arg9)) (W0 (F := Ideal) m ρ c (Proc.devRef .tc main_arg10)) (W0 (F := Ideal) m ρ c (Proc.devRef .tc main_arg11))
    (cmK_ne_zero _)
    (fun n k => v24_apply (W0 (F := Ideal) m ρ c) n k)
    (fun n j => v11_apply (W0 (F := Ideal) m ρ c) n j)
    (fun n d => v12_apply (W0 (F := Ideal) m ρ c) n d)
    (fun k o => v26_apply (W0 (F := Ideal) m ρ c) k o)
    (fun o => v39_apply (W0 (F := Ideal) m ρ c) o)
    (fun d o => v28_apply (W0 (F := Ideal) m ρ c) d o)
    (fun o => v40_apply (W0 (F := Ideal) m ρ c) o)

/-- The first kernel's second output: the first layer's highway step, carrying the input features. -/
theorem final0_15 : (dat0 (V1 (F := Ideal) m ρ) q0 c).arrAt 15 cfg0.N
    = arr2 (highway (arr2 (hidden (SxK (W0 (F := Ideal) m ρ c (Proc.devRef .tc main_arg0)) (W0 (F := Ideal) m ρ c (Proc.devRef .tc main_arg1))
          (segK (W0 (F := Ideal) m ρ c (Proc.devRef .tc main_arg2)) (W0 (F := Ideal) m ρ c (Proc.devRef .tc main_arg3))))
        (cmK (segK (W0 (F := Ideal) m ρ c (Proc.devRef .tc main_arg2)) (W0 (F := Ideal) m ρ c (Proc.devRef .tc main_arg3))))
        (W0 (F := Ideal) m ρ c (Proc.devRef .tc main_arg0)) (W0 (F := Ideal) m ρ c (Proc.devRef .tc main_arg4)) (W0 (F := Ideal) m ρ c (Proc.devRef .tc main_arg5)) (W0 (F := Ideal) m ρ c (Proc.devRef .tc main_arg6)) (W0 (F := Ideal) m ρ c (Proc.devRef .tc main_arg7))))
      (W0 (F := Ideal) m ρ c (Proc.devRef .tc main_arg0)) (W0 (F := Ideal) m ρ c (Proc.devRef .tc main_arg8)) (W0 (F := Ideal) m ρ c (Proc.devRef .tc main_arg9)) (W0 (F := Ideal) m ρ c (Proc.devRef .tc main_arg10)) (W0 (F := Ideal) m ρ c (Proc.devRef .tc main_arg11))) :=
  final0_15_of (V1 (F := Ideal) m ρ) q0 c _ _ _ _ _ _ _ _ _ _ _ _
    (cmK_ne_zero _)
    (fun n k => v24_apply (W0 (F := Ideal) m ρ c) n k)
    (fun n j => v11_apply (W0 (F := Ideal) m ρ c) n j)
    (fun n d => v12_apply (W0 (F := Ideal) m ρ c) n d)
    (fun n d => v12_apply (W0 (F := Ideal) m ρ c) n d)
    (fun k o => v26_apply (W0 (F := Ideal) m ρ c) k o)
    (fun o => v39_apply (W0 (F := Ideal) m ρ c) o)
    (fun d o => v28_apply (W0 (F := Ideal) m ρ c) d o)
    (fun o => v40_apply (W0 (F := Ideal) m ρ c) o)
    (fun d o => v32_apply (W0 (F := Ideal) m ρ c) d o)
    (fun d o => v34_apply (W0 (F := Ideal) m ρ c) d o)
    (fun o => v41_apply (W0 (F := Ideal) m ρ c) o)
    (fun d o => v36_apply (W0 (F := Ideal) m ρ c) d o)
    (fun d o => v38_apply (W0 (F := Ideal) m ρ c) d o)
    (fun o => v42_apply (W0 (F := Ideal) m ρ c) o)

/-- The second kernel's output: the second layer's highway step over the first kernel's two outputs. -/
theorem final1 : (dat1 (V3 (F := Ideal) m ρ) q1 c).arrAt 14 cfg1.N
    = arr2 (highway (arr2 (hidden (SxK (W2 (F := Ideal) m ρ c (Proc.devRef .tc main_v43_1)) (W0 (F := Ideal) m ρ c (Proc.devRef .tc main_arg1)) (segK (W0 (F := Ideal) m ρ c (Proc.devRef .tc main_arg2)) (W0 (F := Ideal) m ρ c (Proc.devRef .tc main_arg3)))) (cmK (segK (W0 (F := Ideal) m ρ c (Proc.devRef .tc main_arg2)) (W0 (F := Ideal) m ρ c (Proc.devRef .tc main_arg3)))) (W2 (F := Ideal) m ρ c (Proc.devRef .tc main_v43_1))
        (W0 (F := Ideal) m ρ c (Proc.devRef .tc main_arg12)) (W0 (F := Ideal) m ρ c (Proc.devRef .tc main_arg13)) (W0 (F := Ideal) m ρ c (Proc.devRef .tc main_arg14)) (W0 (F := Ideal) m ρ c (Proc.devRef .tc main_arg15))))
      (W2 (F := Ideal) m ρ c (Proc.devRef .tc main_v43_0)) (W0 (F := Ideal) m ρ c (Proc.devRef .tc main_arg16)) (W0 (F := Ideal) m ρ c (Proc.devRef .tc main_arg17)) (W0 (F := Ideal) m ρ c (Proc.devRef .tc main_arg18)) (W0 (F := Ideal) m ρ c (Proc.devRef .tc main_arg19))) :=
  final1_of (V3 (F := Ideal) m ρ) q1 c _ _ (W2 (F := Ideal) m ρ c (Proc.devRef .tc main_v43_1)) (W2 (F := Ideal) m ρ c (Proc.devRef .tc main_v43_0)) _ _ _ _ _ _ _ _
    (cmK_ne_zero _)
    (fun n k => (v55_apply (W2 (F := Ideal) m ρ c) n k).trans (by rw [W2_sg, W2_arg m ρ c main_arg1 (by decide) (by decide) (by decide)]))
    (fun n j => (congrFun (v11_keep (W2 (F := Ideal) m ρ c)) (ix2 n j)).trans
      ((congrFun (W2_of_ne m ρ c main_v11 (by decide) (by decide)) (ix2 n j)).trans (v11_apply (W0 (F := Ideal) m ρ c) n j)))
    (fun n d => congrFun (v43_1_keep (W2 (F := Ideal) m ρ c)) (ix2 n d))
    (fun n d => congrFun (v43_0_keep (W2 (F := Ideal) m ρ c)) (ix2 n d))
    (fun k o => (v57_apply (W2 (F := Ideal) m ρ c) k o).trans (by rw [W2_arg m ρ c main_arg12 (by decide) (by decide) (by decide)]))
    (fun o => (v70_apply (W2 (F := Ideal) m ρ c) o).trans (by rw [W2_arg m ρ c main_arg13 (by decide) (by decide) (by decide)]))
    (fun d o => (v59_apply (W2 (F := Ideal) m ρ c) d o).trans (by rw [W2_arg m ρ c main_arg14 (by decide) (by decide) (by decide)]))
    (fun o => (v71_apply (W2 (F := Ideal) m ρ c) o).trans (by rw [W2_arg m ρ c main_arg15 (by decide) (by decide) (by decide)]))
    (fun d o => (v63_apply (W2 (F := Ideal) m ρ c) d o).trans (by rw [W2_arg m ρ c main_arg16 (by decide) (by decide) (by decide)]))
    (fun d o => (v65_apply (W2 (F := Ideal) m ρ c) d o).trans (by rw [W2_arg m ρ c main_arg16 (by decide) (by decide) (by decide)]))
    (fun o => (v72_apply (W2 (F := Ideal) m ρ c) o).trans (by rw [W2_arg m ρ c main_arg17 (by decide) (by decide) (by decide)]))
    (fun d o => (v67_apply (W2 (F := Ideal) m ρ c) d o).trans (by rw [W2_arg m ρ c main_arg18 (by decide) (by decide) (by decide)]))
    (fun d o => (v69_apply (W2 (F := Ideal) m ρ c) d o).trans (by rw [W2_arg m ρ c main_arg18 (by decide) (by decide) (by decide)]))
    (fun o => (v73_apply (W2 (F := Ideal) m ρ c) o).trans (by rw [W2_arg m ρ c main_arg19 (by decide) (by decide) (by decide)]))

/-- The program's result buffer at the end of the run: the specification's network of the launch contents of the
    twenty argument arrays. -/
theorem kernel_value : W4 (F := Ideal) m ρ c (Proc.devRef .tc main_v74)
    = net (fun f => SxK f (W0 (F := Ideal) m ρ c (Proc.devRef .tc main_arg1)) (segK (W0 (F := Ideal) m ρ c (Proc.devRef .tc main_arg2)) (W0 (F := Ideal) m ρ c (Proc.devRef .tc main_arg3)))) (cmK (segK (W0 (F := Ideal) m ρ c (Proc.devRef .tc main_arg2)) (W0 (F := Ideal) m ρ c (Proc.devRef .tc main_arg3)))) (W0 (F := Ideal) m ρ c (Proc.devRef .tc main_arg0)) (W0 (F := Ideal) m ρ c (Proc.devRef .tc main_arg4)) (W0 (F := Ideal) m ρ c (Proc.devRef .tc main_arg5)) (W0 (F := Ideal) m ρ c (Proc.devRef .tc main_arg6)) (W0 (F := Ideal) m ρ c (Proc.devRef .tc main_arg7)) (W0 (F := Ideal) m ρ c (Proc.devRef .tc main_arg8)) (W0 (F := Ideal) m ρ c (Proc.devRef .tc main_arg9)) (W0 (F := Ideal) m ρ c (Proc.devRef .tc main_arg10)) (W0 (F := Ideal) m ρ c (Proc.devRef .tc main_arg11)) (W0 (F := Ideal) m ρ c (Proc.devRef .tc main_arg12)) (W0 (F := Ideal) m ρ c (Proc.devRef .tc main_arg13)) (W0 (F := Ideal) m ρ c (Proc.devRef .tc main_arg14)) (W0 (F := Ideal) m ρ c (Proc.devRef .tc main_arg15)) (W0 (F := Ideal) m ρ c (Proc.devRef .tc main_arg16)) (W0 (F := Ideal) m ρ c (Proc.devRef .tc main_arg17)) (W0 (F := Ideal) m ρ c (Proc.devRef .tc main_arg18)) (W0 (F := Ideal) m ρ c (Proc.devRef .tc main_arg19)) := by
  rw [W4_v74, final1, W2_v43_1, W2_v43_0, final0_15, final0_14]
  rfl

end Cert.KernelIdeal.Val
end
-- ==== Proof.RefBase.lean ====
/-
  Reading the reference program's arrays at an index: shared facts.

  The float literals 1 and 0, the element type of the arrays, and a two-piece concatenation along the columns read at
  an index (the first 64 columns come from the first piece, the last 64 from the second).
-/
import proofs.«102057_j23811298690073_2_alg».proof.Proof.Spec
import proofs.«102057_j23811298690073_2_alg».proof.Proof.Gen.ReferenceIdeal.Read

noncomputable section

open scoped BigOperators

namespace Cert.Rgc.Ref

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-- A float array of shape `s` over the extended reals. -/
abbrev A (s : Shape) := (⟨s, .f32⟩ : BufTy).Contents (Elt Ideal)
/-- An edge array (sources, destinations, relations): 1200000 integers. -/
abbrev E := (⟨S1200000, .i32⟩ : BufTy).Contents (Elt Ideal)

/-- The float literal 0x3F800000 is 1. -/
theorem one_f32 : Ideal.ofBits .f32 0x3F800000#32 = 1 := by
  simp [Ideal.ofBits, Ideal.ieee, -EReal.coe_mul]; norm_num

/-- The float literal 0x00000000 is 0. -/
theorem zero_f32 : Ideal.ofBits .f32 0x00000000#32 = 0 := Ideal.ofBits_zero_f32

/-- [p, q] side by side, at row n and column k < 128: p's column k when k < 64, q's column k - 64 otherwise. -/
theorem cat_apply (p q : A S100000x64) (n : Fin 100000) (k : Fin 128) :
    concatenate S100000x128 1 [⟨S100000x64, p⟩, ⟨S100000x64, q⟩] concatenates_S100000x64_S100000x64_S100000x128_d1 (ix2 n k)
      = if hk : k.val < 64 then p (ix2 n ⟨k.val, hk⟩) else q (ix2 n ⟨k.val - 64, by omega⟩) := by
  split
  · next hk =>
    exact concatenate_pair_apply_left 1 p q concatenates_S100000x64_S100000x64_S100000x128_d1 (ix2 n k) rfl
      (ix2 n ⟨k.val, hk⟩) (fun b => match b with | ⟨0, _⟩ => rfl | ⟨1, _⟩ => rfl)
  · next hk =>
    exact concatenate_pair_apply_right 1 p q concatenates_S100000x64_S100000x64_S100000x128_d1 (ix2 n k) rfl rfl
      (ix2 n ⟨k.val - 64, by omega⟩)
      (fun b hb => match b, hb with | ⟨0, _⟩, _ => rfl | ⟨1, _⟩, hb => absurd rfl hb)
      (by show k.val - 64 + 64 = k.val; omega)

end Cert.Rgc.Ref
-- ==== Proof.RefHidden.lean ====
/-
  The reference's first hidden state, read at an index.

  The reference divides the segment sums by the broadcast count column, reshapes [400000, 64] to [100000, 256]
  (row-major: position n·256 + k of the flat order is row 4n + k / 64, lane k mod 64), multiplies by the transposed
  weight matrix, adds the bias, the self-loop product and the self-loop bias, and takes 1 / (1 + exp (−·)), which is
  the logistic function. The segment sums and the count column stay opaque arrays throughout.
-/
import proofs.«102057_j23811298690073_2_alg».proof.Proof.RefBase

noncomputable section

open scoped BigOperators

namespace Cert.Rgc.Ref

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-- The mean-aggregated array at node n and column k: the segment sum of row 4n + k / 64, lane k mod 64, over that
    row's count. -/
theorem mean_apply (x0 : A S100000x64) (x1 x2 x3 : E) (n : Fin 100000) (k : Fin 256) :
    val_main_v21 (F := Ideal) x0 x1 x2 x3 (ix2 n k)
      = mean (val_main_v12 (F := Ideal) x0 x1 x2 x3) (val_main_v18 (F := Ideal) x2 x3) n k := by
  have e21 : idx_main_v21 (ix2 n k) = ix2 (segRow n k) (lane k) :=
    funext fun a => match a with
    | ⟨0, _⟩ => Fin.ext (by show (n.val * 256 + k.val) / 64 = 4 * n.val + k.val / 64; omega)
    | ⟨1, _⟩ => Fin.ext (by show (n.val * 256 + k.val) % 64 = k.val % 64; omega)
  have e19 : idx_main_v19 (ix2 (segRow n k) (lane k)) = ix2 (segRow n k) (0 : Fin 1) :=
    funext fun a => match a with | ⟨0, _⟩ => rfl | ⟨1, _⟩ => rfl
  rw [val_main_v21_apply, val_main_v20_apply, val_main_v19_apply, e21, e19]
  generalize val_main_v12 (F := Ideal) x0 x1 x2 x3 = S
  generalize val_main_v18 (F := Ideal) x2 x3 = c
  rfl

/-- The hidden state at node n and feature o, as the specification writes it, over the segment sums and the count
    column. -/
theorem hidden_apply (x0 : A S100000x64) (x1 x2 x3 : E) (x4 : A S64x256) (x5 : A S64) (x6 : A S64x64) (x7 : A S64)
    (n : Fin 100000) (o : Fin 64) :
    val_main_v38 (F := Ideal) x0 x1 x2 x3 x4 x5 x6 x7 (ix2 n o)
      = hidden (val_main_v12 (F := Ideal) x0 x1 x2 x3) (val_main_v18 (F := Ideal) x2 x3) x0 x4 x5 x6 x7 n o := by
  -- row n of the aggregated array meets column o of the transposed weights: (k, o) is read at (o, k)
  have e23 : ∀ k : Fin 256, lidx_main_v23 (ix2 n o) k = ix2 n k := fun k =>
    funext fun a => match a with | ⟨0, _⟩ => rfl | ⟨1, _⟩ => rfl
  have e22 : ∀ k : Fin 256, idx_main_v22 (ridx_main_v23 (ix2 n o) k) = ix2 o k := fun k =>
    funext fun a => match a with | ⟨0, _⟩ => rfl | ⟨1, _⟩ => rfl
  have e28 : ∀ k : Fin 64, lidx_main_v28 (ix2 n o) k = ix2 n k := fun k =>
    funext fun a => match a with | ⟨0, _⟩ => rfl | ⟨1, _⟩ => rfl
  have e27 : ∀ k : Fin 64, idx_main_v27 (ridx_main_v28 (ix2 n o) k) = ix2 o k := fun k =>
    funext fun a => match a with | ⟨0, _⟩ => rfl | ⟨1, _⟩ => rfl
  -- the biases are broadcast along the rows
  have e24 : idx_main_v24 (idx_main_v25 (ix2 n o)) = ix1 o := funext fun a => match a with | ⟨0, _⟩ => rfl
  have e30 : idx_main_v30 (idx_main_v31 (ix2 n o)) = ix1 o := funext fun a => match a with | ⟨0, _⟩ => rfl
  rw [val_main_v38_apply, val_main_v37_apply, val_main_cst_6_apply, val_main_v36_apply, val_main_v35_apply,
    val_main_cst_5_apply, val_main_v34_apply, val_main_v33_apply, val_main_v32_apply, val_main_v31_apply,
    val_main_v30_apply, val_main_v29_apply, val_main_v28_apply, val_main_v26_apply, val_main_v25_apply,
    val_main_v24_apply, val_main_v23_apply]
  simp only [e23, mean_apply, val_main_v22_apply, val_main_v27_apply, e22, e28, e27, e24, e30,
    Ideal.hostDivf_def, Ideal.addf_def, Ideal.hostUnary_exp_def, Ideal.hostNegf_def, Ideal.negf_def, Ideal.ofBits_def,
    one_f32]
  generalize val_main_v12 (F := Ideal) x0 x1 x2 x3 = S
  generalize val_main_v18 (F := Ideal) x2 x3 = c
  rfl

/-- The first hidden state as an array. -/
theorem hidden_eq (x0 : A S100000x64) (x1 x2 x3 : E) (x4 : A S64x256) (x5 : A S64) (x6 : A S64x64) (x7 : A S64) :
    val_main_v38 (F := Ideal) x0 x1 x2 x3 x4 x5 x6 x7
      = arr2 (hidden (val_main_v12 (F := Ideal) x0 x1 x2 x3) (val_main_v18 (F := Ideal) x2 x3) x0 x4 x5 x6 x7) := by
  funext i
  obtain ⟨n, o, rfl⟩ : ∃ (n : Fin 100000) (o : Fin 64), i = ix2 n o := ⟨i 0, i 1, eq_ix2 i⟩
  exact hidden_apply x0 x1 x2 x3 x4 x5 x6 x7 n o

end Cert.Rgc.Ref
-- ==== Proof.RefHighway.lean ====
/-
  The reference's two highway steps, read at an index.

  With c = [h, prev] side by side, the reference computes p = max (c·pwᵀ + pb) 0, g = 1 / (1 + exp (−(c·twᵀ + tb)))
  (the logistic function) and returns g·p + (1 − g)·h. The two layers are the same computation over different arrays:
  layer 1 carries the input features as prev, layer 2 the first layer's hidden state.
-/
import proofs.«102057_j23811298690073_2_alg».proof.Proof.RefBase

noncomputable section

open scoped BigOperators

namespace Cert.Rgc.Ref

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-- The two pieces side by side, read at row n and column k < 128 (layer 1). -/
theorem cat1_apply (x0 : A S100000x64) (x1 x2 x3 : E) (x4 : A S64x256) (x5 : A S64) (x6 : A S64x64) (x7 : A S64) (n : Fin 100000) (k : Fin 128) :
    val_main_v39 (F := Ideal) x0 x1 x2 x3 x4 x5 x6 x7 (ix2 n k)
      = if hk : k.val < 64 then val_main_v38 (F := Ideal) x0 x1 x2 x3 x4 x5 x6 x7 (ix2 n ⟨k.val, hk⟩) else x0 (ix2 n ⟨k.val - 64, by omega⟩) := by
  unfold val_main_v39
  exact cat_apply _ _ n k

/-- The highway step of layer 1 at node n and feature o, as the specification writes it. -/
theorem highway1_apply (x0 : A S100000x64) (x1 x2 x3 : E) (x4 : A S64x256) (x5 : A S64) (x6 : A S64x64) (x7 : A S64)
    (x8 : A S64x128) (x9 : A S64) (x10 : A S64x128) (x11 : A S64)
    (n : Fin 100000) (o : Fin 64) :
    val_main_v61 (F := Ideal) x0 x1 x2 x3 x4 x5 x6 x7 x8 x9 x10 x11 (ix2 n o)
      = highway (val_main_v38 (F := Ideal) x0 x1 x2 x3 x4 x5 x6 x7) (x0) x8 x9 x10 x11 n o := by
  -- row n of the concatenation meets row o of each [64, 128] matrix (the transposes read (k, o) at (o, k))
  have ep : ∀ k : Fin 128, lidx_main_v41 (ix2 n o) k = ix2 n k := fun k =>
    funext fun a => match a with | ⟨0, _⟩ => rfl | ⟨1, _⟩ => rfl
  have epw : ∀ k : Fin 128, idx_main_v40 (ridx_main_v41 (ix2 n o) k) = ix2 o k := fun k =>
    funext fun a => match a with | ⟨0, _⟩ => rfl | ⟨1, _⟩ => rfl
  have et : ∀ k : Fin 128, lidx_main_v47 (ix2 n o) k = ix2 n k := fun k =>
    funext fun a => match a with | ⟨0, _⟩ => rfl | ⟨1, _⟩ => rfl
  have etw : ∀ k : Fin 128, idx_main_v46 (ridx_main_v47 (ix2 n o) k) = ix2 o k := fun k =>
    funext fun a => match a with | ⟨0, _⟩ => rfl | ⟨1, _⟩ => rfl
  -- the biases are broadcast along the rows
  have epb : idx_main_v42 (idx_main_v43 (ix2 n o)) = ix1 o := funext fun a => match a with | ⟨0, _⟩ => rfl
  have etb : idx_main_v48 (idx_main_v49 (ix2 n o)) = ix1 o := funext fun a => match a with | ⟨0, _⟩ => rfl
  rw [val_main_v61_apply, val_main_v57_apply, val_main_v60_apply, val_main_v59_apply, val_main_v58_apply,
    val_main_cst_9_apply, val_main_v56_apply, val_main_v55_apply, val_main_cst_8_apply, val_main_v54_apply,
    val_main_v53_apply, val_main_cst_7_apply, val_main_v52_apply, val_main_v51_apply, val_main_v50_apply,
    val_main_v49_apply, val_main_v48_apply, val_main_v47_apply, val_main_v45_apply, val_main_call0_v0_apply,
    val_main_call0_cst_apply, val_main_v44_apply, val_main_v43_apply, val_main_v42_apply, val_main_v41_apply]
  simp only [val_main_v40_apply, val_main_v46_apply, ep, epw, et, etw, epb, etb, cat1_apply,
    Ideal.hostDivf_def, Ideal.addf_def, Ideal.subf_def, Ideal.mulf_def, Ideal.maximumf_def, Ideal.hostUnary_exp_def,
    Ideal.hostNegf_def, Ideal.negf_def, Ideal.ofBits_def, one_f32, zero_f32]
  rfl

/-- The highway step of layer 1 as an array. -/
theorem highway1_eq (x0 : A S100000x64) (x1 x2 x3 : E) (x4 : A S64x256) (x5 : A S64) (x6 : A S64x64) (x7 : A S64)
    (x8 : A S64x128) (x9 : A S64) (x10 : A S64x128) (x11 : A S64) :
    val_main_v61 (F := Ideal) x0 x1 x2 x3 x4 x5 x6 x7 x8 x9 x10 x11
      = arr2 (highway (val_main_v38 (F := Ideal) x0 x1 x2 x3 x4 x5 x6 x7) (x0) x8 x9 x10 x11) := by
  funext i
  obtain ⟨n, o, rfl⟩ : ∃ (n : Fin 100000) (o : Fin 64), i = ix2 n o := ⟨i 0, i 1, eq_ix2 i⟩
  exact highway1_apply x0 x1 x2 x3 x4 x5 x6 x7 x8 x9 x10 x11 n o

/-- The two pieces side by side, read at row n and column k < 128 (layer 2). -/
theorem cat2_apply (x0 : A S100000x64) (x1 x2 x3 : E) (x4 : A S64x256) (x5 : A S64) (x6 : A S64x64) (x7 : A S64)
    (x8 : A S64x128) (x9 : A S64) (x10 : A S64x128) (x11 : A S64)
    (x12 : A S64x256) (x13 : A S64) (x14 : A S64x64) (x15 : A S64) (n : Fin 100000) (k : Fin 128) :
    val_main_v101 (F := Ideal) x0 x1 x2 x3 x4 x5 x6 x7 x8 x9 x10 x11 x12 x13 x14 x15 (ix2 n k)
      = if hk : k.val < 64 then val_main_v100 (F := Ideal) x0 x1 x2 x3 x4 x5 x6 x7 x8 x9 x10 x11 x12 x13 x14 x15 (ix2 n ⟨k.val, hk⟩) else val_main_v38 (F := Ideal) x0 x1 x2 x3 x4 x5 x6 x7 (ix2 n ⟨k.val - 64, by omega⟩) := by
  unfold val_main_v101
  exact cat_apply _ _ n k

/-- The highway step of layer 2 at node n and feature o, as the specification writes it. -/
theorem highway2_apply (x0 : A S100000x64) (x1 x2 x3 : E) (x4 : A S64x256) (x5 : A S64) (x6 : A S64x64) (x7 : A S64)
    (x8 : A S64x128) (x9 : A S64) (x10 : A S64x128) (x11 : A S64)
    (x12 : A S64x256) (x13 : A S64) (x14 : A S64x64) (x15 : A S64)
    (x16 : A S64x128) (x17 : A S64) (x18 : A S64x128) (x19 : A S64)
    (n : Fin 100000) (o : Fin 64) :
    val_main_v123 (F := Ideal) x0 x1 x2 x3 x4 x5 x6 x7 x8 x9 x10 x11 x12 x13 x14 x15 x16 x17 x18 x19 (ix2 n o)
      = highway (val_main_v100 (F := Ideal) x0 x1 x2 x3 x4 x5 x6 x7 x8 x9 x10 x11 x12 x13 x14 x15) (val_main_v38 (F := Ideal) x0 x1 x2 x3 x4 x5 x6 x7) x16 x17 x18 x19 n o := by
  -- row n of the concatenation meets row o of each [64, 128] matrix (the transposes read (k, o) at (o, k))
  have ep : ∀ k : Fin 128, lidx_main_v103 (ix2 n o) k = ix2 n k := fun k =>
    funext fun a => match a with | ⟨0, _⟩ => rfl | ⟨1, _⟩ => rfl
  have epw : ∀ k : Fin 128, idx_main_v102 (ridx_main_v103 (ix2 n o) k) = ix2 o k := fun k =>
    funext fun a => match a with | ⟨0, _⟩ => rfl | ⟨1, _⟩ => rfl
  have et : ∀ k : Fin 128, lidx_main_v109 (ix2 n o) k = ix2 n k := fun k =>
    funext fun a => match a with | ⟨0, _⟩ => rfl | ⟨1, _⟩ => rfl
  have etw : ∀ k : Fin 128, idx_main_v108 (ridx_main_v109 (ix2 n o) k) = ix2 o k := fun k =>
    funext fun a => match a with | ⟨0, _⟩ => rfl | ⟨1, _⟩ => rfl
  -- the biases are broadcast along the rows
  have epb : idx_main_v104 (idx_main_v105 (ix2 n o)) = ix1 o := funext fun a => match a with | ⟨0, _⟩ => rfl
  have etb : idx_main_v110 (idx_main_v111 (ix2 n o)) = ix1 o := funext fun a => match a with | ⟨0, _⟩ => rfl
  rw [val_main_v123_apply, val_main_v119_apply, val_main_v122_apply, val_main_v121_apply, val_main_v120_apply,
    val_main_cst_21_apply, val_main_v118_apply, val_main_v117_apply, val_main_cst_20_apply, val_main_v116_apply,
    val_main_v115_apply, val_main_cst_19_apply, val_main_v114_apply, val_main_v113_apply, val_main_v112_apply,
    val_main_v111_apply, val_main_v110_apply, val_main_v109_apply, val_main_v107_apply, val_main_call1_v0_apply,
    val_main_call1_cst_apply, val_main_v106_apply, val_main_v105_apply, val_main_v104_apply, val_main_v103_apply]
  simp only [val_main_v102_apply, val_main_v108_apply, ep, epw, et, etw, epb, etb, cat2_apply,
    Ideal.hostDivf_def, Ideal.addf_def, Ideal.subf_def, Ideal.mulf_def, Ideal.maximumf_def, Ideal.hostUnary_exp_def,
    Ideal.hostNegf_def, Ideal.negf_def, Ideal.ofBits_def, one_f32, zero_f32]
  rfl

/-- The highway step of layer 2 as an array. -/
theorem highway2_eq (x0 : A S100000x64) (x1 x2 x3 : E) (x4 : A S64x256) (x5 : A S64) (x6 : A S64x64) (x7 : A S64)
    (x8 : A S64x128) (x9 : A S64) (x10 : A S64x128) (x11 : A S64)
    (x12 : A S64x256) (x13 : A S64) (x14 : A S64x64) (x15 : A S64)
    (x16 : A S64x128) (x17 : A S64) (x18 : A S64x128) (x19 : A S64) :
    val_main_v123 (F := Ideal) x0 x1 x2 x3 x4 x5 x6 x7 x8 x9 x10 x11 x12 x13 x14 x15 x16 x17 x18 x19
      = arr2 (highway (val_main_v100 (F := Ideal) x0 x1 x2 x3 x4 x5 x6 x7 x8 x9 x10 x11 x12 x13 x14 x15) (val_main_v38 (F := Ideal) x0 x1 x2 x3 x4 x5 x6 x7) x16 x17 x18 x19) := by
  funext i
  obtain ⟨n, o, rfl⟩ : ∃ (n : Fin 100000) (o : Fin 64), i = ix2 n o := ⟨i 0, i 1, eq_ix2 i⟩
  exact highway2_apply x0 x1 x2 x3 x4 x5 x6 x7 x8 x9 x10 x11 x12 x13 x14 x15 x16 x17 x18 x19 n o

end Cert.Rgc.Ref
-- ==== Proof.RefNet.lean ====
/-
  The reference program's result is the specification's network.

  The second layer's hidden state is the first layer's computation over the first highway result in place of the input
  features (the same operations, the same edge arrays, the second layer's weights), so the first layer's reading serves
  both; the two highway steps are read separately because they carry different arrays.
-/
import proofs.«102057_j23811298690073_2_alg».proof.Proof.RefHidden
import proofs.«102057_j23811298690073_2_alg».proof.Proof.RefHighway

noncomputable section

open scoped BigOperators

namespace Cert.Rgc.Ref

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-- The second hidden state is the first layer's convolution applied to the first highway result. -/
theorem hidden2_eq (x0 : A S100000x64) (x1 x2 x3 : E) (x4 : A S64x256) (x5 : A S64) (x6 : A S64x64) (x7 : A S64)
    (x8 : A S64x128) (x9 : A S64) (x10 : A S64x128) (x11 : A S64)
    (x12 : A S64x256) (x13 : A S64) (x14 : A S64x64) (x15 : A S64) :
    val_main_v100 (F := Ideal) x0 x1 x2 x3 x4 x5 x6 x7 x8 x9 x10 x11 x12 x13 x14 x15
      = val_main_v38 (F := Ideal) (val_main_v61 (F := Ideal) x0 x1 x2 x3 x4 x5 x6 x7 x8 x9 x10 x11) x1 x2 x3 x12 x13 x14 x15 := rfl

/-- The reference's result is the network of the specification, over the reference's own segment sums and count column. -/
theorem ref_eq (x0 : A S100000x64) (x1 x2 x3 : E) (x4 : A S64x256) (x5 : A S64) (x6 : A S64x64) (x7 : A S64)
    (x8 : A S64x128) (x9 : A S64) (x10 : A S64x128) (x11 : A S64)
    (x12 : A S64x256) (x13 : A S64) (x14 : A S64x64) (x15 : A S64)
    (x16 : A S64x128) (x17 : A S64) (x18 : A S64x128) (x19 : A S64) :
    val_main_v123 (F := Ideal) x0 x1 x2 x3 x4 x5 x6 x7 x8 x9 x10 x11 x12 x13 x14 x15 x16 x17 x18 x19
      = net (fun f => val_main_v12 (F := Ideal) f x1 x2 x3) (val_main_v18 (F := Ideal) x2 x3) x0 x4 x5 x6 x7 x8 x9 x10 x11
          x12 x13 x14 x15 x16 x17 x18 x19 := by
  rw [highway2_eq, hidden2_eq, hidden_eq (val_main_v61 (F := Ideal) x0 x1 x2 x3 x4 x5 x6 x7 x8 x9 x10 x11) x1 x2 x3 x12 x13 x14 x15,
    highway1_eq, hidden_eq x0 x1 x2 x3 x4 x5 x6 x7]
  rfl

end Cert.Rgc.Ref
-- ==== Proof.Bridge.lean ====
/-
  Both programs aggregate over the same edges: the kernel program's segment sums of a feature array, and its segment
  counts clamped below at 1, are the reference's — the same host operations on the same index arrays; the rounding to a
  narrower float format on the way into the gather and back is the identity at the ideal values.
-/
import proofs.«102057_j23811298690073_2_alg».proof.Proof.HostDefs
import proofs.«102057_j23811298690073_2_alg».proof.Proof.Gen.ReferenceIdeal.Read

noncomputable section

namespace Cert.Rgc.Bridge

open Idealize.ShloMosaic Cert.KernelIdeal.HostRead

/-- The segment sums of a feature array are the same term in both programs. -/
theorem SxK_eq (f : (⟨Cert.KernelIdeal.S100000x64, .bf16⟩ : BufTy).Contents (Elt Ideal)) (src dst rel : EdgeI) :
    SxK f src (segK dst rel) = Cert.ReferenceIdeal.Read.val_main_v12 (F := Ideal) f src dst rel := rfl

/-- The clamped segment counts are the same term in both programs. -/
theorem cmK_eq (dst rel : EdgeI) :
    cmK (segK dst rel) = Cert.ReferenceIdeal.Read.val_main_v18 (F := Ideal) dst rel := rfl

end Cert.Rgc.Bridge

end
-- ==== Proof.lean ====
/-
  A two-layer relational graph convolution with highway gates over 100000 nodes, 1200000 typed edges and 64 features,
  as a tiled kernel program (two kernels of 25 row blocks each, gather and segment sums on the host) against the
  plain array program.

  The frames. Each kernel program's run is assembled from its two kernels' runs over their 25 grid points and the
  host operations around them (Proof/BitsRun.lean at the machine words, Proof/IdealRun.lean at the extended reals);
  no host operation writes an argument and no kernel output is one. The reference's run is the host operations in
  order.

  The values, over the extended reals. Both programs aggregate over the same edges, so the segment sums and the
  clamped counts are one term in both (Proof/Bridge.lean). Per layer the kernel multiplies the segment sums by the
  reciprocal count where the reference divides by the count (equal because the count is at least 1, hence not 0),
  sums the relational projection band by band (four bands of 64 columns) where the reference contracts all 256
  columns at once, and splits the highway's product over the concatenated 128 columns into its two halves; a
  change of float format is the identity. Both results are the function `Cert.Rgc.net` of the arguments
  (Proof/Spec.lean): the kernel side by Proof/IdealValue.lean, the reference side by Proof/RefNet.lean.
-/
import proofs.«102057_j23811298690073_2_alg».proof.Defs
import proofs.«102057_j23811298690073_2_alg».proof.Proof.Gen.Kernel
import proofs.«102057_j23811298690073_2_alg».proof.Proof.Gen.KernelIdeal
import proofs.«102057_j23811298690073_2_alg».proof.Proof.Gen.ReferenceIdeal
import proofs.«102057_j23811298690073_2_alg».proof.Proof.Gen.Pre_finite_inputs
import proofs.«102057_j23811298690073_2_alg».proof.Proof.Gen.ReferenceIdeal.Run
import proofs.«102057_j23811298690073_2_alg».proof.Proof.Gen.ReferenceIdeal.Read
import proofs.«102057_j23811298690073_2_alg».proof.Proof.BitsArgs
import proofs.«102057_j23811298690073_2_alg».proof.Proof.IdealArgs
import proofs.«102057_j23811298690073_2_alg».proof.Proof.IdealValue
import proofs.«102057_j23811298690073_2_alg».proof.Proof.RefNet
import proofs.«102057_j23811298690073_2_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Fr.frame m ρ
theorem frame_ki : Cert.frame_KernelIdeal := fun m ρ _ => Cert.KernelIdeal.Fr.frame m ρ
theorem frame_ri : Cert.frame_ReferenceIdeal := fun m ρ _ =>
  (θ_run Cert.ReferenceIdeal.defs _ _).mono (fun _ h c => (h c).2) (Cert.ReferenceIdeal.Value.run (F := Ideal) m ρ)

open Cert.ReferenceIdeal Cert.ReferenceIdeal.Read Cert.KernelIdeal.HostRead in
/-- The reference's result is the network's value of its arguments, with the segment sums and counts spelt as the
    kernel program's host operations spell them, at any arrays equal to the arguments. -/
theorem ref_net (x0 : (⟨S100000x64, .f32⟩ : BufTy).Contents (Elt Ideal)) (x1 : (⟨S1200000, .i32⟩ : BufTy).Contents (Elt Ideal)) (x2 : (⟨S1200000, .i32⟩ : BufTy).Contents (Elt Ideal)) (x3 : (⟨S1200000, .i32⟩ : BufTy).Contents (Elt Ideal)) (x4 : (⟨S64x256, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64x128, .f32⟩ : BufTy).Contents (Elt Ideal)) (x9 : (⟨S64, .f32⟩ : BufTy).Contents (Elt Ideal)) (x10 : (⟨S64x128, .f32⟩ : BufTy).Contents (Elt Ideal)) (x11 : (⟨S64, .f32⟩ : BufTy).Contents (Elt Ideal)) (x12 : (⟨S64x256, .f32⟩ : BufTy).Contents (Elt Ideal)) (x13 : (⟨S64, .f32⟩ : BufTy).Contents (Elt Ideal)) (x14 : (⟨S64x64, .f32⟩ : BufTy).Contents (Elt Ideal)) (x15 : (⟨S64, .f32⟩ : BufTy).Contents (Elt Ideal)) (x16 : (⟨S64x128, .f32⟩ : BufTy).Contents (Elt Ideal)) (x17 : (⟨S64, .f32⟩ : BufTy).Contents (Elt Ideal)) (x18 : (⟨S64x128, .f32⟩ : BufTy).Contents (Elt Ideal)) (x19 : (⟨S64, .f32⟩ : BufTy).Contents (Elt Ideal)) (y0 : (⟨S100000x64, .f32⟩ : BufTy).Contents (Elt Ideal)) (y1 : (⟨S1200000, .i32⟩ : BufTy).Contents (Elt Ideal)) (y2 : (⟨S1200000, .i32⟩ : BufTy).Contents (Elt Ideal)) (y3 : (⟨S1200000, .i32⟩ : BufTy).Contents (Elt Ideal)) (y4 : (⟨S64x256, .f32⟩ : BufTy).Contents (Elt Ideal)) (y5 : (⟨S64, .f32⟩ : BufTy).Contents (Elt Ideal)) (y6 : (⟨S64x64, .f32⟩ : BufTy).Contents (Elt Ideal)) (y7 : (⟨S64, .f32⟩ : BufTy).Contents (Elt Ideal)) (y8 : (⟨S64x128, .f32⟩ : BufTy).Contents (Elt Ideal)) (y9 : (⟨S64, .f32⟩ : BufTy).Contents (Elt Ideal)) (y10 : (⟨S64x128, .f32⟩ : BufTy).Contents (Elt Ideal)) (y11 : (⟨S64, .f32⟩ : BufTy).Contents (Elt Ideal)) (y12 : (⟨S64x256, .f32⟩ : BufTy).Contents (Elt Ideal)) (y13 : (⟨S64, .f32⟩ : BufTy).Contents (Elt Ideal)) (y14 : (⟨S64x64, .f32⟩ : BufTy).Contents (Elt Ideal)) (y15 : (⟨S64, .f32⟩ : BufTy).Contents (Elt Ideal)) (y16 : (⟨S64x128, .f32⟩ : BufTy).Contents (Elt Ideal)) (y17 : (⟨S64, .f32⟩ : BufTy).Contents (Elt Ideal)) (y18 : (⟨S64x128, .f32⟩ : BufTy).Contents (Elt Ideal)) (y19 : (⟨S64, .f32⟩ : BufTy).Contents (Elt Ideal))
    (h0 : x0 = y0) (h1 : x1 = y1) (h2 : x2 = y2) (h3 : x3 = y3) (h4 : x4 = y4) (h5 : x5 = y5) (h6 : x6 = y6) (h7 : x7 = y7) (h8 : x8 = y8) (h9 : x9 = y9) (h10 : x10 = y10) (h11 : x11 = y11) (h12 : x12 = y12) (h13 : x13 = y13) (h14 : x14 = y14) (h15 : x15 = y15) (h16 : x16 = y16) (h17 : x17 = y17) (h18 : x18 = y18) (h19 : x19 = y19) :
    val_main_v123 (F := Ideal) x0 x1 x2 x3 x4 x5 x6 x7 x8 x9 x10 x11 x12 x13 x14 x15 x16 x17 x18 x19
      = Cert.Rgc.net (fun f => SxK f y1 (segK y2 y3)) (cmK (segK y2 y3)) y0 y4 y5 y6 y7 y8 y9 y10 y11 y12 y13 y14 y15 y16 y17 y18 y19 := by
  subst h0 h1 h2 h3 h4 h5 h6 h7 h8 h9 h10 h11 h12 h13 h14 h15 h16 h17 h18 h19
  exact Cert.Rgc.Ref.ref_eq x0 x1 x2 x3 x4 x5 x6 x7 x8 x9 x10 x11 x12 x13 x14 x15 x16 x17 x18 x19

open Cert.KernelIdeal Cert.KernelIdeal.Gen Cert.KernelIdeal.Fr Cert.KernelIdeal.HostRead in
/-- Both idealized programs end with the network's value of the arguments. -/
theorem algebraic : Cert.algebraic_KernelIdeal_ReferenceIdeal := by
  intro m ρ m' ρ' _ hagree
  refine ⟨fun c => Cert.Rgc.net
      (fun f => SxK f (m ((c.tc : Thread nD τ).loc main_arg1)) (segK (m ((c.tc : Thread nD τ).loc main_arg2)) (m ((c.tc : Thread nD τ).loc main_arg3))))
      (cmK (segK (m ((c.tc : Thread nD τ).loc main_arg2)) (m ((c.tc : Thread nD τ).loc main_arg3))))
      (m ((c.tc : Thread nD τ).loc main_arg0)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)), ?_, ?_⟩
  · refine (θ_run Cert.KernelIdeal.defs _ _).mono (fun r h c => ⟨(h c _ (mem_uc main_v74 (by decide))).trans (Cert.KernelIdeal.Val.kernel_value m ρ c),
      (h c _ (mem_uc main_arg0 (by decide))).trans (W4_kept m ρ c main_arg0 (by decide) (by decide) (by decide) (by decide) (by decide)),
      (h c _ (mem_uc main_arg1 (by decide))).trans (W4_kept m ρ c main_arg1 (by decide) (by decide) (by decide) (by decide) (by decide)),
      (h c _ (mem_uc main_arg2 (by decide))).trans (W4_kept m ρ c main_arg2 (by decide) (by decide) (by decide) (by decide) (by decide)),
      (h c _ (mem_uc main_arg3 (by decide))).trans (W4_kept m ρ c main_arg3 (by decide) (by decide) (by decide) (by decide) (by decide)),
      (h c _ (mem_uc main_arg4 (by decide))).trans (W4_kept m ρ c main_arg4 (by decide) (by decide) (by decide) (by decide) (by decide)),
      (h c _ (mem_uc main_arg5 (by decide))).trans (W4_kept m ρ c main_arg5 (by decide) (by decide) (by decide) (by decide) (by decide)),
      (h c _ (mem_uc main_arg6 (by decide))).trans (W4_kept m ρ c main_arg6 (by decide) (by decide) (by decide) (by decide) (by decide)),
      (h c _ (mem_uc main_arg7 (by decide))).trans (W4_kept m ρ c main_arg7 (by decide) (by decide) (by decide) (by decide) (by decide)),
      (h c _ (mem_uc main_arg8 (by decide))).trans (W4_kept m ρ c main_arg8 (by decide) (by decide) (by decide) (by decide) (by decide)),
      (h c _ (mem_uc main_arg9 (by decide))).trans (W4_kept m ρ c main_arg9 (by decide) (by decide) (by decide) (by decide) (by decide)),
      (h c _ (mem_uc main_arg10 (by decide))).trans (W4_kept m ρ c main_arg10 (by decide) (by decide) (by decide) (by decide) (by decide)),
      (h c _ (mem_uc main_arg11 (by decide))).trans (W4_kept m ρ c main_arg11 (by decide) (by decide) (by decide) (by decide) (by decide)),
      (h c _ (mem_uc main_arg12 (by decide))).trans (W4_kept m ρ c main_arg12 (by decide) (by decide) (by decide) (by decide) (by decide)),
      (h c _ (mem_uc main_arg13 (by decide))).trans (W4_kept m ρ c main_arg13 (by decide) (by decide) (by decide) (by decide) (by decide)),
      (h c _ (mem_uc main_arg14 (by decide))).trans (W4_kept m ρ c main_arg14 (by decide) (by decide) (by decide) (by decide) (by decide)),
      (h c _ (mem_uc main_arg15 (by decide))).trans (W4_kept m ρ c main_arg15 (by decide) (by decide) (by decide) (by decide) (by decide)),
      (h c _ (mem_uc main_arg16 (by decide))).trans (W4_kept m ρ c main_arg16 (by decide) (by decide) (by decide) (by decide) (by decide)),
      (h c _ (mem_uc main_arg17 (by decide))).trans (W4_kept m ρ c main_arg17 (by decide) (by decide) (by decide) (by decide) (by decide)),
      (h c _ (mem_uc main_arg18 (by decide))).trans (W4_kept m ρ c main_arg18 (by decide) (by decide) (by decide) (by decide) (by decide)),
      (h c _ (mem_uc main_arg19 (by decide))).trans (W4_kept m ρ c main_arg19 (by decide) (by decide) (by decide) (by decide) (by decide))⟩)
      (run_all (F := Ideal) m ρ)
  · refine (θ_run Cert.ReferenceIdeal.defs _ _).mono (fun r h c => ⟨?_, (h c).2⟩) (Cert.ReferenceIdeal.Value.run (F := Ideal) m' ρ')
    obtain ⟨e0, e1, e2, e3, e4, e5, e6, e7, e8, e9, e10, e11, e12, e13, e14, e15, e16, e17, e18, e19⟩ := hagree c
    exact (h c).1.trans ((Cert.ReferenceIdeal.Read.val_main_v123_eq m' c).trans
      (ref_net _ _ _ _ _ _ _ _ _ _ _ _ _ _ _ _ _ _ _ _ _ _ _ _ _ _ _ _ _ _ _ _ _ _ _ _ _ _ _ _ e0 e1 e2 e3 e4 e5 e6 e7 e8 e9 e10 e11 e12 e13 e14 e15 e16 e17 e18 e19))

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
